-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  IdealRules.named_const.Statement Cert.KernelIdeal.κ "slope_sq" .f32 0x38D1B717#32 ((28823036326681 / 288230376151711744 : ℝ) : EReal)
  ∧ IdealRules.named_const.Statement Cert.KernelIdeal.κ "slope_sq" .f32 0x38D1B717#32 ((28823036326681 / 288230376151711744 : ℝ) : EReal)
  ∧ IdealRules.named_const.Statement Cert.KernelIdeal.κ "slope_sq" .f32 0x38D1B717#32 ((28823036326681 / 288230376151711744 : ℝ) : EReal)
  ∧ IdealRules.named_const.Statement Cert.KernelIdeal.κ "slope_sq" .f32 0x38D1B717#32 ((28823036326681 / 288230376151711744 : ℝ) : EReal)
  ∧ IdealRules.named_const.Statement Cert.KernelIdeal.κ "slope_sq" .f32 0x38D1B717#32 ((28823036326681 / 288230376151711744 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v287) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S_ : Shape := ⟨0, ![]⟩
abbrev S4x128x128 : Shape := ⟨3, ![4, 128, 128]⟩
abbrev S4x128 : Shape := ⟨2, ![4, 128]⟩
abbrev S4 : Shape := ⟨1, ![4]⟩
abbrev S768x256 : Shape := ⟨2, ![768, 256]⟩
abbrev S256 : Shape := ⟨1, ![256]⟩
abbrev S2x256x256 : Shape := ⟨3, ![2, 256, 256]⟩
abbrev S2x256 : Shape := ⟨2, ![2, 256]⟩
abbrev S256x1 : Shape := ⟨2, ![256, 1]⟩
abbrev S1 : Shape := ⟨1, ![1]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v97 : IVec S_ 1) (main_v101 : IVec S_ 1) : IVec S_ 1 :=
  let main_v102 : IVec S_ 1 := andi main_v97 main_v101
  main_v102

def fn_part5 {F : FTy → Type} [FloatOps F] (main_arg20 : FVec F S2x256 .f32) (main_arg21 : FVec F S256x1 .f32) (main_arg22 : FVec F S1 .f32) (main_v82 : IVec S_ 1) (main_v83 : FVec F S2x256x256 .f32) (main_v84 : FVec F S2x256x256 .f32) : IVec S_ 1 :=
  let main_v85 : IVec S2x256x256 1 := cmpf .olt main_v83 main_v84
  let main_c_33 : IVec S_ 1 := constantI S_ 1 1#1
  let main_v86 : IVec S_ 1 := (fun x v => Host.reduce IntOp.andi x v reducesTo_S2x256x256_S_d0_1_2 h_S_) main_v85 main_c_33
  let main_v87 : IVec S_ 1 := andi main_v82 main_v86
  let main_v88 : FVec F S2x256 .f32 := Host.absf main_arg20
  let main_cst_34 : FVec F S_ .f32 := constant S_ .f32 0x7F800000#32
  let main_v89 : FVec F S2x256 .f32 := broadcastInDim S2x256 ![] bcast_S_S2x256 main_cst_34
  let main_v90 : IVec S2x256 1 := cmpf .olt main_v88 main_v89
  let main_c_35 : IVec S_ 1 := constantI S_ 1 1#1
  let main_v91 : IVec S_ 1 := (fun x v => Host.reduce IntOp.andi x v reducesTo_S2x256_S_d0_1 h_S_) main_v90 main_c_35
  let main_v92 : IVec S_ 1 := andi main_v87 main_v91
  let main_v93 : FVec F S256x1 .f32 := Host.absf main_arg21
  let main_cst_36 : FVec F S_ .f32 := constant S_ .f32 0x7F800000#32
  let main_v94 : FVec F S256x1 .f32 := broadcastInDim S256x1 ![] bcast_S_S256x1 main_cst_36
  let main_v95 : IVec S256x1 1 := cmpf .olt main_v93 main_v94
  let main_c_37 : IVec S_ 1 := constantI S_ 1 1#1
  let main_v96 : IVec S_ 1 := (fun x v => Host.reduce IntOp.andi x v reducesTo_S256x1_S_d0_1 h_S_) main_v95 main_c_37
  let main_v97 : IVec S_ 1 := andi main_v92 main_v96
  let main_v98 : FVec F S1 .f32 := Host.absf main_arg22
  let main_cst_38 : FVec F S_ .f32 := constant S_ .f32 0x7F800000#32
  let main_v99 : FVec F S1 .f32 := broadcastInDim S1 ![] bcast_S_S1 main_cst_38
  let main_v100 : IVec S1 1 := cmpf .olt main_v98 main_v99
  let main_c_39 : IVec S_ 1 := constantI S_ 1 1#1
  let main_v101 : IVec S_ 1 := (fun x v => Host.reduce IntOp.andi x v reducesTo_S1_S_d0 h_S_) main_v100 main_c_39
  fn_part6 (F := F) main_v97 main_v101

def fn_part4 {F : FTy → Type} [FloatOps F] (main_arg16 : FVec F S4 .f32) (main_arg17 : FVec F S768x256 .f32) (main_arg18 : FVec F S256 .f32) (main_arg19 : FVec F S2x256x256 .f32) (main_arg20 : FVec F S2x256 .f32) (main_arg21 : FVec F S256x1 .f32) (main_arg22 : FVec F S1 .f32) (main_v67 : IVec S_ 1) : IVec S_ 1 :=
  let main_v68 : FVec F S4 .f32 := Host.absf main_arg16
  let main_cst_26 : FVec F S_ .f32 := constant S_ .f32 0x7F800000#32
  let main_v69 : FVec F S4 .f32 := broadcastInDim S4 ![] bcast_S_S4 main_cst_26
  let main_v70 : IVec S4 1 := cmpf .olt main_v68 main_v69
  let main_c_27 : IVec S_ 1 := constantI S_ 1 1#1
  let main_v71 : IVec S_ 1 := (fun x v => Host.reduce IntOp.andi x v reducesTo_S4_S_d0 h_S_) main_v70 main_c_27
  let main_v72 : IVec S_ 1 := andi main_v67 main_v71
  let main_v73 : FVec F S768x256 .f32 := Host.absf main_arg17
  let main_cst_28 : FVec F S_ .f32 := constant S_ .f32 0x7F800000#32
  let main_v74 : FVec F S768x256 .f32 := broadcastInDim S768x256 ![] bcast_S_S768x256 main_cst_28
  let main_v75 : IVec S768x256 1 := cmpf .olt main_v73 main_v74
  let main_c_29 : IVec S_ 1 := constantI S_ 1 1#1
  let main_v76 : IVec S_ 1 := (fun x v => Host.reduce IntOp.andi x v reducesTo_S768x256_S_d0_1 h_S_) main_v75 main_c_29
  let main_v77 : IVec S_ 1 := andi main_v72 main_v76
  let main_v78 : FVec F S256 .f32 := Host.absf main_arg18
  let main_cst_30 : FVec F S_ .f32 := constant S_ .f32 0x7F800000#32
  let main_v79 : FVec F S256 .f32 := broadcastInDim S256 ![] bcast_S_S256 main_cst_30
  let main_v80 : IVec S256 1 := cmpf .olt main_v78 main_v79
  let main_c_31 : IVec S_ 1 := constantI S_ 1 1#1
  let main_v81 : IVec S_ 1 := (fun x v => Host.reduce IntOp.andi x v reducesTo_S256_S_d0 h_S_) main_v80 main_c_31
  let main_v82 : IVec S_ 1 := andi main_v77 main_v81
  let main_v83 : FVec F S2x256x256 .f32 := Host.absf main_arg19
  let main_cst_32 : FVec F S_ .f32 := constant S_ .f32 0x7F800000#32
  let main_v84 : FVec F S2x256x256 .f32 := broadcastInDim S2x256x256 ![] bcast_S_S2x256x256 main_cst_32
  fn_part5 (F := F) main_arg20 main_arg21 main_arg22 main_v82 main_v83 main_v84

def fn_part3 {F : FTy → Type} [FloatOps F] (main_arg13 : FVec F S4x128 .f32) (main_arg14 : FVec F S4x128 .f32) (main_arg15 : FVec F S4x128 .f32) (main_arg16 : FVec F S4 .f32) (main_arg17 : FVec F S768x256 .f32) (main_arg18 : FVec F S256 .f32) (main_arg19 : FVec F S2x256x256 .f32) (main_arg20 : FVec F S2x256 .f32) (main_arg21 : FVec F S256x1 .f32) (main_arg22 : FVec F S1 .f32) (main_v47 : IVec S_ 1) (main_v50 : IVec S4x128 1) : IVec S_ 1 :=
  let main_c_19 : IVec S_ 1 := constantI S_ 1 1#1
  let main_v51 : IVec S_ 1 := (fun x v => Host.reduce IntOp.andi x v reducesTo_S4x128_S_d0_1 h_S_) main_v50 main_c_19
  let main_v52 : IVec S_ 1 := andi main_v47 main_v51
  let main_v53 : FVec F S4x128 .f32 := Host.absf main_arg13
  let main_cst_20 : FVec F S_ .f32 := constant S_ .f32 0x7F800000#32
  let main_v54 : FVec F S4x128 .f32 := broadcastInDim S4x128 ![] bcast_S_S4x128 main_cst_20
  let main_v55 : IVec S4x128 1 := cmpf .olt main_v53 main_v54
  let main_c_21 : IVec S_ 1 := constantI S_ 1 1#1
  let main_v56 : IVec S_ 1 := (fun x v => Host.reduce IntOp.andi x v reducesTo_S4x128_S_d0_1 h_S_) main_v55 main_c_21
  let main_v57 : IVec S_ 1 := andi main_v52 main_v56
  let main_v58 : FVec F S4x128 .f32 := Host.absf main_arg14
  let main_cst_22 : FVec F S_ .f32 := constant S_ .f32 0x7F800000#32
  let main_v59 : FVec F S4x128 .f32 := broadcastInDim S4x128 ![] bcast_S_S4x128 main_cst_22
  let main_v60 : IVec S4x128 1 := cmpf .olt main_v58 main_v59
  let main_c_23 : IVec S_ 1 := constantI S_ 1 1#1
  let main_v61 : IVec S_ 1 := (fun x v => Host.reduce IntOp.andi x v reducesTo_S4x128_S_d0_1 h_S_) main_v60 main_c_23
  let main_v62 : IVec S_ 1 := andi main_v57 main_v61
  let main_v63 : FVec F S4x128 .f32 := Host.absf main_arg15
  let main_cst_24 : FVec F S_ .f32 := constant S_ .f32 0x7F800000#32
  let main_v64 : FVec F S4x128 .f32 := broadcastInDim S4x128 ![] bcast_S_S4x128 main_cst_24
  let main_v65 : IVec S4x128 1 := cmpf .olt main_v63 main_v64
  let main_c_25 : IVec S_ 1 := constantI S_ 1 1#1
  let main_v66 : IVec S_ 1 := (fun x v => Host.reduce IntOp.andi x v reducesTo_S4x128_S_d0_1 h_S_) main_v65 main_c_25
  let main_v67 : IVec S_ 1 := andi main_v62 main_v66
  fn_part4 (F := F) main_arg16 main_arg17 main_arg18 main_arg19 main_arg20 main_arg21 main_arg22 main_v67

def fn_part2 {F : FTy → Type} [FloatOps F] (main_arg9 : FVec F S_ .f32) (main_arg10 : FVec F S4x128x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S4 .f32) (main_arg17 : FVec F S768x256 .f32) (main_arg18 : FVec F S256 .f32) (main_arg19 : FVec F S2x256x256 .f32) (main_arg20 : FVec F S2x256 .f32) (main_arg21 : FVec F S256x1 .f32) (main_arg22 : FVec F S1 .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S4x128x128 .f32 := Host.absf main_arg10
  let main_cst_14 : FVec F S_ .f32 := constant S_ .f32 0x7F800000#32
  let main_v39 : FVec F S4x128x128 .f32 := broadcastInDim S4x128x128 ![] bcast_S_S4x128x128 main_cst_14
  let main_v40 : IVec S4x128x128 1 := cmpf .olt main_v38 main_v39
  let main_c_15 : IVec S_ 1 := constantI S_ 1 1#1
  let main_v41 : IVec S_ 1 := (fun x v => Host.reduce IntOp.andi x v reducesTo_S4x128x128_S_d0_1_2 h_S_) main_v40 main_c_15
  let main_v42 : IVec S_ 1 := andi main_v37 main_v41
  let main_v43 : FVec F S4x128 .f32 := Host.absf main_arg11
  let main_cst_16 : FVec F S_ .f32 := constant S_ .f32 0x7F800000#32
  let main_v44 : FVec F S4x128 .f32 := broadcastInDim S4x128 ![] bcast_S_S4x128 main_cst_16
  let main_v45 : IVec S4x128 1 := cmpf .olt main_v43 main_v44
  let main_c_17 : IVec S_ 1 := constantI S_ 1 1#1
  let main_v46 : IVec S_ 1 := (fun x v => Host.reduce IntOp.andi x v reducesTo_S4x128_S_d0_1 h_S_) main_v45 main_c_17
  let main_v47 : IVec S_ 1 := andi main_v42 main_v46
  let main_v48 : FVec F S4x128 .f32 := Host.absf main_arg12
  let main_cst_18 : FVec F S_ .f32 := constant S_ .f32 0x7F800000#32
  let main_v49 : FVec F S4x128 .f32 := broadcastInDim S4x128 ![] bcast_S_S4x128 main_cst_18
  let main_v50 : IVec S4x128 1 := cmpf .olt main_v48 main_v49
  fn_part3 (F := F) main_arg13 main_arg14 main_arg15 main_arg16 main_arg17 main_arg18 main_arg19 main_arg20 main_arg21 main_arg22 main_v47 main_v50

def fn_part1 {F : FTy → Type} [FloatOps F] (main_arg6 : FVec F S128 .f32) (main_arg7 : FVec F S128 .f32) (main_arg8 : FVec F S128 .f32) (main_arg9 : FVec F S_ .f32) (main_arg10 : FVec F S4x128x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S4 .f32) (main_arg17 : FVec F S768x256 .f32) (main_arg18 : FVec F S256 .f32) (main_arg19 : FVec F S2x256x256 .f32) (main_arg20 : FVec F S2x256 .f32) (main_arg21 : FVec F S256x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128 .f32) (main_arg6 : FVec F S128 .f32) (main_arg7 : FVec F S128 .f32) (main_arg8 : FVec F S128 .f32) (main_arg9 : FVec F S_ .f32) (main_arg10 : FVec F S4x128x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S4 .f32) (main_arg17 : FVec F S768x256 .f32) (main_arg18 : FVec F S256 .f32) (main_arg19 : FVec F S2x256x256 .f32) (main_arg20 : FVec F S2x256 .f32) (main_arg21 : FVec F S256x1 .f32) (main_arg22 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S_ : Shape := ⟨0, ![]⟩
abbrev S4x128x128 : Shape := ⟨3, ![4, 128, 128]⟩
abbrev S4x128 : Shape := ⟨2, ![4, 128]⟩
abbrev S4 : Shape := ⟨1, ![4]⟩
abbrev S768x256 : Shape := ⟨2, ![768, 256]⟩
abbrev S256 : Shape := ⟨1, ![256]⟩
abbrev S2x256x256 : Shape := ⟨3, ![2, 256, 256]⟩
abbrev S2x256 : Shape := ⟨2, ![2, 256]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000x128 : Shape := ⟨2, ![100000, 128]⟩
abbrev S10000x64 : Shape := ⟨2, ![10000, 64]⟩
abbrev S10000x128 : Shape := ⟨2, ![10000, 128]⟩
abbrev S1x128 : Shape := ⟨2, ![1, 128]⟩
abbrev S1600000x128 : Shape := ⟨2, ![1600000, 128]⟩
abbrev S1x128x128 : Shape := ⟨3, ![1, 128, 128]⟩
abbrev S128x128 : Shape := ⟨2, ![128, 128]⟩
abbrev S2000x128 : Shape := ⟨2, ![2000, 128]⟩
abbrev S100000x1 : Shape := ⟨2, ![100000, 1]⟩
abbrev S2000 : Shape := ⟨1, ![2000]⟩
abbrev S1999 : Shape := ⟨1, ![1999]⟩
abbrev S2000x1 : Shape := ⟨2, ![2000, 1]⟩
abbrev S1x1 : Shape := ⟨2, ![1, 1]⟩
abbrev S100000x768 : Shape := ⟨2, ![100000, 768]⟩
abbrev S2000x768 : Shape := ⟨2, ![2000, 768]⟩
abbrev S2000x256 : Shape := ⟨2, ![2000, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 253
  | .vmem => 60
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S_, .f32⟩
  | 10 => ⟨S4x128x128, .f32⟩
  | 11 => ⟨S4x128, .f32⟩
  | 12 => ⟨S4x128, .f32⟩
  | 13 => ⟨S4x128, .f32⟩
  | 14 => ⟨S4x128, .f32⟩
  | 15 => ⟨S4x128, .f32⟩
  | 16 => ⟨S4, .f32⟩
  | 17 => ⟨S768x256, .f32⟩
  | 18 => ⟨S256, .f32⟩
  | 19 => ⟨S2x256x256, .f32⟩
  | 20 => ⟨S2x256, .f32⟩
  | 21 => ⟨S256x1, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S_, .f32⟩
  | 41 => ⟨S_, .f32⟩
  | 42 => ⟨S100000x64, .f32⟩
  | 43 => ⟨S100000x64, .f32⟩
  | 44 => ⟨S100000x64, .f32⟩
  | 45 => ⟨S100000x128, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S1, .f32⟩
  | 60 => ⟨S_, .f32⟩
  | 61 => ⟨S_, .f32⟩
  | 62 => ⟨S_, .f32⟩
  | 63 => ⟨S100000x128, .f32⟩
  | 64 => ⟨S100000x128, .f32⟩
  | 65 => ⟨S100000x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S1, .f32⟩
  | 93 => ⟨S_, .f32⟩
  | 94 => ⟨S_, .f32⟩
  | 95 => ⟨S_, .f32⟩
  | 96 => ⟨S100000x128, .f32⟩
  | 97 => ⟨S100000x128, .f32⟩
  | 98 => ⟨S100000x128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S1, .f32⟩
  | 126 => ⟨S_, .f32⟩
  | 127 => ⟨S_, .f32⟩
  | _ => ⟨S100000x64, .f32⟩

abbrev hbmTy0_1 (i : Nat) : BufTy := match i % 128 with
  | 0 => ⟨S_, .f32⟩
  | 1 => ⟨S100000x128, .f32⟩
  | 2 => ⟨S100000x128, .f32⟩
  | 3 => ⟨S100000x128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S100000x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S1, .f32⟩
  | 31 => ⟨S_, .f32⟩
  | 32 => ⟨S_, .f32⟩
  | 33 => ⟨S_, .f32⟩
  | 34 => ⟨S100000x128, .f32⟩
  | 35 => ⟨S100000x128, .f32⟩
  | 36 => ⟨S100000x128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S100000x128, .f32⟩
  | 50 => ⟨S_, .f32⟩
  | 51 => ⟨S2000x128, .f32⟩
  | 52 => ⟨S100000x1, .i32⟩
  | 53 => ⟨S2000x128, .f32⟩
  | 54 => ⟨S_, .i32⟩
  | 55 => ⟨S2000, .i32⟩
  | 56 => ⟨S_, .i32⟩
  | 57 => ⟨S_, .i32⟩
  | 58 => ⟨S100000, .i32⟩
  | 59 => ⟨S100000, .i32⟩
  | 60 => ⟨S_, .i32⟩
  | 61 => ⟨S100000, .i32⟩
  | 62 => ⟨S100000, .i1⟩
  | 63 => ⟨S_, .i32⟩
  | 64 => ⟨S100000, .i32⟩
  | 65 => ⟨S100000, .i32⟩
  | 66 => ⟨S100000, .i32⟩
  | 67 => ⟨S100000x1, .i32⟩
  | 68 => ⟨S_, .i32⟩
  | 69 => ⟨S100000, .i32⟩
  | 70 => ⟨S2000, .i32⟩
  | 71 => ⟨S1, .i32⟩
  | 72 => ⟨S1999, .i32⟩
  | 73 => ⟨S2000, .i32⟩
  | 74 => ⟨S_, .i32⟩
  | 75 => ⟨S1, .i32⟩
  | 76 => ⟨S_, .i32⟩
  | 77 => ⟨S2000, .i32⟩
  | 78 => ⟨S_, .i32⟩
  | 79 => ⟨S_, .i32⟩
  | 80 => ⟨S2000, .i32⟩
  | 81 => ⟨S_, .i32⟩
  | 82 => ⟨S100000, .i32⟩
  | 83 => ⟨S_, .i32⟩
  | 84 => ⟨S2000, .i32⟩
  | 85 => ⟨S2000, .i1⟩
  | 86 => ⟨S_, .i32⟩
  | 87 => ⟨S2000, .i32⟩
  | 88 => ⟨S2000, .i32⟩
  | 89 => ⟨S2000, .i32⟩
  | 90 => ⟨S2000x1, .i32⟩
  | 91 => ⟨S_, .i32⟩
  | 92 => ⟨S2000, .i32⟩
  | 93 => ⟨S100000, .i32⟩
  | 94 => ⟨S_, .i32⟩
  | 95 => ⟨S_, .i32⟩
  | 96 => ⟨S100000, .i32⟩
  | 97 => ⟨S_, .i32⟩
  | 98 => ⟨S100000, .i32⟩
  | 99 => ⟨S100000, .i32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S1, .i32⟩
  | 109 => ⟨S_, .i32⟩
  | 110 => ⟨S100000x1, .i32⟩
  | 111 => ⟨S100000x1, .i1⟩
  | 112 => ⟨S1x1, .i32⟩
  | 113 => ⟨S100000x1, .i32⟩
  | 114 => ⟨S100000x1, .i1⟩
  | 115 => ⟨S100000x1, .i1⟩
  | 116 => ⟨S_, .i1⟩
  | 117 => ⟨S100000, .i1⟩
  | 118 => ⟨S100000x128, .f32⟩
  | 119 => ⟨S100000x128, .i1⟩
  | 120 => ⟨S_, .f32⟩
  | 121 => ⟨S100000x128, .f32⟩
  | 122 => ⟨S100000x128, .f32⟩
  | 123 => ⟨S100000x768, .f32⟩
  | 124 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S128x128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S128, .f32⟩
  | .local _ .vmem, ⟨47, _⟩ => ⟨S128, .f32⟩
  | .local _ .vmem, ⟨48, _⟩ => ⟨S10000x128, .f32⟩
  | .local _ .vmem, ⟨49, _⟩ => ⟨S10000x128, .f32⟩
  | .local _ .vmem, ⟨50, _⟩ => ⟨S2000x768, .f32⟩
  | .local _ .vmem, ⟨51, _⟩ => ⟨S2000x768, .f32⟩
  | .local _ .vmem, ⟨52, _⟩ => ⟨S768x256, .f32⟩
  | .local _ .vmem, ⟨53, _⟩ => ⟨S256, .f32⟩
  | .local _ .vmem, ⟨54, _⟩ => ⟨S2x256x256, .f32⟩
  | .local _ .vmem, ⟨55, _⟩ => ⟨S2x256, .f32⟩
  | .local _ .vmem, ⟨56, _⟩ => ⟨S256x1, .f32⟩
  | .local _ .vmem, ⟨57, _⟩ => ⟨S1, .f32⟩
  | .local _ .vmem, ⟨58, _⟩ => ⟨S2000x1, .f32⟩
  | .local _ .vmem, ⟨59, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_c_3 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_6 : Ref sig .tc := ⟨.hbm, 79, rfl⟩
abbrev main_v48 : Ref sig .tc := ⟨.hbm, 80, rfl⟩
abbrev main_v49 : Ref sig .tc := ⟨.hbm, 81, rfl⟩
abbrev main_c_7 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_8 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_10 : Ref sig .tc := ⟨.hbm, 112, rfl⟩
abbrev main_v77 : Ref sig .tc := ⟨.hbm, 113, rfl⟩
abbrev main_v78 : Ref sig .tc := ⟨.hbm, 114, rfl⟩
abbrev main_c_11 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_12 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_13 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_14 : Ref sig .tc := ⟨.hbm, 145, rfl⟩
abbrev main_v106 : Ref sig .tc := ⟨.hbm, 146, rfl⟩
abbrev main_v107 : Ref sig .tc := ⟨.hbm, 147, rfl⟩
abbrev main_c_15 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_16 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_17 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_18 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_19 : Ref sig .tc := ⟨.hbm, 182, rfl⟩
abbrev main_v138 : Ref sig .tc := ⟨.hbm, 183, rfl⟩
abbrev main_c_20 : Ref sig .tc := ⟨.hbm, 184, rfl⟩
abbrev main_call0_v0 : Ref sig .tc := ⟨.hbm, 185, rfl⟩
abbrev main_call0_v1 : Ref sig .tc := ⟨.hbm, 186, rfl⟩
abbrev main_v139 : Ref sig .tc := ⟨.hbm, 187, rfl⟩
abbrev main_c_21 : Ref sig .tc := ⟨.hbm, 188, rfl⟩
abbrev main_v140 : Ref sig .tc := ⟨.hbm, 189, rfl⟩
abbrev main_v141 : Ref sig .tc := ⟨.hbm, 190, rfl⟩
abbrev main_c_22 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_c_23 : Ref sig .tc := ⟨.hbm, 196, rfl⟩
abbrev main_v146 : Ref sig .tc := ⟨.hbm, 197, rfl⟩
abbrev main_v147 : Ref sig .tc := ⟨.hbm, 198, rfl⟩
abbrev main_call1_v0 : Ref sig .tc := ⟨.hbm, 199, rfl⟩
abbrev main_call1_v1 : Ref sig .tc := ⟨.hbm, 200, rfl⟩
abbrev main_v148 : Ref sig .tc := ⟨.hbm, 201, rfl⟩
abbrev main_c_24 : Ref sig .tc := ⟨.hbm, 202, rfl⟩
abbrev main_v149 : Ref sig .tc := ⟨.hbm, 203, rfl⟩
abbrev main_c_25 : Ref sig .tc := ⟨.hbm, 204, rfl⟩
abbrev main_v150 : Ref sig .tc := ⟨.hbm, 205, rfl⟩
abbrev main_call2_call0_c : Ref sig .tc := ⟨.hbm, 206, rfl⟩
abbrev main_call2_call0_v0 : Ref sig .tc := ⟨.hbm, 207, rfl⟩
abbrev main_v151 : Ref sig .tc := ⟨.hbm, 208, rfl⟩
abbrev main_c_26 : Ref sig .tc := ⟨.hbm, 209, rfl⟩
abbrev main_v152 : Ref sig .tc := ⟨.hbm, 210, rfl⟩
abbrev main_c_27 : Ref sig .tc := ⟨.hbm, 211, rfl⟩
abbrev main_v153 : Ref sig .tc := ⟨.hbm, 212, rfl⟩
abbrev main_v154 : Ref sig .tc := ⟨.hbm, 213, rfl⟩
abbrev main_c_28 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_c_29 : Ref sig .tc := ⟨.hbm, 219, rfl⟩
abbrev main_v159 : Ref sig .tc := ⟨.hbm, 220, rfl⟩
abbrev main_v160 : Ref sig .tc := ⟨.hbm, 221, rfl⟩
abbrev main_call3_call0_c : Ref sig .tc := ⟨.hbm, 222, rfl⟩
abbrev main_call3_call0_v0 : Ref sig .tc := ⟨.hbm, 223, rfl⟩
abbrev main_v161 : Ref sig .tc := ⟨.hbm, 224, rfl⟩
abbrev main_c_30 : Ref sig .tc := ⟨.hbm, 225, rfl⟩
abbrev main_v162 : Ref sig .tc := ⟨.hbm, 226, rfl⟩
abbrev main_v163 : Ref sig .tc := ⟨.hbm, 227, rfl⟩
abbrev main_call4_c : Ref sig .tc := ⟨.hbm, 228, rfl⟩
abbrev main_call4_v0 : Ref sig .tc := ⟨.hbm, 229, rfl⟩
abbrev main_call4_v1 : Ref sig .tc := ⟨.hbm, 230, rfl⟩
abbrev main_call4_c_0 : Ref sig .tc := ⟨.hbm, 231, rfl⟩
abbrev main_call4_v2 : Ref sig .tc := ⟨.hbm, 232, rfl⟩
abbrev main_call4_v3 : Ref sig .tc := ⟨.hbm, 233, rfl⟩
abbrev main_call4_v4 : Ref sig .tc := ⟨.hbm, 234, rfl⟩
abbrev main_call4_v5 : Ref sig .tc := ⟨.hbm, 235, rfl⟩
abbrev main_call4_c_1 : Ref sig .tc := ⟨.hbm, 236, rfl⟩
abbrev main_call4_c_2 : Ref sig .tc := ⟨.hbm, 237, rfl⟩
abbrev main_call4_v6 : Ref sig .tc := ⟨.hbm, 238, rfl⟩
abbrev main_call4_v7 : Ref sig .tc := ⟨.hbm, 239, rfl⟩
abbrev main_call4_v8 : Ref sig .tc := ⟨.hbm, 240, rfl⟩
abbrev main_call4_v9 : Ref sig .tc := ⟨.hbm, 241, rfl⟩
abbrev main_call4_v10 : Ref sig .tc := ⟨.hbm, 242, rfl⟩
abbrev main_call4_v11 : Ref sig .tc := ⟨.hbm, 243, rfl⟩
abbrev main_call4_c_3 : Ref sig .tc := ⟨.hbm, 244, rfl⟩
abbrev main_call4_v12 : Ref sig .tc := ⟨.hbm, 245, rfl⟩
abbrev main_call4_v13 : Ref sig .tc := ⟨.hbm, 246, rfl⟩
abbrev main_call4_v14 : Ref sig .tc := ⟨.hbm, 247, rfl⟩
abbrev main_call4_cst : Ref sig .tc := ⟨.hbm, 248, rfl⟩
abbrev main_call4_v15 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S768x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S2000 : S_.BroadcastsInDim S2000 (![] : Fin 0 → Fin S2000.rank)
  bcast_S_S100000 : S_.BroadcastsInDim S100000 (![] : Fin 0 → Fin S100000.rank)
  slices_S2000_S1_1999 : S2000.Slices ![1999] S1
  slices_S2000_S1999_0 : S2000.Slices ![0] S1999
  concatenates_S1_S1999_S2000_d0 : Shape.Concatenates [S1, S1999] S2000 0
  bcast_S_S1 : S_.BroadcastsInDim S1 (![] : Fin 0 → Fin S1.rank)
  bcast_S_S_ : S_.BroadcastsInDim S_ (![] : Fin 0 → Fin S_.rank)
  reduceWindows_S2000_S2000_w2000s1p1999_0 : S2000.ReduceWindows (![2000] : Fin 1 → Nat) ![1] ![1999] ![0] S2000
  h_S_ : 0 < S_.numel
  bcast_S2000_S2000x1_0 : S2000.BroadcastsInDim S2000x1 (![0] : Fin 1 → Fin S2000x1.rank)
  reduceWindows_S100000_S100000_w100000s1p99999_0 : S100000.ReduceWindows (![100000] : Fin 1 → Nat) ![1] ![99999] ![0] S100000
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x128_0 : S100000.BroadcastsInDim S100000x128 (![0] : Fin 1 → Fin S100000x128.rank)
  concatenates_S100000x128_S100000x128_S100000x128_S100000x128_S100000x128_S100000x128_S100000x768_d1 : Shape.Concatenates [S100000x128, S100000x128, S100000x128, S100000x128, S100000x128, S100000x128] S100000x768 1
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  inb_S768x256_S768x256_0_0 : ∀ a, (![0, 0] : Fin 2 → Nat) a + S768x256.size a ≤ S768x256.size a
  h_S768x256 : 0 < S768x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  inb_S2x256_S1x256_0_0 : ∀ a, (![0, 0] : Fin 2 → Nat) a + S1x256.size a ≤ S2x256.size a
  h_S1x256 : 0 < S1x256.numel
  shapeCasts_S1x256_S256 : S1x256.ShapeCasts S256
  inb_S2x256x256_S1x256x256_1_0_0 : ∀ a, (![1, 0, 0] : Fin 3 → Nat) a + S1x256x256.size a ≤ S2x256x256.size a
  inb_S2x256_S1x256_1_0 : ∀ a, (![1, 0] : Fin 2 → Nat) a + S1x256.size a ≤ S2x256.size a
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  scatter_S2000_S1_S__n_0_0_0_wf : ScatterDims.WF S2000 S1 S_ [] [0] [0] 0
  scatter_S100000_S2000x1_S2000_n_0_0_1_wf : ScatterDims.WF S100000 S2000x1 S2000 [] [0] [0] 1
  gather_S2000x128_S100000x1_S100000x128_1_0_n_n_0_1_1128_wf : GatherDims.WF S2000x128 S100000x1 S100000x128 [1] [0] [] [0] [] 1 ![1, 128]
  dot_S2000x768_S768x256_S2000x256_1_0_0_1_n_n_wf : DotDims.WF S2000x768 S768x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S100000x128.size a
  hwx0_7 : ∀ i : grid0.Coords, EltTy.bits .f32 = 32 ∨ (Rect.block (s := S100000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S100000x128.size a
  hwx1_7 : ∀ i : grid1.Coords, EltTy.bits .f32 = 32 ∨ (Rect.block (s := S100000x128) S10000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x128.size a ≤ S100000x128.size a
  hwx3_7 : ∀ i : grid3.Coords, EltTy.bits .f32 = 32 ∨ (Rect.block (s := S100000x128) S10000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S100000x128.size a
  hwx4_7 : ∀ i : grid4.Coords, EltTy.bits .f32 = 32 ∨ (Rect.block (s := S100000x128) S10000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x768.size a ≤ S100000x768.size a
  hwx5_0 : ∀ i : grid5.Coords, EltTy.bits .f32 = 32 ∨ (Rect.block (s := S100000x768) S2000x768.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S768x256.size a ≤ S768x256.size a
  hwx5_1 : ∀ i : grid5.Coords, EltTy.bits .f32 = 32 ∨ (Rect.block (s := S768x256) S768x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2x256x256.size a ≤ S2x256x256.size a
  hwx5_3 : ∀ i : grid5.Coords, EltTy.bits .f32 = 32 ∨ (Rect.block (s := S2x256x256) S2x256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2x256.size a ≤ S2x256.size a
  hwx5_4 : ∀ i : grid5.Coords, EltTy.bits .f32 = 32 ∨ (Rect.block (s := S2x256) S2x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x1.size a ≤ S256x1.size a
  hwx5_5 : ∀ i : grid5.Coords, EltTy.bits .f32 = 32 ∨ (Rect.block (s := S256x1) S256x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1.size a ≤ S1.size a
  hwx5_6 : ∀ i : grid5.Coords, EltTy.bits .f32 = 32 ∨ (Rect.block (s := S1) S1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x1.size a ≤ S100000x1.size a
  hwx5_7 : ∀ i : grid5.Coords, EltTy.bits .f32 = 32 ∨ (Rect.block (s := S100000x1) S2000x1.size (cc5_transform_7 i) (hinb5_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def scatter_S2000_S1_S__n_0_0_0 : ScatterDims S2000 S1 S_ where
  updateWindowDims := []
  insertedWindowDims := [0]
  scatterDimsToOperandDims := [0]
  indexVectorDim := 0
  wf := scatter_S2000_S1_S__n_0_0_0_wf
def scatter_S100000_S2000x1_S2000_n_0_0_1 : ScatterDims S100000 S2000x1 S2000 where
  updateWindowDims := []
  insertedWindowDims := [0]
  scatterDimsToOperandDims := [0]
  indexVectorDim := 1
  wf := scatter_S100000_S2000x1_S2000_n_0_0_1_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v17) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v63) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v75) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v76) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v92) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v98) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v102) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v105) S10000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v121) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v123) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v125) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v127) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v129) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v131) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v133) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v134) S10000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v165) S2000x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S768x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg18) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg19) S2x256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg20) S2x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg21) S256x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg22) S1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v166) S2000x1.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S_ : Shape := ⟨0, ![]⟩
abbrev S4x128x128 : Shape := ⟨3, ![4, 128, 128]⟩
abbrev S4x128 : Shape := ⟨2, ![4, 128]⟩
abbrev S4 : Shape := ⟨1, ![4]⟩
abbrev S768x256 : Shape := ⟨2, ![768, 256]⟩
abbrev S256 : Shape := ⟨1, ![256]⟩
abbrev S2x256x256 : Shape := ⟨3, ![2, 256, 256]⟩
abbrev S2x256 : Shape := ⟨2, ![2, 256]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1600000x128 : Shape := ⟨2, ![1600000, 128]⟩
abbrev S2000x128 : Shape := ⟨2, ![2000, 128]⟩
abbrev S100000x1 : Shape := ⟨2, ![100000, 1]⟩
abbrev S2000 : Shape := ⟨1, ![2000]⟩
abbrev S1999 : Shape := ⟨1, ![1999]⟩
abbrev S2000x1 : Shape := ⟨2, ![2000, 1]⟩
abbrev S1x1 : Shape := ⟨2, ![1, 1]⟩
abbrev S100000x768 : Shape := ⟨2, ![100000, 768]⟩
abbrev S100000x256 : Shape := ⟨2, ![100000, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 465
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S_, .f32⟩
  | 10 => ⟨S4x128x128, .f32⟩
  | 11 => ⟨S4x128, .f32⟩
  | 12 => ⟨S4x128, .f32⟩
  | 13 => ⟨S4x128, .f32⟩
  | 14 => ⟨S4x128, .f32⟩
  | 15 => ⟨S4x128, .f32⟩
  | 16 => ⟨S4, .f32⟩
  | 17 => ⟨S768x256, .f32⟩
  | 18 => ⟨S256, .f32⟩
  | 19 => ⟨S2x256x256, .f32⟩
  | 20 => ⟨S2x256, .f32⟩
  | 21 => ⟨S256x1, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S_, .f32⟩
  | 41 => ⟨S_, .f32⟩
  | 42 => ⟨S100000x64, .f32⟩
  | 43 => ⟨S100000x64, .f32⟩
  | 44 => ⟨S100000x64, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S128, .f32⟩
  | 54 => ⟨S128, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S_, .f32⟩
  | 65 => ⟨S100000x128, .f32⟩
  | 66 => ⟨S100000x128, .i1⟩
  | 67 => ⟨S_, .f32⟩
  | 68 => ⟨S100000x128, .f32⟩
  | 69 => ⟨S100000x128, .f32⟩
  | 70 => ⟨S100000x128, .f32⟩
  | 71 => ⟨S_, .f32⟩
  | 72 => ⟨S_, .f32⟩
  | 73 => ⟨S100000x128, .f32⟩
  | 74 => ⟨S100000x128, .i1⟩
  | 75 => ⟨S_, .f32⟩
  | 76 => ⟨S100000x128, .f32⟩
  | 77 => ⟨S100000x128, .f32⟩
  | 78 => ⟨S100000x128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1, .f32⟩
  | 92 => ⟨S_, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S_, .f32⟩
  | 107 => ⟨S_, .f32⟩
  | 108 => ⟨S100000x128, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x64, .f32⟩

abbrev hbmTy0_1 (i : Nat) : BufTy := match i % 128 with
  | 0 => ⟨S100000x128, .f32⟩
  | 1 => ⟨S_, .f32⟩
  | 2 => ⟨S_, .f32⟩
  | 3 => ⟨S100000x128, .f32⟩
  | 4 => ⟨S100000x128, .i1⟩
  | 5 => ⟨S_, .f32⟩
  | 6 => ⟨S100000x128, .f32⟩
  | 7 => ⟨S100000x128, .f32⟩
  | 8 => ⟨S100000x128, .f32⟩
  | 9 => ⟨S_, .f32⟩
  | 10 => ⟨S_, .f32⟩
  | 11 => ⟨S100000x128, .f32⟩
  | 12 => ⟨S100000x128, .i1⟩
  | 13 => ⟨S_, .f32⟩
  | 14 => ⟨S100000x128, .f32⟩
  | 15 => ⟨S100000x128, .f32⟩
  | 16 => ⟨S100000x128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1, .f32⟩
  | 30 => ⟨S_, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S_, .f32⟩
  | 45 => ⟨S_, .f32⟩
  | 46 => ⟨S100000x128, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S128, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S_, .f32⟩
  | 69 => ⟨S100000x128, .f32⟩
  | 70 => ⟨S100000x128, .i1⟩
  | 71 => ⟨S_, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S100000x128, .f32⟩
  | 78 => ⟨S100000x128, .i1⟩
  | 79 => ⟨S_, .f32⟩
  | 80 => ⟨S100000x128, .f32⟩
  | 81 => ⟨S100000x128, .f32⟩
  | 82 => ⟨S100000x128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1, .f32⟩
  | 96 => ⟨S_, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S_, .f32⟩
  | 111 => ⟨S_, .f32⟩
  | 112 => ⟨S100000x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S128, .f32⟩
  | 127 => ⟨S1x128, .f32⟩
  | _ => ⟨S100000x64, .f32⟩

abbrev hbmTy0_2 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S_, .f32⟩
  | 7 => ⟨S100000x128, .f32⟩
  | 8 => ⟨S100000x128, .i1⟩
  | 9 => ⟨S_, .f32⟩
  | 10 => ⟨S100000x128, .f32⟩
  | 11 => ⟨S100000x128, .f32⟩
  | 12 => ⟨S100000x128, .f32⟩
  | 13 => ⟨S_, .f32⟩
  | 14 => ⟨S_, .f32⟩
  | 15 => ⟨S100000x128, .f32⟩
  | 16 => ⟨S100000x128, .i1⟩
  | 17 => ⟨S_, .f32⟩
  | 18 => ⟨S100000x128, .f32⟩
  | 19 => ⟨S100000x128, .f32⟩
  | 20 => ⟨S100000x128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1, .f32⟩
  | 34 => ⟨S_, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S_, .f32⟩
  | 49 => ⟨S_, .f32⟩
  | 50 => ⟨S100000x128, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S_, .f32⟩
  | 73 => ⟨S100000x128, .f32⟩
  | 74 => ⟨S100000x128, .i1⟩
  | 75 => ⟨S_, .f32⟩
  | 76 => ⟨S100000x128, .f32⟩
  | 77 => ⟨S100000x128, .f32⟩
  | 78 => ⟨S100000x128, .f32⟩
  | 79 => ⟨S_, .f32⟩
  | 80 => ⟨S_, .f32⟩
  | 81 => ⟨S100000x128, .f32⟩
  | 82 => ⟨S100000x128, .i1⟩
  | 83 => ⟨S_, .f32⟩
  | 84 => ⟨S100000x128, .f32⟩
  | 85 => ⟨S100000x128, .f32⟩
  | 86 => ⟨S100000x128, .f32⟩
  | 87 => ⟨S_, .f32⟩
  | 88 => ⟨S2000x128, .f32⟩
  | 89 => ⟨S100000x1, .i32⟩
  | 90 => ⟨S2000x128, .f32⟩
  | 91 => ⟨S_, .i32⟩
  | 92 => ⟨S2000, .i32⟩
  | 93 => ⟨S_, .i32⟩
  | 94 => ⟨S_, .i32⟩
  | 95 => ⟨S100000, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S_, .i32⟩
  | 106 => ⟨S100000, .i32⟩
  | 107 => ⟨S2000, .i32⟩
  | 108 => ⟨S1, .i32⟩
  | 109 => ⟨S1999, .i32⟩
  | 110 => ⟨S2000, .i32⟩
  | 111 => ⟨S_, .i32⟩
  | 112 => ⟨S1, .i32⟩
  | 113 => ⟨S_, .i32⟩
  | 114 => ⟨S2000, .i32⟩
  | 115 => ⟨S_, .i32⟩
  | 116 => ⟨S_, .i32⟩
  | 117 => ⟨S2000, .i32⟩
  | 118 => ⟨S_, .i32⟩
  | 119 => ⟨S100000, .i32⟩
  | 120 => ⟨S_, .i32⟩
  | 121 => ⟨S2000, .i32⟩
  | 122 => ⟨S2000, .i1⟩
  | 123 => ⟨S_, .i32⟩
  | 124 => ⟨S2000, .i32⟩
  | 125 => ⟨S2000, .i32⟩
  | 126 => ⟨S2000, .i32⟩
  | 127 => ⟨S2000x1, .i32⟩
  | _ => ⟨S100000x64, .f32⟩

abbrev hbmTy0_3 (i : Nat) : BufTy := match i % 128 with
  | 0 => ⟨S_, .i32⟩
  | 1 => ⟨S2000, .i32⟩
  | 2 => ⟨S100000, .i32⟩
  | 3 => ⟨S_, .i32⟩
  | 4 => ⟨S_, .i32⟩
  | 5 => ⟨S100000, .i32⟩
  | 6 => ⟨S_, .i32⟩
  | 7 => ⟨S100000, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S1, .i32⟩
  | 18 => ⟨S_, .i32⟩
  | 19 => ⟨S100000x1, .i32⟩
  | 20 => ⟨S100000x1, .i1⟩
  | 21 => ⟨S1x1, .i32⟩
  | 22 => ⟨S100000x1, .i32⟩
  | 23 => ⟨S100000x1, .i1⟩
  | 24 => ⟨S100000x1, .i1⟩
  | 25 => ⟨S_, .i1⟩
  | 26 => ⟨S100000, .i1⟩
  | 27 => ⟨S100000x128, .f32⟩
  | 28 => ⟨S100000x128, .i1⟩
  | 29 => ⟨S_, .f32⟩
  | 30 => ⟨S100000x128, .f32⟩
  | 31 => ⟨S100000x128, .f32⟩
  | 32 => ⟨S100000x768, .f32⟩
  | 33 => ⟨S100000x256, .f32⟩
  | 34 => ⟨S1x256, .f32⟩
  | 35 => ⟨S100000x256, .f32⟩
  | 36 => ⟨S100000x256, .f32⟩
  | 37 => ⟨S1x256x256, .f32⟩
  | 38 => ⟨S256x256, .f32⟩
  | 39 => ⟨S100000x256, .f32⟩
  | 40 => ⟨S1x256, .f32⟩
  | 41 => ⟨S256, .f32⟩
  | 42 => ⟨S1x256, .f32⟩
  | 43 => ⟨S100000x256, .f32⟩
  | 44 => ⟨S100000x256, .f32⟩
  | 45 => ⟨S_, .f32⟩
  | 46 => ⟨S_, .f32⟩
  | 47 => ⟨S100000x256, .f32⟩
  | 48 => ⟨S100000x256, .i1⟩
  | 49 => ⟨S_, .f32⟩
  | 50 => ⟨S100000x256, .f32⟩
  | 51 => ⟨S100000x256, .f32⟩
  | 52 => ⟨S100000x256, .f32⟩
  | 53 => ⟨S1x256x256, .f32⟩
  | 54 => ⟨S256x256, .f32⟩
  | 55 => ⟨S100000x256, .f32⟩
  | 56 => ⟨S1x256, .f32⟩
  | 57 => ⟨S256, .f32⟩
  | 58 => ⟨S1x256, .f32⟩
  | 59 => ⟨S100000x256, .f32⟩
  | 60 => ⟨S100000x256, .f32⟩
  | 61 => ⟨S_, .f32⟩
  | 62 => ⟨S_, .f32⟩
  | 63 => ⟨S100000x256, .f32⟩
  | 64 => ⟨S100000x256, .i1⟩
  | 65 => ⟨S_, .f32⟩
  | 66 => ⟨S100000x256, .f32⟩
  | 67 => ⟨S100000x256, .f32⟩
  | 68 => ⟨S100000x256, .f32⟩
  | 69 => ⟨S100000x1, .f32⟩
  | 70 => ⟨S1x1, .f32⟩
  | 71 => ⟨S100000x1, .f32⟩
  | 72 => ⟨S100000x1, .f32⟩
  | 73 => ⟨S100000x1, .f32⟩
  | 74 => ⟨S100000x1, .f32⟩
  | 75 => ⟨S_, .f32⟩
  | 76 => ⟨S100000x1, .f32⟩
  | 77 => ⟨S100000x1, .f32⟩
  | 78 => ⟨S_, .f32⟩
  | 79 => ⟨S100000x1, .f32⟩
  | 80 => ⟨S100000x1, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v35 : Ref sig .tc := ⟨.hbm, 70, rfl⟩
abbrev main_cst_4 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_5 : Ref sig .tc := ⟨.hbm, 93, rfl⟩
abbrev main_v51 : Ref sig .tc := ⟨.hbm, 94, rfl⟩
abbrev main_v52 : Ref sig .tc := ⟨.hbm, 95, rfl⟩
abbrev main_c_6 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_7 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_8 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_9 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_10 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v82 : Ref sig .tc := ⟨.hbm, 136, rfl⟩
abbrev main_cst_11 : Ref sig .tc := ⟨.hbm, 137, rfl⟩
abbrev main_call3_cst : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_c_12 : Ref sig .tc := ⟨.hbm, 159, rfl⟩
abbrev main_v98 : Ref sig .tc := ⟨.hbm, 160, rfl⟩
abbrev main_v99 : Ref sig .tc := ⟨.hbm, 161, rfl⟩
abbrev main_c_13 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_14 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_15 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_16 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_17 : Ref sig .tc := ⟨.hbm, 195, rfl⟩
abbrev main_call4_cst : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_v129 : Ref sig .tc := ⟨.hbm, 202, rfl⟩
abbrev main_cst_18 : Ref sig .tc := ⟨.hbm, 203, rfl⟩
abbrev main_call5_cst : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_c_19 : Ref sig .tc := ⟨.hbm, 225, rfl⟩
abbrev main_v145 : Ref sig .tc := ⟨.hbm, 226, rfl⟩
abbrev main_v146 : Ref sig .tc := ⟨.hbm, 227, rfl⟩
abbrev main_c_20 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_cst_21 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_22 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_cst_23 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_cst_24 : Ref sig .tc := ⟨.hbm, 261, rfl⟩
abbrev main_call6_cst : Ref sig .tc := ⟨.hbm, 262, rfl⟩
abbrev main_call6_v0 : Ref sig .tc := ⟨.hbm, 263, rfl⟩
abbrev main_call6_v1 : Ref sig .tc := ⟨.hbm, 264, rfl⟩
abbrev main_call6_v2 : Ref sig .tc := ⟨.hbm, 265, rfl⟩
abbrev main_call6_v3 : Ref sig .tc := ⟨.hbm, 266, rfl⟩
abbrev main_call6_v4 : Ref sig .tc := ⟨.hbm, 267, rfl⟩
abbrev main_v176 : Ref sig .tc := ⟨.hbm, 268, rfl⟩
abbrev main_cst_25 : Ref sig .tc := ⟨.hbm, 269, rfl⟩
abbrev main_call7_cst : Ref sig .tc := ⟨.hbm, 270, rfl⟩
abbrev main_call7_v0 : Ref sig .tc := ⟨.hbm, 271, rfl⟩
abbrev main_call7_v1 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_c_26 : Ref sig .tc := ⟨.hbm, 291, rfl⟩
abbrev main_v192 : Ref sig .tc := ⟨.hbm, 292, rfl⟩
abbrev main_v193 : Ref sig .tc := ⟨.hbm, 293, rfl⟩
abbrev main_c_27 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_cst_28 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_cst_29 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_cst_30 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_cst_31 : Ref sig .tc := ⟨.hbm, 327, rfl⟩
abbrev main_call8_cst : Ref sig .tc := ⟨.hbm, 328, rfl⟩
abbrev main_call8_v0 : Ref sig .tc := ⟨.hbm, 329, rfl⟩
abbrev main_call8_v1 : Ref sig .tc := ⟨.hbm, 330, rfl⟩
abbrev main_call8_v2 : Ref sig .tc := ⟨.hbm, 331, rfl⟩
abbrev main_call8_v3 : Ref sig .tc := ⟨.hbm, 332, rfl⟩
abbrev main_call8_v4 : Ref sig .tc := ⟨.hbm, 333, rfl⟩
abbrev main_v223 : Ref sig .tc := ⟨.hbm, 334, rfl⟩
abbrev main_cst_32 : Ref sig .tc := ⟨.hbm, 335, rfl⟩
abbrev main_call9_cst : Ref sig .tc := ⟨.hbm, 336, rfl⟩
abbrev main_call9_v0 : Ref sig .tc := ⟨.hbm, 337, rfl⟩
abbrev main_call9_v1 : Ref sig .tc := ⟨.hbm, 338, rfl⟩
abbrev main_call9_v2 : Ref sig .tc := ⟨.hbm, 339, rfl⟩
abbrev main_call9_v3 : Ref sig .tc := ⟨.hbm, 340, rfl⟩
abbrev main_call9_v4 : Ref sig .tc := ⟨.hbm, 341, rfl⟩
abbrev main_v224 : Ref sig .tc := ⟨.hbm, 342, rfl⟩
abbrev main_cst_33 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_c_34 : Ref sig .tc := ⟨.hbm, 347, rfl⟩
abbrev main_v228 : Ref sig .tc := ⟨.hbm, 348, rfl⟩
abbrev main_c_35 : Ref sig .tc := ⟨.hbm, 349, rfl⟩
abbrev main_call10_v0 : Ref sig .tc := ⟨.hbm, 350, rfl⟩
abbrev main_call10_v1 : Ref sig .tc := ⟨.hbm, 351, rfl⟩
abbrev main_v229 : Ref sig .tc := ⟨.hbm, 352, rfl⟩
abbrev main_c_36 : Ref sig .tc := ⟨.hbm, 353, rfl⟩
abbrev main_v230 : Ref sig .tc := ⟨.hbm, 354, rfl⟩
abbrev main_v231 : Ref sig .tc := ⟨.hbm, 355, rfl⟩
abbrev main_c_37 : Ref sig .tc := ⟨.hbm, 356, rfl⟩
abbrev main_v232 : Ref sig .tc := ⟨.hbm, 357, rfl⟩
abbrev main_v233 : Ref sig .tc := ⟨.hbm, 358, rfl⟩
abbrev main_v234 : Ref sig .tc := ⟨.hbm, 359, rfl⟩
abbrev main_v235 : Ref sig .tc := ⟨.hbm, 360, rfl⟩
abbrev main_c_38 : Ref sig .tc := ⟨.hbm, 361, rfl⟩
abbrev main_v236 : Ref sig .tc := ⟨.hbm, 362, rfl⟩
abbrev main_v237 : Ref sig .tc := ⟨.hbm, 363, rfl⟩
abbrev main_call11_v0 : Ref sig .tc := ⟨.hbm, 364, rfl⟩
abbrev main_call11_v1 : Ref sig .tc := ⟨.hbm, 365, rfl⟩
abbrev main_v238 : Ref sig .tc := ⟨.hbm, 366, rfl⟩
abbrev main_c_39 : Ref sig .tc := ⟨.hbm, 367, rfl⟩
abbrev main_v239 : Ref sig .tc := ⟨.hbm, 368, rfl⟩
abbrev main_c_40 : Ref sig .tc := ⟨.hbm, 369, rfl⟩
abbrev main_v240 : Ref sig .tc := ⟨.hbm, 370, rfl⟩
abbrev main_call12_call0_c : Ref sig .tc := ⟨.hbm, 371, rfl⟩
abbrev main_call12_call0_v0 : Ref sig .tc := ⟨.hbm, 372, rfl⟩
abbrev main_v241 : Ref sig .tc := ⟨.hbm, 373, rfl⟩
abbrev main_c_41 : Ref sig .tc := ⟨.hbm, 374, rfl⟩
abbrev main_v242 : Ref sig .tc := ⟨.hbm, 375, rfl⟩
abbrev main_c_42 : Ref sig .tc := ⟨.hbm, 376, rfl⟩
abbrev main_v243 : Ref sig .tc := ⟨.hbm, 377, rfl⟩
abbrev main_v244 : Ref sig .tc := ⟨.hbm, 378, rfl⟩
abbrev main_c_43 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_v248 : Ref sig .tc := ⟨.hbm, 383, rfl⟩
abbrev main_c_44 : Ref sig .tc := ⟨.hbm, 384, rfl⟩
abbrev main_v249 : Ref sig .tc := ⟨.hbm, 385, rfl⟩
abbrev main_v250 : Ref sig .tc := ⟨.hbm, 386, rfl⟩
abbrev main_call13_call0_c : Ref sig .tc := ⟨.hbm, 387, rfl⟩
abbrev main_call13_call0_v0 : Ref sig .tc := ⟨.hbm, 388, rfl⟩
abbrev main_v251 : Ref sig .tc := ⟨.hbm, 389, rfl⟩
abbrev main_c_45 : Ref sig .tc := ⟨.hbm, 390, rfl⟩
abbrev main_v252 : Ref sig .tc := ⟨.hbm, 391, rfl⟩
abbrev main_v253 : Ref sig .tc := ⟨.hbm, 392, rfl⟩
abbrev main_call14_c : Ref sig .tc := ⟨.hbm, 393, rfl⟩
abbrev main_call14_v0 : Ref sig .tc := ⟨.hbm, 394, rfl⟩
abbrev main_call14_v1 : Ref sig .tc := ⟨.hbm, 395, rfl⟩
abbrev main_call14_c_0 : Ref sig .tc := ⟨.hbm, 396, rfl⟩
abbrev main_call14_v2 : Ref sig .tc := ⟨.hbm, 397, rfl⟩
abbrev main_call14_v3 : Ref sig .tc := ⟨.hbm, 398, rfl⟩
abbrev main_call14_v4 : Ref sig .tc := ⟨.hbm, 399, rfl⟩
abbrev main_call14_v5 : Ref sig .tc := ⟨.hbm, 400, rfl⟩
abbrev main_call14_c_1 : Ref sig .tc := ⟨.hbm, 401, rfl⟩
abbrev main_call14_c_2 : Ref sig .tc := ⟨.hbm, 402, rfl⟩
abbrev main_call14_v6 : Ref sig .tc := ⟨.hbm, 403, rfl⟩
abbrev main_call14_v7 : Ref sig .tc := ⟨.hbm, 404, rfl⟩
abbrev main_call14_v8 : Ref sig .tc := ⟨.hbm, 405, rfl⟩
abbrev main_call14_v9 : Ref sig .tc := ⟨.hbm, 406, rfl⟩
abbrev main_call14_v10 : Ref sig .tc := ⟨.hbm, 407, rfl⟩
abbrev main_call14_v11 : Ref sig .tc := ⟨.hbm, 408, rfl⟩
abbrev main_call14_c_3 : Ref sig .tc := ⟨.hbm, 409, rfl⟩
abbrev main_call14_v12 : Ref sig .tc := ⟨.hbm, 410, rfl⟩
abbrev main_call14_v13 : Ref sig .tc := ⟨.hbm, 411, rfl⟩
abbrev main_call14_v14 : Ref sig .tc := ⟨.hbm, 412, rfl⟩
abbrev main_call14_cst : Ref sig .tc := ⟨.hbm, 413, rfl⟩
abbrev main_call14_v15 : Ref sig .tc := ⟨.hbm, 414, rfl⟩
abbrev main_v254 : Ref sig .tc := ⟨.hbm, 415, rfl⟩
abbrev main_v255 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_v259 : Ref sig .tc := ⟨.hbm, 420, rfl⟩
abbrev main_v260 : Ref sig .tc := ⟨.hbm, 421, rfl⟩
abbrev main_v261 : Ref sig .tc := ⟨.hbm, 422, rfl⟩
abbrev main_v262 : Ref sig .tc := ⟨.hbm, 423, rfl⟩
abbrev main_v263 : Ref sig .tc := ⟨.hbm, 424, rfl⟩
abbrev main_v264 : Ref sig .tc := ⟨.hbm, 425, rfl⟩
abbrev main_v265 : Ref sig .tc := ⟨.hbm, 426, rfl⟩
abbrev main_v266 : Ref sig .tc := ⟨.hbm, 427, rfl⟩
abbrev main_v267 : Ref sig .tc := ⟨.hbm, 428, rfl⟩
abbrev main_cst_46 : Ref sig .tc := ⟨.hbm, 429, rfl⟩
abbrev main_call15_cst : Ref sig .tc := ⟨.hbm, 430, rfl⟩
abbrev main_call15_v0 : Ref sig .tc := ⟨.hbm, 431, rfl⟩
abbrev main_call15_v1 : Ref sig .tc := ⟨.hbm, 432, rfl⟩
abbrev main_call15_v2 : Ref sig .tc := ⟨.hbm, 433, rfl⟩
abbrev main_call15_v3 : Ref sig .tc := ⟨.hbm, 434, rfl⟩
abbrev main_call15_v4 : Ref sig .tc := ⟨.hbm, 435, rfl⟩
abbrev main_v268 : Ref sig .tc := ⟨.hbm, 436, rfl⟩
abbrev main_v269 : Ref sig .tc := ⟨.hbm, 437, rfl⟩
abbrev main_v270 : Ref sig .tc := ⟨.hbm, 438, rfl⟩
abbrev main_v271 : Ref sig .tc := ⟨.hbm, 439, rfl⟩
abbrev main_v272 : Ref sig .tc := ⟨.hbm, 440, rfl⟩
abbrev main_v273 : Ref sig .tc := ⟨.hbm, 441, rfl⟩
abbrev main_v274 : Ref sig .tc := ⟨.hbm, 442, rfl⟩
abbrev main_v275 : Ref sig .tc := ⟨.hbm, 443, rfl⟩
abbrev main_v276 : Ref sig .tc := ⟨.hbm, 444, rfl⟩
abbrev main_cst_47 : Ref sig .tc := ⟨.hbm, 445, rfl⟩
abbrev main_call16_cst : Ref sig .tc := ⟨.hbm, 446, rfl⟩
abbrev main_call16_v0 : Ref sig .tc := ⟨.hbm, 447, rfl⟩
abbrev main_call16_v1 : Ref sig .tc := ⟨.hbm, 448, rfl⟩
abbrev main_call16_v2 : Ref sig .tc := ⟨.hbm, 449, rfl⟩
abbrev main_call16_v3 : Ref sig .tc := ⟨.hbm, 450, rfl⟩
abbrev main_call16_v4 : Ref sig .tc := ⟨.hbm, 451, rfl⟩
abbrev main_v277 : Ref sig .tc := ⟨.hbm, 452, rfl⟩
abbrev main_v278 : Ref sig .tc := ⟨.hbm, 453, rfl⟩
abbrev main_v279 : Ref sig .tc := ⟨.hbm, 454, rfl⟩
abbrev main_v280 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_cst_48 : Ref sig .tc := ⟨.hbm, 459, rfl⟩
abbrev main_v284 : Ref sig .tc := ⟨.hbm, 460, rfl⟩
abbrev main_v285 : Ref sig .tc := ⟨.hbm, 461, rfl⟩
abbrev main_cst_49 : Ref sig .tc := ⟨.hbm, 462, rfl⟩
abbrev main_v286 : Ref sig .tc := ⟨.hbm, 463, rfl⟩
abbrev main_v287 : Ref sig .tc := ⟨.hbm, 464, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4_S1_0 : S4.Slices ![0] S1
  shapeCasts_S1_S_ : S1.ShapeCasts S_
  slices_S4x128x128_S1x128x128_1_0_0 : S4x128x128.Slices ![1, 0, 0] S1x128x128
  slices_S4x128_S1x128_1_0 : S4x128.Slices ![1, 0] S1x128
  slices_S4_S1_1 : S4.Slices ![1] S1
  slices_S4x128x128_S1x128x128_2_0_0 : S4x128x128.Slices ![2, 0, 0] S1x128x128
  slices_S4x128_S1x128_2_0 : S4x128.Slices ![2, 0] S1x128
  slices_S4_S1_2 : S4.Slices ![2] S1
  slices_S4x128x128_S1x128x128_3_0_0 : S4x128x128.Slices ![3, 0, 0] S1x128x128
  slices_S4x128_S1x128_3_0 : S4x128.Slices ![3, 0] S1x128
  slices_S4_S1_3 : S4.Slices ![3] S1
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S2000 : S_.BroadcastsInDim S2000 (![] : Fin 0 → Fin S2000.rank)
  bcast_S_S100000 : S_.BroadcastsInDim S100000 (![] : Fin 0 → Fin S100000.rank)
  slices_S2000_S1_1999 : S2000.Slices ![1999] S1
  slices_S2000_S1999_0 : S2000.Slices ![0] S1999
  concatenates_S1_S1999_S2000_d0 : Shape.Concatenates [S1, S1999] S2000 0
  bcast_S_S1 : S_.BroadcastsInDim S1 (![] : Fin 0 → Fin S1.rank)
  bcast_S_S_ : S_.BroadcastsInDim S_ (![] : Fin 0 → Fin S_.rank)
  reduceWindows_S2000_S2000_w2000s1p1999_0 : S2000.ReduceWindows (![2000] : Fin 1 → Nat) ![1] ![1999] ![0] S2000
  h_S_ : 0 < S_.numel
  bcast_S2000_S2000x1_0 : S2000.BroadcastsInDim S2000x1 (![0] : Fin 1 → Fin S2000x1.rank)
  reduceWindows_S100000_S100000_w100000s1p99999_0 : S100000.ReduceWindows (![100000] : Fin 1 → Nat) ![1] ![99999] ![0] S100000
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x128_0 : S100000.BroadcastsInDim S100000x128 (![0] : Fin 1 → Fin S100000x128.rank)
  concatenates_S100000x128_S100000x128_S100000x128_S100000x128_S100000x128_S100000x128_S100000x768_d1 : Shape.Concatenates [S100000x128, S100000x128, S100000x128, S100000x128, S100000x128, S100000x128] S100000x768 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S_S100000x256 : S_.BroadcastsInDim S100000x256 (![] : Fin 0 → Fin S100000x256.rank)
  slices_S2x256x256_S1x256x256_1_0_0 : S2x256x256.Slices ![1, 0, 0] S1x256x256
  slices_S2x256_S1x256_1_0 : S2x256.Slices ![1, 0] S1x256
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  scatter_S2000_S1_S__n_0_0_0_wf : ScatterDims.WF S2000 S1 S_ [] [0] [0] 0
  scatter_S100000_S2000x1_S2000_n_0_0_1_wf : ScatterDims.WF S100000 S2000x1 S2000 [] [0] [0] 1
  gather_S2000x128_S100000x1_S100000x128_1_0_n_n_0_1_1128_wf : GatherDims.WF S2000x128 S100000x1 S100000x128 [1] [0] [] [0] [] 1 ![1, 128]
  dot_S100000x768_S768x256_S100000x256_1_0_0_1_n_n_wf : DotDims.WF S100000x768 S768x256 S100000x256 [1] [0] [0] [1] [] []
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def scatter_S2000_S1_S__n_0_0_0 : ScatterDims S2000 S1 S_ where
  updateWindowDims := []
  insertedWindowDims := [0]
  scatterDimsToOperandDims := [0]
  indexVectorDim := 0
  wf := scatter_S2000_S1_S__n_0_0_0_wf
def scatter_S100000_S2000x1_S2000_n_0_0_1 : ScatterDims S100000 S2000x1 S2000 where
  updateWindowDims := []
  insertedWindowDims := [0]
  scatterDimsToOperandDims := [0]
  indexVectorDim := 1
  wf := scatter_S100000_S2000x1_S2000_n_0_0_1_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def dot_S100000x768_S768x256_S100000x256_1_0_0_1_n_n : DotDims S100000x768 S768x256 S100000x256 where
  lhsContracting := [1]
  rhsContracting := [0]
  lhsNonContracting := [0]
  rhsNonContracting := [1]
  lhsBatch := []
  rhsBatch := []
  wf := dot_S100000x768_S768x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.K.Reg0.lean ====
/- The body obligation of kernel region 0: the kernel body, run on whole staging buffers holding the seven input
   blocks, leaves the inputs as they were and the output buffer at the body's arithmetic over them; stated
   at any float instance and any region-entry contents `V`. -/
import proofs.«145887_j33578054320560_2_alg».proof.Proof.Gen.Kernel.Launch
import proofs.«145887_j33578054320560_2_alg».proof.Proof.Gen.Kernel.Skeleton
import proofs.«145887_j33578054320560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not: where the
    window is not fetched its block index has not moved, and the body leaves the buffer as it was. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole-shape rectangle at offset zero -/

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S128 := Rect.unit (s := S128) ![0] S128.size inb_S128_S128_0
abbrev r0_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out0_7 (x0 : Vec F S10000x64 .f32) (x1 : Vec F S64x128 .f32) (x2 : Vec F S128 .f32) (x3 : Vec F S128 .f32) (x4 : Vec F S128 .f32) (x5 : Vec F S128 .f32) (x6 : Vec F S128 .f32) : Vec F S10000x128 .f32 :=
  View.canon [⟨r0_7, k0_pay1 (View.ld x0 r0_0) (View.ld x1 r0_1) (View.ld x2 r0_2) (View.ld x3 r0_2) (View.ld x6 r0_2) (View.ld x5 r0_2) (View.ld x4 r0_2)⟩]

/-- A whole-shape load at offset zero reads the buffer and a whole-shape store there leaves its payload: the
    output buffer holds the body's arithmetic over the input blocks themselves. -/
theorem out0_7_eq (x0 : Vec F S10000x64 .f32) (x1 : Vec F S64x128 .f32) (x2 : Vec F S128 .f32) (x3 : Vec F S128 .f32) (x4 : Vec F S128 .f32) (x5 : Vec F S128 .f32) (x6 : Vec F S128 .f32) : out0_7 x0 x1 x2 x3 x4 x5 x6 = k0_pay1 x0 x1 x2 x3 x6 x5 x4 := by
  unfold out0_7
  rw [View.canon_unit_zero (S := S10000x128) (by funext a; fin_cases a <;> rfl) inb_S10000x128_S10000x128_0_0]
  rw [View.ld_unit_zero (S := S10000x64) (by funext a; fin_cases a <;> rfl) inb_S10000x64_S10000x64_0_0 x0,
    View.ld_unit_zero (S := S64x128) (by funext a; fin_cases a <;> rfl) inb_S64x128_S64x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover0_7 (p0 : Vec F S10000x128 .f32) (y : S10000x128.Idx) :
    ∃ pc ∈ ([⟨r0_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg1 : Memref sig .tc .vmem S10000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x64 .f32) (x1 : Vec F S64x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8) K := by
  simp only [cc0__gin_mlp_kernel_eq_skeleton]; unfold cc0__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Reg1.lean ====
/- The body obligation of kernel region 1: the kernel body, run on whole staging buffers holding the seven input
   blocks, leaves the inputs as they were and the output buffer at the body's arithmetic over them; stated
   at any float instance and any region-entry contents `V`. -/
import proofs.«145887_j33578054320560_2_alg».proof.Proof.Gen.Kernel.Launch
import proofs.«145887_j33578054320560_2_alg».proof.Proof.Gen.Kernel.Skeleton
import proofs.«145887_j33578054320560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where the
    window is not fetched its block index has not moved, and the body leaves the buffer as it was. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole-shape rectangle at offset zero -/

abbrev r1_0 : Rect S10000x128 := Rect.unit (s := S10000x128) ![0, 0] S10000x128.size inb_S10000x128_S10000x128_0_0
abbrev r1_1 : Rect S128x128 := Rect.unit (s := S128x128) ![0, 0] S128x128.size inb_S128x128_S128x128_0_0
abbrev r1_2 : Rect S128 := Rect.unit (s := S128) ![0] S128.size inb_S128_S128_0
abbrev r1_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out1_7 (x0 : Vec F S10000x128 .f32) (x1 : Vec F S128x128 .f32) (x2 : Vec F S128 .f32) (x3 : Vec F S128 .f32) (x4 : Vec F S128 .f32) (x5 : Vec F S128 .f32) (x6 : Vec F S128 .f32) : Vec F S10000x128 .f32 :=
  View.canon [⟨r1_7, k1_pay1 (View.ld x0 r1_0) (View.ld x1 r1_1) (View.ld x2 r1_2) (View.ld x3 r1_2) (View.ld x6 r1_2) (View.ld x5 r1_2) (View.ld x4 r1_2)⟩]

/-- A whole-shape load at offset zero reads the buffer and a whole-shape store there leaves its payload: the
    output buffer holds the body's arithmetic over the input blocks themselves. -/
theorem out1_7_eq (x0 : Vec F S10000x128 .f32) (x1 : Vec F S128x128 .f32) (x2 : Vec F S128 .f32) (x3 : Vec F S128 .f32) (x4 : Vec F S128 .f32) (x5 : Vec F S128 .f32) (x6 : Vec F S128 .f32) : out1_7 x0 x1 x2 x3 x4 x5 x6 = k1_pay1 x0 x1 x2 x3 x6 x5 x4 := by
  unfold out1_7
  rw [View.canon_unit_zero (S := S10000x128) (by funext a; fin_cases a <;> rfl) inb_S10000x128_S10000x128_0_0]
  rw [View.ld_unit_zero (S := S10000x128) (by funext a; fin_cases a <;> rfl) inb_S10000x128_S10000x128_0_0 x0,
    View.ld_unit_zero (S := S128x128) (by funext a; fin_cases a <;> rfl) inb_S128x128_S128x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover1_7 (p0 : Vec F S10000x128 .f32) (y : S10000x128.Idx) :
    ∃ pc ∈ ([⟨r1_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x128 .f32) (x1 : Vec F S128x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8) K := by
  simp only [cc1__gin_mlp_kernel_eq_skeleton]; unfold cc1__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_7 _)

/-! ## The pipeline's proof data -/

/-- The proof data of pipeline 1 on core `c`: the arrays as the region finds them (`V`); after the body at
    point `t` each input's buffer at its block and the output's at `out1_7` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Reg2.lean ====
/- The body obligation of kernel region 2: the kernel body, run on whole staging buffers holding the seven input
   blocks, leaves the inputs as they were and the output buffer at the body's arithmetic over them; stated
   at any float instance and any region-entry contents `V`. -/
import proofs.«145887_j33578054320560_2_alg».proof.Proof.Gen.Kernel.Launch
import proofs.«145887_j33578054320560_2_alg».proof.Proof.Gen.Kernel.Skeleton
import proofs.«145887_j33578054320560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not: where the
    window is not fetched its block index has not moved, and the body leaves the buffer as it was. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole-shape rectangle at offset zero -/

abbrev r2_0 : Rect S10000x128 := Rect.unit (s := S10000x128) ![0, 0] S10000x128.size inb_S10000x128_S10000x128_0_0
abbrev r2_1 : Rect S128x128 := Rect.unit (s := S128x128) ![0, 0] S128x128.size inb_S128x128_S128x128_0_0
abbrev r2_2 : Rect S128 := Rect.unit (s := S128) ![0] S128.size inb_S128_S128_0
abbrev r2_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out2_7 (x0 : Vec F S10000x128 .f32) (x1 : Vec F S128x128 .f32) (x2 : Vec F S128 .f32) (x3 : Vec F S128 .f32) (x4 : Vec F S128 .f32) (x5 : Vec F S128 .f32) (x6 : Vec F S128 .f32) : Vec F S10000x128 .f32 :=
  View.canon [⟨r2_7, k2_pay1 (View.ld x0 r2_0) (View.ld x1 r2_1) (View.ld x2 r2_2) (View.ld x3 r2_2) (View.ld x6 r2_2) (View.ld x5 r2_2) (View.ld x4 r2_2)⟩]

/-- A whole-shape load at offset zero reads the buffer and a whole-shape store there leaves its payload: the
    output buffer holds the body's arithmetic over the input blocks themselves. -/
theorem out2_7_eq (x0 : Vec F S10000x128 .f32) (x1 : Vec F S128x128 .f32) (x2 : Vec F S128 .f32) (x3 : Vec F S128 .f32) (x4 : Vec F S128 .f32) (x5 : Vec F S128 .f32) (x6 : Vec F S128 .f32) : out2_7 x0 x1 x2 x3 x4 x5 x6 = k2_pay1 x0 x1 x2 x3 x6 x5 x4 := by
  unfold out2_7
  rw [View.canon_unit_zero (S := S10000x128) (by funext a; fin_cases a <;> rfl) inb_S10000x128_S10000x128_0_0]
  rw [View.ld_unit_zero (S := S10000x128) (by funext a; fin_cases a <;> rfl) inb_S10000x128_S10000x128_0_0 x0,
    View.ld_unit_zero (S := S128x128) (by funext a; fin_cases a <;> rfl) inb_S128x128_S128x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover2_7 (p0 : Vec F S10000x128 .f32) (y : S10000x128.Idx) :
    ∃ pc ∈ ([⟨r2_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x128 .f32) (x1 : Vec F S128x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8) K := by
  simp only [cc2__gin_mlp_kernel_eq_skeleton]; unfold cc2__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_7 _)

/-! ## The pipeline's proof data -/

/-- The proof data of pipeline 2 on core `c`: the arrays as the region finds them (`V`); after the body at
    point `t` each input's buffer at its block and the output's at `out2_7` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Reg3.lean ====
/- The body obligation of kernel region 3: the kernel body, run on whole staging buffers holding the seven input
   blocks, leaves the inputs as they were and the output buffer at the body's arithmetic over them; stated
   at any float instance and any region-entry contents `V`. -/
import proofs.«145887_j33578054320560_2_alg».proof.Proof.Gen.Kernel.Launch
import proofs.«145887_j33578054320560_2_alg».proof.Proof.Gen.Kernel.Skeleton
import proofs.«145887_j33578054320560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not: where the
    window is not fetched its block index has not moved, and the body leaves the buffer as it was. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole-shape rectangle at offset zero -/

abbrev r3_0 : Rect S10000x128 := Rect.unit (s := S10000x128) ![0, 0] S10000x128.size inb_S10000x128_S10000x128_0_0
abbrev r3_1 : Rect S128x128 := Rect.unit (s := S128x128) ![0, 0] S128x128.size inb_S128x128_S128x128_0_0
abbrev r3_2 : Rect S128 := Rect.unit (s := S128) ![0] S128.size inb_S128_S128_0
abbrev r3_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out3_7 (x0 : Vec F S10000x128 .f32) (x1 : Vec F S128x128 .f32) (x2 : Vec F S128 .f32) (x3 : Vec F S128 .f32) (x4 : Vec F S128 .f32) (x5 : Vec F S128 .f32) (x6 : Vec F S128 .f32) : Vec F S10000x128 .f32 :=
  View.canon [⟨r3_7, k3_pay1 (View.ld x0 r3_0) (View.ld x1 r3_1) (View.ld x2 r3_2) (View.ld x3 r3_2) (View.ld x6 r3_2) (View.ld x5 r3_2) (View.ld x4 r3_2)⟩]

/-- A whole-shape load at offset zero reads the buffer and a whole-shape store there leaves its payload: the
    output buffer holds the body's arithmetic over the input blocks themselves. -/
theorem out3_7_eq (x0 : Vec F S10000x128 .f32) (x1 : Vec F S128x128 .f32) (x2 : Vec F S128 .f32) (x3 : Vec F S128 .f32) (x4 : Vec F S128 .f32) (x5 : Vec F S128 .f32) (x6 : Vec F S128 .f32) : out3_7 x0 x1 x2 x3 x4 x5 x6 = k3_pay1 x0 x1 x2 x3 x6 x5 x4 := by
  unfold out3_7
  rw [View.canon_unit_zero (S := S10000x128) (by funext a; fin_cases a <;> rfl) inb_S10000x128_S10000x128_0_0]
  rw [View.ld_unit_zero (S := S10000x128) (by funext a; fin_cases a <;> rfl) inb_S10000x128_S10000x128_0_0 x0,
    View.ld_unit_zero (S := S128x128) (by funext a; fin_cases a <;> rfl) inb_S128x128_S128x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover3_7 (p0 : Vec F S10000x128 .f32) (y : S10000x128.Idx) :
    ∃ pc ∈ ([⟨r3_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x128 .f32) (x1 : Vec F S128x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8) K := by
  simp only [cc3__gin_mlp_kernel_eq_skeleton]; unfold cc3__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_7 _)

/-! ## The pipeline's proof data -/

/-- The proof data of pipeline 3 on core `c`: the arrays as the region finds them (`V`); after the body at
    point `t` each input's buffer at its block and the output's at `out3_7` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-! What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-! Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Reg4.lean ====
/- The body obligation of kernel region 4: the kernel body, run on whole staging buffers holding the seven input
   blocks, leaves the inputs as they were and the output buffer at the body's arithmetic over them; stated
   at any float instance and any region-entry contents `V`. -/
import proofs.«145887_j33578054320560_2_alg».proof.Proof.Gen.Kernel.Launch
import proofs.«145887_j33578054320560_2_alg».proof.Proof.Gen.Kernel.Skeleton
import proofs.«145887_j33578054320560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not: where the
    window is not fetched its block index has not moved, and the body leaves the buffer as it was. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole-shape rectangle at offset zero -/

abbrev r4_0 : Rect S10000x128 := Rect.unit (s := S10000x128) ![0, 0] S10000x128.size inb_S10000x128_S10000x128_0_0
abbrev r4_1 : Rect S128x128 := Rect.unit (s := S128x128) ![0, 0] S128x128.size inb_S128x128_S128x128_0_0
abbrev r4_2 : Rect S128 := Rect.unit (s := S128) ![0] S128.size inb_S128_S128_0
abbrev r4_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out4_7 (x0 : Vec F S10000x128 .f32) (x1 : Vec F S128x128 .f32) (x2 : Vec F S128 .f32) (x3 : Vec F S128 .f32) (x4 : Vec F S128 .f32) (x5 : Vec F S128 .f32) (x6 : Vec F S128 .f32) : Vec F S10000x128 .f32 :=
  View.canon [⟨r4_7, k4_pay1 (View.ld x0 r4_0) (View.ld x1 r4_1) (View.ld x2 r4_2) (View.ld x3 r4_2) (View.ld x6 r4_2) (View.ld x5 r4_2) (View.ld x4 r4_2)⟩]

/-- A whole-shape load at offset zero reads the buffer and a whole-shape store there leaves its payload: the
    output buffer holds the body's arithmetic over the input blocks themselves. -/
theorem out4_7_eq (x0 : Vec F S10000x128 .f32) (x1 : Vec F S128x128 .f32) (x2 : Vec F S128 .f32) (x3 : Vec F S128 .f32) (x4 : Vec F S128 .f32) (x5 : Vec F S128 .f32) (x6 : Vec F S128 .f32) : out4_7 x0 x1 x2 x3 x4 x5 x6 = k4_pay1 x0 x1 x2 x3 x6 x5 x4 := by
  unfold out4_7
  rw [View.canon_unit_zero (S := S10000x128) (by funext a; fin_cases a <;> rfl) inb_S10000x128_S10000x128_0_0]
  rw [View.ld_unit_zero (S := S10000x128) (by funext a; fin_cases a <;> rfl) inb_S10000x128_S10000x128_0_0 x0,
    View.ld_unit_zero (S := S128x128) (by funext a; fin_cases a <;> rfl) inb_S128x128_S128x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover4_7 (p0 : Vec F S10000x128 .f32) (y : S10000x128.Idx) :
    ∃ pc ∈ ([⟨r4_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out4_7` of the inputs'. -/
theorem sound_kernel4 (c : Dev nD) (E : Set ℕ) (i : grid4.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x128 .f32) (x1 : Vec F S128x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__gin_mlp_kernel i arg1 harg1 arg2 harg2 arg3 harg3 arg4 harg4 arg5 harg5 arg6 harg6 arg7 harg7 arg8 harg8) K := by
  simp only [cc4__gin_mlp_kernel_eq_skeleton]; unfold cc4__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover4_7 _)

/-! ## The pipeline's proof data -/

/-- The proof data of pipeline 4 on core `c`: the arrays as the region finds them (`V`); after the body at
    point `t` each input's buffer at its block and the output's at `out4_7` of the input blocks; the invariant
    the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-! Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 4000000 in
/-- The body at any point: the inputs' memrefs hold their blocks, so `sound_kernel4` applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.Reg5.lean ====
/- The body obligation of the classifier pipeline (grid of 50 points, blocks of 2000 rows), at any float instance:
   what the body leaves in the output window's staging buffer as one pure term of the input windows' blocks, the
   body's triple, the pipeline's proof data at the region-entry contents, and the library's obligation. -/
import proofs.«145887_j33578054320560_2_alg».proof.Proof.Gen.Kernel.Launch
import proofs.«145887_j33578054320560_2_alg».proof.Proof.Gen.Kernel.Skeleton
import proofs.«145887_j33578054320560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block
    index has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s (`hA`) and whose body leaves the block in place (`hafter`): unfetched, the block
    index has not moved; the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S2000x768 := Rect.unit (s := S2000x768) ![0, 0] S2000x768.size inb_S2000x768_S2000x768_0_0
abbrev r5_1 : Rect S768x256 := Rect.unit (s := S768x256) ![0, 0] S768x256.size inb_S768x256_S768x256_0_0
abbrev r5_2 : Rect S256 := Rect.unit (s := S256) ![0] S256.size inb_S256_S256_0
abbrev r5_3 : Rect S2x256x256 := Rect.unit (s := S2x256x256) ![0, 0, 0] S1x256x256.size inb_S2x256x256_S1x256x256_0_0_0
abbrev r5_4 : Rect S2x256 := Rect.unit (s := S2x256) ![0, 0] S1x256.size inb_S2x256_S1x256_0_0
abbrev r5_5 : Rect S2x256x256 := Rect.unit (s := S2x256x256) ![1, 0, 0] S1x256x256.size inb_S2x256x256_S1x256x256_1_0_0
abbrev r5_6 : Rect S2x256 := Rect.unit (s := S2x256) ![1, 0] S1x256.size inb_S2x256_S1x256_1_0
abbrev r5_7 : Rect S256x1 := Rect.unit (s := S256x1) ![0, 0] S256x1.size inb_S256x1_S256x1_0_0
abbrev r5_8 : Rect S1 := Rect.unit (s := S1) ![0] S1.size inb_S1_S1_0
abbrev r5_9 : Rect S2000x1 := Rect.unit (s := S2000x1) ![0, 0] S2000x1.size inb_S2000x1_S2000x1_0_0

/-! ## What the body leaves in the output window's buffer -/

/-- Window 7's staging buffer after the body, from the input windows' blocks: its one store as a piece; the
    payloads are the skeleton's, over what the loads read of the inputs (the two stacked layers of windows 3 and 4
    read as slices at offsets 0 and 1 of the leading axis). -/
def out5_7 (x0 : Vec F S2000x768 .f32) (x1 : Vec F S768x256 .f32) (x2 : Vec F S256 .f32) (x3 : Vec F S2x256x256 .f32) (x4 : Vec F S2x256 .f32) (x5 : Vec F S256x1 .f32) (x6 : Vec F S1 .f32) : Vec F S2000x1 .f32 :=
  View.canon [⟨r5_9, k5_pay1 (k5_pay2 (View.ld x0 r5_0) (View.ld x1 r5_1) (View.ld x2 r5_2) (View.ld x3 r5_3) (View.ld x4 r5_4) (View.ld x3 r5_5) (View.ld x4 r5_6)) (k5_pay3 (View.ld x0 r5_0) (View.ld x1 r5_1) (View.ld x2 r5_2) (View.ld x3 r5_3) (View.ld x4 r5_4) (View.ld x3 r5_5) (View.ld x4 r5_6)) (Scalar.ofBits .f32 0x3C23D70A#32) (View.ld x5 r5_7) (View.ld x6 r5_8)⟩]

/-- Its store tiles the buffer (checked by evaluation), so it covers it. -/
theorem cover5_7 (p0 : Vec F S2000x1 .f32) (y : S2000x1.Idx) :
    ∃ pc ∈ ([⟨r5_9, p0⟩] : List (View.Piece (Elt F) S2000x1 .f32)), y ∈ pc.1.set :=
  View.cover_of_tiled [⟨r5_9, p0⟩] S2000x1.size (by rfl) y

/-- The whole-buffer loads read the buffers and the one covering store leaves its payload: the output staging
    buffer after the body is the payload of the input buffers, windows 3 and 4 through their two slices. -/
theorem out5_7_eq (x0 : Vec F S2000x768 .f32) (x1 : Vec F S768x256 .f32) (x2 : Vec F S256 .f32) (x3 : Vec F S2x256x256 .f32) (x4 : Vec F S2x256 .f32) (x5 : Vec F S256x1 .f32) (x6 : Vec F S1 .f32) :
    out5_7 x0 x1 x2 x3 x4 x5 x6 = k5_pay1 (k5_pay2 x0 x1 x2 (View.ld x3 r5_3) (View.ld x4 r5_4) (View.ld x3 r5_5) (View.ld x4 r5_6)) (k5_pay3 x0 x1 x2 (View.ld x3 r5_3) (View.ld x4 r5_4) (View.ld x3 r5_5) (View.ld x4 r5_6)) (Scalar.ofBits .f32 0x3C23D70A#32) x5 x6 := by
  have hz9 : (![0, 0] : Fin S2000x1.rank → Nat) = fun _ => 0 := funext fun a => by fin_cases a <;> rfl
  have hz0 : (![0, 0] : Fin S2000x768.rank → Nat) = fun _ => 0 := funext fun a => by fin_cases a <;> rfl
  have hz1 : (![0, 0] : Fin S768x256.rank → Nat) = fun _ => 0 := funext fun a => by fin_cases a <;> rfl
  have hz2 : (![0] : Fin S256.rank → Nat) = fun _ => 0 := funext fun a => by fin_cases a <;> rfl
  have hz7 : (![0, 0] : Fin S256x1.rank → Nat) = fun _ => 0 := funext fun a => by fin_cases a <;> rfl
  have hz8 : (![0] : Fin S1.rank → Nat) = fun _ => 0 := funext fun a => by fin_cases a <;> rfl
  unfold out5_7
  rw [View.canon_unit_zero hz9, View.ld_unit_zero hz0, View.ld_unit_zero hz1, View.ld_unit_zero hz2,
    View.ld_unit_zero hz7, View.ld_unit_zero hz8]

/-! ## The body's triple -/

set_option maxHeartbeats 1000000 in
/-- The kernel body on whole staging memrefs, the inputs' at read contents `xW` and the output's at anything, runs to
    the continuation holding the inputs' as they were and the output's at `out5_7` of the inputs': the printed
    functions are their skeletons, which the executor runs, through the part call. -/
theorem sound_kernel5 (c : Dev nD) (E : Set ℕ) (i : grid5.Coords) (arg1 : Memref sig .tc .vmem S2000x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x256x256 .f32) (harg4 : arg4.IsWhole) (arg5 : Memref sig .tc .vmem S2x256 .f32) (harg5 : arg5.IsWhole) (arg6 : Memref sig .tc .vmem S256x1 .f32) (harg6 : arg6.IsWhole) (arg7 : Memref sig .tc .vmem S1 .f32) (harg7 : arg7.IsWhole) (arg8 : Memref sig .tc .vmem S2000x1 .f32) (harg8 : arg8.IsWhole)
    (x0 : Vec F S2000x768 .f32) (x1 : Vec F S768x256 .f32) (x2 : Vec F S256 .f32) (x3 : Vec F S2x256x256 .f32) (x4 : Vec F S2x256 .f32) (x5 : Vec F S256x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__classifier_kernel i arg1 harg1 arg2 harg2 arg3 harg3 arg4 harg4 arg5 harg5 arg6 harg6 arg7 harg7 arg8 harg8) K := by
  simp only [cc5__classifier_kernel_eq_skeleton]; unfold cc5__classifier_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover5_7 _)

/-! ## The pipeline's proof data -/

/-- The proof data of the pipeline on core `c`: the arrays as the region finds them (`V`); after the body at
    point `t` each input's buffer at its block and the output's at `out5_7` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t` (the library's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.K.Run.lean ====
import proofs.«145887_j33578054320560_2_alg».proof.Proof.Gen.Kernel.Skeleton
import proofs.«145887_j33578054320560_2_alg».proof.Proof.Gen.Kernel.Launch
import proofs.«145887_j33578054320560_2_alg».proof.Proof.Gen.Kernel.Points
import proofs.«145887_j33578054320560_2_alg».proof.Proof.Gen.Kernel.Regions
import proofs.«145887_j33578054320560_2_alg».proof.Proof.K.RunCond
import proofs.«145887_j33578054320560_2_alg».proof.Proof.K.Reg0
import proofs.«145887_j33578054320560_2_alg».proof.Proof.K.Reg1
import proofs.«145887_j33578054320560_2_alg».proof.Proof.K.Reg2
import proofs.«145887_j33578054320560_2_alg».proof.Proof.K.Reg3
import proofs.«145887_j33578054320560_2_alg».proof.Proof.K.Reg4
import proofs.«145887_j33578054320560_2_alg».proof.Proof.K.Reg5
import proofs.«145887_j33578054320560_2_alg».proof.Proof.LibRegionRecord
import Idealize.ShloMosaic.Lib.Pipeline.Frame
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! # The whole program as host stretches and kernel regions

Between two items of the program a core holds every unscoped buffer whole at a valuation. The valuations are a fold through
the program: the launch memory, then each host stretch's operations applied, then, at each kernel region, the region's
output array replaced by what its write-backs leave (the proof data's final array). -/

variable (m : (ℓ : Loc nD τ sig) → Buf (Elt F) ℓ)

/-- The contents of a core's TensorCore buffers, reference by reference. -/
abbrev TcVal (F : FTy → Type) := (c : Dev nD) → (b : Ref sig .tc) → Buf (Elt F) ((c : Thread nD τ).loc b)

/-- A valuation read at the TensorCore's references. -/
abbrev tcOf (W : Dev nD → Valuation τ sig (Elt F)) : TcVal F := fun c b => W c (Proc.devRef .tc b)

/-- After the first host stretch (region 0's entry). -/
abbrev W1 : Dev nD → Valuation τ sig (Elt F) := fun c => V1 m c
/-- After region 0: its output array at what the write-backs leave. -/
def W2 : Dev nD → Valuation τ sig (Elt F) := fun c => Function.update (W1 m c) main_v18 ((dat0 (tcOf (W1 m)) c).arrAt 7 cfg0.N)
def W3 : Dev nD → Valuation τ sig (Elt F) := fun c => StableHlo.after hostOps1 (W2 m c)
def W4 : Dev nD → Valuation τ sig (Elt F) := fun c => Function.update (W3 m c) main_v47 ((dat1 (tcOf (W3 m)) c).arrAt 7 cfg1.N)
def W5 : Dev nD → Valuation τ sig (Elt F) := fun c => StableHlo.after hostOps2 (W4 m c)
def W6 : Dev nD → Valuation τ sig (Elt F) := fun c => Function.update (W5 m c) main_v76 ((dat2 (tcOf (W5 m)) c).arrAt 7 cfg2.N)
def W7 : Dev nD → Valuation τ sig (Elt F) := fun c => StableHlo.after hostOps3 (W6 m c)
def W8 : Dev nD → Valuation τ sig (Elt F) := fun c => Function.update (W7 m c) main_v105 ((dat3 (tcOf (W7 m)) c).arrAt 7 cfg3.N)
def W9 : Dev nD → Valuation τ sig (Elt F) := fun c => StableHlo.after hostOps4 (W8 m c)
def W10 : Dev nD → Valuation τ sig (Elt F) := fun c => Function.update (W9 m c) main_v134 ((dat4 (tcOf (W9 m)) c).arrAt 7 cfg4.N)
/-- After the eleven host stretches between region 4 and region 5 (pooling, repeat, concatenation). -/
def W21 : Dev nD → Valuation τ sig (Elt F) := fun c =>
  StableHlo.after hostOps5_10 (StableHlo.after hostOps5_9 (StableHlo.after hostOps5_8 (StableHlo.after hostOps5_7
    (StableHlo.after hostOps5_6 (StableHlo.after hostOps5_5 (StableHlo.after hostOps5_4 (StableHlo.after hostOps5_3
      (StableHlo.after hostOps5_2 (StableHlo.after hostOps5_1 (StableHlo.after hostOps5 (W10 m c)))))))))))
def W22 : Dev nD → Valuation τ sig (Elt F) := fun c => Function.update (W21 m c) main_v166 ((dat5 (tcOf (W21 m)) c).arrAt 7 cfg5.N)

/-- What the regions leave, as the family the generated valuations are written over. -/
def outs : Outs (F := F) := fun J r c =>
  match J with
  | 2 => W2 m c r
  | 4 => W4 m c r
  | 6 => W6 m c r
  | 8 => W8 m c r
  | 10 => W10 m c r
  | 22 => W22 m c r
  | _ => m (c, r)

theorem V2_eq : V2 m (outs m) = W2 m := by
  funext c
  show Function.update (V1 m c) main_v18 (W2 m c main_v18) = W2 m c
  unfold W2; rw [Function.update_self]
theorem V3_eq : V3 m (outs m) = W3 m := by
  funext c
  show StableHlo.after hostOps1 (V2 m (outs m) c) = W3 m c
  rw [congrFun (V2_eq m) c]; rfl
theorem V4_eq : V4 m (outs m) = W4 m := by
  funext c
  show Function.update (V3 m (outs m) c) main_v47 (W4 m c main_v47) = W4 m c
  rw [congrFun (V3_eq m) c]; unfold W4; rw [Function.update_self]
theorem V5_eq : V5 m (outs m) = W5 m := by
  funext c
  show StableHlo.after hostOps2 (V4 m (outs m) c) = W5 m c
  rw [congrFun (V4_eq m) c]; rfl
theorem V6_eq : V6 m (outs m) = W6 m := by
  funext c
  show Function.update (V5 m (outs m) c) main_v76 (W6 m c main_v76) = W6 m c
  rw [congrFun (V5_eq m) c]; unfold W6; rw [Function.update_self]
theorem V7_eq : V7 m (outs m) = W7 m := by
  funext c
  show StableHlo.after hostOps3 (V6 m (outs m) c) = W7 m c
  rw [congrFun (V6_eq m) c]; rfl
theorem V8_eq : V8 m (outs m) = W8 m := by
  funext c
  show Function.update (V7 m (outs m) c) main_v105 (W8 m c main_v105) = W8 m c
  rw [congrFun (V7_eq m) c]; unfold W8; rw [Function.update_self]
theorem V9_eq : V9 m (outs m) = W9 m := by
  funext c
  show StableHlo.after hostOps4 (V8 m (outs m) c) = W9 m c
  rw [congrFun (V8_eq m) c]; rfl
theorem V10_eq : V10 m (outs m) = W10 m := by
  funext c
  show Function.update (V9 m (outs m) c) main_v134 (W10 m c main_v134) = W10 m c
  rw [congrFun (V9_eq m) c]; unfold W10; rw [Function.update_self]
theorem V21_eq : V21 m (outs m) = W21 m := by
  funext c
  show StableHlo.after hostOps5_10 (StableHlo.after hostOps5_9 (StableHlo.after hostOps5_8 (StableHlo.after hostOps5_7
    (StableHlo.after hostOps5_6 (StableHlo.after hostOps5_5 (StableHlo.after hostOps5_4 (StableHlo.after hostOps5_3
      (StableHlo.after hostOps5_2 (StableHlo.after hostOps5_1 (StableHlo.after hostOps5 (V10 m (outs m) c))))))))))) = W21 m c
  rw [congrFun (V10_eq m) c]; rfl
theorem V22_eq : V22 m (outs m) = W22 m := by
  funext c
  show Function.update (V21 m (outs m) c) main_v166 (W22 m c main_v166) = W22 m c
  rw [congrFun (V21_eq m) c]; unfold W22; rw [Function.update_self]

/-! ## The proof data family -/

/-- Every region's proof data, each at its region's entry contents: a literal match on the region's number. -/
def pdats : (p : Fin 6) → (c : Dev nD) → Dat τ (Elt F) Unit ℕ (UR sig nD τ) ℕ (cfgs p) c
  | ⟨0, _⟩ => fun c => dat0 (tcOf (W1 m)) c
  | ⟨1, _⟩ => fun c => dat1 (tcOf (W3 m)) c
  | ⟨2, _⟩ => fun c => dat2 (tcOf (W5 m)) c
  | ⟨3, _⟩ => fun c => dat3 (tcOf (W7 m)) c
  | ⟨4, _⟩ => fun c => dat4 (tcOf (W9 m)) c
  | ⟨5, _⟩ => fun c => dat5 (tcOf (W21 m)) c

/-! ## The regions as segments -/

/-- A valuation updated at one TensorCore buffer, read at another, is the valuation there. -/
theorem upd_ne (W : Valuation τ sig (Elt F)) (o : Ref sig .tc) (x) (b : Ref sig .tc) (h : b ≠ o) :
    Function.update W (Proc.devRef .tc o) x (Proc.devRef .tc b) = W (Proc.devRef .tc b) :=
  Function.update_of_ne (StableHlo.devRef_ne_of_ne h) _ _

/-! ### Region 0 -/

/-- At region 0's exit each of its arrays holds what the pipeline leaves: an input array what it held at entry, the output
    array the write-backs folded. -/
theorem hF0 (c : Dev nD) (w : Fin cfg0.W) :
    (dat0 (tcOf (W1 m)) c).arrAt w cfg0.N = W2 m c (Proc.devRef .tc (Pipeline.arrRef spec0 w)) := by
  by_cases hw : w = 7
  · subst hw; unfold W2; rw [Function.update_self]
  · have hin : (cfg0.win w).isOut = false := by revert w; decide
    rw [(dat0 (tcOf (W1 m)) c).arrAt_in w hin _, A_eq0]
    unfold W2
    exact (upd_ne _ main_v18 _ _ (fun e => hw (launch0.win.arr_inj e))).symm

/-- Every buffer that is none of region 0's arrays holds at the exit what it held at entry. -/
theorem hrest0 (c : Dev nD) (b : Ref sig .tc) (hb : b ∉ Finset.univ.image (Pipeline.arrRef spec0)) :
    W2 m c (Proc.devRef .tc b) = W1 m c (Proc.devRef .tc b) := by
  unfold W2
  exact upd_ne _ main_v18 _ _ fun e => hb (Finset.mem_image.mpr ⟨7, Finset.mem_univ _, e.symm⟩)

set_option backward.isDefEq.respectTransparency.types false in
/-- Region 0 as a segment: entered with every unscoped buffer at the entry valuation, left at the exit valuation. -/
def reg0 : RegionSeg (pcfgs (F := F)) adm (pdats m) () defs₀ Variants.none (fun _ => ∅) (fun _ _ => 0) 0 :=
  RegionRecord.regionSeg (U := UR sig nD τ) (pcfgs (F := F)) adm (pdats m) 0 launch0.toP defs₀ Variants.none (W1 m) (W2 m)
    (fun c => (body_obligation0 (tcOf (W1 m)) c).loose)
    (fun c => (pdats m 0 c).share_full fun _ => rfl) (fun c t => rfl) (fun c => rfl)
    (fun c w => A_eq0 (tcOf (W1 m)) c w)
    (fun c k => k.elim0)
    (fun c w => hF0 m c w)
    (fun c b hb => hrest0 m c b hb)
    (fun c => by
      rw [show (pdats m 0 c).Φ 0 = Pipeline.ΦA spec0 c from rfl]
      iintro ⟨H, -⟩; iexact H)
    (fun c => by
      rw [show (pdats m 0 c).Φ (Fin.last _) = Pipeline.ΦA spec0 c from rfl]
      iintro H
      isplitl [H]; · iexact H
      unfold Pipeline.prefHeld; rw [show (Finset.univ : Finset (Fin 0)) = ∅ from rfl, BI.bigSep_empty]; iempintro)

/-! ### Region 1 -/

/-- At region 1's exit each of its arrays holds what the pipeline leaves: an input array what it held at entry, the output
    array the write-backs folded. -/
theorem hF1 (c : Dev nD) (w : Fin cfg1.W) :
    (dat1 (tcOf (W3 m)) c).arrAt w cfg1.N = W4 m c (Proc.devRef .tc (Pipeline.arrRef spec1 w)) := by
  by_cases hw : w = 7
  · subst hw; unfold W4; rw [Function.update_self]
  · have hin : (cfg1.win w).isOut = false := by revert w; decide
    rw [(dat1 (tcOf (W3 m)) c).arrAt_in w hin _, A_eq1]
    unfold W4
    exact (upd_ne _ main_v47 _ _ (fun e => hw (launch1.win.arr_inj e))).symm

/-- Every buffer that is none of region 1's arrays holds at the exit what it held at entry. -/
theorem hrest1 (c : Dev nD) (b : Ref sig .tc) (hb : b ∉ Finset.univ.image (Pipeline.arrRef spec1)) :
    W4 m c (Proc.devRef .tc b) = W3 m c (Proc.devRef .tc b) := by
  unfold W4
  exact upd_ne _ main_v47 _ _ fun e => hb (Finset.mem_image.mpr ⟨7, Finset.mem_univ _, e.symm⟩)

set_option backward.isDefEq.respectTransparency.types false in
/-- Region 1 as a segment: entered with every unscoped buffer at the entry valuation, left at the exit valuation. -/
def reg1 : RegionSeg (pcfgs (F := F)) adm (pdats m) () defs₀ Variants.none (fun _ => ∅) (fun _ _ => 0) 1 :=
  RegionRecord.regionSeg (U := UR sig nD τ) (pcfgs (F := F)) adm (pdats m) 1 launch1.toP defs₀ Variants.none (W3 m) (W4 m)
    (fun c => (body_obligation1 (tcOf (W3 m)) c).loose)
    (fun c => (pdats m 1 c).share_full fun _ => rfl) (fun c t => rfl) (fun c => rfl)
    (fun c w => A_eq1 (tcOf (W3 m)) c w)
    (fun c k => k.elim0)
    (fun c w => hF1 m c w)
    (fun c b hb => hrest1 m c b hb)
    (fun c => by
      rw [show (pdats m 1 c).Φ 0 = Pipeline.ΦA spec1 c from rfl]
      iintro ⟨H, -⟩; iexact H)
    (fun c => by
      rw [show (pdats m 1 c).Φ (Fin.last _) = Pipeline.ΦA spec1 c from rfl]
      iintro H
      isplitl [H]; · iexact H
      unfold Pipeline.prefHeld; rw [show (Finset.univ : Finset (Fin 0)) = ∅ from rfl, BI.bigSep_empty]; iempintro)

/-! ### Region 2 -/

/-- At region 2's exit each of its arrays holds what the pipeline leaves: an input array what it held at entry, the output
    array the write-backs folded. -/
theorem hF2 (c : Dev nD) (w : Fin cfg2.W) :
    (dat2 (tcOf (W5 m)) c).arrAt w cfg2.N = W6 m c (Proc.devRef .tc (Pipeline.arrRef spec2 w)) := by
  by_cases hw : w = 7
  · subst hw; unfold W6; rw [Function.update_self]
  · have hin : (cfg2.win w).isOut = false := by revert w; decide
    rw [(dat2 (tcOf (W5 m)) c).arrAt_in w hin _, A_eq2]
    unfold W6
    exact (upd_ne _ main_v76 _ _ (fun e => hw (launch2.win.arr_inj e))).symm

/-- Every buffer that is none of region 2's arrays holds at the exit what it held at entry. -/
theorem hrest2 (c : Dev nD) (b : Ref sig .tc) (hb : b ∉ Finset.univ.image (Pipeline.arrRef spec2)) :
    W6 m c (Proc.devRef .tc b) = W5 m c (Proc.devRef .tc b) := by
  unfold W6
  exact upd_ne _ main_v76 _ _ fun e => hb (Finset.mem_image.mpr ⟨7, Finset.mem_univ _, e.symm⟩)

set_option backward.isDefEq.respectTransparency.types false in
/-- Region 2 as a segment: entered with every unscoped buffer at the entry valuation, left at the exit valuation. -/
def reg2 : RegionSeg (pcfgs (F := F)) adm (pdats m) () defs₀ Variants.none (fun _ => ∅) (fun _ _ => 0) 2 :=
  RegionRecord.regionSeg (U := UR sig nD τ) (pcfgs (F := F)) adm (pdats m) 2 launch2.toP defs₀ Variants.none (W5 m) (W6 m)
    (fun c => (body_obligation2 (tcOf (W5 m)) c).loose)
    (fun c => (pdats m 2 c).share_full fun _ => rfl) (fun c t => rfl) (fun c => rfl)
    (fun c w => A_eq2 (tcOf (W5 m)) c w)
    (fun c k => k.elim0)
    (fun c w => hF2 m c w)
    (fun c b hb => hrest2 m c b hb)
    (fun c => by
      rw [show (pdats m 2 c).Φ 0 = Pipeline.ΦA spec2 c from rfl]
      iintro ⟨H, -⟩; iexact H)
    (fun c => by
      rw [show (pdats m 2 c).Φ (Fin.last _) = Pipeline.ΦA spec2 c from rfl]
      iintro H
      isplitl [H]; · iexact H
      unfold Pipeline.prefHeld; rw [show (Finset.univ : Finset (Fin 0)) = ∅ from rfl, BI.bigSep_empty]; iempintro)

/-! ### Region 3 -/

/-- At region 3's exit each of its arrays holds what the pipeline leaves: an input array what it held at entry, the output
    array the write-backs folded. -/
theorem hF3 (c : Dev nD) (w : Fin cfg3.W) :
    (dat3 (tcOf (W7 m)) c).arrAt w cfg3.N = W8 m c (Proc.devRef .tc (Pipeline.arrRef spec3 w)) := by
  by_cases hw : w = 7
  · subst hw; unfold W8; rw [Function.update_self]
  · have hin : (cfg3.win w).isOut = false := by revert w; decide
    rw [(dat3 (tcOf (W7 m)) c).arrAt_in w hin _, A_eq3]
    unfold W8
    exact (upd_ne _ main_v105 _ _ (fun e => hw (launch3.win.arr_inj e))).symm

/-- Every buffer that is none of region 3's arrays holds at the exit what it held at entry. -/
theorem hrest3 (c : Dev nD) (b : Ref sig .tc) (hb : b ∉ Finset.univ.image (Pipeline.arrRef spec3)) :
    W8 m c (Proc.devRef .tc b) = W7 m c (Proc.devRef .tc b) := by
  unfold W8
  exact upd_ne _ main_v105 _ _ fun e => hb (Finset.mem_image.mpr ⟨7, Finset.mem_univ _, e.symm⟩)

set_option backward.isDefEq.respectTransparency.types false in
/-- Region 3 as a segment: entered with every unscoped buffer at the entry valuation, left at the exit valuation. -/
def reg3 : RegionSeg (pcfgs (F := F)) adm (pdats m) () defs₀ Variants.none (fun _ => ∅) (fun _ _ => 0) 3 :=
  RegionRecord.regionSeg (U := UR sig nD τ) (pcfgs (F := F)) adm (pdats m) 3 launch3.toP defs₀ Variants.none (W7 m) (W8 m)
    (fun c => (body_obligation3 (tcOf (W7 m)) c).loose)
    (fun c => (pdats m 3 c).share_full fun _ => rfl) (fun c t => rfl) (fun c => rfl)
    (fun c w => A_eq3 (tcOf (W7 m)) c w)
    (fun c k => k.elim0)
    (fun c w => hF3 m c w)
    (fun c b hb => hrest3 m c b hb)
    (fun c => by
      rw [show (pdats m 3 c).Φ 0 = Pipeline.ΦA spec3 c from rfl]
      iintro ⟨H, -⟩; iexact H)
    (fun c => by
      rw [show (pdats m 3 c).Φ (Fin.last _) = Pipeline.ΦA spec3 c from rfl]
      iintro H
      isplitl [H]; · iexact H
      unfold Pipeline.prefHeld; rw [show (Finset.univ : Finset (Fin 0)) = ∅ from rfl, BI.bigSep_empty]; iempintro)

/-! ### Region 4 -/

/-- At region 4's exit each of its arrays holds what the pipeline leaves: an input array what it held at entry, the output
    array the write-backs folded. -/
theorem hF4 (c : Dev nD) (w : Fin cfg4.W) :
    (dat4 (tcOf (W9 m)) c).arrAt w cfg4.N = W10 m c (Proc.devRef .tc (Pipeline.arrRef spec4 w)) := by
  by_cases hw : w = 7
  · subst hw; unfold W10; rw [Function.update_self]
  · have hin : (cfg4.win w).isOut = false := by revert w; decide
    rw [(dat4 (tcOf (W9 m)) c).arrAt_in w hin _, A_eq4]
    unfold W10
    exact (upd_ne _ main_v134 _ _ (fun e => hw (launch4.win.arr_inj e))).symm

/-- Every buffer that is none of region 4's arrays holds at the exit what it held at entry. -/
theorem hrest4 (c : Dev nD) (b : Ref sig .tc) (hb : b ∉ Finset.univ.image (Pipeline.arrRef spec4)) :
    W10 m c (Proc.devRef .tc b) = W9 m c (Proc.devRef .tc b) := by
  unfold W10
  exact upd_ne _ main_v134 _ _ fun e => hb (Finset.mem_image.mpr ⟨7, Finset.mem_univ _, e.symm⟩)

set_option backward.isDefEq.respectTransparency.types false in
/-- Region 4 as a segment: entered with every unscoped buffer at the entry valuation, left at the exit valuation. -/
def reg4 : RegionSeg (pcfgs (F := F)) adm (pdats m) () defs₀ Variants.none (fun _ => ∅) (fun _ _ => 0) 4 :=
  RegionRecord.regionSeg (U := UR sig nD τ) (pcfgs (F := F)) adm (pdats m) 4 launch4.toP defs₀ Variants.none (W9 m) (W10 m)
    (fun c => (body_obligation4 (tcOf (W9 m)) c).loose)
    (fun c => (pdats m 4 c).share_full fun _ => rfl) (fun c t => rfl) (fun c => rfl)
    (fun c w => A_eq4 (tcOf (W9 m)) c w)
    (fun c k => k.elim0)
    (fun c w => hF4 m c w)
    (fun c b hb => hrest4 m c b hb)
    (fun c => by
      rw [show (pdats m 4 c).Φ 0 = Pipeline.ΦA spec4 c from rfl]
      iintro ⟨H, -⟩; iexact H)
    (fun c => by
      rw [show (pdats m 4 c).Φ (Fin.last _) = Pipeline.ΦA spec4 c from rfl]
      iintro H
      isplitl [H]; · iexact H
      unfold Pipeline.prefHeld; rw [show (Finset.univ : Finset (Fin 0)) = ∅ from rfl, BI.bigSep_empty]; iempintro)

/-! ### Region 5 -/

/-- At region 5's exit each of its arrays holds what the pipeline leaves: an input array what it held at entry, the output
    array the write-backs folded. -/
theorem hF5 (c : Dev nD) (w : Fin cfg5.W) :
    (dat5 (tcOf (W21 m)) c).arrAt w cfg5.N = W22 m c (Proc.devRef .tc (Pipeline.arrRef spec5 w)) := by
  by_cases hw : w = 7
  · subst hw; unfold W22; rw [Function.update_self]
  · have hin : (cfg5.win w).isOut = false := by revert w; decide
    rw [(dat5 (tcOf (W21 m)) c).arrAt_in w hin _, A_eq5]
    unfold W22
    exact (upd_ne _ main_v166 _ _ (fun e => hw (launch5.win.arr_inj e))).symm

/-- Every buffer that is none of region 5's arrays holds at the exit what it held at entry. -/
theorem hrest5 (c : Dev nD) (b : Ref sig .tc) (hb : b ∉ Finset.univ.image (Pipeline.arrRef spec5)) :
    W22 m c (Proc.devRef .tc b) = W21 m c (Proc.devRef .tc b) := by
  unfold W22
  exact upd_ne _ main_v166 _ _ fun e => hb (Finset.mem_image.mpr ⟨7, Finset.mem_univ _, e.symm⟩)

set_option backward.isDefEq.respectTransparency.types false in
/-- Region 5 as a segment: entered with every unscoped buffer at the entry valuation, left at the exit valuation. -/
def reg5 : RegionSeg (pcfgs (F := F)) adm (pdats m) () defs₀ Variants.none (fun _ => ∅) (fun _ _ => 0) 5 :=
  RegionRecord.regionSeg (U := UR sig nD τ) (pcfgs (F := F)) adm (pdats m) 5 launch5.toP defs₀ Variants.none (W21 m) (W22 m)
    (fun c => (body_obligation5 (tcOf (W21 m)) c).loose)
    (fun c => (pdats m 5 c).share_full fun _ => rfl) (fun c t => rfl) (fun c => rfl)
    (fun c w => A_eq5 (tcOf (W21 m)) c w)
    (fun c k => k.elim0)
    (fun c w => hF5 m c w)
    (fun c b hb => hrest5 m c b hb)
    (fun c => by
      rw [show (pdats m 5 c).Φ 0 = Pipeline.ΦA spec5 c from rfl]
      iintro ⟨H, -⟩; iexact H)
    (fun c => by
      rw [show (pdats m 5 c).Φ (Fin.last _) = Pipeline.ΦA spec5 c from rfl]
      iintro H
      isplitl [H]; · iexact H
      unfold Pipeline.prefHeld; rw [show (Finset.univ : Finset (Fin 0)) = ∅ from rfl, BI.bigSep_empty]; iempintro)

/-! ## The run -/

/-- What rides beside the buffers through every segment: the generator register at some state, and the core owing nothing. -/
abbrev Rd (c : Dev nD) : sProp 𝕄 := RegionRecord.rider (U := UR sig nD τ) (Val := Elt F) c

/-- At the launch a core's generator register and its empty dues are what rides along. -/
theorem launch_rider (ρ : Dev nD → PrngReg) (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)) : sProp 𝕄) ⊢ Rd (F := F) c := by
  iintro ⟨-, HO, -, Hp, -⟩
  isplitl [Hp]; · iexists _; iexact Hp
  iexists ∅; iexact HO

set_option backward.isDefEq.respectTransparency.types false in
/-- THE RUN. From any memory with zero counters every weakly fair execution of the program terminates, nothing faulting;
    the result buffer ends at what region 5's write-backs leave in it, and every argument array ends as launched. -/
theorem run (ρ : Dev nD → PrngReg) :
    θ_run defs (onTc (τ := τ) (main (F := F))) ⟨m, fun _ => 0, ρ⟩ (fun r => ∀ c : Dev nD,
      r.2.mem ((c.tc : Thread nD τ).loc main_v166) = W22 m c (Proc.devRef .tc main_v166)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  GenP.run_cond m (Ix := Unit) (U := UR sig nD τ) (Lvl := ℕ) emb₁ () Variants.none (fun _ => ∅) (fun _ _ => 0) (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rd c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄)
          ⊢ bigSep Finset.univ fun c : Dev nD => Rd (F := F) c :=
        bigSep_mono fun c _ => launch_rider ρ c
      iintro ⟨H, -⟩
      imodintro
      iapply hmono
      iexact H)
    (hE6 := fun c => by iintro ⟨-, H⟩; iexact H)
    (reg0 m) (fun c => .rfl) (fun c => by rw [congrFun (V2_eq m) c]; exact .rfl)
    (reg1 m) (fun c => by rw [congrFun (V3_eq m) c]; exact .rfl) (fun c => by rw [congrFun (V4_eq m) c]; exact .rfl)
    (reg2 m) (fun c => by rw [congrFun (V5_eq m) c]; exact .rfl) (fun c => by rw [congrFun (V6_eq m) c]; exact .rfl)
    (reg3 m) (fun c => by rw [congrFun (V7_eq m) c]; exact .rfl) (fun c => by rw [congrFun (V8_eq m) c]; exact .rfl)
    (reg4 m) (fun c => by rw [congrFun (V9_eq m) c]; exact .rfl) (fun c => by rw [congrFun (V10_eq m) c]; exact .rfl)
    (reg5 m) (fun c => by rw [congrFun (V21_eq m) c]; exact .rfl) (fun c => by rw [congrFun (V22_eq m) c]; exact .rfl)

end Cert.Kernel.Hand

end
-- ==== Proof.KI.Reg0.lean ====
/- The body obligation of kernel region 0: the kernel body, run on whole staging buffers holding the seven input
   blocks, leaves the inputs as they were and the output buffer at the body's arithmetic over them; stated
   at any float instance and any region-entry contents `V`. -/
import proofs.«145887_j33578054320560_2_alg».proof.Proof.Gen.KernelIdeal.Launch
import proofs.«145887_j33578054320560_2_alg».proof.Proof.Gen.KernelIdeal.Skeleton
import proofs.«145887_j33578054320560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not: where the
    window is not fetched its block index has not moved, and the body leaves the buffer as it was. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole-shape rectangle at offset zero -/

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S128 := Rect.unit (s := S128) ![0] S128.size inb_S128_S128_0
abbrev r0_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out0_7 (x0 : Vec F S10000x64 .f32) (x1 : Vec F S64x128 .f32) (x2 : Vec F S128 .f32) (x3 : Vec F S128 .f32) (x4 : Vec F S128 .f32) (x5 : Vec F S128 .f32) (x6 : Vec F S128 .f32) : Vec F S10000x128 .f32 :=
  View.canon [⟨r0_7, k0_pay1 (View.ld x0 r0_0) (View.ld x1 r0_1) (View.ld x2 r0_2) (View.ld x3 r0_2) (View.ld x6 r0_2) (View.ld x5 r0_2) (View.ld x4 r0_2)⟩]

/-- A whole-shape load at offset zero reads the buffer and a whole-shape store there leaves its payload: the
    output buffer holds the body's arithmetic over the input blocks themselves. -/
theorem out0_7_eq (x0 : Vec F S10000x64 .f32) (x1 : Vec F S64x128 .f32) (x2 : Vec F S128 .f32) (x3 : Vec F S128 .f32) (x4 : Vec F S128 .f32) (x5 : Vec F S128 .f32) (x6 : Vec F S128 .f32) : out0_7 x0 x1 x2 x3 x4 x5 x6 = k0_pay1 x0 x1 x2 x3 x6 x5 x4 := by
  unfold out0_7
  rw [View.canon_unit_zero (S := S10000x128) (by funext a; fin_cases a <;> rfl) inb_S10000x128_S10000x128_0_0]
  rw [View.ld_unit_zero (S := S10000x64) (by funext a; fin_cases a <;> rfl) inb_S10000x64_S10000x64_0_0 x0,
    View.ld_unit_zero (S := S64x128) (by funext a; fin_cases a <;> rfl) inb_S64x128_S64x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover0_7 (p0 : Vec F S10000x128 .f32) (y : S10000x128.Idx) :
    ∃ pc ∈ ([⟨r0_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg1 : Memref sig .tc .vmem S10000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x64 .f32) (x1 : Vec F S64x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8) K := by
  simp only [cc0__gin_mlp_kernel_eq_skeleton]; unfold cc0__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
/- The body obligation of kernel region 1: the kernel body, run on whole staging buffers holding the seven input
   blocks, leaves the inputs as they were and the output buffer at the body's arithmetic over them; stated
   at any float instance and any region-entry contents `V`. -/
import proofs.«145887_j33578054320560_2_alg».proof.Proof.Gen.KernelIdeal.Launch
import proofs.«145887_j33578054320560_2_alg».proof.Proof.Gen.KernelIdeal.Skeleton
import proofs.«145887_j33578054320560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where the
    window is not fetched its block index has not moved, and the body leaves the buffer as it was. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole-shape rectangle at offset zero -/

abbrev r1_0 : Rect S10000x128 := Rect.unit (s := S10000x128) ![0, 0] S10000x128.size inb_S10000x128_S10000x128_0_0
abbrev r1_1 : Rect S128x128 := Rect.unit (s := S128x128) ![0, 0] S128x128.size inb_S128x128_S128x128_0_0
abbrev r1_2 : Rect S128 := Rect.unit (s := S128) ![0] S128.size inb_S128_S128_0
abbrev r1_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out1_7 (x0 : Vec F S10000x128 .f32) (x1 : Vec F S128x128 .f32) (x2 : Vec F S128 .f32) (x3 : Vec F S128 .f32) (x4 : Vec F S128 .f32) (x5 : Vec F S128 .f32) (x6 : Vec F S128 .f32) : Vec F S10000x128 .f32 :=
  View.canon [⟨r1_7, k1_pay1 (View.ld x0 r1_0) (View.ld x1 r1_1) (View.ld x2 r1_2) (View.ld x3 r1_2) (View.ld x6 r1_2) (View.ld x5 r1_2) (View.ld x4 r1_2)⟩]

/-- A whole-shape load at offset zero reads the buffer and a whole-shape store there leaves its payload: the
    output buffer holds the body's arithmetic over the input blocks themselves. -/
theorem out1_7_eq (x0 : Vec F S10000x128 .f32) (x1 : Vec F S128x128 .f32) (x2 : Vec F S128 .f32) (x3 : Vec F S128 .f32) (x4 : Vec F S128 .f32) (x5 : Vec F S128 .f32) (x6 : Vec F S128 .f32) : out1_7 x0 x1 x2 x3 x4 x5 x6 = k1_pay1 x0 x1 x2 x3 x6 x5 x4 := by
  unfold out1_7
  rw [View.canon_unit_zero (S := S10000x128) (by funext a; fin_cases a <;> rfl) inb_S10000x128_S10000x128_0_0]
  rw [View.ld_unit_zero (S := S10000x128) (by funext a; fin_cases a <;> rfl) inb_S10000x128_S10000x128_0_0 x0,
    View.ld_unit_zero (S := S128x128) (by funext a; fin_cases a <;> rfl) inb_S128x128_S128x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover1_7 (p0 : Vec F S10000x128 .f32) (y : S10000x128.Idx) :
    ∃ pc ∈ ([⟨r1_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x128 .f32) (x1 : Vec F S128x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8) K := by
  simp only [cc1__gin_mlp_kernel_eq_skeleton]; unfold cc1__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_7 _)

/-! ## The pipeline's proof data -/

/-- The proof data of pipeline 1 on core `c`: the arrays as the region finds them (`V`); after the body at
    point `t` each input's buffer at its block and the output's at `out1_7` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Reg2.lean ====
/- The body obligation of kernel region 2: the kernel body, run on whole staging buffers holding the seven input
   blocks, leaves the inputs as they were and the output buffer at the body's arithmetic over them; stated
   at any float instance and any region-entry contents `V`. -/
import proofs.«145887_j33578054320560_2_alg».proof.Proof.Gen.KernelIdeal.Launch
import proofs.«145887_j33578054320560_2_alg».proof.Proof.Gen.KernelIdeal.Skeleton
import proofs.«145887_j33578054320560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not: where the
    window is not fetched its block index has not moved, and the body leaves the buffer as it was. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole-shape rectangle at offset zero -/

abbrev r2_0 : Rect S10000x128 := Rect.unit (s := S10000x128) ![0, 0] S10000x128.size inb_S10000x128_S10000x128_0_0
abbrev r2_1 : Rect S128x128 := Rect.unit (s := S128x128) ![0, 0] S128x128.size inb_S128x128_S128x128_0_0
abbrev r2_2 : Rect S128 := Rect.unit (s := S128) ![0] S128.size inb_S128_S128_0
abbrev r2_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out2_7 (x0 : Vec F S10000x128 .f32) (x1 : Vec F S128x128 .f32) (x2 : Vec F S128 .f32) (x3 : Vec F S128 .f32) (x4 : Vec F S128 .f32) (x5 : Vec F S128 .f32) (x6 : Vec F S128 .f32) : Vec F S10000x128 .f32 :=
  View.canon [⟨r2_7, k2_pay1 (View.ld x0 r2_0) (View.ld x1 r2_1) (View.ld x2 r2_2) (View.ld x3 r2_2) (View.ld x6 r2_2) (View.ld x5 r2_2) (View.ld x4 r2_2)⟩]

/-- A whole-shape load at offset zero reads the buffer and a whole-shape store there leaves its payload: the
    output buffer holds the body's arithmetic over the input blocks themselves. -/
theorem out2_7_eq (x0 : Vec F S10000x128 .f32) (x1 : Vec F S128x128 .f32) (x2 : Vec F S128 .f32) (x3 : Vec F S128 .f32) (x4 : Vec F S128 .f32) (x5 : Vec F S128 .f32) (x6 : Vec F S128 .f32) : out2_7 x0 x1 x2 x3 x4 x5 x6 = k2_pay1 x0 x1 x2 x3 x6 x5 x4 := by
  unfold out2_7
  rw [View.canon_unit_zero (S := S10000x128) (by funext a; fin_cases a <;> rfl) inb_S10000x128_S10000x128_0_0]
  rw [View.ld_unit_zero (S := S10000x128) (by funext a; fin_cases a <;> rfl) inb_S10000x128_S10000x128_0_0 x0,
    View.ld_unit_zero (S := S128x128) (by funext a; fin_cases a <;> rfl) inb_S128x128_S128x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover2_7 (p0 : Vec F S10000x128 .f32) (y : S10000x128.Idx) :
    ∃ pc ∈ ([⟨r2_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x128 .f32) (x1 : Vec F S128x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8) K := by
  simp only [cc2__gin_mlp_kernel_eq_skeleton]; unfold cc2__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_7 _)

/-! ## The pipeline's proof data -/

/-- The proof data of pipeline 2 on core `c`: the arrays as the region finds them (`V`); after the body at
    point `t` each input's buffer at its block and the output's at `out2_7` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Reg3.lean ====
/- The body obligation of kernel region 3: the kernel body, run on whole staging buffers holding the seven input
   blocks, leaves the inputs as they were and the output buffer at the body's arithmetic over them; stated
   at any float instance and any region-entry contents `V`. -/
import proofs.«145887_j33578054320560_2_alg».proof.Proof.Gen.KernelIdeal.Launch
import proofs.«145887_j33578054320560_2_alg».proof.Proof.Gen.KernelIdeal.Skeleton
import proofs.«145887_j33578054320560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not: where the
    window is not fetched its block index has not moved, and the body leaves the buffer as it was. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole-shape rectangle at offset zero -/

abbrev r3_0 : Rect S10000x128 := Rect.unit (s := S10000x128) ![0, 0] S10000x128.size inb_S10000x128_S10000x128_0_0
abbrev r3_1 : Rect S128x128 := Rect.unit (s := S128x128) ![0, 0] S128x128.size inb_S128x128_S128x128_0_0
abbrev r3_2 : Rect S128 := Rect.unit (s := S128) ![0] S128.size inb_S128_S128_0
abbrev r3_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out3_7 (x0 : Vec F S10000x128 .f32) (x1 : Vec F S128x128 .f32) (x2 : Vec F S128 .f32) (x3 : Vec F S128 .f32) (x4 : Vec F S128 .f32) (x5 : Vec F S128 .f32) (x6 : Vec F S128 .f32) : Vec F S10000x128 .f32 :=
  View.canon [⟨r3_7, k3_pay1 (View.ld x0 r3_0) (View.ld x1 r3_1) (View.ld x2 r3_2) (View.ld x3 r3_2) (View.ld x6 r3_2) (View.ld x5 r3_2) (View.ld x4 r3_2)⟩]

/-- A whole-shape load at offset zero reads the buffer and a whole-shape store there leaves its payload: the
    output buffer holds the body's arithmetic over the input blocks themselves. -/
theorem out3_7_eq (x0 : Vec F S10000x128 .f32) (x1 : Vec F S128x128 .f32) (x2 : Vec F S128 .f32) (x3 : Vec F S128 .f32) (x4 : Vec F S128 .f32) (x5 : Vec F S128 .f32) (x6 : Vec F S128 .f32) : out3_7 x0 x1 x2 x3 x4 x5 x6 = k3_pay1 x0 x1 x2 x3 x6 x5 x4 := by
  unfold out3_7
  rw [View.canon_unit_zero (S := S10000x128) (by funext a; fin_cases a <;> rfl) inb_S10000x128_S10000x128_0_0]
  rw [View.ld_unit_zero (S := S10000x128) (by funext a; fin_cases a <;> rfl) inb_S10000x128_S10000x128_0_0 x0,
    View.ld_unit_zero (S := S128x128) (by funext a; fin_cases a <;> rfl) inb_S128x128_S128x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover3_7 (p0 : Vec F S10000x128 .f32) (y : S10000x128.Idx) :
    ∃ pc ∈ ([⟨r3_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x128 .f32) (x1 : Vec F S128x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8) K := by
  simp only [cc3__gin_mlp_kernel_eq_skeleton]; unfold cc3__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_7 _)

/-! ## The pipeline's proof data -/

/-- The proof data of pipeline 3 on core `c`: the arrays as the region finds them (`V`); after the body at
    point `t` each input's buffer at its block and the output's at `out3_7` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-! What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-! Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg4.lean ====
/- The body obligation of kernel region 4: the kernel body, run on whole staging buffers holding the seven input
   blocks, leaves the inputs as they were and the output buffer at the body's arithmetic over them; stated
   at any float instance and any region-entry contents `V`. -/
import proofs.«145887_j33578054320560_2_alg».proof.Proof.Gen.KernelIdeal.Launch
import proofs.«145887_j33578054320560_2_alg».proof.Proof.Gen.KernelIdeal.Skeleton
import proofs.«145887_j33578054320560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! Each input window's current staging buffer holds its block at every point, fetched there or not: where the
    window is not fetched its block index has not moved, and the body leaves the buffer as it was. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole-shape rectangle at offset zero -/

abbrev r4_0 : Rect S10000x128 := Rect.unit (s := S10000x128) ![0, 0] S10000x128.size inb_S10000x128_S10000x128_0_0
abbrev r4_1 : Rect S128x128 := Rect.unit (s := S128x128) ![0, 0] S128x128.size inb_S128x128_S128x128_0_0
abbrev r4_2 : Rect S128 := Rect.unit (s := S128) ![0] S128.size inb_S128_S128_0
abbrev r4_7 : Rect S10000x128 := Rect.unit (s := S10000x128) ![0, 0] S10000x128.size inb_S10000x128_S10000x128_0_0

/-! ## What the body leaves in the output window's buffer -/

/-- Window 7's staging buffer after the body, from the input windows' blocks (in window order): its one store,
    whose payload is the body's arithmetic over what the seven loads read. -/
def out4_7 (x0 : Vec F S10000x128 .f32) (x1 : Vec F S128x128 .f32) (x2 : Vec F S128 .f32) (x3 : Vec F S128 .f32) (x4 : Vec F S128 .f32) (x5 : Vec F S128 .f32) (x6 : Vec F S128 .f32) : Vec F S10000x128 .f32 :=
  View.canon [⟨r4_7, k4_pay1 (View.ld x0 r4_0) (View.ld x1 r4_1) (View.ld x2 r4_2) (View.ld x3 r4_2) (View.ld x6 r4_2) (View.ld x5 r4_2) (View.ld x4 r4_2)⟩]

/-- A whole-shape load at offset zero reads the buffer and a whole-shape store there leaves its payload: the
    output buffer holds the body's arithmetic over the input blocks themselves. -/
theorem out4_7_eq (x0 : Vec F S10000x128 .f32) (x1 : Vec F S128x128 .f32) (x2 : Vec F S128 .f32) (x3 : Vec F S128 .f32) (x4 : Vec F S128 .f32) (x5 : Vec F S128 .f32) (x6 : Vec F S128 .f32) : out4_7 x0 x1 x2 x3 x4 x5 x6 = k4_pay1 x0 x1 x2 x3 x6 x5 x4 := by
  unfold out4_7
  rw [View.canon_unit_zero (S := S10000x128) (by funext a; fin_cases a <;> rfl) inb_S10000x128_S10000x128_0_0]
  rw [View.ld_unit_zero (S := S10000x128) (by funext a; fin_cases a <;> rfl) inb_S10000x128_S10000x128_0_0 x0,
    View.ld_unit_zero (S := S128x128) (by funext a; fin_cases a <;> rfl) inb_S128x128_S128x128_0_0 x1,
    View.ld_unit_zero (S := S128) (by funext a; fin_cases a; rfl) inb_S128_S128_0 x2,
    View.ld_unit_zero (S := S128) (by funext a; fin_cases a; rfl) inb_S128_S128_0 x3,
    View.ld_unit_zero (S := S128) (by funext a; fin_cases a; rfl) inb_S128_S128_0 x4,
    View.ld_unit_zero (S := S128) (by funext a; fin_cases a; rfl) inb_S128_S128_0 x5,
    View.ld_unit_zero (S := S128) (by funext a; fin_cases a; rfl) inb_S128_S128_0 x6]

/-- The one store covers the buffer: its rectangle is the whole shape. -/
theorem cover4_7 (p0 : Vec F S10000x128 .f32) (y : S10000x128.Idx) :
    ∃ pc ∈ ([⟨r4_7, p0⟩] : List (View.Piece (Elt F) S10000x128 .f32)), y ∈ pc.1.set :=
  ⟨_, List.mem_singleton_self _, View.mem_set_unit_zero (S := S10000x128) (by funext a; fin_cases a <;> rfl) inb_S10000x128_S10000x128_0_0 y⟩

/-! ## The body's triple -/

set_option maxHeartbeats 4000000 in
/-- The kernel body on whole staging memrefs, the inputs' at read contents `xW` and the output's at anything, runs to
    the continuation holding the inputs' as they were and the output's at `out4_7` of the inputs'. -/
theorem sound_kernel4 (c : Dev nD) (E : Set ℕ) (i : grid4.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S10000x128 .f32) (harg8 : arg8.IsWhole)
    (x0 : Vec F S10000x128 .f32) (x1 : Vec F S128x128 .f32) (x2 : Vec F S128 .f32) (x3 : Vec F S128 .f32) (x4 : Vec F S128 .f32) (x5 : Vec F S128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__gin_mlp_kernel i arg1 harg1 arg2 harg2 arg3 harg3 arg4 harg4 arg5 harg5 arg6 harg6 arg7 harg7 arg8 harg8) K := by
  simp only [cc4__gin_mlp_kernel_eq_skeleton]; unfold cc4__gin_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover4_7 _)

/-! ## The pipeline's proof data -/

/-- The proof data of pipeline 4 on core `c`: the arrays as the region finds them (`V`); after the body at
    point `t` each input's buffer at its block and the output's at `out4_7` of the input blocks; the invariant
    the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-! Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 4000000 in
/-- The body at any point: the inputs' memrefs hold their blocks, so `sound_kernel4` applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg5.lean ====
/- The body obligation of the classifier pipeline (grid of 50 points, blocks of 2000 rows), at any float instance:
   what the body leaves in the output window's staging buffer as one pure term of the input windows' blocks, the
   body's triple, the pipeline's proof data at the region-entry contents, and the library's obligation. -/
import proofs.«145887_j33578054320560_2_alg».proof.Proof.Gen.KernelIdeal.Launch
import proofs.«145887_j33578054320560_2_alg».proof.Proof.Gen.KernelIdeal.Skeleton
import proofs.«145887_j33578054320560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block
    index has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s (`hA`) and whose body leaves the block in place (`hafter`): unfetched, the block
    index has not moved; the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S2000x768 := Rect.unit (s := S2000x768) ![0, 0] S2000x768.size inb_S2000x768_S2000x768_0_0
abbrev r5_1 : Rect S768x256 := Rect.unit (s := S768x256) ![0, 0] S768x256.size inb_S768x256_S768x256_0_0
abbrev r5_2 : Rect S256 := Rect.unit (s := S256) ![0] S256.size inb_S256_S256_0
abbrev r5_3 : Rect S2x256x256 := Rect.unit (s := S2x256x256) ![0, 0, 0] S1x256x256.size inb_S2x256x256_S1x256x256_0_0_0
abbrev r5_4 : Rect S2x256 := Rect.unit (s := S2x256) ![0, 0] S1x256.size inb_S2x256_S1x256_0_0
abbrev r5_5 : Rect S2x256x256 := Rect.unit (s := S2x256x256) ![1, 0, 0] S1x256x256.size inb_S2x256x256_S1x256x256_1_0_0
abbrev r5_6 : Rect S2x256 := Rect.unit (s := S2x256) ![1, 0] S1x256.size inb_S2x256_S1x256_1_0
abbrev r5_7 : Rect S256x1 := Rect.unit (s := S256x1) ![0, 0] S256x1.size inb_S256x1_S256x1_0_0
abbrev r5_8 : Rect S1 := Rect.unit (s := S1) ![0] S1.size inb_S1_S1_0
abbrev r5_9 : Rect S2000x1 := Rect.unit (s := S2000x1) ![0, 0] S2000x1.size inb_S2000x1_S2000x1_0_0

/-! ## What the body leaves in the output window's buffer -/

/-- Window 7's staging buffer after the body, from the input windows' blocks: its one store as a piece; the
    payloads are the skeleton's, over what the loads read of the inputs (the two stacked layers of windows 3 and 4
    read as slices at offsets 0 and 1 of the leading axis). -/
def out5_7 (x0 : Vec F S2000x768 .f32) (x1 : Vec F S768x256 .f32) (x2 : Vec F S256 .f32) (x3 : Vec F S2x256x256 .f32) (x4 : Vec F S2x256 .f32) (x5 : Vec F S256x1 .f32) (x6 : Vec F S1 .f32) : Vec F S2000x1 .f32 :=
  View.canon [⟨r5_9, k5_pay1 (k5_pay2 (View.ld x0 r5_0) (View.ld x1 r5_1) (View.ld x2 r5_2) (View.ld x3 r5_3) (View.ld x4 r5_4) (View.ld x3 r5_5) (View.ld x4 r5_6)) (k5_pay3 (View.ld x0 r5_0) (View.ld x1 r5_1) (View.ld x2 r5_2) (View.ld x3 r5_3) (View.ld x4 r5_4) (View.ld x3 r5_5) (View.ld x4 r5_6)) (Scalar.ofBits .f32 0x3C23D70A#32) (View.ld x5 r5_7) (View.ld x6 r5_8)⟩]

/-- Its store tiles the buffer (checked by evaluation), so it covers it. -/
theorem cover5_7 (p0 : Vec F S2000x1 .f32) (y : S2000x1.Idx) :
    ∃ pc ∈ ([⟨r5_9, p0⟩] : List (View.Piece (Elt F) S2000x1 .f32)), y ∈ pc.1.set :=
  View.cover_of_tiled [⟨r5_9, p0⟩] S2000x1.size (by rfl) y

/-- The whole-buffer loads read the buffers and the one covering store leaves its payload: the output staging
    buffer after the body is the payload of the input buffers, windows 3 and 4 through their two slices. -/
theorem out5_7_eq (x0 : Vec F S2000x768 .f32) (x1 : Vec F S768x256 .f32) (x2 : Vec F S256 .f32) (x3 : Vec F S2x256x256 .f32) (x4 : Vec F S2x256 .f32) (x5 : Vec F S256x1 .f32) (x6 : Vec F S1 .f32) :
    out5_7 x0 x1 x2 x3 x4 x5 x6 = k5_pay1 (k5_pay2 x0 x1 x2 (View.ld x3 r5_3) (View.ld x4 r5_4) (View.ld x3 r5_5) (View.ld x4 r5_6)) (k5_pay3 x0 x1 x2 (View.ld x3 r5_3) (View.ld x4 r5_4) (View.ld x3 r5_5) (View.ld x4 r5_6)) (Scalar.ofBits .f32 0x3C23D70A#32) x5 x6 := by
  have hz9 : (![0, 0] : Fin S2000x1.rank → Nat) = fun _ => 0 := funext fun a => by fin_cases a <;> rfl
  have hz0 : (![0, 0] : Fin S2000x768.rank → Nat) = fun _ => 0 := funext fun a => by fin_cases a <;> rfl
  have hz1 : (![0, 0] : Fin S768x256.rank → Nat) = fun _ => 0 := funext fun a => by fin_cases a <;> rfl
  have hz2 : (![0] : Fin S256.rank → Nat) = fun _ => 0 := funext fun a => by fin_cases a <;> rfl
  have hz7 : (![0, 0] : Fin S256x1.rank → Nat) = fun _ => 0 := funext fun a => by fin_cases a <;> rfl
  have hz8 : (![0] : Fin S1.rank → Nat) = fun _ => 0 := funext fun a => by fin_cases a <;> rfl
  unfold out5_7
  rw [View.canon_unit_zero hz9, View.ld_unit_zero hz0, View.ld_unit_zero hz1, View.ld_unit_zero hz2,
    View.ld_unit_zero hz7, View.ld_unit_zero hz8]

/-! ## The body's triple -/

set_option maxHeartbeats 1000000 in
/-- The kernel body on whole staging memrefs, the inputs' at read contents `xW` and the output's at anything, runs to
    the continuation holding the inputs' as they were and the output's at `out5_7` of the inputs': the printed
    functions are their skeletons, which the executor runs, through the part call. -/
theorem sound_kernel5 (c : Dev nD) (E : Set ℕ) (i : grid5.Coords) (arg1 : Memref sig .tc .vmem S2000x768 .f32) (harg1 : arg1.IsWhole) (arg2 : Memref sig .tc .vmem S768x256 .f32) (harg2 : arg2.IsWhole) (arg3 : Memref sig .tc .vmem S256 .f32) (harg3 : arg3.IsWhole) (arg4 : Memref sig .tc .vmem S2x256x256 .f32) (harg4 : arg4.IsWhole) (arg5 : Memref sig .tc .vmem S2x256 .f32) (harg5 : arg5.IsWhole) (arg6 : Memref sig .tc .vmem S256x1 .f32) (harg6 : arg6.IsWhole) (arg7 : Memref sig .tc .vmem S1 .f32) (harg7 : arg7.IsWhole) (arg8 : Memref sig .tc .vmem S2000x1 .f32) (harg8 : arg8.IsWhole)
    (x0 : Vec F S2000x768 .f32) (x1 : Vec F S768x256 .f32) (x2 : Vec F S256 .f32) (x3 : Vec F S2x256x256 .f32) (x4 : Vec F S2x256 .f32) (x5 : Vec F S256x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__classifier_kernel i arg1 harg1 arg2 harg2 arg3 harg3 arg4 harg4 arg5 harg5 arg6 harg6 arg7 harg7 arg8 harg8) K := by
  simp only [cc5__classifier_kernel_eq_skeleton]; unfold cc5__classifier_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover5_7 _)

/-! ## The pipeline's proof data -/

/-- The proof data of the pipeline on core `c`: the arrays as the region finds them (`V`); after the body at
    point `t` each input's buffer at its block and the output's at `out5_7` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t` (the library's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
import proofs.«145887_j33578054320560_2_alg».proof.Proof.Gen.KernelIdeal.Skeleton
import proofs.«145887_j33578054320560_2_alg».proof.Proof.Gen.KernelIdeal.Launch
import proofs.«145887_j33578054320560_2_alg».proof.Proof.Gen.KernelIdeal.Points
import proofs.«145887_j33578054320560_2_alg».proof.Proof.Gen.KernelIdeal.Regions
import proofs.«145887_j33578054320560_2_alg».proof.Proof.KI.RunCond
import proofs.«145887_j33578054320560_2_alg».proof.Proof.KI.Reg0
import proofs.«145887_j33578054320560_2_alg».proof.Proof.KI.Reg1
import proofs.«145887_j33578054320560_2_alg».proof.Proof.KI.Reg2
import proofs.«145887_j33578054320560_2_alg».proof.Proof.KI.Reg3
import proofs.«145887_j33578054320560_2_alg».proof.Proof.KI.Reg4
import proofs.«145887_j33578054320560_2_alg».proof.Proof.KI.Reg5
import proofs.«145887_j33578054320560_2_alg».proof.Proof.LibRegionRecord
import Idealize.ShloMosaic.Lib.Pipeline.Frame
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

/-! # The whole program as host stretches and kernel regions

Between two items of the program a core holds every unscoped buffer whole at a valuation. The valuations are a fold through
the program: the launch memory, then each host stretch's operations applied, then, at each kernel region, the region's
output array replaced by what its write-backs leave (the proof data's final array). -/

variable (m : (ℓ : Loc nD τ sig) → Buf (Elt F) ℓ)

/-- The contents of a core's TensorCore buffers, reference by reference. -/
abbrev TcVal (F : FTy → Type) := (c : Dev nD) → (b : Ref sig .tc) → Buf (Elt F) ((c : Thread nD τ).loc b)

/-- A valuation read at the TensorCore's references. -/
abbrev tcOf (W : Dev nD → Valuation τ sig (Elt F)) : TcVal F := fun c b => W c (Proc.devRef .tc b)

/-- After the first host stretch (region 0's entry). -/
abbrev W1 : Dev nD → Valuation τ sig (Elt F) := fun c => V1 m c
/-- After region 0: its output array at what the write-backs leave. -/
def W2 : Dev nD → Valuation τ sig (Elt F) := fun c => Function.update (W1 m c) main_v18 ((dat0 (tcOf (W1 m)) c).arrAt 7 cfg0.N)
def W3 : Dev nD → Valuation τ sig (Elt F) := fun c => StableHlo.after hostOps1 (W2 m c)
def W4 : Dev nD → Valuation τ sig (Elt F) := fun c => Function.update (W3 m c) main_v47 ((dat1 (tcOf (W3 m)) c).arrAt 7 cfg1.N)
def W5 : Dev nD → Valuation τ sig (Elt F) := fun c => StableHlo.after hostOps2 (W4 m c)
def W6 : Dev nD → Valuation τ sig (Elt F) := fun c => Function.update (W5 m c) main_v76 ((dat2 (tcOf (W5 m)) c).arrAt 7 cfg2.N)
def W7 : Dev nD → Valuation τ sig (Elt F) := fun c => StableHlo.after hostOps3 (W6 m c)
def W8 : Dev nD → Valuation τ sig (Elt F) := fun c => Function.update (W7 m c) main_v105 ((dat3 (tcOf (W7 m)) c).arrAt 7 cfg3.N)
def W9 : Dev nD → Valuation τ sig (Elt F) := fun c => StableHlo.after hostOps4 (W8 m c)
def W10 : Dev nD → Valuation τ sig (Elt F) := fun c => Function.update (W9 m c) main_v134 ((dat4 (tcOf (W9 m)) c).arrAt 7 cfg4.N)
/-- After the eleven host stretches between region 4 and region 5 (pooling, repeat, concatenation). -/
def W21 : Dev nD → Valuation τ sig (Elt F) := fun c =>
  StableHlo.after hostOps5_10 (StableHlo.after hostOps5_9 (StableHlo.after hostOps5_8 (StableHlo.after hostOps5_7
    (StableHlo.after hostOps5_6 (StableHlo.after hostOps5_5 (StableHlo.after hostOps5_4 (StableHlo.after hostOps5_3
      (StableHlo.after hostOps5_2 (StableHlo.after hostOps5_1 (StableHlo.after hostOps5 (W10 m c)))))))))))
def W22 : Dev nD → Valuation τ sig (Elt F) := fun c => Function.update (W21 m c) main_v166 ((dat5 (tcOf (W21 m)) c).arrAt 7 cfg5.N)

/-- What the regions leave, as the family the generated valuations are written over. -/
def outs : Outs (F := F) := fun J r c =>
  match J with
  | 2 => W2 m c r
  | 4 => W4 m c r
  | 6 => W6 m c r
  | 8 => W8 m c r
  | 10 => W10 m c r
  | 22 => W22 m c r
  | _ => m (c, r)

theorem V2_eq : V2 m (outs m) = W2 m := by
  funext c
  show Function.update (V1 m c) main_v18 (W2 m c main_v18) = W2 m c
  unfold W2; rw [Function.update_self]
theorem V3_eq : V3 m (outs m) = W3 m := by
  funext c
  show StableHlo.after hostOps1 (V2 m (outs m) c) = W3 m c
  rw [congrFun (V2_eq m) c]; rfl
theorem V4_eq : V4 m (outs m) = W4 m := by
  funext c
  show Function.update (V3 m (outs m) c) main_v47 (W4 m c main_v47) = W4 m c
  rw [congrFun (V3_eq m) c]; unfold W4; rw [Function.update_self]
theorem V5_eq : V5 m (outs m) = W5 m := by
  funext c
  show StableHlo.after hostOps2 (V4 m (outs m) c) = W5 m c
  rw [congrFun (V4_eq m) c]; rfl
theorem V6_eq : V6 m (outs m) = W6 m := by
  funext c
  show Function.update (V5 m (outs m) c) main_v76 (W6 m c main_v76) = W6 m c
  rw [congrFun (V5_eq m) c]; unfold W6; rw [Function.update_self]
theorem V7_eq : V7 m (outs m) = W7 m := by
  funext c
  show StableHlo.after hostOps3 (V6 m (outs m) c) = W7 m c
  rw [congrFun (V6_eq m) c]; rfl
theorem V8_eq : V8 m (outs m) = W8 m := by
  funext c
  show Function.update (V7 m (outs m) c) main_v105 (W8 m c main_v105) = W8 m c
  rw [congrFun (V7_eq m) c]; unfold W8; rw [Function.update_self]
theorem V9_eq : V9 m (outs m) = W9 m := by
  funext c
  show StableHlo.after hostOps4 (V8 m (outs m) c) = W9 m c
  rw [congrFun (V8_eq m) c]; rfl
theorem V10_eq : V10 m (outs m) = W10 m := by
  funext c
  show Function.update (V9 m (outs m) c) main_v134 (W10 m c main_v134) = W10 m c
  rw [congrFun (V9_eq m) c]; unfold W10; rw [Function.update_self]
theorem V21_eq : V21 m (outs m) = W21 m := by
  funext c
  show StableHlo.after hostOps5_10 (StableHlo.after hostOps5_9 (StableHlo.after hostOps5_8 (StableHlo.after hostOps5_7
    (StableHlo.after hostOps5_6 (StableHlo.after hostOps5_5 (StableHlo.after hostOps5_4 (StableHlo.after hostOps5_3
      (StableHlo.after hostOps5_2 (StableHlo.after hostOps5_1 (StableHlo.after hostOps5 (V10 m (outs m) c))))))))))) = W21 m c
  rw [congrFun (V10_eq m) c]; rfl
theorem V22_eq : V22 m (outs m) = W22 m := by
  funext c
  show Function.update (V21 m (outs m) c) main_v166 (W22 m c main_v166) = W22 m c
  rw [congrFun (V21_eq m) c]; unfold W22; rw [Function.update_self]

/-! ## The proof data family -/

/-- Every region's proof data, each at its region's entry contents: a literal match on the region's number. -/
def pdats : (p : Fin 6) → (c : Dev nD) → Dat τ (Elt F) Unit ℕ (UR sig nD τ) ℕ (cfgs p) c
  | ⟨0, _⟩ => fun c => dat0 (tcOf (W1 m)) c
  | ⟨1, _⟩ => fun c => dat1 (tcOf (W3 m)) c
  | ⟨2, _⟩ => fun c => dat2 (tcOf (W5 m)) c
  | ⟨3, _⟩ => fun c => dat3 (tcOf (W7 m)) c
  | ⟨4, _⟩ => fun c => dat4 (tcOf (W9 m)) c
  | ⟨5, _⟩ => fun c => dat5 (tcOf (W21 m)) c

/-! ## The regions as segments -/

/-- A valuation updated at one TensorCore buffer, read at another, is the valuation there. -/
theorem upd_ne (W : Valuation τ sig (Elt F)) (o : Ref sig .tc) (x) (b : Ref sig .tc) (h : b ≠ o) :
    Function.update W (Proc.devRef .tc o) x (Proc.devRef .tc b) = W (Proc.devRef .tc b) :=
  Function.update_of_ne (StableHlo.devRef_ne_of_ne h) _ _

/-! ### Region 0 -/

/-- At region 0's exit each of its arrays holds what the pipeline leaves: an input array what it held at entry, the output
    array the write-backs folded. -/
theorem hF0 (c : Dev nD) (w : Fin cfg0.W) :
    (dat0 (tcOf (W1 m)) c).arrAt w cfg0.N = W2 m c (Proc.devRef .tc (Pipeline.arrRef spec0 w)) := by
  by_cases hw : w = 7
  · subst hw; unfold W2; rw [Function.update_self]
  · have hin : (cfg0.win w).isOut = false := by revert w; decide
    rw [(dat0 (tcOf (W1 m)) c).arrAt_in w hin _, A_eq0]
    unfold W2
    exact (upd_ne _ main_v18 _ _ (fun e => hw (launch0.win.arr_inj e))).symm

/-- Every buffer that is none of region 0's arrays holds at the exit what it held at entry. -/
theorem hrest0 (c : Dev nD) (b : Ref sig .tc) (hb : b ∉ Finset.univ.image (Pipeline.arrRef spec0)) :
    W2 m c (Proc.devRef .tc b) = W1 m c (Proc.devRef .tc b) := by
  unfold W2
  exact upd_ne _ main_v18 _ _ fun e => hb (Finset.mem_image.mpr ⟨7, Finset.mem_univ _, e.symm⟩)

set_option backward.isDefEq.respectTransparency.types false in
/-- Region 0 as a segment: entered with every unscoped buffer at the entry valuation, left at the exit valuation. -/
def reg0 : RegionSeg (pcfgs (F := F)) adm (pdats m) () defs₀ Variants.none (fun _ => ∅) (fun _ _ => 0) 0 :=
  RegionRecord.regionSeg (U := UR sig nD τ) (pcfgs (F := F)) adm (pdats m) 0 launch0.toP defs₀ Variants.none (W1 m) (W2 m)
    (fun c => (body_obligation0 (tcOf (W1 m)) c).loose)
    (fun c => (pdats m 0 c).share_full fun _ => rfl) (fun c t => rfl) (fun c => rfl)
    (fun c w => A_eq0 (tcOf (W1 m)) c w)
    (fun c k => k.elim0)
    (fun c w => hF0 m c w)
    (fun c b hb => hrest0 m c b hb)
    (fun c => by
      rw [show (pdats m 0 c).Φ 0 = Pipeline.ΦA spec0 c from rfl]
      iintro ⟨H, -⟩; iexact H)
    (fun c => by
      rw [show (pdats m 0 c).Φ (Fin.last _) = Pipeline.ΦA spec0 c from rfl]
      iintro H
      isplitl [H]; · iexact H
      unfold Pipeline.prefHeld; rw [show (Finset.univ : Finset (Fin 0)) = ∅ from rfl, BI.bigSep_empty]; iempintro)

/-! ### Region 1 -/

/-- At region 1's exit each of its arrays holds what the pipeline leaves: an input array what it held at entry, the output
    array the write-backs folded. -/
theorem hF1 (c : Dev nD) (w : Fin cfg1.W) :
    (dat1 (tcOf (W3 m)) c).arrAt w cfg1.N = W4 m c (Proc.devRef .tc (Pipeline.arrRef spec1 w)) := by
  by_cases hw : w = 7
  · subst hw; unfold W4; rw [Function.update_self]
  · have hin : (cfg1.win w).isOut = false := by revert w; decide
    rw [(dat1 (tcOf (W3 m)) c).arrAt_in w hin _, A_eq1]
    unfold W4
    exact (upd_ne _ main_v47 _ _ (fun e => hw (launch1.win.arr_inj e))).symm

/-- Every buffer that is none of region 1's arrays holds at the exit what it held at entry. -/
theorem hrest1 (c : Dev nD) (b : Ref sig .tc) (hb : b ∉ Finset.univ.image (Pipeline.arrRef spec1)) :
    W4 m c (Proc.devRef .tc b) = W3 m c (Proc.devRef .tc b) := by
  unfold W4
  exact upd_ne _ main_v47 _ _ fun e => hb (Finset.mem_image.mpr ⟨7, Finset.mem_univ _, e.symm⟩)

set_option backward.isDefEq.respectTransparency.types false in
/-- Region 1 as a segment: entered with every unscoped buffer at the entry valuation, left at the exit valuation. -/
def reg1 : RegionSeg (pcfgs (F := F)) adm (pdats m) () defs₀ Variants.none (fun _ => ∅) (fun _ _ => 0) 1 :=
  RegionRecord.regionSeg (U := UR sig nD τ) (pcfgs (F := F)) adm (pdats m) 1 launch1.toP defs₀ Variants.none (W3 m) (W4 m)
    (fun c => (body_obligation1 (tcOf (W3 m)) c).loose)
    (fun c => (pdats m 1 c).share_full fun _ => rfl) (fun c t => rfl) (fun c => rfl)
    (fun c w => A_eq1 (tcOf (W3 m)) c w)
    (fun c k => k.elim0)
    (fun c w => hF1 m c w)
    (fun c b hb => hrest1 m c b hb)
    (fun c => by
      rw [show (pdats m 1 c).Φ 0 = Pipeline.ΦA spec1 c from rfl]
      iintro ⟨H, -⟩; iexact H)
    (fun c => by
      rw [show (pdats m 1 c).Φ (Fin.last _) = Pipeline.ΦA spec1 c from rfl]
      iintro H
      isplitl [H]; · iexact H
      unfold Pipeline.prefHeld; rw [show (Finset.univ : Finset (Fin 0)) = ∅ from rfl, BI.bigSep_empty]; iempintro)

/-! ### Region 2 -/

/-- At region 2's exit each of its arrays holds what the pipeline leaves: an input array what it held at entry, the output
    array the write-backs folded. -/
theorem hF2 (c : Dev nD) (w : Fin cfg2.W) :
    (dat2 (tcOf (W5 m)) c).arrAt w cfg2.N = W6 m c (Proc.devRef .tc (Pipeline.arrRef spec2 w)) := by
  by_cases hw : w = 7
  · subst hw; unfold W6; rw [Function.update_self]
  · have hin : (cfg2.win w).isOut = false := by revert w; decide
    rw [(dat2 (tcOf (W5 m)) c).arrAt_in w hin _, A_eq2]
    unfold W6
    exact (upd_ne _ main_v76 _ _ (fun e => hw (launch2.win.arr_inj e))).symm

/-- Every buffer that is none of region 2's arrays holds at the exit what it held at entry. -/
theorem hrest2 (c : Dev nD) (b : Ref sig .tc) (hb : b ∉ Finset.univ.image (Pipeline.arrRef spec2)) :
    W6 m c (Proc.devRef .tc b) = W5 m c (Proc.devRef .tc b) := by
  unfold W6
  exact upd_ne _ main_v76 _ _ fun e => hb (Finset.mem_image.mpr ⟨7, Finset.mem_univ _, e.symm⟩)

set_option backward.isDefEq.respectTransparency.types false in
/-- Region 2 as a segment: entered with every unscoped buffer at the entry valuation, left at the exit valuation. -/
def reg2 : RegionSeg (pcfgs (F := F)) adm (pdats m) () defs₀ Variants.none (fun _ => ∅) (fun _ _ => 0) 2 :=
  RegionRecord.regionSeg (U := UR sig nD τ) (pcfgs (F := F)) adm (pdats m) 2 launch2.toP defs₀ Variants.none (W5 m) (W6 m)
    (fun c => (body_obligation2 (tcOf (W5 m)) c).loose)
    (fun c => (pdats m 2 c).share_full fun _ => rfl) (fun c t => rfl) (fun c => rfl)
    (fun c w => A_eq2 (tcOf (W5 m)) c w)
    (fun c k => k.elim0)
    (fun c w => hF2 m c w)
    (fun c b hb => hrest2 m c b hb)
    (fun c => by
      rw [show (pdats m 2 c).Φ 0 = Pipeline.ΦA spec2 c from rfl]
      iintro ⟨H, -⟩; iexact H)
    (fun c => by
      rw [show (pdats m 2 c).Φ (Fin.last _) = Pipeline.ΦA spec2 c from rfl]
      iintro H
      isplitl [H]; · iexact H
      unfold Pipeline.prefHeld; rw [show (Finset.univ : Finset (Fin 0)) = ∅ from rfl, BI.bigSep_empty]; iempintro)

/-! ### Region 3 -/

/-- At region 3's exit each of its arrays holds what the pipeline leaves: an input array what it held at entry, the output
    array the write-backs folded. -/
theorem hF3 (c : Dev nD) (w : Fin cfg3.W) :
    (dat3 (tcOf (W7 m)) c).arrAt w cfg3.N = W8 m c (Proc.devRef .tc (Pipeline.arrRef spec3 w)) := by
  by_cases hw : w = 7
  · subst hw; unfold W8; rw [Function.update_self]
  · have hin : (cfg3.win w).isOut = false := by revert w; decide
    rw [(dat3 (tcOf (W7 m)) c).arrAt_in w hin _, A_eq3]
    unfold W8
    exact (upd_ne _ main_v105 _ _ (fun e => hw (launch3.win.arr_inj e))).symm

/-- Every buffer that is none of region 3's arrays holds at the exit what it held at entry. -/
theorem hrest3 (c : Dev nD) (b : Ref sig .tc) (hb : b ∉ Finset.univ.image (Pipeline.arrRef spec3)) :
    W8 m c (Proc.devRef .tc b) = W7 m c (Proc.devRef .tc b) := by
  unfold W8
  exact upd_ne _ main_v105 _ _ fun e => hb (Finset.mem_image.mpr ⟨7, Finset.mem_univ _, e.symm⟩)

set_option backward.isDefEq.respectTransparency.types false in
/-- Region 3 as a segment: entered with every unscoped buffer at the entry valuation, left at the exit valuation. -/
def reg3 : RegionSeg (pcfgs (F := F)) adm (pdats m) () defs₀ Variants.none (fun _ => ∅) (fun _ _ => 0) 3 :=
  RegionRecord.regionSeg (U := UR sig nD τ) (pcfgs (F := F)) adm (pdats m) 3 launch3.toP defs₀ Variants.none (W7 m) (W8 m)
    (fun c => (body_obligation3 (tcOf (W7 m)) c).loose)
    (fun c => (pdats m 3 c).share_full fun _ => rfl) (fun c t => rfl) (fun c => rfl)
    (fun c w => A_eq3 (tcOf (W7 m)) c w)
    (fun c k => k.elim0)
    (fun c w => hF3 m c w)
    (fun c b hb => hrest3 m c b hb)
    (fun c => by
      rw [show (pdats m 3 c).Φ 0 = Pipeline.ΦA spec3 c from rfl]
      iintro ⟨H, -⟩; iexact H)
    (fun c => by
      rw [show (pdats m 3 c).Φ (Fin.last _) = Pipeline.ΦA spec3 c from rfl]
      iintro H
      isplitl [H]; · iexact H
      unfold Pipeline.prefHeld; rw [show (Finset.univ : Finset (Fin 0)) = ∅ from rfl, BI.bigSep_empty]; iempintro)

/-! ### Region 4 -/

/-- At region 4's exit each of its arrays holds what the pipeline leaves: an input array what it held at entry, the output
    array the write-backs folded. -/
theorem hF4 (c : Dev nD) (w : Fin cfg4.W) :
    (dat4 (tcOf (W9 m)) c).arrAt w cfg4.N = W10 m c (Proc.devRef .tc (Pipeline.arrRef spec4 w)) := by
  by_cases hw : w = 7
  · subst hw; unfold W10; rw [Function.update_self]
  · have hin : (cfg4.win w).isOut = false := by revert w; decide
    rw [(dat4 (tcOf (W9 m)) c).arrAt_in w hin _, A_eq4]
    unfold W10
    exact (upd_ne _ main_v134 _ _ (fun e => hw (launch4.win.arr_inj e))).symm

/-- Every buffer that is none of region 4's arrays holds at the exit what it held at entry. -/
theorem hrest4 (c : Dev nD) (b : Ref sig .tc) (hb : b ∉ Finset.univ.image (Pipeline.arrRef spec4)) :
    W10 m c (Proc.devRef .tc b) = W9 m c (Proc.devRef .tc b) := by
  unfold W10
  exact upd_ne _ main_v134 _ _ fun e => hb (Finset.mem_image.mpr ⟨7, Finset.mem_univ _, e.symm⟩)

set_option backward.isDefEq.respectTransparency.types false in
/-- Region 4 as a segment: entered with every unscoped buffer at the entry valuation, left at the exit valuation. -/
def reg4 : RegionSeg (pcfgs (F := F)) adm (pdats m) () defs₀ Variants.none (fun _ => ∅) (fun _ _ => 0) 4 :=
  RegionRecord.regionSeg (U := UR sig nD τ) (pcfgs (F := F)) adm (pdats m) 4 launch4.toP defs₀ Variants.none (W9 m) (W10 m)
    (fun c => (body_obligation4 (tcOf (W9 m)) c).loose)
    (fun c => (pdats m 4 c).share_full fun _ => rfl) (fun c t => rfl) (fun c => rfl)
    (fun c w => A_eq4 (tcOf (W9 m)) c w)
    (fun c k => k.elim0)
    (fun c w => hF4 m c w)
    (fun c b hb => hrest4 m c b hb)
    (fun c => by
      rw [show (pdats m 4 c).Φ 0 = Pipeline.ΦA spec4 c from rfl]
      iintro ⟨H, -⟩; iexact H)
    (fun c => by
      rw [show (pdats m 4 c).Φ (Fin.last _) = Pipeline.ΦA spec4 c from rfl]
      iintro H
      isplitl [H]; · iexact H
      unfold Pipeline.prefHeld; rw [show (Finset.univ : Finset (Fin 0)) = ∅ from rfl, BI.bigSep_empty]; iempintro)

/-! ### Region 5 -/

/-- At region 5's exit each of its arrays holds what the pipeline leaves: an input array what it held at entry, the output
    array the write-backs folded. -/
theorem hF5 (c : Dev nD) (w : Fin cfg5.W) :
    (dat5 (tcOf (W21 m)) c).arrAt w cfg5.N = W22 m c (Proc.devRef .tc (Pipeline.arrRef spec5 w)) := by
  by_cases hw : w = 7
  · subst hw; unfold W22; rw [Function.update_self]
  · have hin : (cfg5.win w).isOut = false := by revert w; decide
    rw [(dat5 (tcOf (W21 m)) c).arrAt_in w hin _, A_eq5]
    unfold W22
    exact (upd_ne _ main_v166 _ _ (fun e => hw (launch5.win.arr_inj e))).symm

/-- Every buffer that is none of region 5's arrays holds at the exit what it held at entry. -/
theorem hrest5 (c : Dev nD) (b : Ref sig .tc) (hb : b ∉ Finset.univ.image (Pipeline.arrRef spec5)) :
    W22 m c (Proc.devRef .tc b) = W21 m c (Proc.devRef .tc b) := by
  unfold W22
  exact upd_ne _ main_v166 _ _ fun e => hb (Finset.mem_image.mpr ⟨7, Finset.mem_univ _, e.symm⟩)

set_option backward.isDefEq.respectTransparency.types false in
/-- Region 5 as a segment: entered with every unscoped buffer at the entry valuation, left at the exit valuation. -/
def reg5 : RegionSeg (pcfgs (F := F)) adm (pdats m) () defs₀ Variants.none (fun _ => ∅) (fun _ _ => 0) 5 :=
  RegionRecord.regionSeg (U := UR sig nD τ) (pcfgs (F := F)) adm (pdats m) 5 launch5.toP defs₀ Variants.none (W21 m) (W22 m)
    (fun c => (body_obligation5 (tcOf (W21 m)) c).loose)
    (fun c => (pdats m 5 c).share_full fun _ => rfl) (fun c t => rfl) (fun c => rfl)
    (fun c w => A_eq5 (tcOf (W21 m)) c w)
    (fun c k => k.elim0)
    (fun c w => hF5 m c w)
    (fun c b hb => hrest5 m c b hb)
    (fun c => by
      rw [show (pdats m 5 c).Φ 0 = Pipeline.ΦA spec5 c from rfl]
      iintro ⟨H, -⟩; iexact H)
    (fun c => by
      rw [show (pdats m 5 c).Φ (Fin.last _) = Pipeline.ΦA spec5 c from rfl]
      iintro H
      isplitl [H]; · iexact H
      unfold Pipeline.prefHeld; rw [show (Finset.univ : Finset (Fin 0)) = ∅ from rfl, BI.bigSep_empty]; iempintro)

/-! ## The run -/

/-- What rides beside the buffers through every segment: the generator register at some state, and the core owing nothing. -/
abbrev Rd (c : Dev nD) : sProp 𝕄 := RegionRecord.rider (U := UR sig nD τ) (Val := Elt F) c

/-- At the launch a core's generator register and its empty dues are what rides along. -/
theorem launch_rider (ρ : Dev nD → PrngReg) (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄)) : sProp 𝕄) ⊢ Rd (F := F) c := by
  iintro ⟨-, HO, -, Hp, -⟩
  isplitl [Hp]; · iexists _; iexact Hp
  iexists ∅; iexact HO

set_option backward.isDefEq.respectTransparency.types false in
/-- THE RUN. From any memory with zero counters every weakly fair execution of the program terminates, nothing faulting;
    the result buffer ends at what region 5's write-backs leave in it, and every argument array ends as launched. -/
theorem run (ρ : Dev nD → PrngReg) :
    θ_run defs (onTc (τ := τ) (main (F := F))) ⟨m, fun _ => 0, ρ⟩ (fun r => ∀ c : Dev nD,
      r.2.mem ((c.tc : Thread nD τ).loc main_v166) = W22 m c (Proc.devRef .tc main_v166)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  GenP.run_cond m (Ix := Unit) (U := UR sig nD τ) (Lvl := ℕ) emb₁ () Variants.none (fun _ => ∅) (fun _ _ => 0) (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rd c)
    (hE0 := by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) : sProp 𝕄)
          ⊢ bigSep Finset.univ fun c : Dev nD => Rd (F := F) c :=
        bigSep_mono fun c _ => launch_rider ρ c
      iintro ⟨H, -⟩
      imodintro
      iapply hmono
      iexact H)
    (hE6 := fun c => by iintro ⟨-, H⟩; iexact H)
    (reg0 m) (fun c => .rfl) (fun c => by rw [congrFun (V2_eq m) c]; exact .rfl)
    (reg1 m) (fun c => by rw [congrFun (V3_eq m) c]; exact .rfl) (fun c => by rw [congrFun (V4_eq m) c]; exact .rfl)
    (reg2 m) (fun c => by rw [congrFun (V5_eq m) c]; exact .rfl) (fun c => by rw [congrFun (V6_eq m) c]; exact .rfl)
    (reg3 m) (fun c => by rw [congrFun (V7_eq m) c]; exact .rfl) (fun c => by rw [congrFun (V8_eq m) c]; exact .rfl)
    (reg4 m) (fun c => by rw [congrFun (V9_eq m) c]; exact .rfl) (fun c => by rw [congrFun (V10_eq m) c]; exact .rfl)
    (reg5 m) (fun c => by rw [congrFun (V21_eq m) c]; exact .rfl) (fun c => by rw [congrFun (V22_eq m) c]; exact .rfl)

end Cert.KernelIdeal.Hand

end
-- ==== Proof.Ref.Part0.lean ====
/- The reference program's @main, statements 1 … 60 of 341 (its window `main_part0`), as a list of
   host operations: each statement of the window in order, and where the statement is a call of a module-local
   function, the operations of that function's body (and of the functions it calls in turn) written out in its
   place over the call's own buffer record — the inlining the call denotes. The window is the run of that list
   (`StableHlo.seq`), every operation of the list touches TensorCore buffers only and determines its result,
   and the list writes only the buffers named in `ops0_W`. -/
import proofs.«145887_j33578054320560_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window `main_part0` (statements 1 … 60), the called functions' operations inline. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.binary main_cst_1 main_arg9 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S100000x64 ![] bcast_S_S100000x64 : (⟨S_, .f32⟩ : BufTy).Contents (Elt F) → (⟨S100000x64, .f32⟩ : BufTy).Contents (Elt F)),
    StableHlo.binary main_v15 main_arg0 main_v16 (mulf : (⟨S100000x64, .f32⟩ : BufTy).Contents (Elt F) → (⟨S100000x64, .f32⟩ : BufTy).Contents (Elt F) → (⟨S100000x64, .f32⟩ : BufTy).Contents (Elt F)),
    StableHlo.binary main_v16 main_v13 main_v17 (addf : (⟨S100000x64, .f32⟩ : BufTy).Contents (Elt F) → (⟨S100000x64, .f32⟩ : BufTy).Contents (Elt F) → (⟨S100000x64, .f32⟩ : BufTy).Contents (Elt F)),
    StableHlo.binary main_v17 main_arg3 main_v18 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg4 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.unary main_arg7 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (subf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3727C5AC#32),
    StableHlo.unary main_cst_2 main_v25 (broadcastInDim S128 ![] bcast_S_S128 : (⟨S_, .f32⟩ : BufTy).Contents (Elt F) → (⟨S128, .f32⟩ : BufTy).Contents (Elt F)),
    StableHlo.binary main_arg8 main_v25 main_v26 (addf : (⟨S128, .f32⟩ : BufTy).Contents (Elt F) → (⟨S128, .f32⟩ : BufTy).Contents (Elt F) → (⟨S128, .f32⟩ : BufTy).Contents (Elt F)),
    StableHlo.unary main_v26 main_v27 (Host.rsqrt : (⟨S128, .f32⟩ : BufTy).Contents (Elt F) → (⟨S128, .f32⟩ : BufTy).Contents (Elt F)),
    StableHlo.binary main_arg5 main_v27 main_v28 (mulf : (⟨S128, .f32⟩ : BufTy).Contents (Elt F) → (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg6 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x3C23D70A#32),
    StableHlo.TRef.nullary main_call0.cst (constant S_ .f32 0x00000000#32),
    StableHlo.TRef.unary main_call0.cst main_call0.v0 (broadcastInDim S100000x128 ![] bcast_S_S100000x128),
    StableHlo.TRef.binary (.of main_v34 : StableHlo.TRef sig ⟨S100000x128, .f32⟩) main_call0.v0 main_call0.v1 (cmpf .oge),
    StableHlo.TRef.unary (.of main_cst_3 : StableHlo.TRef sig ⟨S_, .f32⟩) main_call0.v2 id,
    StableHlo.TRef.unary main_call0.v2 main_call0.v3 (broadcastInDim S100000x128 ![] bcast_S_S100000x128),
    StableHlo.TRef.binary main_call0.v3 (.of main_v34 : StableHlo.TRef sig ⟨S100000x128, .f32⟩) main_call0.v4 mulf,
    StableHlo.TRef.ternary main_call0.v1 (.of main_v34 : StableHlo.TRef sig ⟨S100000x128, .f32⟩) main_call0.v4 main_call0.call0.v0 select,
    StableHlo.nullary main_cst_4 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v35 : StableHlo.TRef sig ⟨S100000x128, .f32⟩) main_call1.v0 main_call1.v1 (cmpf .oge),
    StableHlo.TRef.unary (.of main_cst_4 : StableHlo.TRef sig ⟨S_, .f32⟩) main_call1.v2 id,
    StableHlo.TRef.unary main_call1.v2 main_call1.v3 (broadcastInDim S100000x128 ![] bcast_S_S100000x128),
    StableHlo.TRef.binary main_call1.v3 (.of main_v35 : StableHlo.TRef sig ⟨S100000x128, .f32⟩) main_call1.v4 mulf,
    StableHlo.TRef.ternary main_call1.v1 (.of main_v35 : StableHlo.TRef sig ⟨S100000x128, .f32⟩) main_call1.v4 main_call1.call0.v0 select,
    StableHlo.unary main_arg10 main_v37 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v37 main_v38 rfl shapeCasts_S1x128x128_S128x128,
    StableHlo.unary main_arg11 main_v39 ((extractStridedSlice S1x128 ![0, 0] · slices_S4x128_S1x128_0_0) : (⟨S4x128, .f32⟩ : BufTy).Contents (Elt F) → (⟨S1x128, .f32⟩ : BufTy).Contents (Elt F)),
    StableHlo.reshape main_v39 main_v40 rfl shapeCasts_S1x128_S128,
    StableHlo.unary main_arg12 main_v41 ((extractStridedSlice S1x128 ![0, 0] · slices_S4x128_S1x128_0_0) : (⟨S4x128, .f32⟩ : BufTy).Contents (Elt F) → (⟨S1x128, .f32⟩ : BufTy).Contents (Elt F)),
    StableHlo.reshape main_v41 main_v42 rfl shapeCasts_S1x128_S128,
    StableHlo.unary main_arg13 main_v43 ((extractStridedSlice S1x128 ![0, 0] · slices_S4x128_S1x128_0_0) : (⟨S4x128, .f32⟩ : BufTy).Contents (Elt F) → (⟨S1x128, .f32⟩ : BufTy).Contents (Elt F)),
    StableHlo.reshape main_v43 main_v44 rfl shapeCasts_S1x128_S128,
    StableHlo.unary main_arg14 main_v45 ((extractStridedSlice S1x128 ![0, 0] · slices_S4x128_S1x128_0_0) : (⟨S4x128, .f32⟩ : BufTy).Contents (Elt F) → (⟨S1x128, .f32⟩ : BufTy).Contents (Elt F)),
    StableHlo.reshape main_v45 main_v46 rfl shapeCasts_S1x128_S128,
    StableHlo.unary main_arg15 main_v47 ((extractStridedSlice S1x128 ![0, 0] · slices_S4x128_S1x128_0_0) : (⟨S4x128, .f32⟩ : BufTy).Contents (Elt F) → (⟨S1x128, .f32⟩ : BufTy).Contents (Elt F)),
    StableHlo.reshape main_v47 main_v48 rfl shapeCasts_S1x128_S128,
    StableHlo.unary main_arg16 main_v49 ((extractStridedSlice S1 ![0] · slices_S4_S1_0) : (⟨S4, .f32⟩ : BufTy).Contents (Elt F) → (⟨S1, .f32⟩ : BufTy).Contents (Elt F)),
    StableHlo.reshape main_v49 main_v50 rfl shapeCasts_S1_S_,
    StableHlo.nullary main_c_5 (constantI S_ 32 0#32),
    StableHlo.unary main_c_5 main_v51 (broadcastInDim S1600000 ![] bcast_S_S1600000 : (⟨S_, .i32⟩ : BufTy).Contents (Elt F) → (⟨S1600000, .i32⟩ : BufTy).Contents (Elt F)) ]

set_option maxRecDepth 16384 in
/-- The window is that straight line: a call unfolds to its function's body at the call's record, and both sides
    are then the same chain of `hlo` steps. -/
theorem main_part0_eq (c : Dev nD) : main_part0 (F := F) c = seq ops0 := rfl

set_option maxRecDepth 16384 in
/-- Every operation of the window reads and writes TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub ..⟩

/-- The buffers the window's operations write, in order. -/
abbrev ops0_W : List (Ref sig .tc) :=
  [main_v0, main_v1, main_v2, main_v3, main_c, main_v4, main_v5, main_c_0, main_v6, main_v7, main_v8, main_v9, main_v10, main_cst, main_v11, main_v12, main_v13, main_cst_1, main_v14, main_v15, main_v16, main_v17, main_v18, main_v19, main_v20, main_v21, main_v22, main_v23, main_v24, main_cst_2, main_v25, main_v26, main_v27, main_v28, main_v29, main_v30, main_v31, main_v32, main_v33, main_v34, main_cst_3, main_call0.cst.ref, main_call0.v0.ref, main_call0.v1.ref, main_call0.v2.ref, main_call0.v3.ref, main_call0.v4.ref, main_call0.call0.v0.ref, main_cst_4, main_call1.cst.ref, main_call1.v0.ref, main_call1.v1.ref, main_call1.v2.ref, main_call1.v3.ref, main_call1.v4.ref, main_call1.call0.v0.ref, main_v37, main_v38, main_v39, main_v40, main_v41, main_v42, main_v43, main_v44, main_v45, main_v46, main_v47, main_v48, main_v49, main_v50, main_c_5, main_v51]

set_option maxRecDepth 16384 in
/-- Each operation writes exactly its result buffer, which the list names. -/
theorem ops0_writes : (ops0 : List (HloOp τ sig (Elt F))).Forall fun op => op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

set_option maxRecDepth 16384 in
/-- Every operation determines its result: none allocates a fresh buffer. -/
theorem ops0_fresh : ∀ op ∈ (ops0 : List (HloOp τ sig (Elt F))), op.fresh = ∅ := by
  intro _ h
  repeat (cases h with | head => rfl | tail _ h => ?_)
  exact nomatch h

end Cert.ReferenceIdeal.Hand

end
-- ==== Proof.Ref.Part1.lean ====
/- The reference program's @main, statements 61 … 120 of 341 (its window `main_part1`), as a list of
   host operations: each statement of the window in order, and where the statement is a call of a module-local
   function, the operations of that function's body (and of the functions it calls in turn) written out in its
   place over the call's own buffer record — the inlining the call denotes. The window is the run of that list
   (`StableHlo.seq`), every operation of the list touches TensorCore buffers only and determines its result,
   and the list writes only the buffers named in `ops1_W`. -/
import proofs.«145887_j33578054320560_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window `main_part1` (statements 61 … 120), the called functions' operations inline. -/
abbrev ops1 : List (HloOp τ sig (Elt F)) :=
  [ StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.binary main_v36 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v58 (broadcastInDim S100000x128 ![] bcast_S_S100000x128 : (⟨S_, .f32⟩ : BufTy).Contents (Elt F) → (⟨S100000x128, .f32⟩ : BufTy).Contents (Elt F)),
    StableHlo.unary main_v3 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_8 (constant S_ .f32 0x3F800000#32),
    StableHlo.binary main_cst_8 main_v50 main_v61 (addf : (⟨S_, .f32⟩ : BufTy).Contents (Elt F) → (⟨S_, .f32⟩ : BufTy).Contents (Elt F) → (⟨S_, .f32⟩ : BufTy).Contents (Elt F)),
    StableHlo.unary main_v61 main_v62 (broadcastInDim S100000x128 ![] bcast_S_S100000x128 : (⟨S_, .f32⟩ : BufTy).Contents (Elt F) → (⟨S100000x128, .f32⟩ : BufTy).Contents (Elt F)),
    StableHlo.binary main_v62 main_v36 main_v63 (mulf : (⟨S100000x128, .f32⟩ : BufTy).Contents (Elt F) → (⟨S100000x128, .f32⟩ : BufTy).Contents (Elt F) → (⟨S100000x128, .f32⟩ : BufTy).Contents (Elt F)),
    StableHlo.binary main_v63 main_v60 main_v64 (addf : (⟨S100000x128, .f32⟩ : BufTy).Contents (Elt F) → (⟨S100000x128, .f32⟩ : BufTy).Contents (Elt F) → (⟨S100000x128, .f32⟩ : BufTy).Contents (Elt F)),
    StableHlo.binary main_v64 main_v38 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v40 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.unary main_v46 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (subf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3727C5AC#32),
    StableHlo.unary main_cst_9 main_v72 (broadcastInDim S128 ![] bcast_S_S128 : (⟨S_, .f32⟩ : BufTy).Contents (Elt F) → (⟨S128, .f32⟩ : BufTy).Contents (Elt F)),
    StableHlo.binary main_v48 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.binary main_v42 main_v74 main_v75 (mulf : (⟨S128, .f32⟩ : BufTy).Contents (Elt F) → (⟨S128, .f32⟩ : BufTy).Contents (Elt F) → (⟨S128, .f32⟩ : BufTy).Contents (Elt F)),
    StableHlo.unary main_v75 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v77 main_v78 (mulf : (⟨S100000x128, .f32⟩ : BufTy).Contents (Elt F) → (⟨S100000x128, .f32⟩ : BufTy).Contents (Elt F) → (⟨S100000x128, .f32⟩ : BufTy).Contents (Elt F)),
    StableHlo.unary main_v44 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v80 main_v81 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v81 : StableHlo.TRef sig ⟨S100000x128, .f32⟩) main_call2.v0 main_call2.v1 (cmpf .oge),
    StableHlo.TRef.unary (.of main_cst_10 : StableHlo.TRef sig ⟨S_, .f32⟩) main_call2.v2 id,
    StableHlo.TRef.unary main_call2.v2 main_call2.v3 (broadcastInDim S100000x128 ![] bcast_S_S100000x128),
    StableHlo.TRef.binary main_call2.v3 (.of main_v81 : StableHlo.TRef sig ⟨S100000x128, .f32⟩) main_call2.v4 mulf,
    StableHlo.TRef.ternary main_call2.v1 (.of main_v81 : StableHlo.TRef sig ⟨S100000x128, .f32⟩) main_call2.v4 main_call2.call0.v0 select,
    StableHlo.nullary main_cst_11 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v82 : StableHlo.TRef sig ⟨S100000x128, .f32⟩) main_call3.v0 main_call3.v1 (cmpf .oge),
    StableHlo.TRef.unary (.of main_cst_11 : StableHlo.TRef sig ⟨S_, .f32⟩) main_call3.v2 id,
    StableHlo.TRef.unary main_call3.v2 main_call3.v3 (broadcastInDim S100000x128 ![] bcast_S_S100000x128),
    StableHlo.TRef.binary main_call3.v3 (.of main_v82 : StableHlo.TRef sig ⟨S100000x128, .f32⟩) main_call3.v4 mulf,
    StableHlo.TRef.ternary main_call3.v1 (.of main_v82 : StableHlo.TRef sig ⟨S100000x128, .f32⟩) main_call3.v4 main_call3.call0.v0 select,
    StableHlo.unary main_arg10 main_v84 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v84 main_v85 rfl shapeCasts_S1x128x128_S128x128,
    StableHlo.unary main_arg11 main_v86 ((extractStridedSlice S1x128 ![1, 0] · slices_S4x128_S1x128_1_0) : (⟨S4x128, .f32⟩ : BufTy).Contents (Elt F) → (⟨S1x128, .f32⟩ : BufTy).Contents (Elt F)),
    StableHlo.reshape main_v86 main_v87 rfl shapeCasts_S1x128_S128,
    StableHlo.unary main_arg12 main_v88 ((extractStridedSlice S1x128 ![1, 0] · slices_S4x128_S1x128_1_0) : (⟨S4x128, .f32⟩ : BufTy).Contents (Elt F) → (⟨S1x128, .f32⟩ : BufTy).Contents (Elt F)),
    StableHlo.reshape main_v88 main_v89 rfl shapeCasts_S1x128_S128,
    StableHlo.unary main_arg13 main_v90 ((extractStridedSlice S1x128 ![1, 0] · slices_S4x128_S1x128_1_0) : (⟨S4x128, .f32⟩ : BufTy).Contents (Elt F) → (⟨S1x128, .f32⟩ : BufTy).Contents (Elt F)),
    StableHlo.reshape main_v90 main_v91 rfl shapeCasts_S1x128_S128,
    StableHlo.unary main_arg14 main_v92 ((extractStridedSlice S1x128 ![1, 0] · slices_S4x128_S1x128_1_0) : (⟨S4x128, .f32⟩ : BufTy).Contents (Elt F) → (⟨S1x128, .f32⟩ : BufTy).Contents (Elt F)),
    StableHlo.reshape main_v92 main_v93 rfl shapeCasts_S1x128_S128,
    StableHlo.unary main_arg15 main_v94 ((extractStridedSlice S1x128 ![1, 0] · slices_S4x128_S1x128_1_0) : (⟨S4x128, .f32⟩ : BufTy).Contents (Elt F) → (⟨S1x128, .f32⟩ : BufTy).Contents (Elt F)),
    StableHlo.reshape main_v94 main_v95 rfl shapeCasts_S1x128_S128,
    StableHlo.unary main_arg16 main_v96 ((extractStridedSlice S1 ![1] · slices_S4_S1_1) : (⟨S4, .f32⟩ : BufTy).Contents (Elt F) → (⟨S1, .f32⟩ : BufTy).Contents (Elt F)),
    StableHlo.reshape main_v96 main_v97 rfl shapeCasts_S1_S_,
    StableHlo.nullary main_c_12 (constantI S_ 32 0#32),
    StableHlo.unary main_c_12 main_v98 (broadcastInDim S1600000 ![] bcast_S_S1600000 : (⟨S_, .i32⟩ : BufTy).Contents (Elt F) → (⟨S1600000, .i32⟩ : BufTy).Contents (Elt F)),
    StableHlo.binary main_v1 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v100 (broadcastInDim S1600000 ![] bcast_S_S1600000 : (⟨S_, .i32⟩ : BufTy).Contents (Elt F) → (⟨S1600000, .i32⟩ : BufTy).Contents (Elt F)),
    StableHlo.binary main_v1 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)) ]

set_option maxRecDepth 16384 in
/-- The window is that straight line: a call unfolds to its function's body at the call's record, and both sides
    are then the same chain of `hlo` steps. -/
theorem main_part1_eq (c : Dev nD) : main_part1 (F := F) c = seq ops1 := rfl

set_option maxRecDepth 16384 in
/-- Every operation of the window reads and writes TensorCore buffers only. -/
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩

/-- The buffers the window's operations write, in order. -/
abbrev ops1_W : List (Ref sig .tc) :=
  [main_v52, main_c_6, main_v53, main_v54, main_v55, main_v56, main_v57, main_cst_7, main_v58, main_v59, main_v60, main_cst_8, main_v61, main_v62, main_v63, main_v64, main_v65, main_v66, main_v67, main_v68, main_v69, main_v70, main_v71, main_cst_9, main_v72, main_v73, main_v74, main_v75, main_v76, main_v77, main_v78, main_v79, main_v80, main_v81, main_cst_10, main_call2.cst.ref, main_call2.v0.ref, main_call2.v1.ref, main_call2.v2.ref, main_call2.v3.ref, main_call2.v4.ref, main_call2.call0.v0.ref, main_cst_11, main_call3.cst.ref, main_call3.v0.ref, main_call3.v1.ref, main_call3.v2.ref, main_call3.v3.ref, main_call3.v4.ref, main_call3.call0.v0.ref, main_v84, main_v85, main_v86, main_v87, main_v88, main_v89, main_v90, main_v91, main_v92, main_v93, main_v94, main_v95, main_v96, main_v97, main_c_12, main_v98, main_v99, main_c_13, main_v100, main_v101, main_v102, main_v103]

set_option maxRecDepth 16384 in
/-- Each operation writes exactly its result buffer, which the list names. -/
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

set_option maxRecDepth 16384 in
/-- Every operation determines its result: none allocates a fresh buffer. -/
theorem ops1_fresh : ∀ op ∈ (ops1 : List (HloOp τ sig (Elt F))), op.fresh = ∅ := by
  intro _ h
  repeat (cases h with | head => rfl | tail _ h => ?_)
  exact nomatch h

end Cert.ReferenceIdeal.Hand

end
-- ==== Proof.Ref.Part2.lean ====
/- The reference program's @main, statements 121 … 180 of 341 (its window `main_part2`), as a list of
   host operations: each statement of the window in order, and where the statement is a call of a module-local
   function, the operations of that function's body (and of the functions it calls in turn) written out in its
   place over the call's own buffer record — the inlining the call denotes. The window is the run of that list
   (`StableHlo.seq`), every operation of the list touches TensorCore buffers only and determines its result,
   and the list writes only the buffers named in `ops2_W`. -/
import proofs.«145887_j33578054320560_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window `main_part2` (statements 121 … 180), the called functions' operations inline. -/
abbrev ops2 : List (HloOp τ sig (Elt F)) :=
  [ StableHlo.binary main_v83 main_v103 main_v104 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v105 (broadcastInDim S100000x128 ![] bcast_S_S100000x128 : (⟨S_, .f32⟩ : BufTy).Contents (Elt F) → (⟨S100000x128, .f32⟩ : BufTy).Contents (Elt F)),
    StableHlo.unary main_v3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_15 (constant S_ .f32 0x3F800000#32),
    StableHlo.binary main_cst_15 main_v97 main_v108 (addf : (⟨S_, .f32⟩ : BufTy).Contents (Elt F) → (⟨S_, .f32⟩ : BufTy).Contents (Elt F) → (⟨S_, .f32⟩ : BufTy).Contents (Elt F)),
    StableHlo.unary main_v108 main_v109 (broadcastInDim S100000x128 ![] bcast_S_S100000x128 : (⟨S_, .f32⟩ : BufTy).Contents (Elt F) → (⟨S100000x128, .f32⟩ : BufTy).Contents (Elt F)),
    StableHlo.binary main_v109 main_v83 main_v110 (mulf : (⟨S100000x128, .f32⟩ : BufTy).Contents (Elt F) → (⟨S100000x128, .f32⟩ : BufTy).Contents (Elt F) → (⟨S100000x128, .f32⟩ : BufTy).Contents (Elt F)),
    StableHlo.binary main_v110 main_v107 main_v111 (addf : (⟨S100000x128, .f32⟩ : BufTy).Contents (Elt F) → (⟨S100000x128, .f32⟩ : BufTy).Contents (Elt F) → (⟨S100000x128, .f32⟩ : BufTy).Contents (Elt F)),
    StableHlo.binary main_v111 main_v85 main_v112 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v87 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v114 main_v115 (addf : (⟨S100000x128, .f32⟩ : BufTy).Contents (Elt F) → (⟨S100000x128, .f32⟩ : BufTy).Contents (Elt F) → (⟨S100000x128, .f32⟩ : BufTy).Contents (Elt F)),
    StableHlo.unary main_v93 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (subf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3727C5AC#32),
    StableHlo.unary main_cst_16 main_v119 (broadcastInDim S128 ![] bcast_S_S128 : (⟨S_, .f32⟩ : BufTy).Contents (Elt F) → (⟨S128, .f32⟩ : BufTy).Contents (Elt F)),
    StableHlo.binary main_v95 main_v119 main_v120 (addf : (⟨S128, .f32⟩ : BufTy).Contents (Elt F) → (⟨S128, .f32⟩ : BufTy).Contents (Elt F) → (⟨S128, .f32⟩ : BufTy).Contents (Elt F)),
    StableHlo.unary main_v120 main_v121 (Host.rsqrt : (⟨S128, .f32⟩ : BufTy).Contents (Elt F) → (⟨S128, .f32⟩ : BufTy).Contents (Elt F)),
    StableHlo.binary main_v89 main_v121 main_v122 (mulf : (⟨S128, .f32⟩ : BufTy).Contents (Elt F) → (⟨S128, .f32⟩ : BufTy).Contents (Elt F) → (⟨S128, .f32⟩ : BufTy).Contents (Elt F)),
    StableHlo.unary main_v122 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v124 main_v125 (mulf : (⟨S100000x128, .f32⟩ : BufTy).Contents (Elt F) → (⟨S100000x128, .f32⟩ : BufTy).Contents (Elt F) → (⟨S100000x128, .f32⟩ : BufTy).Contents (Elt F)),
    StableHlo.unary main_v91 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v127 main_v128 (addf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3C23D70A#32),
    StableHlo.TRef.nullary main_call4.cst (constant S_ .f32 0x00000000#32),
    StableHlo.TRef.unary main_call4.cst main_call4.v0 (broadcastInDim S100000x128 ![] bcast_S_S100000x128),
    StableHlo.TRef.binary (.of main_v128 : StableHlo.TRef sig ⟨S100000x128, .f32⟩) main_call4.v0 main_call4.v1 (cmpf .oge),
    StableHlo.TRef.unary (.of main_cst_17 : StableHlo.TRef sig ⟨S_, .f32⟩) main_call4.v2 id,
    StableHlo.TRef.unary main_call4.v2 main_call4.v3 (broadcastInDim S100000x128 ![] bcast_S_S100000x128),
    StableHlo.TRef.binary main_call4.v3 (.of main_v128 : StableHlo.TRef sig ⟨S100000x128, .f32⟩) main_call4.v4 mulf,
    StableHlo.TRef.ternary main_call4.v1 (.of main_v128 : StableHlo.TRef sig ⟨S100000x128, .f32⟩) main_call4.v4 main_call4.call0.v0 select,
    StableHlo.nullary main_cst_18 (constant S_ .f32 0x3C23D70A#32),
    StableHlo.TRef.nullary main_call5.cst (constant S_ .f32 0x00000000#32),
    StableHlo.TRef.unary main_call5.cst main_call5.v0 (broadcastInDim S100000x128 ![] bcast_S_S100000x128),
    StableHlo.TRef.binary (.of main_v129 : StableHlo.TRef sig ⟨S100000x128, .f32⟩) main_call5.v0 main_call5.v1 (cmpf .oge),
    StableHlo.TRef.unary (.of main_cst_18 : StableHlo.TRef sig ⟨S_, .f32⟩) main_call5.v2 id,
    StableHlo.TRef.unary main_call5.v2 main_call5.v3 (broadcastInDim S100000x128 ![] bcast_S_S100000x128),
    StableHlo.TRef.binary main_call5.v3 (.of main_v129 : StableHlo.TRef sig ⟨S100000x128, .f32⟩) main_call5.v4 mulf,
    StableHlo.TRef.ternary main_call5.v1 (.of main_v129 : StableHlo.TRef sig ⟨S100000x128, .f32⟩) main_call5.v4 main_call5.call0.v0 select,
    StableHlo.unary main_arg10 main_v131 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v131 main_v132 rfl shapeCasts_S1x128x128_S128x128,
    StableHlo.unary main_arg11 main_v133 ((extractStridedSlice S1x128 ![2, 0] · slices_S4x128_S1x128_2_0) : (⟨S4x128, .f32⟩ : BufTy).Contents (Elt F) → (⟨S1x128, .f32⟩ : BufTy).Contents (Elt F)),
    StableHlo.reshape main_v133 main_v134 rfl shapeCasts_S1x128_S128,
    StableHlo.unary main_arg12 main_v135 ((extractStridedSlice S1x128 ![2, 0] · slices_S4x128_S1x128_2_0) : (⟨S4x128, .f32⟩ : BufTy).Contents (Elt F) → (⟨S1x128, .f32⟩ : BufTy).Contents (Elt F)),
    StableHlo.reshape main_v135 main_v136 rfl shapeCasts_S1x128_S128,
    StableHlo.unary main_arg13 main_v137 ((extractStridedSlice S1x128 ![2, 0] · slices_S4x128_S1x128_2_0) : (⟨S4x128, .f32⟩ : BufTy).Contents (Elt F) → (⟨S1x128, .f32⟩ : BufTy).Contents (Elt F)),
    StableHlo.reshape main_v137 main_v138 rfl shapeCasts_S1x128_S128,
    StableHlo.unary main_arg14 main_v139 ((extractStridedSlice S1x128 ![2, 0] · slices_S4x128_S1x128_2_0) : (⟨S4x128, .f32⟩ : BufTy).Contents (Elt F) → (⟨S1x128, .f32⟩ : BufTy).Contents (Elt F)),
    StableHlo.reshape main_v139 main_v140 rfl shapeCasts_S1x128_S128,
    StableHlo.unary main_arg15 main_v141 ((extractStridedSlice S1x128 ![2, 0] · slices_S4x128_S1x128_2_0) : (⟨S4x128, .f32⟩ : BufTy).Contents (Elt F) → (⟨S1x128, .f32⟩ : BufTy).Contents (Elt F)),
    StableHlo.reshape main_v141 main_v142 rfl shapeCasts_S1x128_S128,
    StableHlo.unary main_arg16 main_v143 ((extractStridedSlice S1 ![2] · slices_S4_S1_2) : (⟨S4, .f32⟩ : BufTy).Contents (Elt F) → (⟨S1, .f32⟩ : BufTy).Contents (Elt F)),
    StableHlo.reshape main_v143 main_v144 rfl shapeCasts_S1_S_,
    StableHlo.nullary main_c_19 (constantI S_ 32 0#32),
    StableHlo.unary main_c_19 main_v145 (broadcastInDim S1600000 ![] bcast_S_S1600000 : (⟨S_, .i32⟩ : BufTy).Contents (Elt F) → (⟨S1600000, .i32⟩ : BufTy).Contents (Elt F)),
    StableHlo.binary main_v1 main_v145 main_v146 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v147 (broadcastInDim S1600000 ![] bcast_S_S1600000 : (⟨S_, .i32⟩ : BufTy).Contents (Elt F) → (⟨S1600000, .i32⟩ : BufTy).Contents (Elt F)),
    StableHlo.binary main_v1 main_v147 main_v148 (addi : (⟨S1600000, .i32⟩ : BufTy).Contents (Elt F) → (⟨S1600000, .i32⟩ : BufTy).Contents (Elt F) → (⟨S1600000, .i32⟩ : BufTy).Contents (Elt F)),
    StableHlo.ternary main_v146 main_v148 main_v1 main_v149 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v149 main_v150 (broadcastInDim S1600000x1 ![0] bcast_S1600000_S1600000x1_0 : (⟨S1600000, .i32⟩ : BufTy).Contents (Elt F) → (⟨S1600000x1, .i32⟩ : BufTy).Contents (Elt F)),
    StableHlo.binary main_v130 main_v150 main_v151 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_21 (constant S_ .f32 0x00000000#32),
    StableHlo.unary main_cst_21 main_v152 (broadcastInDim S100000x128 ![] bcast_S_S100000x128 : (⟨S_, .f32⟩ : BufTy).Contents (Elt F) → (⟨S100000x128, .f32⟩ : BufTy).Contents (Elt F)),
    StableHlo.unary main_v3 main_v153 (broadcastInDim S1600000x1 ![0] bcast_S1600000_S1600000x1_0 : (⟨S1600000, .i32⟩ : BufTy).Contents (Elt F) → (⟨S1600000x1, .i32⟩ : BufTy).Contents (Elt F)),
    StableHlo.ternary main_v152 main_v153 main_v151 main_v154 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_22 (constant S_ .f32 0x3F800000#32) ]

set_option maxRecDepth 16384 in
/-- The window is that straight line: a call unfolds to its function's body at the call's record, and both sides
    are then the same chain of `hlo` steps. -/
theorem main_part2_eq (c : Dev nD) : main_part2 (F := F) c = seq ops2 := rfl

set_option maxRecDepth 16384 in
/-- Every operation of the window reads and writes TensorCore buffers only. -/
theorem ops2_sub : (ops2 : List (HloOp τ sig (Elt F))).Forall fun op => op.bufs ⊆ tcRefs τ sig :=
  ⟨binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub ..⟩

/-- The buffers the window's operations write, in order. -/
abbrev ops2_W : List (Ref sig .tc) :=
  [main_v104, main_cst_14, main_v105, main_v106, main_v107, main_cst_15, main_v108, main_v109, main_v110, main_v111, main_v112, main_v113, main_v114, main_v115, main_v116, main_v117, main_v118, main_cst_16, main_v119, main_v120, main_v121, main_v122, main_v123, main_v124, main_v125, main_v126, main_v127, main_v128, main_cst_17, main_call4.cst.ref, main_call4.v0.ref, main_call4.v1.ref, main_call4.v2.ref, main_call4.v3.ref, main_call4.v4.ref, main_call4.call0.v0.ref, main_cst_18, main_call5.cst.ref, main_call5.v0.ref, main_call5.v1.ref, main_call5.v2.ref, main_call5.v3.ref, main_call5.v4.ref, main_call5.call0.v0.ref, main_v131, main_v132, main_v133, main_v134, main_v135, main_v136, main_v137, main_v138, main_v139, main_v140, main_v141, main_v142, main_v143, main_v144, main_c_19, main_v145, main_v146, main_c_20, main_v147, main_v148, main_v149, main_v150, main_v151, main_cst_21, main_v152, main_v153, main_v154, main_cst_22]

set_option maxRecDepth 16384 in
/-- Each operation writes exactly its result buffer, which the list names. -/
theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

set_option maxRecDepth 16384 in
/-- Every operation determines its result: none allocates a fresh buffer. -/
theorem ops2_fresh : ∀ op ∈ (ops2 : List (HloOp τ sig (Elt F))), op.fresh = ∅ := by
  intro _ h
  repeat (cases h with | head => rfl | tail _ h => ?_)
  exact nomatch h

end Cert.ReferenceIdeal.Hand

end
-- ==== Proof.Ref.Part3.lean ====
/- The reference program's @main, statements 181 … 240 of 341 (its window `main_part3`), as a list of
   host operations: each statement of the window in order, and where the statement is a call of a module-local
   function, the operations of that function's body (and of the functions it calls in turn) written out in its
   place over the call's own buffer record — the inlining the call denotes. The window is the run of that list
   (`StableHlo.seq`), every operation of the list touches TensorCore buffers only and determines its result,
   and the list writes only the buffers named in `ops3_W`. -/
import proofs.«145887_j33578054320560_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window `main_part3` (statements 181 … 240), the called functions' operations inline. -/
abbrev ops3 : List (HloOp τ sig (Elt F)) :=
  [ StableHlo.binary main_cst_22 main_v144 main_v155 (addf : (⟨S_, .f32⟩ : BufTy).Contents (Elt F) → (⟨S_, .f32⟩ : BufTy).Contents (Elt F) → (⟨S_, .f32⟩ : BufTy).Contents (Elt F)),
    StableHlo.unary main_v155 main_v156 (broadcastInDim S100000x128 ![] bcast_S_S100000x128 : (⟨S_, .f32⟩ : BufTy).Contents (Elt F) → (⟨S100000x128, .f32⟩ : BufTy).Contents (Elt F)),
    StableHlo.binary main_v156 main_v130 main_v157 (mulf : (⟨S100000x128, .f32⟩ : BufTy).Contents (Elt F) → (⟨S100000x128, .f32⟩ : BufTy).Contents (Elt F) → (⟨S100000x128, .f32⟩ : BufTy).Contents (Elt F)),
    StableHlo.binary main_v157 main_v154 main_v158 (addf : (⟨S100000x128, .f32⟩ : BufTy).Contents (Elt F) → (⟨S100000x128, .f32⟩ : BufTy).Contents (Elt F) → (⟨S100000x128, .f32⟩ : BufTy).Contents (Elt F)),
    StableHlo.binary main_v158 main_v132 main_v159 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v134 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v159 main_v161 main_v162 (addf : (⟨S100000x128, .f32⟩ : BufTy).Contents (Elt F) → (⟨S100000x128, .f32⟩ : BufTy).Contents (Elt F) → (⟨S100000x128, .f32⟩ : BufTy).Contents (Elt F)),
    StableHlo.unary main_v140 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v164 main_v165 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v166 (broadcastInDim S128 ![] bcast_S_S128 : (⟨S_, .f32⟩ : BufTy).Contents (Elt F) → (⟨S128, .f32⟩ : BufTy).Contents (Elt F)),
    StableHlo.binary main_v142 main_v166 main_v167 (addf : (⟨S128, .f32⟩ : BufTy).Contents (Elt F) → (⟨S128, .f32⟩ : BufTy).Contents (Elt F) → (⟨S128, .f32⟩ : BufTy).Contents (Elt F)),
    StableHlo.unary main_v167 main_v168 (Host.rsqrt : (⟨S128, .f32⟩ : BufTy).Contents (Elt F) → (⟨S128, .f32⟩ : BufTy).Contents (Elt F)),
    StableHlo.binary main_v136 main_v168 main_v169 (mulf : (⟨S128, .f32⟩ : BufTy).Contents (Elt F) → (⟨S128, .f32⟩ : BufTy).Contents (Elt F) → (⟨S128, .f32⟩ : BufTy).Contents (Elt F)),
    StableHlo.unary main_v169 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v171 main_v172 (mulf : (⟨S100000x128, .f32⟩ : BufTy).Contents (Elt F) → (⟨S100000x128, .f32⟩ : BufTy).Contents (Elt F) → (⟨S100000x128, .f32⟩ : BufTy).Contents (Elt F)),
    StableHlo.unary main_v138 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S100000x128 ![0, 1] bcast_S1x128_S100000x128_0_1 : (⟨S1x128, .f32⟩ : BufTy).Contents (Elt F) → (⟨S100000x128, .f32⟩ : BufTy).Contents (Elt F)),
    StableHlo.binary main_v172 main_v174 main_v175 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3C23D70A#32),
    StableHlo.TRef.nullary main_call6.cst (constant S_ .f32 0x00000000#32),
    StableHlo.TRef.unary main_call6.cst main_call6.v0 (broadcastInDim S100000x128 ![] bcast_S_S100000x128),
    StableHlo.TRef.binary (.of main_v175 : StableHlo.TRef sig ⟨S100000x128, .f32⟩) main_call6.v0 main_call6.v1 (cmpf .oge),
    StableHlo.TRef.unary (.of main_cst_24 : StableHlo.TRef sig ⟨S_, .f32⟩) main_call6.v2 id,
    StableHlo.TRef.unary main_call6.v2 main_call6.v3 (broadcastInDim S100000x128 ![] bcast_S_S100000x128),
    StableHlo.TRef.binary main_call6.v3 (.of main_v175 : StableHlo.TRef sig ⟨S100000x128, .f32⟩) main_call6.v4 mulf,
    StableHlo.TRef.ternary main_call6.v1 (.of main_v175 : StableHlo.TRef sig ⟨S100000x128, .f32⟩) main_call6.v4 main_call6.call0.v0 select,
    StableHlo.nullary main_cst_25 (constant S_ .f32 0x3C23D70A#32),
    StableHlo.TRef.nullary main_call7.cst (constant S_ .f32 0x00000000#32),
    StableHlo.TRef.unary main_call7.cst main_call7.v0 (broadcastInDim S100000x128 ![] bcast_S_S100000x128),
    StableHlo.TRef.binary (.of main_v176 : StableHlo.TRef sig ⟨S100000x128, .f32⟩) main_call7.v0 main_call7.v1 (cmpf .oge),
    StableHlo.TRef.unary (.of main_cst_25 : StableHlo.TRef sig ⟨S_, .f32⟩) main_call7.v2 id,
    StableHlo.TRef.unary main_call7.v2 main_call7.v3 (broadcastInDim S100000x128 ![] bcast_S_S100000x128),
    StableHlo.TRef.binary main_call7.v3 (.of main_v176 : StableHlo.TRef sig ⟨S100000x128, .f32⟩) main_call7.v4 mulf,
    StableHlo.TRef.ternary main_call7.v1 (.of main_v176 : StableHlo.TRef sig ⟨S100000x128, .f32⟩) main_call7.v4 main_call7.call0.v0 select,
    StableHlo.unary main_arg10 main_v178 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v178 main_v179 rfl shapeCasts_S1x128x128_S128x128,
    StableHlo.unary main_arg11 main_v180 ((extractStridedSlice S1x128 ![3, 0] · slices_S4x128_S1x128_3_0) : (⟨S4x128, .f32⟩ : BufTy).Contents (Elt F) → (⟨S1x128, .f32⟩ : BufTy).Contents (Elt F)),
    StableHlo.reshape main_v180 main_v181 rfl shapeCasts_S1x128_S128,
    StableHlo.unary main_arg12 main_v182 ((extractStridedSlice S1x128 ![3, 0] · slices_S4x128_S1x128_3_0) : (⟨S4x128, .f32⟩ : BufTy).Contents (Elt F) → (⟨S1x128, .f32⟩ : BufTy).Contents (Elt F)),
    StableHlo.reshape main_v182 main_v183 rfl shapeCasts_S1x128_S128,
    StableHlo.unary main_arg13 main_v184 ((extractStridedSlice S1x128 ![3, 0] · slices_S4x128_S1x128_3_0) : (⟨S4x128, .f32⟩ : BufTy).Contents (Elt F) → (⟨S1x128, .f32⟩ : BufTy).Contents (Elt F)),
    StableHlo.reshape main_v184 main_v185 rfl shapeCasts_S1x128_S128,
    StableHlo.unary main_arg14 main_v186 ((extractStridedSlice S1x128 ![3, 0] · slices_S4x128_S1x128_3_0) : (⟨S4x128, .f32⟩ : BufTy).Contents (Elt F) → (⟨S1x128, .f32⟩ : BufTy).Contents (Elt F)),
    StableHlo.reshape main_v186 main_v187 rfl shapeCasts_S1x128_S128,
    StableHlo.unary main_arg15 main_v188 ((extractStridedSlice S1x128 ![3, 0] · slices_S4x128_S1x128_3_0) : (⟨S4x128, .f32⟩ : BufTy).Contents (Elt F) → (⟨S1x128, .f32⟩ : BufTy).Contents (Elt F)),
    StableHlo.reshape main_v188 main_v189 rfl shapeCasts_S1x128_S128,
    StableHlo.unary main_arg16 main_v190 ((extractStridedSlice S1 ![3] · slices_S4_S1_3) : (⟨S4, .f32⟩ : BufTy).Contents (Elt F) → (⟨S1, .f32⟩ : BufTy).Contents (Elt F)),
    StableHlo.reshape main_v190 main_v191 rfl shapeCasts_S1_S_,
    StableHlo.nullary main_c_26 (constantI S_ 32 0#32),
    StableHlo.unary main_c_26 main_v192 (broadcastInDim S1600000 ![] bcast_S_S1600000 : (⟨S_, .i32⟩ : BufTy).Contents (Elt F) → (⟨S1600000, .i32⟩ : BufTy).Contents (Elt F)),
    StableHlo.binary main_v1 main_v192 main_v193 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v194 (broadcastInDim S1600000 ![] bcast_S_S1600000 : (⟨S_, .i32⟩ : BufTy).Contents (Elt F) → (⟨S1600000, .i32⟩ : BufTy).Contents (Elt F)),
    StableHlo.binary main_v1 main_v194 main_v195 (addi : (⟨S1600000, .i32⟩ : BufTy).Contents (Elt F) → (⟨S1600000, .i32⟩ : BufTy).Contents (Elt F) → (⟨S1600000, .i32⟩ : BufTy).Contents (Elt F)),
    StableHlo.ternary main_v193 main_v195 main_v1 main_v196 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v196 main_v197 (broadcastInDim S1600000x1 ![0] bcast_S1600000_S1600000x1_0 : (⟨S1600000, .i32⟩ : BufTy).Contents (Elt F) → (⟨S1600000x1, .i32⟩ : BufTy).Contents (Elt F)),
    StableHlo.binary main_v177 main_v197 main_v198 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_28 (constant S_ .f32 0x00000000#32),
    StableHlo.unary main_cst_28 main_v199 (broadcastInDim S100000x128 ![] bcast_S_S100000x128 : (⟨S_, .f32⟩ : BufTy).Contents (Elt F) → (⟨S100000x128, .f32⟩ : BufTy).Contents (Elt F)),
    StableHlo.unary main_v3 main_v200 (broadcastInDim S1600000x1 ![0] bcast_S1600000_S1600000x1_0 : (⟨S1600000, .i32⟩ : BufTy).Contents (Elt F) → (⟨S1600000x1, .i32⟩ : BufTy).Contents (Elt F)),
    StableHlo.ternary main_v199 main_v200 main_v198 main_v201 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_29 (constant S_ .f32 0x3F800000#32),
    StableHlo.binary main_cst_29 main_v191 main_v202 (addf : (⟨S_, .f32⟩ : BufTy).Contents (Elt F) → (⟨S_, .f32⟩ : BufTy).Contents (Elt F) → (⟨S_, .f32⟩ : BufTy).Contents (Elt F)),
    StableHlo.unary main_v202 main_v203 (broadcastInDim S100000x128 ![] bcast_S_S100000x128 : (⟨S_, .f32⟩ : BufTy).Contents (Elt F) → (⟨S100000x128, .f32⟩ : BufTy).Contents (Elt F)),
    StableHlo.binary main_v203 main_v177 main_v204 (mulf : (⟨S100000x128, .f32⟩ : BufTy).Contents (Elt F) → (⟨S100000x128, .f32⟩ : BufTy).Contents (Elt F) → (⟨S100000x128, .f32⟩ : BufTy).Contents (Elt F)),
    StableHlo.binary main_v204 main_v201 main_v205 (addf : (⟨S100000x128, .f32⟩ : BufTy).Contents (Elt F) → (⟨S100000x128, .f32⟩ : BufTy).Contents (Elt F) → (⟨S100000x128, .f32⟩ : BufTy).Contents (Elt F)),
    StableHlo.binary main_v205 main_v179 main_v206 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v181 main_v207 (broadcastInDim S1x128 ![1] bcast_S128_S1x128_1 : (⟨S128, .f32⟩ : BufTy).Contents (Elt F) → (⟨S1x128, .f32⟩ : BufTy).Contents (Elt F)) ]

set_option maxRecDepth 16384 in
/-- The window is that straight line: a call unfolds to its function's body at the call's record, and both sides
    are then the same chain of `hlo` steps. -/
theorem main_part3_eq (c : Dev nD) : main_part3 (F := F) c = seq ops3 := rfl

set_option maxRecDepth 16384 in
/-- Every operation of the window reads and writes TensorCore buffers only. -/
theorem ops3_sub : (ops3 : List (HloOp τ sig (Elt F))).Forall fun op => op.bufs ⊆ tcRefs τ sig :=
  ⟨binary_bufs_sub .., unary_bufs_sub .., binary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub ..⟩

/-- The buffers the window's operations write, in order. -/
abbrev ops3_W : List (Ref sig .tc) :=
  [main_v155, main_v156, main_v157, main_v158, main_v159, main_v160, main_v161, main_v162, main_v163, main_v164, main_v165, main_cst_23, main_v166, main_v167, main_v168, main_v169, main_v170, main_v171, main_v172, main_v173, main_v174, main_v175, main_cst_24, main_call6.cst.ref, main_call6.v0.ref, main_call6.v1.ref, main_call6.v2.ref, main_call6.v3.ref, main_call6.v4.ref, main_call6.call0.v0.ref, main_cst_25, main_call7.cst.ref, main_call7.v0.ref, main_call7.v1.ref, main_call7.v2.ref, main_call7.v3.ref, main_call7.v4.ref, main_call7.call0.v0.ref, main_v178, main_v179, main_v180, main_v181, main_v182, main_v183, main_v184, main_v185, main_v186, main_v187, main_v188, main_v189, main_v190, main_v191, main_c_26, main_v192, main_v193, main_c_27, main_v194, main_v195, main_v196, main_v197, main_v198, main_cst_28, main_v199, main_v200, main_v201, main_cst_29, main_v202, main_v203, main_v204, main_v205, main_v206, main_v207]

set_option maxRecDepth 16384 in
/-- Each operation writes exactly its result buffer, which the list names. -/
theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

set_option maxRecDepth 16384 in
/-- Every operation determines its result: none allocates a fresh buffer. -/
theorem ops3_fresh : ∀ op ∈ (ops3 : List (HloOp τ sig (Elt F))), op.fresh = ∅ := by
  intro _ h
  repeat (cases h with | head => rfl | tail _ h => ?_)
  exact nomatch h

end Cert.ReferenceIdeal.Hand

end
-- ==== Proof.Ref.Part4.lean ====
/- The reference program's @main, statements 241 … 300 of 341 (its window `main_part4`), as a list of
   host operations: each statement of the window in order, and where the statement is a call of a module-local
   function, the operations of that function's body (and of the functions it calls in turn) written out in its
   place over the call's own buffer record — the inlining the call denotes. The window is the run of that list
   (`StableHlo.seq`), every operation of the list touches TensorCore buffers only and determines its result,
   and the list writes only the buffers named in `ops4_W`. -/
import proofs.«145887_j33578054320560_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window `main_part4` (statements 241 … 300), the called functions' operations inline. -/
abbrev ops4 : List (HloOp τ sig (Elt F)) :=
  [ StableHlo.unary main_v207 main_v208 (broadcastInDim S100000x128 ![0, 1] bcast_S1x128_S100000x128_0_1 : (⟨S1x128, .f32⟩ : BufTy).Contents (Elt F) → (⟨S100000x128, .f32⟩ : BufTy).Contents (Elt F)),
    StableHlo.binary main_v206 main_v208 main_v209 (addf : (⟨S100000x128, .f32⟩ : BufTy).Contents (Elt F) → (⟨S100000x128, .f32⟩ : BufTy).Contents (Elt F) → (⟨S100000x128, .f32⟩ : BufTy).Contents (Elt F)),
    StableHlo.unary main_v187 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v211 main_v212 (subf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x3727C5AC#32),
    StableHlo.unary main_cst_30 main_v213 (broadcastInDim S128 ![] bcast_S_S128 : (⟨S_, .f32⟩ : BufTy).Contents (Elt F) → (⟨S128, .f32⟩ : BufTy).Contents (Elt F)),
    StableHlo.binary main_v189 main_v213 main_v214 (addf : (⟨S128, .f32⟩ : BufTy).Contents (Elt F) → (⟨S128, .f32⟩ : BufTy).Contents (Elt F) → (⟨S128, .f32⟩ : BufTy).Contents (Elt F)),
    StableHlo.unary main_v214 main_v215 (Host.rsqrt : (⟨S128, .f32⟩ : BufTy).Contents (Elt F) → (⟨S128, .f32⟩ : BufTy).Contents (Elt F)),
    StableHlo.binary main_v183 main_v215 main_v216 (mulf : (⟨S128, .f32⟩ : BufTy).Contents (Elt F) → (⟨S128, .f32⟩ : BufTy).Contents (Elt F) → (⟨S128, .f32⟩ : BufTy).Contents (Elt F)),
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S100000x128 ![0, 1] bcast_S1x128_S100000x128_0_1 : (⟨S1x128, .f32⟩ : BufTy).Contents (Elt F) → (⟨S100000x128, .f32⟩ : BufTy).Contents (Elt F)),
    StableHlo.binary main_v212 main_v218 main_v219 (mulf : (⟨S100000x128, .f32⟩ : BufTy).Contents (Elt F) → (⟨S100000x128, .f32⟩ : BufTy).Contents (Elt F) → (⟨S100000x128, .f32⟩ : BufTy).Contents (Elt F)),
    StableHlo.unary main_v185 main_v220 (broadcastInDim S1x128 ![1] bcast_S128_S1x128_1 : (⟨S128, .f32⟩ : BufTy).Contents (Elt F) → (⟨S1x128, .f32⟩ : BufTy).Contents (Elt F)),
    StableHlo.unary main_v220 main_v221 (broadcastInDim S100000x128 ![0, 1] bcast_S1x128_S100000x128_0_1 : (⟨S1x128, .f32⟩ : BufTy).Contents (Elt F) → (⟨S100000x128, .f32⟩ : BufTy).Contents (Elt F)),
    StableHlo.binary main_v219 main_v221 main_v222 (addf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x3C23D70A#32),
    StableHlo.TRef.nullary main_call8.cst (constant S_ .f32 0x00000000#32),
    StableHlo.TRef.unary main_call8.cst main_call8.v0 (broadcastInDim S100000x128 ![] bcast_S_S100000x128),
    StableHlo.TRef.binary (.of main_v222 : StableHlo.TRef sig ⟨S100000x128, .f32⟩) main_call8.v0 main_call8.v1 (cmpf .oge),
    StableHlo.TRef.unary (.of main_cst_31 : StableHlo.TRef sig ⟨S_, .f32⟩) main_call8.v2 id,
    StableHlo.TRef.unary main_call8.v2 main_call8.v3 (broadcastInDim S100000x128 ![] bcast_S_S100000x128),
    StableHlo.TRef.binary main_call8.v3 (.of main_v222 : StableHlo.TRef sig ⟨S100000x128, .f32⟩) main_call8.v4 mulf,
    StableHlo.TRef.ternary main_call8.v1 (.of main_v222 : StableHlo.TRef sig ⟨S100000x128, .f32⟩) main_call8.v4 main_call8.call0.v0 select,
    StableHlo.nullary main_cst_32 (constant S_ .f32 0x3C23D70A#32),
    StableHlo.TRef.nullary main_call9.cst (constant S_ .f32 0x00000000#32),
    StableHlo.TRef.unary main_call9.cst main_call9.v0 (broadcastInDim S100000x128 ![] bcast_S_S100000x128),
    StableHlo.TRef.binary (.of main_v223 : StableHlo.TRef sig ⟨S100000x128, .f32⟩) main_call9.v0 main_call9.v1 (cmpf .oge),
    StableHlo.TRef.unary (.of main_cst_32 : StableHlo.TRef sig ⟨S_, .f32⟩) main_call9.v2 id,
    StableHlo.TRef.unary main_call9.v2 main_call9.v3 (broadcastInDim S100000x128 ![] bcast_S_S100000x128),
    StableHlo.TRef.binary main_call9.v3 (.of main_v223 : StableHlo.TRef sig ⟨S100000x128, .f32⟩) main_call9.v4 mulf,
    StableHlo.TRef.ternary main_call9.v1 (.of main_v223 : StableHlo.TRef sig ⟨S100000x128, .f32⟩) main_call9.v4 main_call9.call0.v0 select,
    StableHlo.nullary main_cst_33 (constant S_ .f32 0x00000000#32),
    StableHlo.unary main_cst_33 main_v225 (broadcastInDim S2000x128 ![] bcast_S_S2000x128 : (⟨S_, .f32⟩ : BufTy).Contents (Elt F) → (⟨S2000x128, .f32⟩ : BufTy).Contents (Elt F)),
    StableHlo.unary main_arg2 main_v226 (broadcastInDim S100000x1 ![0] bcast_S100000_S100000x1_0 : (⟨S100000, .i32⟩ : BufTy).Contents (Elt F) → (⟨S100000x1, .i32⟩ : BufTy).Contents (Elt F)),
    StableHlo.ternary main_v225 main_v226 main_v224 main_v227 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.nullary main_c_34 (constantI S_ 32 0#32),
    StableHlo.unary main_c_34 main_v228 (broadcastInDim S2000 ![] bcast_S_S2000 : (⟨S_, .i32⟩ : BufTy).Contents (Elt F) → (⟨S2000, .i32⟩ : BufTy).Contents (Elt F)),
    StableHlo.nullary main_c_35 (constantI S_ 32 0#32),
    StableHlo.TRef.unary (.of main_c_35 : StableHlo.TRef sig ⟨S_, .i32⟩) main_call10.v0 id,
    StableHlo.TRef.unary main_call10.v0 main_call10.v1 (broadcastInDim S100000 ![] bcast_S_S100000),
    StableHlo.TRef.binary main_call10.v1 (.of main_arg2 : StableHlo.TRef sig ⟨S100000, .i32⟩) main_call10.v2 maxsi,
    StableHlo.nullary main_c_36 (constantI S_ 32 0#32),
    StableHlo.unary main_c_36 main_v230 (broadcastInDim S100000 ![] bcast_S_S100000 : (⟨S_, .i32⟩ : BufTy).Contents (Elt F) → (⟨S100000, .i32⟩ : BufTy).Contents (Elt F)),
    StableHlo.binary main_v229 main_v230 main_v231 (cmpi .slt : (⟨S100000, .i32⟩ : BufTy).Contents (Elt F) → (⟨S100000, .i32⟩ : BufTy).Contents (Elt F) → (⟨S100000, .i1⟩ : BufTy).Contents (Elt F)),
    StableHlo.nullary main_c_37 (constantI S_ 32 2000#32),
    StableHlo.unary main_c_37 main_v232 (broadcastInDim S100000 ![] bcast_S_S100000 : (⟨S_, .i32⟩ : BufTy).Contents (Elt F) → (⟨S100000, .i32⟩ : BufTy).Contents (Elt F)),
    StableHlo.binary main_v229 main_v232 main_v233 (addi : (⟨S100000, .i32⟩ : BufTy).Contents (Elt F) → (⟨S100000, .i32⟩ : BufTy).Contents (Elt F) → (⟨S100000, .i32⟩ : BufTy).Contents (Elt F)),
    StableHlo.ternary main_v231 main_v233 main_v229 main_v234 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v234 main_v235 (broadcastInDim S100000x1 ![0] bcast_S100000_S100000x1_0 : (⟨S100000, .i32⟩ : BufTy).Contents (Elt F) → (⟨S100000x1, .i32⟩ : BufTy).Contents (Elt F)),
    StableHlo.nullary main_c_38 (constantI S_ 32 1#32),
    StableHlo.unary main_c_38 main_v236 (broadcastInDim S100000 ![] bcast_S_S100000 : (⟨S_, .i32⟩ : BufTy).Contents (Elt F) → (⟨S100000, .i32⟩ : BufTy).Contents (Elt F)),
    StableHlo.ternary main_v228 main_v235 main_v236 main_v237 ((fun x i u => Host.scatter scatter_S2000_S100000x1_S100000_n_0_0_1 IntOp.addi x i u) : (⟨S2000, .i32⟩ : BufTy).Contents (Elt F) → (⟨S100000x1, .i32⟩ : BufTy).Contents (Elt F) → (⟨S100000, .i32⟩ : BufTy).Contents (Elt F) → (⟨S2000, .i32⟩ : BufTy).Contents (Elt F)),
    StableHlo.TRef.unary (.of main_v237 : StableHlo.TRef sig ⟨S2000, .i32⟩) main_call11.v0 (extractStridedSlice S1 ![1999] · slices_S2000_S1_1999),
    StableHlo.TRef.unary (.of main_v237 : StableHlo.TRef sig ⟨S2000, .i32⟩) main_call11.v1 (extractStridedSlice S1999 ![0] · slices_S2000_S1999_0),
    StableHlo.TRef.binary main_call11.v0 main_call11.v1 main_call11.v2 (fun a b => concatenate S2000 0 [⟨S1, a⟩, ⟨S1999, b⟩] concatenates_S1_S1999_S2000_d0),
    StableHlo.nullary main_c_39 (constantI S_ 32 0#32),
    StableHlo.unary main_c_39 main_v239 (broadcastInDim S1 ![] bcast_S_S1 : (⟨S_, .i32⟩ : BufTy).Contents (Elt F) → (⟨S1, .i32⟩ : BufTy).Contents (Elt F)),
    StableHlo.nullary main_c_40 (constantI S_ 32 0#32),
    StableHlo.ternary main_v238 main_v239 main_c_40 main_v240 ((fun x i u => Host.scatter scatter_S2000_S1_S__n_0_0_0 (fun _ b => b) x i u) : (⟨S2000, .i32⟩ : BufTy).Contents (Elt F) → (⟨S1, .i32⟩ : BufTy).Contents (Elt F) → (⟨S_, .i32⟩ : BufTy).Contents (Elt F) → (⟨S2000, .i32⟩ : BufTy).Contents (Elt F)),
    StableHlo.TRef.nullary main_call12.call0.c (constantI S_ 32 0#32),
    StableHlo.TRef.unary main_call12.call0.c main_call12.call0.v0 (broadcastInDim S_ ![] bcast_S_S_),
    StableHlo.TRef.binary (.of main_v240 : StableHlo.TRef sig ⟨S2000, .i32⟩) main_call12.call0.v0 main_call12.call0.v1 (fun x v => Host.reduceWindow IntOp.addi ![2000] ![1] ![1999] ![0] x v reduceWindows_S2000_S2000_w2000s1p1999_0 h_S_),
    StableHlo.nullary main_c_41 (constantI S_ 32 0#32),
    StableHlo.unary main_c_41 main_v242 (broadcastInDim S100000 ![] bcast_S_S100000 : (⟨S_, .i32⟩ : BufTy).Contents (Elt F) → (⟨S100000, .i32⟩ : BufTy).Contents (Elt F)),
    StableHlo.nullary main_c_42 (constantI S_ 32 0#32),
    StableHlo.unary main_c_42 main_v243 (broadcastInDim S2000 ![] bcast_S_S2000 : (⟨S_, .i32⟩ : BufTy).Contents (Elt F) → (⟨S2000, .i32⟩ : BufTy).Contents (Elt F)),
    StableHlo.binary main_v241 main_v243 main_v244 (cmpi .slt : (⟨S2000, .i32⟩ : BufTy).Contents (Elt F) → (⟨S2000, .i32⟩ : BufTy).Contents (Elt F) → (⟨S2000, .i1⟩ : BufTy).Contents (Elt F)),
    StableHlo.nullary main_c_43 (constantI S_ 32 100000#32),
    StableHlo.unary main_c_43 main_v245 (broadcastInDim S2000 ![] bcast_S_S2000 : (⟨S_, .i32⟩ : BufTy).Contents (Elt F) → (⟨S2000, .i32⟩ : BufTy).Contents (Elt F)),
    StableHlo.binary main_v241 main_v245 main_v246 (addi : (⟨S2000, .i32⟩ : BufTy).Contents (Elt F) → (⟨S2000, .i32⟩ : BufTy).Contents (Elt F) → (⟨S2000, .i32⟩ : BufTy).Contents (Elt F)),
    StableHlo.ternary main_v244 main_v246 main_v241 main_v247 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v247 main_v248 (broadcastInDim S2000x1 ![0] bcast_S2000_S2000x1_0 : (⟨S2000, .i32⟩ : BufTy).Contents (Elt F) → (⟨S2000x1, .i32⟩ : BufTy).Contents (Elt F)),
    StableHlo.nullary main_c_44 (constantI S_ 32 1#32),
    StableHlo.unary main_c_44 main_v249 (broadcastInDim S2000 ![] bcast_S_S2000 : (⟨S_, .i32⟩ : BufTy).Contents (Elt F) → (⟨S2000, .i32⟩ : BufTy).Contents (Elt F)),
    StableHlo.ternary main_v242 main_v248 main_v249 main_v250 ((fun x i u => Host.scatter scatter_S100000_S2000x1_S2000_n_0_0_1 IntOp.addi x i u) : (⟨S100000, .i32⟩ : BufTy).Contents (Elt F) → (⟨S2000x1, .i32⟩ : BufTy).Contents (Elt F) → (⟨S2000, .i32⟩ : BufTy).Contents (Elt F) → (⟨S100000, .i32⟩ : BufTy).Contents (Elt F)),
    StableHlo.TRef.nullary main_call13.call0.c (constantI S_ 32 0#32),
    StableHlo.TRef.unary main_call13.call0.c main_call13.call0.v0 (broadcastInDim S_ ![] bcast_S_S_),
    StableHlo.TRef.binary (.of main_v250 : StableHlo.TRef sig ⟨S100000, .i32⟩) main_call13.call0.v0 main_call13.call0.v1 (fun x v => Host.reduceWindow IntOp.addi ![100000] ![1] ![99999] ![0] x v reduceWindows_S100000_S100000_w100000s1p99999_0 h_S_),
    StableHlo.nullary main_c_45 (constantI S_ 32 1#32) ]

set_option maxRecDepth 16384 in
/-- The window is that straight line: a call unfolds to its function's body at the call's record, and both sides
    are then the same chain of `hlo` steps. -/
theorem main_part4_eq (c : Dev nD) : main_part4 (F := F) c = seq ops4 := rfl

set_option maxRecDepth 16384 in
/-- Every operation of the window reads and writes TensorCore buffers only. -/
theorem ops4_sub : (ops4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub ..⟩

/-- The buffers the window's operations write, in order. -/
abbrev ops4_W : List (Ref sig .tc) :=
  [main_v208, main_v209, main_v210, main_v211, main_v212, main_cst_30, main_v213, main_v214, main_v215, main_v216, main_v217, main_v218, main_v219, main_v220, main_v221, main_v222, main_cst_31, main_call8.cst.ref, main_call8.v0.ref, main_call8.v1.ref, main_call8.v2.ref, main_call8.v3.ref, main_call8.v4.ref, main_call8.call0.v0.ref, main_cst_32, main_call9.cst.ref, main_call9.v0.ref, main_call9.v1.ref, main_call9.v2.ref, main_call9.v3.ref, main_call9.v4.ref, main_call9.call0.v0.ref, main_cst_33, main_v225, main_v226, main_v227, main_c_34, main_v228, main_c_35, main_call10.v0.ref, main_call10.v1.ref, main_call10.v2.ref, main_c_36, main_v230, main_v231, main_c_37, main_v232, main_v233, main_v234, main_v235, main_c_38, main_v236, main_v237, main_call11.v0.ref, main_call11.v1.ref, main_call11.v2.ref, main_c_39, main_v239, main_c_40, main_v240, main_call12.call0.c.ref, main_call12.call0.v0.ref, main_call12.call0.v1.ref, main_c_41, main_v242, main_c_42, main_v243, main_v244, main_c_43, main_v245, main_v246, main_v247, main_v248, main_c_44, main_v249, main_v250, main_call13.call0.c.ref, main_call13.call0.v0.ref, main_call13.call0.v1.ref, main_c_45]

set_option maxRecDepth 16384 in
/-- Each operation writes exactly its result buffer, which the list names. -/
theorem ops4_writes : (ops4 : List (HloOp τ sig (Elt F))).Forall fun op => op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

set_option maxRecDepth 16384 in
/-- Every operation determines its result: none allocates a fresh buffer. -/
theorem ops4_fresh : ∀ op ∈ (ops4 : List (HloOp τ sig (Elt F))), op.fresh = ∅ := by
  intro _ h
  repeat (cases h with | head => rfl | tail _ h => ?_)
  exact nomatch h

end Cert.ReferenceIdeal.Hand

end
-- ==== Proof.Ref.Part5.lean ====
/- The reference program's @main, statements 301 … 341 of 341 (its window `main_part5`), as a list of
   host operations: each statement of the window in order, and where the statement is a call of a module-local
   function, the operations of that function's body (and of the functions it calls in turn) written out in its
   place over the call's own buffer record — the inlining the call denotes. The window is the run of that list
   (`StableHlo.seq`), every operation of the list touches TensorCore buffers only and determines its result,
   and the list writes only the buffers named in `ops5_W`. -/
import proofs.«145887_j33578054320560_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's window `main_part5` (statements 301 … 341), the called functions' operations inline. -/
abbrev ops5 : List (HloOp τ sig (Elt F)) :=
  [ StableHlo.unary main_c_45 main_v252 (broadcastInDim S100000 ![] bcast_S_S100000 : (⟨S_, .i32⟩ : BufTy).Contents (Elt F) → (⟨S100000, .i32⟩ : BufTy).Contents (Elt F)),
    StableHlo.binary main_v251 main_v252 main_v253 (subi : (⟨S100000, .i32⟩ : BufTy).Contents (Elt F) → (⟨S100000, .i32⟩ : BufTy).Contents (Elt F) → (⟨S100000, .i32⟩ : BufTy).Contents (Elt F)),
    StableHlo.TRef.nullary main_call14.c (constantI S_ 32 0#32),
    StableHlo.TRef.unary main_call14.c main_call14.v0 (broadcastInDim S100000 ![] bcast_S_S100000),
    StableHlo.TRef.binary (.of main_v253 : StableHlo.TRef sig ⟨S100000, .i32⟩) main_call14.v0 main_call14.v1 (cmpi .slt),
    StableHlo.TRef.nullary main_call14.c_0 (constantI S_ 32 2000#32),
    StableHlo.TRef.unary main_call14.c_0 main_call14.v2 (broadcastInDim S100000 ![] bcast_S_S100000),
    StableHlo.TRef.binary (.of main_v253 : StableHlo.TRef sig ⟨S100000, .i32⟩) main_call14.v2 main_call14.v3 addi,
    StableHlo.TRef.ternary main_call14.v1 main_call14.v3 (.of main_v253 : StableHlo.TRef sig ⟨S100000, .i32⟩) main_call14.call0.v0 select,
    StableHlo.TRef.unary main_call14.call0.v0 main_call14.v5 (broadcastInDim S100000x1 ![0] bcast_S100000_S100000x1_0),
    StableHlo.TRef.nullary main_call14.c_1 (constantI S1 32 1999#32),
    StableHlo.TRef.nullary main_call14.c_2 (constantI S_ 32 0#32),
    StableHlo.TRef.unary main_call14.c_2 main_call14.v6 (broadcastInDim S100000x1 ![] bcast_S_S100000x1),
    StableHlo.TRef.binary main_call14.v5 main_call14.v6 main_call14.v7 (cmpi .sge),
    StableHlo.TRef.unary main_call14.c_1 main_call14.v8 (broadcastInDim S1x1 ![1] bcast_S1_S1x1_1),
    StableHlo.TRef.unary main_call14.v8 main_call14.v9 (broadcastInDim S100000x1 ![0, 1] bcast_S1x1_S100000x1_0_1),
    StableHlo.TRef.binary main_call14.v5 main_call14.v9 main_call14.v10 (cmpi .sle),
    StableHlo.TRef.binary main_call14.v7 main_call14.v10 main_call14.v11 andi,
    StableHlo.TRef.nullary main_call14.c_3 (constantI S_ 1 1#1),
    StableHlo.TRef.binary main_call14.v11 main_call14.c_3 main_call14.v12 (fun x v => Host.reduce IntOp.andi x v reducesTo_S100000x1_S100000_d1 h_S_),
    StableHlo.TRef.binary (.of main_v227 : StableHlo.TRef sig ⟨S2000x128, .f32⟩) main_call14.v5 main_call14.v13 (fun x i => Host.gather gather_S2000x128_S100000x1_S100000x128_1_0_n_n_0_1_1128 x i),
    StableHlo.TRef.unary main_call14.v12 main_call14.v14 (broadcastInDim S100000x128 ![0] bcast_S100000_S100000x128_0),
    StableHlo.TRef.nullary main_call14.cst (constant S_ .f32 0x7FC00000#32),
    StableHlo.TRef.unary main_call14.cst main_call14.v15 (broadcastInDim S100000x128 ![] bcast_S_S100000x128),
    StableHlo.TRef.ternary main_call14.v14 main_call14.v13 main_call14.v15 main_call14.v16 select,
    StableHlo.nary ![main_v36, main_v83, main_v130, main_v177, main_v224, main_v254] main_v255 (fun u => concatenate S100000x768 1 [⟨S100000x128, u 0⟩, ⟨S100000x128, u 1⟩, ⟨S100000x128, u 2⟩, ⟨S100000x128, u 3⟩, ⟨S100000x128, u 4⟩, ⟨S100000x128, u 5⟩] concatenates_S100000x128_S100000x128_S100000x128_S100000x128_S100000x128_S100000x128_S100000x768_d1),
    StableHlo.binary main_v255 main_arg17 main_v256 ((fun l r => Host.dotGeneral dot_S100000x768_S768x256_S100000x256_1_0_0_1_n_n none l r) : (⟨S100000x768, .f32⟩ : BufTy).Contents (Elt F) → (⟨S768x256, .f32⟩ : BufTy).Contents (Elt F) → (⟨S100000x256, .f32⟩ : BufTy).Contents (Elt F)),
    StableHlo.unary main_arg18 main_v257 (broadcastInDim S1x256 ![1] bcast_S256_S1x256_1 : (⟨S256, .f32⟩ : BufTy).Contents (Elt F) → (⟨S1x256, .f32⟩ : BufTy).Contents (Elt F)),
    StableHlo.unary main_v257 main_v258 (broadcastInDim S100000x256 ![0, 1] bcast_S1x256_S100000x256_0_1 : (⟨S1x256, .f32⟩ : BufTy).Contents (Elt F) → (⟨S100000x256, .f32⟩ : BufTy).Contents (Elt F)),
    StableHlo.binary main_v256 main_v258 main_v259 (addf : (⟨S100000x256, .f32⟩ : BufTy).Contents (Elt F) → (⟨S100000x256, .f32⟩ : BufTy).Contents (Elt F) → (⟨S100000x256, .f32⟩ : BufTy).Contents (Elt F)),
    StableHlo.unary main_arg19 main_v260 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v260 main_v261 rfl shapeCasts_S1x256x256_S256x256,
    StableHlo.binary main_v259 main_v261 main_v262 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg20 main_v263 ((extractStridedSlice S1x256 ![0, 0] · slices_S2x256_S1x256_0_0) : (⟨S2x256, .f32⟩ : BufTy).Contents (Elt F) → (⟨S1x256, .f32⟩ : BufTy).Contents (Elt F)),
    StableHlo.reshape main_v263 main_v264 rfl shapeCasts_S1x256_S256,
    StableHlo.unary main_v264 main_v265 (broadcastInDim S1x256 ![1] bcast_S256_S1x256_1 : (⟨S256, .f32⟩ : BufTy).Contents (Elt F) → (⟨S1x256, .f32⟩ : BufTy).Contents (Elt F)),
    StableHlo.unary main_v265 main_v266 (broadcastInDim S100000x256 ![0, 1] bcast_S1x256_S100000x256_0_1 : (⟨S1x256, .f32⟩ : BufTy).Contents (Elt F) → (⟨S100000x256, .f32⟩ : BufTy).Contents (Elt F)),
    StableHlo.binary main_v262 main_v266 main_v267 (addf : (⟨S100000x256, .f32⟩ : BufTy).Contents (Elt F) → (⟨S100000x256, .f32⟩ : BufTy).Contents (Elt F) → (⟨S100000x256, .f32⟩ : BufTy).Contents (Elt F)),
    StableHlo.nullary main_cst_46 (constant S_ .f32 0x3C23D70A#32),
    StableHlo.TRef.nullary main_call15.cst (constant S_ .f32 0x00000000#32),
    StableHlo.TRef.unary main_call15.cst main_call15.v0 (broadcastInDim S100000x256 ![] bcast_S_S100000x256),
    StableHlo.TRef.binary (.of main_v267 : StableHlo.TRef sig ⟨S100000x256, .f32⟩) main_call15.v0 main_call15.v1 (cmpf .oge),
    StableHlo.TRef.unary (.of main_cst_46 : StableHlo.TRef sig ⟨S_, .f32⟩) main_call15.v2 id,
    StableHlo.TRef.unary main_call15.v2 main_call15.v3 (broadcastInDim S100000x256 ![] bcast_S_S100000x256),
    StableHlo.TRef.binary main_call15.v3 (.of main_v267 : StableHlo.TRef sig ⟨S100000x256, .f32⟩) main_call15.v4 mulf,
    StableHlo.TRef.ternary main_call15.v1 (.of main_v267 : StableHlo.TRef sig ⟨S100000x256, .f32⟩) main_call15.v4 main_call15.call0.v0 select,
    StableHlo.unary main_arg19 main_v269 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v269 main_v270 rfl shapeCasts_S1x256x256_S256x256,
    StableHlo.binary main_v268 main_v270 main_v271 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg20 main_v272 ((extractStridedSlice S1x256 ![1, 0] · slices_S2x256_S1x256_1_0) : (⟨S2x256, .f32⟩ : BufTy).Contents (Elt F) → (⟨S1x256, .f32⟩ : BufTy).Contents (Elt F)),
    StableHlo.reshape main_v272 main_v273 rfl shapeCasts_S1x256_S256,
    StableHlo.unary main_v273 main_v274 (broadcastInDim S1x256 ![1] bcast_S256_S1x256_1 : (⟨S256, .f32⟩ : BufTy).Contents (Elt F) → (⟨S1x256, .f32⟩ : BufTy).Contents (Elt F)),
    StableHlo.unary main_v274 main_v275 (broadcastInDim S100000x256 ![0, 1] bcast_S1x256_S100000x256_0_1 : (⟨S1x256, .f32⟩ : BufTy).Contents (Elt F) → (⟨S100000x256, .f32⟩ : BufTy).Contents (Elt F)),
    StableHlo.binary main_v271 main_v275 main_v276 (addf : (⟨S100000x256, .f32⟩ : BufTy).Contents (Elt F) → (⟨S100000x256, .f32⟩ : BufTy).Contents (Elt F) → (⟨S100000x256, .f32⟩ : BufTy).Contents (Elt F)),
    StableHlo.nullary main_cst_47 (constant S_ .f32 0x3C23D70A#32),
    StableHlo.TRef.nullary main_call16.cst (constant S_ .f32 0x00000000#32),
    StableHlo.TRef.unary main_call16.cst main_call16.v0 (broadcastInDim S100000x256 ![] bcast_S_S100000x256),
    StableHlo.TRef.binary (.of main_v276 : StableHlo.TRef sig ⟨S100000x256, .f32⟩) main_call16.v0 main_call16.v1 (cmpf .oge),
    StableHlo.TRef.unary (.of main_cst_47 : StableHlo.TRef sig ⟨S_, .f32⟩) main_call16.v2 id,
    StableHlo.TRef.unary main_call16.v2 main_call16.v3 (broadcastInDim S100000x256 ![] bcast_S_S100000x256),
    StableHlo.TRef.binary main_call16.v3 (.of main_v276 : StableHlo.TRef sig ⟨S100000x256, .f32⟩) main_call16.v4 mulf,
    StableHlo.TRef.ternary main_call16.v1 (.of main_v276 : StableHlo.TRef sig ⟨S100000x256, .f32⟩) main_call16.v4 main_call16.call0.v0 select,
    StableHlo.binary main_v277 main_arg21 main_v278 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    StableHlo.unary main_arg22 main_v279 (broadcastInDim S1x1 ![1] bcast_S1_S1x1_1 : (⟨S1, .f32⟩ : BufTy).Contents (Elt F) → (⟨S1x1, .f32⟩ : BufTy).Contents (Elt F)),
    StableHlo.unary main_v279 main_v280 (broadcastInDim S100000x1 ![0, 1] bcast_S1x1_S100000x1_0_1 : (⟨S1x1, .f32⟩ : BufTy).Contents (Elt F) → (⟨S100000x1, .f32⟩ : BufTy).Contents (Elt F)),
    StableHlo.binary main_v278 main_v280 main_v281 (addf : (⟨S100000x1, .f32⟩ : BufTy).Contents (Elt F) → (⟨S100000x1, .f32⟩ : BufTy).Contents (Elt F) → (⟨S100000x1, .f32⟩ : BufTy).Contents (Elt F)),
    StableHlo.unary main_v281 main_v282 (Host.negf : (⟨S100000x1, .f32⟩ : BufTy).Contents (Elt F) → (⟨S100000x1, .f32⟩ : BufTy).Contents (Elt F)),
    StableHlo.unary main_v282 main_v283 (Host.exp : (⟨S100000x1, .f32⟩ : BufTy).Contents (Elt F) → (⟨S100000x1, .f32⟩ : BufTy).Contents (Elt F)),
    StableHlo.nullary main_cst_48 (constant S_ .f32 0x3F800000#32),
    StableHlo.unary main_cst_48 main_v284 (broadcastInDim S100000x1 ![] bcast_S_S100000x1 : (⟨S_, .f32⟩ : BufTy).Contents (Elt F) → (⟨S100000x1, .f32⟩ : BufTy).Contents (Elt F)),
    StableHlo.binary main_v284 main_v283 main_v285 (addf : (⟨S100000x1, .f32⟩ : BufTy).Contents (Elt F) → (⟨S100000x1, .f32⟩ : BufTy).Contents (Elt F) → (⟨S100000x1, .f32⟩ : BufTy).Contents (Elt F)),
    StableHlo.nullary main_cst_49 (constant S_ .f32 0x3F800000#32),
    StableHlo.unary main_cst_49 main_v286 (broadcastInDim S100000x1 ![] bcast_S_S100000x1 : (⟨S_, .f32⟩ : BufTy).Contents (Elt F) → (⟨S100000x1, .f32⟩ : BufTy).Contents (Elt F)),
    StableHlo.binary main_v286 main_v285 main_v287 (Host.divf : (⟨S100000x1, .f32⟩ : BufTy).Contents (Elt F) → (⟨S100000x1, .f32⟩ : BufTy).Contents (Elt F) → (⟨S100000x1, .f32⟩ : BufTy).Contents (Elt F)) ]

set_option maxRecDepth 16384 in
/-- The window is that straight line: a call unfolds to its function's body at the call's record, and both sides
    are then the same chain of `hlo` steps. -/
theorem main_part5_eq (c : Dev nD) : main_part5 (F := F) c = seq ops5 := rfl

set_option maxRecDepth 16384 in
/-- Every operation of the window reads and writes TensorCore buffers only. -/
theorem ops5_sub : (ops5 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- The buffers the window's operations write, in order. -/
abbrev ops5_W : List (Ref sig .tc) :=
  [main_v252, main_v253, main_call14.c.ref, main_call14.v0.ref, main_call14.v1.ref, main_call14.c_0.ref, main_call14.v2.ref, main_call14.v3.ref, main_call14.call0.v0.ref, main_call14.v5.ref, main_call14.c_1.ref, main_call14.c_2.ref, main_call14.v6.ref, main_call14.v7.ref, main_call14.v8.ref, main_call14.v9.ref, main_call14.v10.ref, main_call14.v11.ref, main_call14.c_3.ref, main_call14.v12.ref, main_call14.v13.ref, main_call14.v14.ref, main_call14.cst.ref, main_call14.v15.ref, main_call14.v16.ref, main_v255, main_v256, main_v257, main_v258, main_v259, main_v260, main_v261, main_v262, main_v263, main_v264, main_v265, main_v266, main_v267, main_cst_46, main_call15.cst.ref, main_call15.v0.ref, main_call15.v1.ref, main_call15.v2.ref, main_call15.v3.ref, main_call15.v4.ref, main_call15.call0.v0.ref, main_v269, main_v270, main_v271, main_v272, main_v273, main_v274, main_v275, main_v276, main_cst_47, main_call16.cst.ref, main_call16.v0.ref, main_call16.v1.ref, main_call16.v2.ref, main_call16.v3.ref, main_call16.v4.ref, main_call16.call0.v0.ref, main_v278, main_v279, main_v280, main_v281, main_v282, main_v283, main_cst_48, main_v284, main_v285, main_cst_49, main_v286, main_v287]

set_option maxRecDepth 16384 in
/-- Each operation writes exactly its result buffer, which the list names. -/
theorem ops5_writes : (ops5 : List (HloOp τ sig (Elt F))).Forall fun op => op.writes ⊆ (ops5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

set_option maxRecDepth 16384 in
/-- Every operation determines its result: none allocates a fresh buffer. -/
theorem ops5_fresh : ∀ op ∈ (ops5 : List (HloOp τ sig (Elt F))), op.fresh = ∅ := by
  intro _ h
  repeat (cases h with | head => rfl | tail _ h => ?_)
  exact nomatch h

end Cert.ReferenceIdeal.Hand

end
-- ==== Proof.Ref.Run.lean ====
/- The reference program's @main as ONE list of host operations and its run read back: the six windows' lists
   (Ref/Part0 … Ref/Part5) appended in order are @main (each window is the run of its list, and @main runs the
   windows one after the other), so by the library's theorem on a straight line of host operations every weakly
   fair execution terminates with every TensorCore buffer at the fold of the operations' results over the launch
   contents; the result buffer is read off as that fold, and an argument buffer, which no operation writes, is
   unchanged. -/
import proofs.«145887_j33578054320560_2_alg».proof.Proof.Gen.ReferenceIdeal
import Idealize.ShloMosaic.Lib.StableHlo.Run
import Idealize.ShloMosaic.Lib.Pipeline.Frame
import proofs.«145887_j33578054320560_2_alg».proof.Proof.Ref.Part0
import proofs.«145887_j33578054320560_2_alg».proof.Proof.Ref.Part1
import proofs.«145887_j33578054320560_2_alg».proof.Proof.Ref.Part2
import proofs.«145887_j33578054320560_2_alg».proof.Proof.Ref.Part3
import proofs.«145887_j33578054320560_2_alg».proof.Proof.Ref.Part4
import proofs.«145887_j33578054320560_2_alg».proof.Proof.Ref.Part5

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 442 operations, in order: its 341 statements, the called functions' operations inline over their
    call records — the six windows' lists appended. -/
abbrev ops : List (HloOp τ sig (Elt F)) :=
  ops0 ++ ops1 ++ ops2 ++ ops3 ++ ops4 ++ ops5

/-- @main runs its windows in order, each the run of its list: it is the run of the appended list. -/
theorem main_eq (c : Dev nD) : main (F := F) c = seq ops := by
  simp only [ops, seq_append, bind_assoc, ← main_part0_eq c, ← main_part1_eq c, ← main_part2_eq c,
    ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only: window by window. -/
theorem ops_sub : (ops : List (HloOp τ sig (Elt F))).Forall fun op => op.bufs ⊆ tcRefs τ sig :=
  List.forall_iff_forall_mem.mpr fun op h => by
    simp only [ops, List.mem_append] at h
    rcases h with ((((h | h) | h) | h) | h) | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

/-- No operation allocates: window by window. -/
theorem ops_fresh : ∀ op ∈ (ops : List (HloOp τ sig (Elt F))), op.fresh = ∅ := by
  intro op h
  simp only [ops, List.mem_append] at h
  rcases h with ((((h | h) | h) | h) | h) | h
  exacts [ops0_fresh op h, ops1_fresh op h, ops2_fresh op h, ops3_fresh op h, ops4_fresh op h, ops5_fresh op h]

/-- The fold over the whole list is the windows' folds composed. -/
theorem after_ops (V : Valuation τ sig (Elt F)) :
    after ops V = after ops5 (after ops4 (after ops3 (after ops2 (after ops1 (after ops0 V))))) := by
  simp only [ops, after_append]

/-- A buffer that no window writes keeps its launch contents through @main. -/
theorem ops_keep (V : Valuation τ sig (Elt F)) (r : Ref sig .tc) (h0 : r ∉ ops0_W) (h1 : r ∉ ops1_W) (h2 : r ∉ ops2_W)
    (h3 : r ∉ ops3_W) (h4 : r ∉ ops4_W) (h5 : r ∉ ops5_W) :
    after ops V (Proc.devRef .tc r) = V (Proc.devRef .tc r) := by
  rw [after_ops, after_of_writes_sub ops5 _ ops5_writes h5, after_of_writes_sub ops4 _ ops4_writes h4,
    after_of_writes_sub ops3 _ ops3_writes h3, after_of_writes_sub ops2 _ ops2_writes h2,
    after_of_writes_sub ops1 _ ops1_writes h1, after_of_writes_sub ops0 _ ops0_writes h0]

/-- On every device, for any float values, from any memory with zero counters: every weakly fair execution of
    @main terminates with the result buffer at the fold of the 442 operations over the device's launch contents,
    read at that buffer, and each of the 23 argument buffers unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v287) = StableHlo.after ops (fun b => m (c, b)) (Proc.devRef .tc main_v287)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨h c main_v287,
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide)),
      (h c main_arg14).trans (ops_keep _ main_arg14 (by decide) (by decide) (by decide) (by decide) (by decide) (by decide)),
      (h c main_arg15).trans (ops_keep _ main_arg15 (by decide) (by decide) (by decide) (by decide) (by decide) (by decide)),
      (h c main_arg16).trans (ops_keep _ main_arg16 (by decide) (by decide) (by decide) (by decide) (by decide) (by decide)),
      (h c main_arg17).trans (ops_keep _ main_arg17 (by decide) (by decide) (by decide) (by decide) (by decide) (by decide)),
      (h c main_arg18).trans (ops_keep _ main_arg18 (by decide) (by decide) (by decide) (by decide) (by decide) (by decide)),
      (h c main_arg19).trans (ops_keep _ main_arg19 (by decide) (by decide) (by decide) (by decide) (by decide) (by decide)),
      (h c main_arg20).trans (ops_keep _ main_arg20 (by decide) (by decide) (by decide) (by decide) (by decide) (by decide)),
      (h c main_arg21).trans (ops_keep _ main_arg21 (by decide) (by decide) (by decide) (by decide) (by decide) (by decide)),
      (h c main_arg22).trans (ops_keep _ main_arg22 (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Val.RefSplit.lean ====
/- The reference program's list of host operations cut at the layer boundaries: for each of the five layers the host
   operations that prepare the layer's dense part (`rH‹i›`: the slices of the layer's parameters, the neighbour sum
   by gather and scatter-add, the combination with the layer's own features) and the dense part itself (`rD‹i›`: from
   the matrix product to the second leaky-relu's select, the called functions' operations included), then the
   operations up to the concatenation (`rTail`) and the classifier (`rCls`). The pieces appended in order are the
   whole list, so the fold over the whole list is the pieces' folds composed. -/
import proofs.«145887_j33578054320560_2_alg».proof.Proof.Ref.Run

noncomputable section

namespace Cert.Val

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- Operations 1 … 22 of the reference's 442. -/
abbrev rH0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.binary main_cst_1 main_arg9 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S100000x64 ![] bcast_S_S100000x64 : (⟨S_, .f32⟩ : BufTy).Contents (Elt F) → (⟨S100000x64, .f32⟩ : BufTy).Contents (Elt F)),
    StableHlo.binary main_v15 main_arg0 main_v16 (mulf : (⟨S100000x64, .f32⟩ : BufTy).Contents (Elt F) → (⟨S100000x64, .f32⟩ : BufTy).Contents (Elt F) → (⟨S100000x64, .f32⟩ : BufTy).Contents (Elt F)),
    StableHlo.binary main_v16 main_v13 main_v17 (addf : (⟨S100000x64, .f32⟩ : BufTy).Contents (Elt F) → (⟨S100000x64, .f32⟩ : BufTy).Contents (Elt F) → (⟨S100000x64, .f32⟩ : BufTy).Contents (Elt F)) ]

/-- The buffers `rH0` writes, in order. -/
abbrev rH0_W : List (Ref sig .tc) :=
  [main_v0, main_v1, main_v2, main_v3, main_c, main_v4, main_v5, main_c_0, main_v6, main_v7, main_v8, main_v9, main_v10, main_cst, main_v11, main_v12, main_v13, main_cst_1, main_v14, main_v15, main_v16, main_v17]

set_option maxRecDepth 16384 in
theorem rH0_writes : (rH0 : List (HloOp τ sig (Elt F))).Forall fun op => op.writes ⊆ (rH0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 23 … 56 of the reference's 442. -/
abbrev rD0 : List (HloOp τ sig (Elt F)) :=
  [ StableHlo.binary main_v17 main_arg3 main_v18 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg4 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.unary main_arg7 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (subf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3727C5AC#32),
    StableHlo.unary main_cst_2 main_v25 (broadcastInDim S128 ![] bcast_S_S128 : (⟨S_, .f32⟩ : BufTy).Contents (Elt F) → (⟨S128, .f32⟩ : BufTy).Contents (Elt F)),
    StableHlo.binary main_arg8 main_v25 main_v26 (addf : (⟨S128, .f32⟩ : BufTy).Contents (Elt F) → (⟨S128, .f32⟩ : BufTy).Contents (Elt F) → (⟨S128, .f32⟩ : BufTy).Contents (Elt F)),
    StableHlo.unary main_v26 main_v27 (Host.rsqrt : (⟨S128, .f32⟩ : BufTy).Contents (Elt F) → (⟨S128, .f32⟩ : BufTy).Contents (Elt F)),
    StableHlo.binary main_arg5 main_v27 main_v28 (mulf : (⟨S128, .f32⟩ : BufTy).Contents (Elt F) → (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg6 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x3C23D70A#32),
    StableHlo.TRef.nullary main_call0.cst (constant S_ .f32 0x00000000#32),
    StableHlo.TRef.unary main_call0.cst main_call0.v0 (broadcastInDim S100000x128 ![] bcast_S_S100000x128),
    StableHlo.TRef.binary (.of main_v34 : StableHlo.TRef sig ⟨S100000x128, .f32⟩) main_call0.v0 main_call0.v1 (cmpf .oge),
    StableHlo.TRef.unary (.of main_cst_3 : StableHlo.TRef sig ⟨S_, .f32⟩) main_call0.v2 id,
    StableHlo.TRef.unary main_call0.v2 main_call0.v3 (broadcastInDim S100000x128 ![] bcast_S_S100000x128),
    StableHlo.TRef.binary main_call0.v3 (.of main_v34 : StableHlo.TRef sig ⟨S100000x128, .f32⟩) main_call0.v4 mulf,
    StableHlo.TRef.ternary main_call0.v1 (.of main_v34 : StableHlo.TRef sig ⟨S100000x128, .f32⟩) main_call0.v4 main_call0.call0.v0 select,
    StableHlo.nullary main_cst_4 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v35 : StableHlo.TRef sig ⟨S100000x128, .f32⟩) main_call1.v0 main_call1.v1 (cmpf .oge),
    StableHlo.TRef.unary (.of main_cst_4 : StableHlo.TRef sig ⟨S_, .f32⟩) main_call1.v2 id,
    StableHlo.TRef.unary main_call1.v2 main_call1.v3 (broadcastInDim S100000x128 ![] bcast_S_S100000x128),
    StableHlo.TRef.binary main_call1.v3 (.of main_v35 : StableHlo.TRef sig ⟨S100000x128, .f32⟩) main_call1.v4 mulf,
    StableHlo.TRef.ternary main_call1.v1 (.of main_v35 : StableHlo.TRef sig ⟨S100000x128, .f32⟩) main_call1.v4 main_call1.call0.v0 select ]

/-- The buffers `rD0` writes, in order. -/
abbrev rD0_W : List (Ref sig .tc) :=
  [main_v18, main_v19, main_v20, main_v21, main_v22, main_v23, main_v24, main_cst_2, main_v25, main_v26, main_v27, main_v28, main_v29, main_v30, main_v31, main_v32, main_v33, main_v34, main_cst_3, main_call0.cst.ref, main_call0.v0.ref, main_call0.v1.ref, main_call0.v2.ref, main_call0.v3.ref, main_call0.v4.ref, main_call0.call0.v0.ref, main_cst_4, main_call1.cst.ref, main_call1.v0.ref, main_call1.v1.ref, main_call1.v2.ref, main_call1.v3.ref, main_call1.v4.ref, main_call1.call0.v0.ref]

set_option maxRecDepth 16384 in
theorem rD0_writes : (rD0 : List (HloOp τ sig (Elt F))).Forall fun op => op.writes ⊆ (rD0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 57 … 88 of the reference's 442. -/
abbrev rH1 : List (HloOp τ sig (Elt F)) :=
  [ StableHlo.unary main_arg10 main_v37 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v37 main_v38 rfl shapeCasts_S1x128x128_S128x128,
    StableHlo.unary main_arg11 main_v39 ((extractStridedSlice S1x128 ![0, 0] · slices_S4x128_S1x128_0_0) : (⟨S4x128, .f32⟩ : BufTy).Contents (Elt F) → (⟨S1x128, .f32⟩ : BufTy).Contents (Elt F)),
    StableHlo.reshape main_v39 main_v40 rfl shapeCasts_S1x128_S128,
    StableHlo.unary main_arg12 main_v41 ((extractStridedSlice S1x128 ![0, 0] · slices_S4x128_S1x128_0_0) : (⟨S4x128, .f32⟩ : BufTy).Contents (Elt F) → (⟨S1x128, .f32⟩ : BufTy).Contents (Elt F)),
    StableHlo.reshape main_v41 main_v42 rfl shapeCasts_S1x128_S128,
    StableHlo.unary main_arg13 main_v43 ((extractStridedSlice S1x128 ![0, 0] · slices_S4x128_S1x128_0_0) : (⟨S4x128, .f32⟩ : BufTy).Contents (Elt F) → (⟨S1x128, .f32⟩ : BufTy).Contents (Elt F)),
    StableHlo.reshape main_v43 main_v44 rfl shapeCasts_S1x128_S128,
    StableHlo.unary main_arg14 main_v45 ((extractStridedSlice S1x128 ![0, 0] · slices_S4x128_S1x128_0_0) : (⟨S4x128, .f32⟩ : BufTy).Contents (Elt F) → (⟨S1x128, .f32⟩ : BufTy).Contents (Elt F)),
    StableHlo.reshape main_v45 main_v46 rfl shapeCasts_S1x128_S128,
    StableHlo.unary main_arg15 main_v47 ((extractStridedSlice S1x128 ![0, 0] · slices_S4x128_S1x128_0_0) : (⟨S4x128, .f32⟩ : BufTy).Contents (Elt F) → (⟨S1x128, .f32⟩ : BufTy).Contents (Elt F)),
    StableHlo.reshape main_v47 main_v48 rfl shapeCasts_S1x128_S128,
    StableHlo.unary main_arg16 main_v49 ((extractStridedSlice S1 ![0] · slices_S4_S1_0) : (⟨S4, .f32⟩ : BufTy).Contents (Elt F) → (⟨S1, .f32⟩ : BufTy).Contents (Elt F)),
    StableHlo.reshape main_v49 main_v50 rfl shapeCasts_S1_S_,
    StableHlo.nullary main_c_5 (constantI S_ 32 0#32),
    StableHlo.unary main_c_5 main_v51 (broadcastInDim S1600000 ![] bcast_S_S1600000 : (⟨S_, .i32⟩ : BufTy).Contents (Elt F) → (⟨S1600000, .i32⟩ : BufTy).Contents (Elt F)),
    StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.binary main_v36 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v58 (broadcastInDim S100000x128 ![] bcast_S_S100000x128 : (⟨S_, .f32⟩ : BufTy).Contents (Elt F) → (⟨S100000x128, .f32⟩ : BufTy).Contents (Elt F)),
    StableHlo.unary main_v3 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_8 (constant S_ .f32 0x3F800000#32),
    StableHlo.binary main_cst_8 main_v50 main_v61 (addf : (⟨S_, .f32⟩ : BufTy).Contents (Elt F) → (⟨S_, .f32⟩ : BufTy).Contents (Elt F) → (⟨S_, .f32⟩ : BufTy).Contents (Elt F)),
    StableHlo.unary main_v61 main_v62 (broadcastInDim S100000x128 ![] bcast_S_S100000x128 : (⟨S_, .f32⟩ : BufTy).Contents (Elt F) → (⟨S100000x128, .f32⟩ : BufTy).Contents (Elt F)),
    StableHlo.binary main_v62 main_v36 main_v63 (mulf : (⟨S100000x128, .f32⟩ : BufTy).Contents (Elt F) → (⟨S100000x128, .f32⟩ : BufTy).Contents (Elt F) → (⟨S100000x128, .f32⟩ : BufTy).Contents (Elt F)),
    StableHlo.binary main_v63 main_v60 main_v64 (addf : (⟨S100000x128, .f32⟩ : BufTy).Contents (Elt F) → (⟨S100000x128, .f32⟩ : BufTy).Contents (Elt F) → (⟨S100000x128, .f32⟩ : BufTy).Contents (Elt F)) ]

/-- The buffers `rH1` writes, in order. -/
abbrev rH1_W : List (Ref sig .tc) :=
  [main_v37, main_v38, main_v39, main_v40, main_v41, main_v42, main_v43, main_v44, main_v45, main_v46, main_v47, main_v48, main_v49, main_v50, main_c_5, main_v51, main_v52, main_c_6, main_v53, main_v54, main_v55, main_v56, main_v57, main_cst_7, main_v58, main_v59, main_v60, main_cst_8, main_v61, main_v62, main_v63, main_v64]

set_option maxRecDepth 16384 in
theorem rH1_writes : (rH1 : List (HloOp τ sig (Elt F))).Forall fun op => op.writes ⊆ (rH1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 89 … 122 of the reference's 442. -/
abbrev rD1 : List (HloOp τ sig (Elt F)) :=
  [ StableHlo.binary main_v64 main_v38 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v40 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.unary main_v46 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (subf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3727C5AC#32),
    StableHlo.unary main_cst_9 main_v72 (broadcastInDim S128 ![] bcast_S_S128 : (⟨S_, .f32⟩ : BufTy).Contents (Elt F) → (⟨S128, .f32⟩ : BufTy).Contents (Elt F)),
    StableHlo.binary main_v48 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.binary main_v42 main_v74 main_v75 (mulf : (⟨S128, .f32⟩ : BufTy).Contents (Elt F) → (⟨S128, .f32⟩ : BufTy).Contents (Elt F) → (⟨S128, .f32⟩ : BufTy).Contents (Elt F)),
    StableHlo.unary main_v75 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v77 main_v78 (mulf : (⟨S100000x128, .f32⟩ : BufTy).Contents (Elt F) → (⟨S100000x128, .f32⟩ : BufTy).Contents (Elt F) → (⟨S100000x128, .f32⟩ : BufTy).Contents (Elt F)),
    StableHlo.unary main_v44 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v80 main_v81 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v81 : StableHlo.TRef sig ⟨S100000x128, .f32⟩) main_call2.v0 main_call2.v1 (cmpf .oge),
    StableHlo.TRef.unary (.of main_cst_10 : StableHlo.TRef sig ⟨S_, .f32⟩) main_call2.v2 id,
    StableHlo.TRef.unary main_call2.v2 main_call2.v3 (broadcastInDim S100000x128 ![] bcast_S_S100000x128),
    StableHlo.TRef.binary main_call2.v3 (.of main_v81 : StableHlo.TRef sig ⟨S100000x128, .f32⟩) main_call2.v4 mulf,
    StableHlo.TRef.ternary main_call2.v1 (.of main_v81 : StableHlo.TRef sig ⟨S100000x128, .f32⟩) main_call2.v4 main_call2.call0.v0 select,
    StableHlo.nullary main_cst_11 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v82 : StableHlo.TRef sig ⟨S100000x128, .f32⟩) main_call3.v0 main_call3.v1 (cmpf .oge),
    StableHlo.TRef.unary (.of main_cst_11 : StableHlo.TRef sig ⟨S_, .f32⟩) main_call3.v2 id,
    StableHlo.TRef.unary main_call3.v2 main_call3.v3 (broadcastInDim S100000x128 ![] bcast_S_S100000x128),
    StableHlo.TRef.binary main_call3.v3 (.of main_v82 : StableHlo.TRef sig ⟨S100000x128, .f32⟩) main_call3.v4 mulf,
    StableHlo.TRef.ternary main_call3.v1 (.of main_v82 : StableHlo.TRef sig ⟨S100000x128, .f32⟩) main_call3.v4 main_call3.call0.v0 select ]

/-- The buffers `rD1` writes, in order. -/
abbrev rD1_W : List (Ref sig .tc) :=
  [main_v65, main_v66, main_v67, main_v68, main_v69, main_v70, main_v71, main_cst_9, main_v72, main_v73, main_v74, main_v75, main_v76, main_v77, main_v78, main_v79, main_v80, main_v81, main_cst_10, main_call2.cst.ref, main_call2.v0.ref, main_call2.v1.ref, main_call2.v2.ref, main_call2.v3.ref, main_call2.v4.ref, main_call2.call0.v0.ref, main_cst_11, main_call3.cst.ref, main_call3.v0.ref, main_call3.v1.ref, main_call3.v2.ref, main_call3.v3.ref, main_call3.v4.ref, main_call3.call0.v0.ref]

set_option maxRecDepth 16384 in
theorem rD1_writes : (rD1 : List (HloOp τ sig (Elt F))).Forall fun op => op.writes ⊆ (rD1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 123 … 154 of the reference's 442. -/
abbrev rH2 : List (HloOp τ sig (Elt F)) :=
  [ StableHlo.unary main_arg10 main_v84 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v84 main_v85 rfl shapeCasts_S1x128x128_S128x128,
    StableHlo.unary main_arg11 main_v86 ((extractStridedSlice S1x128 ![1, 0] · slices_S4x128_S1x128_1_0) : (⟨S4x128, .f32⟩ : BufTy).Contents (Elt F) → (⟨S1x128, .f32⟩ : BufTy).Contents (Elt F)),
    StableHlo.reshape main_v86 main_v87 rfl shapeCasts_S1x128_S128,
    StableHlo.unary main_arg12 main_v88 ((extractStridedSlice S1x128 ![1, 0] · slices_S4x128_S1x128_1_0) : (⟨S4x128, .f32⟩ : BufTy).Contents (Elt F) → (⟨S1x128, .f32⟩ : BufTy).Contents (Elt F)),
    StableHlo.reshape main_v88 main_v89 rfl shapeCasts_S1x128_S128,
    StableHlo.unary main_arg13 main_v90 ((extractStridedSlice S1x128 ![1, 0] · slices_S4x128_S1x128_1_0) : (⟨S4x128, .f32⟩ : BufTy).Contents (Elt F) → (⟨S1x128, .f32⟩ : BufTy).Contents (Elt F)),
    StableHlo.reshape main_v90 main_v91 rfl shapeCasts_S1x128_S128,
    StableHlo.unary main_arg14 main_v92 ((extractStridedSlice S1x128 ![1, 0] · slices_S4x128_S1x128_1_0) : (⟨S4x128, .f32⟩ : BufTy).Contents (Elt F) → (⟨S1x128, .f32⟩ : BufTy).Contents (Elt F)),
    StableHlo.reshape main_v92 main_v93 rfl shapeCasts_S1x128_S128,
    StableHlo.unary main_arg15 main_v94 ((extractStridedSlice S1x128 ![1, 0] · slices_S4x128_S1x128_1_0) : (⟨S4x128, .f32⟩ : BufTy).Contents (Elt F) → (⟨S1x128, .f32⟩ : BufTy).Contents (Elt F)),
    StableHlo.reshape main_v94 main_v95 rfl shapeCasts_S1x128_S128,
    StableHlo.unary main_arg16 main_v96 ((extractStridedSlice S1 ![1] · slices_S4_S1_1) : (⟨S4, .f32⟩ : BufTy).Contents (Elt F) → (⟨S1, .f32⟩ : BufTy).Contents (Elt F)),
    StableHlo.reshape main_v96 main_v97 rfl shapeCasts_S1_S_,
    StableHlo.nullary main_c_12 (constantI S_ 32 0#32),
    StableHlo.unary main_c_12 main_v98 (broadcastInDim S1600000 ![] bcast_S_S1600000 : (⟨S_, .i32⟩ : BufTy).Contents (Elt F) → (⟨S1600000, .i32⟩ : BufTy).Contents (Elt F)),
    StableHlo.binary main_v1 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v100 (broadcastInDim S1600000 ![] bcast_S_S1600000 : (⟨S_, .i32⟩ : BufTy).Contents (Elt F) → (⟨S1600000, .i32⟩ : BufTy).Contents (Elt F)),
    StableHlo.binary main_v1 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.binary main_v83 main_v103 main_v104 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v105 (broadcastInDim S100000x128 ![] bcast_S_S100000x128 : (⟨S_, .f32⟩ : BufTy).Contents (Elt F) → (⟨S100000x128, .f32⟩ : BufTy).Contents (Elt F)),
    StableHlo.unary main_v3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_15 (constant S_ .f32 0x3F800000#32),
    StableHlo.binary main_cst_15 main_v97 main_v108 (addf : (⟨S_, .f32⟩ : BufTy).Contents (Elt F) → (⟨S_, .f32⟩ : BufTy).Contents (Elt F) → (⟨S_, .f32⟩ : BufTy).Contents (Elt F)),
    StableHlo.unary main_v108 main_v109 (broadcastInDim S100000x128 ![] bcast_S_S100000x128 : (⟨S_, .f32⟩ : BufTy).Contents (Elt F) → (⟨S100000x128, .f32⟩ : BufTy).Contents (Elt F)),
    StableHlo.binary main_v109 main_v83 main_v110 (mulf : (⟨S100000x128, .f32⟩ : BufTy).Contents (Elt F) → (⟨S100000x128, .f32⟩ : BufTy).Contents (Elt F) → (⟨S100000x128, .f32⟩ : BufTy).Contents (Elt F)),
    StableHlo.binary main_v110 main_v107 main_v111 (addf : (⟨S100000x128, .f32⟩ : BufTy).Contents (Elt F) → (⟨S100000x128, .f32⟩ : BufTy).Contents (Elt F) → (⟨S100000x128, .f32⟩ : BufTy).Contents (Elt F)) ]

/-- The buffers `rH2` writes, in order. -/
abbrev rH2_W : List (Ref sig .tc) :=
  [main_v84, main_v85, main_v86, main_v87, main_v88, main_v89, main_v90, main_v91, main_v92, main_v93, main_v94, main_v95, main_v96, main_v97, main_c_12, main_v98, main_v99, main_c_13, main_v100, main_v101, main_v102, main_v103, main_v104, main_cst_14, main_v105, main_v106, main_v107, main_cst_15, main_v108, main_v109, main_v110, main_v111]

set_option maxRecDepth 16384 in
theorem rH2_writes : (rH2 : List (HloOp τ sig (Elt F))).Forall fun op => op.writes ⊆ (rH2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 155 … 188 of the reference's 442. -/
abbrev rD2 : List (HloOp τ sig (Elt F)) :=
  [ StableHlo.binary main_v111 main_v85 main_v112 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v87 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v114 main_v115 (addf : (⟨S100000x128, .f32⟩ : BufTy).Contents (Elt F) → (⟨S100000x128, .f32⟩ : BufTy).Contents (Elt F) → (⟨S100000x128, .f32⟩ : BufTy).Contents (Elt F)),
    StableHlo.unary main_v93 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (subf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3727C5AC#32),
    StableHlo.unary main_cst_16 main_v119 (broadcastInDim S128 ![] bcast_S_S128 : (⟨S_, .f32⟩ : BufTy).Contents (Elt F) → (⟨S128, .f32⟩ : BufTy).Contents (Elt F)),
    StableHlo.binary main_v95 main_v119 main_v120 (addf : (⟨S128, .f32⟩ : BufTy).Contents (Elt F) → (⟨S128, .f32⟩ : BufTy).Contents (Elt F) → (⟨S128, .f32⟩ : BufTy).Contents (Elt F)),
    StableHlo.unary main_v120 main_v121 (Host.rsqrt : (⟨S128, .f32⟩ : BufTy).Contents (Elt F) → (⟨S128, .f32⟩ : BufTy).Contents (Elt F)),
    StableHlo.binary main_v89 main_v121 main_v122 (mulf : (⟨S128, .f32⟩ : BufTy).Contents (Elt F) → (⟨S128, .f32⟩ : BufTy).Contents (Elt F) → (⟨S128, .f32⟩ : BufTy).Contents (Elt F)),
    StableHlo.unary main_v122 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v124 main_v125 (mulf : (⟨S100000x128, .f32⟩ : BufTy).Contents (Elt F) → (⟨S100000x128, .f32⟩ : BufTy).Contents (Elt F) → (⟨S100000x128, .f32⟩ : BufTy).Contents (Elt F)),
    StableHlo.unary main_v91 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v127 main_v128 (addf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3C23D70A#32),
    StableHlo.TRef.nullary main_call4.cst (constant S_ .f32 0x00000000#32),
    StableHlo.TRef.unary main_call4.cst main_call4.v0 (broadcastInDim S100000x128 ![] bcast_S_S100000x128),
    StableHlo.TRef.binary (.of main_v128 : StableHlo.TRef sig ⟨S100000x128, .f32⟩) main_call4.v0 main_call4.v1 (cmpf .oge),
    StableHlo.TRef.unary (.of main_cst_17 : StableHlo.TRef sig ⟨S_, .f32⟩) main_call4.v2 id,
    StableHlo.TRef.unary main_call4.v2 main_call4.v3 (broadcastInDim S100000x128 ![] bcast_S_S100000x128),
    StableHlo.TRef.binary main_call4.v3 (.of main_v128 : StableHlo.TRef sig ⟨S100000x128, .f32⟩) main_call4.v4 mulf,
    StableHlo.TRef.ternary main_call4.v1 (.of main_v128 : StableHlo.TRef sig ⟨S100000x128, .f32⟩) main_call4.v4 main_call4.call0.v0 select,
    StableHlo.nullary main_cst_18 (constant S_ .f32 0x3C23D70A#32),
    StableHlo.TRef.nullary main_call5.cst (constant S_ .f32 0x00000000#32),
    StableHlo.TRef.unary main_call5.cst main_call5.v0 (broadcastInDim S100000x128 ![] bcast_S_S100000x128),
    StableHlo.TRef.binary (.of main_v129 : StableHlo.TRef sig ⟨S100000x128, .f32⟩) main_call5.v0 main_call5.v1 (cmpf .oge),
    StableHlo.TRef.unary (.of main_cst_18 : StableHlo.TRef sig ⟨S_, .f32⟩) main_call5.v2 id,
    StableHlo.TRef.unary main_call5.v2 main_call5.v3 (broadcastInDim S100000x128 ![] bcast_S_S100000x128),
    StableHlo.TRef.binary main_call5.v3 (.of main_v129 : StableHlo.TRef sig ⟨S100000x128, .f32⟩) main_call5.v4 mulf,
    StableHlo.TRef.ternary main_call5.v1 (.of main_v129 : StableHlo.TRef sig ⟨S100000x128, .f32⟩) main_call5.v4 main_call5.call0.v0 select ]

/-- The buffers `rD2` writes, in order. -/
abbrev rD2_W : List (Ref sig .tc) :=
  [main_v112, main_v113, main_v114, main_v115, main_v116, main_v117, main_v118, main_cst_16, main_v119, main_v120, main_v121, main_v122, main_v123, main_v124, main_v125, main_v126, main_v127, main_v128, main_cst_17, main_call4.cst.ref, main_call4.v0.ref, main_call4.v1.ref, main_call4.v2.ref, main_call4.v3.ref, main_call4.v4.ref, main_call4.call0.v0.ref, main_cst_18, main_call5.cst.ref, main_call5.v0.ref, main_call5.v1.ref, main_call5.v2.ref, main_call5.v3.ref, main_call5.v4.ref, main_call5.call0.v0.ref]

set_option maxRecDepth 16384 in
theorem rD2_writes : (rD2 : List (HloOp τ sig (Elt F))).Forall fun op => op.writes ⊆ (rD2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 189 … 220 of the reference's 442. -/
abbrev rH3 : List (HloOp τ sig (Elt F)) :=
  [ StableHlo.unary main_arg10 main_v131 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v131 main_v132 rfl shapeCasts_S1x128x128_S128x128,
    StableHlo.unary main_arg11 main_v133 ((extractStridedSlice S1x128 ![2, 0] · slices_S4x128_S1x128_2_0) : (⟨S4x128, .f32⟩ : BufTy).Contents (Elt F) → (⟨S1x128, .f32⟩ : BufTy).Contents (Elt F)),
    StableHlo.reshape main_v133 main_v134 rfl shapeCasts_S1x128_S128,
    StableHlo.unary main_arg12 main_v135 ((extractStridedSlice S1x128 ![2, 0] · slices_S4x128_S1x128_2_0) : (⟨S4x128, .f32⟩ : BufTy).Contents (Elt F) → (⟨S1x128, .f32⟩ : BufTy).Contents (Elt F)),
    StableHlo.reshape main_v135 main_v136 rfl shapeCasts_S1x128_S128,
    StableHlo.unary main_arg13 main_v137 ((extractStridedSlice S1x128 ![2, 0] · slices_S4x128_S1x128_2_0) : (⟨S4x128, .f32⟩ : BufTy).Contents (Elt F) → (⟨S1x128, .f32⟩ : BufTy).Contents (Elt F)),
    StableHlo.reshape main_v137 main_v138 rfl shapeCasts_S1x128_S128,
    StableHlo.unary main_arg14 main_v139 ((extractStridedSlice S1x128 ![2, 0] · slices_S4x128_S1x128_2_0) : (⟨S4x128, .f32⟩ : BufTy).Contents (Elt F) → (⟨S1x128, .f32⟩ : BufTy).Contents (Elt F)),
    StableHlo.reshape main_v139 main_v140 rfl shapeCasts_S1x128_S128,
    StableHlo.unary main_arg15 main_v141 ((extractStridedSlice S1x128 ![2, 0] · slices_S4x128_S1x128_2_0) : (⟨S4x128, .f32⟩ : BufTy).Contents (Elt F) → (⟨S1x128, .f32⟩ : BufTy).Contents (Elt F)),
    StableHlo.reshape main_v141 main_v142 rfl shapeCasts_S1x128_S128,
    StableHlo.unary main_arg16 main_v143 ((extractStridedSlice S1 ![2] · slices_S4_S1_2) : (⟨S4, .f32⟩ : BufTy).Contents (Elt F) → (⟨S1, .f32⟩ : BufTy).Contents (Elt F)),
    StableHlo.reshape main_v143 main_v144 rfl shapeCasts_S1_S_,
    StableHlo.nullary main_c_19 (constantI S_ 32 0#32),
    StableHlo.unary main_c_19 main_v145 (broadcastInDim S1600000 ![] bcast_S_S1600000 : (⟨S_, .i32⟩ : BufTy).Contents (Elt F) → (⟨S1600000, .i32⟩ : BufTy).Contents (Elt F)),
    StableHlo.binary main_v1 main_v145 main_v146 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v147 (broadcastInDim S1600000 ![] bcast_S_S1600000 : (⟨S_, .i32⟩ : BufTy).Contents (Elt F) → (⟨S1600000, .i32⟩ : BufTy).Contents (Elt F)),
    StableHlo.binary main_v1 main_v147 main_v148 (addi : (⟨S1600000, .i32⟩ : BufTy).Contents (Elt F) → (⟨S1600000, .i32⟩ : BufTy).Contents (Elt F) → (⟨S1600000, .i32⟩ : BufTy).Contents (Elt F)),
    StableHlo.ternary main_v146 main_v148 main_v1 main_v149 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v149 main_v150 (broadcastInDim S1600000x1 ![0] bcast_S1600000_S1600000x1_0 : (⟨S1600000, .i32⟩ : BufTy).Contents (Elt F) → (⟨S1600000x1, .i32⟩ : BufTy).Contents (Elt F)),
    StableHlo.binary main_v130 main_v150 main_v151 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_21 (constant S_ .f32 0x00000000#32),
    StableHlo.unary main_cst_21 main_v152 (broadcastInDim S100000x128 ![] bcast_S_S100000x128 : (⟨S_, .f32⟩ : BufTy).Contents (Elt F) → (⟨S100000x128, .f32⟩ : BufTy).Contents (Elt F)),
    StableHlo.unary main_v3 main_v153 (broadcastInDim S1600000x1 ![0] bcast_S1600000_S1600000x1_0 : (⟨S1600000, .i32⟩ : BufTy).Contents (Elt F) → (⟨S1600000x1, .i32⟩ : BufTy).Contents (Elt F)),
    StableHlo.ternary main_v152 main_v153 main_v151 main_v154 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_22 (constant S_ .f32 0x3F800000#32),
    StableHlo.binary main_cst_22 main_v144 main_v155 (addf : (⟨S_, .f32⟩ : BufTy).Contents (Elt F) → (⟨S_, .f32⟩ : BufTy).Contents (Elt F) → (⟨S_, .f32⟩ : BufTy).Contents (Elt F)),
    StableHlo.unary main_v155 main_v156 (broadcastInDim S100000x128 ![] bcast_S_S100000x128 : (⟨S_, .f32⟩ : BufTy).Contents (Elt F) → (⟨S100000x128, .f32⟩ : BufTy).Contents (Elt F)),
    StableHlo.binary main_v156 main_v130 main_v157 (mulf : (⟨S100000x128, .f32⟩ : BufTy).Contents (Elt F) → (⟨S100000x128, .f32⟩ : BufTy).Contents (Elt F) → (⟨S100000x128, .f32⟩ : BufTy).Contents (Elt F)),
    StableHlo.binary main_v157 main_v154 main_v158 (addf : (⟨S100000x128, .f32⟩ : BufTy).Contents (Elt F) → (⟨S100000x128, .f32⟩ : BufTy).Contents (Elt F) → (⟨S100000x128, .f32⟩ : BufTy).Contents (Elt F)) ]

/-- The buffers `rH3` writes, in order. -/
abbrev rH3_W : List (Ref sig .tc) :=
  [main_v131, main_v132, main_v133, main_v134, main_v135, main_v136, main_v137, main_v138, main_v139, main_v140, main_v141, main_v142, main_v143, main_v144, main_c_19, main_v145, main_v146, main_c_20, main_v147, main_v148, main_v149, main_v150, main_v151, main_cst_21, main_v152, main_v153, main_v154, main_cst_22, main_v155, main_v156, main_v157, main_v158]

set_option maxRecDepth 16384 in
theorem rH3_writes : (rH3 : List (HloOp τ sig (Elt F))).Forall fun op => op.writes ⊆ (rH3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 221 … 254 of the reference's 442. -/
abbrev rD3 : List (HloOp τ sig (Elt F)) :=
  [ StableHlo.binary main_v158 main_v132 main_v159 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v134 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v159 main_v161 main_v162 (addf : (⟨S100000x128, .f32⟩ : BufTy).Contents (Elt F) → (⟨S100000x128, .f32⟩ : BufTy).Contents (Elt F) → (⟨S100000x128, .f32⟩ : BufTy).Contents (Elt F)),
    StableHlo.unary main_v140 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v162 main_v164 main_v165 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v166 (broadcastInDim S128 ![] bcast_S_S128 : (⟨S_, .f32⟩ : BufTy).Contents (Elt F) → (⟨S128, .f32⟩ : BufTy).Contents (Elt F)),
    StableHlo.binary main_v142 main_v166 main_v167 (addf : (⟨S128, .f32⟩ : BufTy).Contents (Elt F) → (⟨S128, .f32⟩ : BufTy).Contents (Elt F) → (⟨S128, .f32⟩ : BufTy).Contents (Elt F)),
    StableHlo.unary main_v167 main_v168 (Host.rsqrt : (⟨S128, .f32⟩ : BufTy).Contents (Elt F) → (⟨S128, .f32⟩ : BufTy).Contents (Elt F)),
    StableHlo.binary main_v136 main_v168 main_v169 (mulf : (⟨S128, .f32⟩ : BufTy).Contents (Elt F) → (⟨S128, .f32⟩ : BufTy).Contents (Elt F) → (⟨S128, .f32⟩ : BufTy).Contents (Elt F)),
    StableHlo.unary main_v169 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v171 main_v172 (mulf : (⟨S100000x128, .f32⟩ : BufTy).Contents (Elt F) → (⟨S100000x128, .f32⟩ : BufTy).Contents (Elt F) → (⟨S100000x128, .f32⟩ : BufTy).Contents (Elt F)),
    StableHlo.unary main_v138 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S100000x128 ![0, 1] bcast_S1x128_S100000x128_0_1 : (⟨S1x128, .f32⟩ : BufTy).Contents (Elt F) → (⟨S100000x128, .f32⟩ : BufTy).Contents (Elt F)),
    StableHlo.binary main_v172 main_v174 main_v175 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3C23D70A#32),
    StableHlo.TRef.nullary main_call6.cst (constant S_ .f32 0x00000000#32),
    StableHlo.TRef.unary main_call6.cst main_call6.v0 (broadcastInDim S100000x128 ![] bcast_S_S100000x128),
    StableHlo.TRef.binary (.of main_v175 : StableHlo.TRef sig ⟨S100000x128, .f32⟩) main_call6.v0 main_call6.v1 (cmpf .oge),
    StableHlo.TRef.unary (.of main_cst_24 : StableHlo.TRef sig ⟨S_, .f32⟩) main_call6.v2 id,
    StableHlo.TRef.unary main_call6.v2 main_call6.v3 (broadcastInDim S100000x128 ![] bcast_S_S100000x128),
    StableHlo.TRef.binary main_call6.v3 (.of main_v175 : StableHlo.TRef sig ⟨S100000x128, .f32⟩) main_call6.v4 mulf,
    StableHlo.TRef.ternary main_call6.v1 (.of main_v175 : StableHlo.TRef sig ⟨S100000x128, .f32⟩) main_call6.v4 main_call6.call0.v0 select,
    StableHlo.nullary main_cst_25 (constant S_ .f32 0x3C23D70A#32),
    StableHlo.TRef.nullary main_call7.cst (constant S_ .f32 0x00000000#32),
    StableHlo.TRef.unary main_call7.cst main_call7.v0 (broadcastInDim S100000x128 ![] bcast_S_S100000x128),
    StableHlo.TRef.binary (.of main_v176 : StableHlo.TRef sig ⟨S100000x128, .f32⟩) main_call7.v0 main_call7.v1 (cmpf .oge),
    StableHlo.TRef.unary (.of main_cst_25 : StableHlo.TRef sig ⟨S_, .f32⟩) main_call7.v2 id,
    StableHlo.TRef.unary main_call7.v2 main_call7.v3 (broadcastInDim S100000x128 ![] bcast_S_S100000x128),
    StableHlo.TRef.binary main_call7.v3 (.of main_v176 : StableHlo.TRef sig ⟨S100000x128, .f32⟩) main_call7.v4 mulf,
    StableHlo.TRef.ternary main_call7.v1 (.of main_v176 : StableHlo.TRef sig ⟨S100000x128, .f32⟩) main_call7.v4 main_call7.call0.v0 select ]

/-- The buffers `rD3` writes, in order. -/
abbrev rD3_W : List (Ref sig .tc) :=
  [main_v159, main_v160, main_v161, main_v162, main_v163, main_v164, main_v165, main_cst_23, main_v166, main_v167, main_v168, main_v169, main_v170, main_v171, main_v172, main_v173, main_v174, main_v175, main_cst_24, main_call6.cst.ref, main_call6.v0.ref, main_call6.v1.ref, main_call6.v2.ref, main_call6.v3.ref, main_call6.v4.ref, main_call6.call0.v0.ref, main_cst_25, main_call7.cst.ref, main_call7.v0.ref, main_call7.v1.ref, main_call7.v2.ref, main_call7.v3.ref, main_call7.v4.ref, main_call7.call0.v0.ref]

set_option maxRecDepth 16384 in
theorem rD3_writes : (rD3 : List (HloOp τ sig (Elt F))).Forall fun op => op.writes ⊆ (rD3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 255 … 286 of the reference's 442. -/
abbrev rH4 : List (HloOp τ sig (Elt F)) :=
  [ StableHlo.unary main_arg10 main_v178 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v178 main_v179 rfl shapeCasts_S1x128x128_S128x128,
    StableHlo.unary main_arg11 main_v180 ((extractStridedSlice S1x128 ![3, 0] · slices_S4x128_S1x128_3_0) : (⟨S4x128, .f32⟩ : BufTy).Contents (Elt F) → (⟨S1x128, .f32⟩ : BufTy).Contents (Elt F)),
    StableHlo.reshape main_v180 main_v181 rfl shapeCasts_S1x128_S128,
    StableHlo.unary main_arg12 main_v182 ((extractStridedSlice S1x128 ![3, 0] · slices_S4x128_S1x128_3_0) : (⟨S4x128, .f32⟩ : BufTy).Contents (Elt F) → (⟨S1x128, .f32⟩ : BufTy).Contents (Elt F)),
    StableHlo.reshape main_v182 main_v183 rfl shapeCasts_S1x128_S128,
    StableHlo.unary main_arg13 main_v184 ((extractStridedSlice S1x128 ![3, 0] · slices_S4x128_S1x128_3_0) : (⟨S4x128, .f32⟩ : BufTy).Contents (Elt F) → (⟨S1x128, .f32⟩ : BufTy).Contents (Elt F)),
    StableHlo.reshape main_v184 main_v185 rfl shapeCasts_S1x128_S128,
    StableHlo.unary main_arg14 main_v186 ((extractStridedSlice S1x128 ![3, 0] · slices_S4x128_S1x128_3_0) : (⟨S4x128, .f32⟩ : BufTy).Contents (Elt F) → (⟨S1x128, .f32⟩ : BufTy).Contents (Elt F)),
    StableHlo.reshape main_v186 main_v187 rfl shapeCasts_S1x128_S128,
    StableHlo.unary main_arg15 main_v188 ((extractStridedSlice S1x128 ![3, 0] · slices_S4x128_S1x128_3_0) : (⟨S4x128, .f32⟩ : BufTy).Contents (Elt F) → (⟨S1x128, .f32⟩ : BufTy).Contents (Elt F)),
    StableHlo.reshape main_v188 main_v189 rfl shapeCasts_S1x128_S128,
    StableHlo.unary main_arg16 main_v190 ((extractStridedSlice S1 ![3] · slices_S4_S1_3) : (⟨S4, .f32⟩ : BufTy).Contents (Elt F) → (⟨S1, .f32⟩ : BufTy).Contents (Elt F)),
    StableHlo.reshape main_v190 main_v191 rfl shapeCasts_S1_S_,
    StableHlo.nullary main_c_26 (constantI S_ 32 0#32),
    StableHlo.unary main_c_26 main_v192 (broadcastInDim S1600000 ![] bcast_S_S1600000 : (⟨S_, .i32⟩ : BufTy).Contents (Elt F) → (⟨S1600000, .i32⟩ : BufTy).Contents (Elt F)),
    StableHlo.binary main_v1 main_v192 main_v193 (cmpi .slt : (⟨S1600000, .i32⟩ : BufTy).Contents (Elt F) → (⟨S1600000, .i32⟩ : BufTy).Contents (Elt F) → (⟨S1600000, .i1⟩ : BufTy).Contents (Elt F)),
    StableHlo.nullary main_c_27 (constantI S_ 32 100000#32),
    StableHlo.unary main_c_27 main_v194 (broadcastInDim S1600000 ![] bcast_S_S1600000 : (⟨S_, .i32⟩ : BufTy).Contents (Elt F) → (⟨S1600000, .i32⟩ : BufTy).Contents (Elt F)),
    StableHlo.binary main_v1 main_v194 main_v195 (addi : (⟨S1600000, .i32⟩ : BufTy).Contents (Elt F) → (⟨S1600000, .i32⟩ : BufTy).Contents (Elt F) → (⟨S1600000, .i32⟩ : BufTy).Contents (Elt F)),
    StableHlo.ternary main_v193 main_v195 main_v1 main_v196 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v196 main_v197 (broadcastInDim S1600000x1 ![0] bcast_S1600000_S1600000x1_0 : (⟨S1600000, .i32⟩ : BufTy).Contents (Elt F) → (⟨S1600000x1, .i32⟩ : BufTy).Contents (Elt F)),
    StableHlo.binary main_v177 main_v197 main_v198 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_28 (constant S_ .f32 0x00000000#32),
    StableHlo.unary main_cst_28 main_v199 (broadcastInDim S100000x128 ![] bcast_S_S100000x128 : (⟨S_, .f32⟩ : BufTy).Contents (Elt F) → (⟨S100000x128, .f32⟩ : BufTy).Contents (Elt F)),
    StableHlo.unary main_v3 main_v200 (broadcastInDim S1600000x1 ![0] bcast_S1600000_S1600000x1_0 : (⟨S1600000, .i32⟩ : BufTy).Contents (Elt F) → (⟨S1600000x1, .i32⟩ : BufTy).Contents (Elt F)),
    StableHlo.ternary main_v199 main_v200 main_v198 main_v201 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_29 (constant S_ .f32 0x3F800000#32),
    StableHlo.binary main_cst_29 main_v191 main_v202 (addf : (⟨S_, .f32⟩ : BufTy).Contents (Elt F) → (⟨S_, .f32⟩ : BufTy).Contents (Elt F) → (⟨S_, .f32⟩ : BufTy).Contents (Elt F)),
    StableHlo.unary main_v202 main_v203 (broadcastInDim S100000x128 ![] bcast_S_S100000x128 : (⟨S_, .f32⟩ : BufTy).Contents (Elt F) → (⟨S100000x128, .f32⟩ : BufTy).Contents (Elt F)),
    StableHlo.binary main_v203 main_v177 main_v204 (mulf : (⟨S100000x128, .f32⟩ : BufTy).Contents (Elt F) → (⟨S100000x128, .f32⟩ : BufTy).Contents (Elt F) → (⟨S100000x128, .f32⟩ : BufTy).Contents (Elt F)),
    StableHlo.binary main_v204 main_v201 main_v205 (addf : (⟨S100000x128, .f32⟩ : BufTy).Contents (Elt F) → (⟨S100000x128, .f32⟩ : BufTy).Contents (Elt F) → (⟨S100000x128, .f32⟩ : BufTy).Contents (Elt F)) ]

/-- The buffers `rH4` writes, in order. -/
abbrev rH4_W : List (Ref sig .tc) :=
  [main_v178, main_v179, main_v180, main_v181, main_v182, main_v183, main_v184, main_v185, main_v186, main_v187, main_v188, main_v189, main_v190, main_v191, main_c_26, main_v192, main_v193, main_c_27, main_v194, main_v195, main_v196, main_v197, main_v198, main_cst_28, main_v199, main_v200, main_v201, main_cst_29, main_v202, main_v203, main_v204, main_v205]

set_option maxRecDepth 16384 in
theorem rH4_writes : (rH4 : List (HloOp τ sig (Elt F))).Forall fun op => op.writes ⊆ (rH4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 287 … 320 of the reference's 442. -/
abbrev rD4 : List (HloOp τ sig (Elt F)) :=
  [ StableHlo.binary main_v205 main_v179 main_v206 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v181 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S100000x128 ![0, 1] bcast_S1x128_S100000x128_0_1 : (⟨S1x128, .f32⟩ : BufTy).Contents (Elt F) → (⟨S100000x128, .f32⟩ : BufTy).Contents (Elt F)),
    StableHlo.binary main_v206 main_v208 main_v209 (addf : (⟨S100000x128, .f32⟩ : BufTy).Contents (Elt F) → (⟨S100000x128, .f32⟩ : BufTy).Contents (Elt F) → (⟨S100000x128, .f32⟩ : BufTy).Contents (Elt F)),
    StableHlo.unary main_v187 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v211 main_v212 (subf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x3727C5AC#32),
    StableHlo.unary main_cst_30 main_v213 (broadcastInDim S128 ![] bcast_S_S128 : (⟨S_, .f32⟩ : BufTy).Contents (Elt F) → (⟨S128, .f32⟩ : BufTy).Contents (Elt F)),
    StableHlo.binary main_v189 main_v213 main_v214 (addf : (⟨S128, .f32⟩ : BufTy).Contents (Elt F) → (⟨S128, .f32⟩ : BufTy).Contents (Elt F) → (⟨S128, .f32⟩ : BufTy).Contents (Elt F)),
    StableHlo.unary main_v214 main_v215 (Host.rsqrt : (⟨S128, .f32⟩ : BufTy).Contents (Elt F) → (⟨S128, .f32⟩ : BufTy).Contents (Elt F)),
    StableHlo.binary main_v183 main_v215 main_v216 (mulf : (⟨S128, .f32⟩ : BufTy).Contents (Elt F) → (⟨S128, .f32⟩ : BufTy).Contents (Elt F) → (⟨S128, .f32⟩ : BufTy).Contents (Elt F)),
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S100000x128 ![0, 1] bcast_S1x128_S100000x128_0_1 : (⟨S1x128, .f32⟩ : BufTy).Contents (Elt F) → (⟨S100000x128, .f32⟩ : BufTy).Contents (Elt F)),
    StableHlo.binary main_v212 main_v218 main_v219 (mulf : (⟨S100000x128, .f32⟩ : BufTy).Contents (Elt F) → (⟨S100000x128, .f32⟩ : BufTy).Contents (Elt F) → (⟨S100000x128, .f32⟩ : BufTy).Contents (Elt F)),
    StableHlo.unary main_v185 main_v220 (broadcastInDim S1x128 ![1] bcast_S128_S1x128_1 : (⟨S128, .f32⟩ : BufTy).Contents (Elt F) → (⟨S1x128, .f32⟩ : BufTy).Contents (Elt F)),
    StableHlo.unary main_v220 main_v221 (broadcastInDim S100000x128 ![0, 1] bcast_S1x128_S100000x128_0_1 : (⟨S1x128, .f32⟩ : BufTy).Contents (Elt F) → (⟨S100000x128, .f32⟩ : BufTy).Contents (Elt F)),
    StableHlo.binary main_v219 main_v221 main_v222 (addf : (⟨S100000x128, .f32⟩ : BufTy).Contents (Elt F) → (⟨S100000x128, .f32⟩ : BufTy).Contents (Elt F) → (⟨S100000x128, .f32⟩ : BufTy).Contents (Elt F)),
    StableHlo.nullary main_cst_31 (constant S_ .f32 0x3C23D70A#32),
    StableHlo.TRef.nullary main_call8.cst (constant S_ .f32 0x00000000#32),
    StableHlo.TRef.unary main_call8.cst main_call8.v0 (broadcastInDim S100000x128 ![] bcast_S_S100000x128),
    StableHlo.TRef.binary (.of main_v222 : StableHlo.TRef sig ⟨S100000x128, .f32⟩) main_call8.v0 main_call8.v1 (cmpf .oge),
    StableHlo.TRef.unary (.of main_cst_31 : StableHlo.TRef sig ⟨S_, .f32⟩) main_call8.v2 id,
    StableHlo.TRef.unary main_call8.v2 main_call8.v3 (broadcastInDim S100000x128 ![] bcast_S_S100000x128),
    StableHlo.TRef.binary main_call8.v3 (.of main_v222 : StableHlo.TRef sig ⟨S100000x128, .f32⟩) main_call8.v4 mulf,
    StableHlo.TRef.ternary main_call8.v1 (.of main_v222 : StableHlo.TRef sig ⟨S100000x128, .f32⟩) main_call8.v4 main_call8.call0.v0 select,
    StableHlo.nullary main_cst_32 (constant S_ .f32 0x3C23D70A#32),
    StableHlo.TRef.nullary main_call9.cst (constant S_ .f32 0x00000000#32),
    StableHlo.TRef.unary main_call9.cst main_call9.v0 (broadcastInDim S100000x128 ![] bcast_S_S100000x128),
    StableHlo.TRef.binary (.of main_v223 : StableHlo.TRef sig ⟨S100000x128, .f32⟩) main_call9.v0 main_call9.v1 (cmpf .oge),
    StableHlo.TRef.unary (.of main_cst_32 : StableHlo.TRef sig ⟨S_, .f32⟩) main_call9.v2 id,
    StableHlo.TRef.unary main_call9.v2 main_call9.v3 (broadcastInDim S100000x128 ![] bcast_S_S100000x128),
    StableHlo.TRef.binary main_call9.v3 (.of main_v223 : StableHlo.TRef sig ⟨S100000x128, .f32⟩) main_call9.v4 mulf,
    StableHlo.TRef.ternary main_call9.v1 (.of main_v223 : StableHlo.TRef sig ⟨S100000x128, .f32⟩) main_call9.v4 main_call9.call0.v0 select ]

/-- The buffers `rD4` writes, in order. -/
abbrev rD4_W : List (Ref sig .tc) :=
  [main_v206, main_v207, main_v208, main_v209, main_v210, main_v211, main_v212, main_cst_30, main_v213, main_v214, main_v215, main_v216, main_v217, main_v218, main_v219, main_v220, main_v221, main_v222, main_cst_31, main_call8.cst.ref, main_call8.v0.ref, main_call8.v1.ref, main_call8.v2.ref, main_call8.v3.ref, main_call8.v4.ref, main_call8.call0.v0.ref, main_cst_32, main_call9.cst.ref, main_call9.v0.ref, main_call9.v1.ref, main_call9.v2.ref, main_call9.v3.ref, main_call9.v4.ref, main_call9.call0.v0.ref]

set_option maxRecDepth 16384 in
theorem rD4_writes : (rD4 : List (HloOp τ sig (Elt F))).Forall fun op => op.writes ⊆ (rD4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 321 … 394 of the reference's 442. -/
abbrev rTail : List (HloOp τ sig (Elt F)) :=
  [ StableHlo.nullary main_cst_33 (constant S_ .f32 0x00000000#32),
    StableHlo.unary main_cst_33 main_v225 (broadcastInDim S2000x128 ![] bcast_S_S2000x128 : (⟨S_, .f32⟩ : BufTy).Contents (Elt F) → (⟨S2000x128, .f32⟩ : BufTy).Contents (Elt F)),
    StableHlo.unary main_arg2 main_v226 (broadcastInDim S100000x1 ![0] bcast_S100000_S100000x1_0 : (⟨S100000, .i32⟩ : BufTy).Contents (Elt F) → (⟨S100000x1, .i32⟩ : BufTy).Contents (Elt F)),
    StableHlo.ternary main_v225 main_v226 main_v224 main_v227 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.nullary main_c_34 (constantI S_ 32 0#32),
    StableHlo.unary main_c_34 main_v228 (broadcastInDim S2000 ![] bcast_S_S2000 : (⟨S_, .i32⟩ : BufTy).Contents (Elt F) → (⟨S2000, .i32⟩ : BufTy).Contents (Elt F)),
    StableHlo.nullary main_c_35 (constantI S_ 32 0#32),
    StableHlo.TRef.unary (.of main_c_35 : StableHlo.TRef sig ⟨S_, .i32⟩) main_call10.v0 id,
    StableHlo.TRef.unary main_call10.v0 main_call10.v1 (broadcastInDim S100000 ![] bcast_S_S100000),
    StableHlo.TRef.binary main_call10.v1 (.of main_arg2 : StableHlo.TRef sig ⟨S100000, .i32⟩) main_call10.v2 maxsi,
    StableHlo.nullary main_c_36 (constantI S_ 32 0#32),
    StableHlo.unary main_c_36 main_v230 (broadcastInDim S100000 ![] bcast_S_S100000 : (⟨S_, .i32⟩ : BufTy).Contents (Elt F) → (⟨S100000, .i32⟩ : BufTy).Contents (Elt F)),
    StableHlo.binary main_v229 main_v230 main_v231 (cmpi .slt : (⟨S100000, .i32⟩ : BufTy).Contents (Elt F) → (⟨S100000, .i32⟩ : BufTy).Contents (Elt F) → (⟨S100000, .i1⟩ : BufTy).Contents (Elt F)),
    StableHlo.nullary main_c_37 (constantI S_ 32 2000#32),
    StableHlo.unary main_c_37 main_v232 (broadcastInDim S100000 ![] bcast_S_S100000 : (⟨S_, .i32⟩ : BufTy).Contents (Elt F) → (⟨S100000, .i32⟩ : BufTy).Contents (Elt F)),
    StableHlo.binary main_v229 main_v232 main_v233 (addi : (⟨S100000, .i32⟩ : BufTy).Contents (Elt F) → (⟨S100000, .i32⟩ : BufTy).Contents (Elt F) → (⟨S100000, .i32⟩ : BufTy).Contents (Elt F)),
    StableHlo.ternary main_v231 main_v233 main_v229 main_v234 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v234 main_v235 (broadcastInDim S100000x1 ![0] bcast_S100000_S100000x1_0 : (⟨S100000, .i32⟩ : BufTy).Contents (Elt F) → (⟨S100000x1, .i32⟩ : BufTy).Contents (Elt F)),
    StableHlo.nullary main_c_38 (constantI S_ 32 1#32),
    StableHlo.unary main_c_38 main_v236 (broadcastInDim S100000 ![] bcast_S_S100000 : (⟨S_, .i32⟩ : BufTy).Contents (Elt F) → (⟨S100000, .i32⟩ : BufTy).Contents (Elt F)),
    StableHlo.ternary main_v228 main_v235 main_v236 main_v237 ((fun x i u => Host.scatter scatter_S2000_S100000x1_S100000_n_0_0_1 IntOp.addi x i u) : (⟨S2000, .i32⟩ : BufTy).Contents (Elt F) → (⟨S100000x1, .i32⟩ : BufTy).Contents (Elt F) → (⟨S100000, .i32⟩ : BufTy).Contents (Elt F) → (⟨S2000, .i32⟩ : BufTy).Contents (Elt F)),
    StableHlo.TRef.unary (.of main_v237 : StableHlo.TRef sig ⟨S2000, .i32⟩) main_call11.v0 (extractStridedSlice S1 ![1999] · slices_S2000_S1_1999),
    StableHlo.TRef.unary (.of main_v237 : StableHlo.TRef sig ⟨S2000, .i32⟩) main_call11.v1 (extractStridedSlice S1999 ![0] · slices_S2000_S1999_0),
    StableHlo.TRef.binary main_call11.v0 main_call11.v1 main_call11.v2 (fun a b => concatenate S2000 0 [⟨S1, a⟩, ⟨S1999, b⟩] concatenates_S1_S1999_S2000_d0),
    StableHlo.nullary main_c_39 (constantI S_ 32 0#32),
    StableHlo.unary main_c_39 main_v239 (broadcastInDim S1 ![] bcast_S_S1 : (⟨S_, .i32⟩ : BufTy).Contents (Elt F) → (⟨S1, .i32⟩ : BufTy).Contents (Elt F)),
    StableHlo.nullary main_c_40 (constantI S_ 32 0#32),
    StableHlo.ternary main_v238 main_v239 main_c_40 main_v240 ((fun x i u => Host.scatter scatter_S2000_S1_S__n_0_0_0 (fun _ b => b) x i u) : (⟨S2000, .i32⟩ : BufTy).Contents (Elt F) → (⟨S1, .i32⟩ : BufTy).Contents (Elt F) → (⟨S_, .i32⟩ : BufTy).Contents (Elt F) → (⟨S2000, .i32⟩ : BufTy).Contents (Elt F)),
    StableHlo.TRef.nullary main_call12.call0.c (constantI S_ 32 0#32),
    StableHlo.TRef.unary main_call12.call0.c main_call12.call0.v0 (broadcastInDim S_ ![] bcast_S_S_),
    StableHlo.TRef.binary (.of main_v240 : StableHlo.TRef sig ⟨S2000, .i32⟩) main_call12.call0.v0 main_call12.call0.v1 (fun x v => Host.reduceWindow IntOp.addi ![2000] ![1] ![1999] ![0] x v reduceWindows_S2000_S2000_w2000s1p1999_0 h_S_),
    StableHlo.nullary main_c_41 (constantI S_ 32 0#32),
    StableHlo.unary main_c_41 main_v242 (broadcastInDim S100000 ![] bcast_S_S100000 : (⟨S_, .i32⟩ : BufTy).Contents (Elt F) → (⟨S100000, .i32⟩ : BufTy).Contents (Elt F)),
    StableHlo.nullary main_c_42 (constantI S_ 32 0#32),
    StableHlo.unary main_c_42 main_v243 (broadcastInDim S2000 ![] bcast_S_S2000 : (⟨S_, .i32⟩ : BufTy).Contents (Elt F) → (⟨S2000, .i32⟩ : BufTy).Contents (Elt F)),
    StableHlo.binary main_v241 main_v243 main_v244 (cmpi .slt : (⟨S2000, .i32⟩ : BufTy).Contents (Elt F) → (⟨S2000, .i32⟩ : BufTy).Contents (Elt F) → (⟨S2000, .i1⟩ : BufTy).Contents (Elt F)),
    StableHlo.nullary main_c_43 (constantI S_ 32 100000#32),
    StableHlo.unary main_c_43 main_v245 (broadcastInDim S2000 ![] bcast_S_S2000 : (⟨S_, .i32⟩ : BufTy).Contents (Elt F) → (⟨S2000, .i32⟩ : BufTy).Contents (Elt F)),
    StableHlo.binary main_v241 main_v245 main_v246 (addi : (⟨S2000, .i32⟩ : BufTy).Contents (Elt F) → (⟨S2000, .i32⟩ : BufTy).Contents (Elt F) → (⟨S2000, .i32⟩ : BufTy).Contents (Elt F)),
    StableHlo.ternary main_v244 main_v246 main_v241 main_v247 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v247 main_v248 (broadcastInDim S2000x1 ![0] bcast_S2000_S2000x1_0 : (⟨S2000, .i32⟩ : BufTy).Contents (Elt F) → (⟨S2000x1, .i32⟩ : BufTy).Contents (Elt F)),
    StableHlo.nullary main_c_44 (constantI S_ 32 1#32),
    StableHlo.unary main_c_44 main_v249 (broadcastInDim S2000 ![] bcast_S_S2000 : (⟨S_, .i32⟩ : BufTy).Contents (Elt F) → (⟨S2000, .i32⟩ : BufTy).Contents (Elt F)),
    StableHlo.ternary main_v242 main_v248 main_v249 main_v250 ((fun x i u => Host.scatter scatter_S100000_S2000x1_S2000_n_0_0_1 IntOp.addi x i u) : (⟨S100000, .i32⟩ : BufTy).Contents (Elt F) → (⟨S2000x1, .i32⟩ : BufTy).Contents (Elt F) → (⟨S2000, .i32⟩ : BufTy).Contents (Elt F) → (⟨S100000, .i32⟩ : BufTy).Contents (Elt F)),
    StableHlo.TRef.nullary main_call13.call0.c (constantI S_ 32 0#32),
    StableHlo.TRef.unary main_call13.call0.c main_call13.call0.v0 (broadcastInDim S_ ![] bcast_S_S_),
    StableHlo.TRef.binary (.of main_v250 : StableHlo.TRef sig ⟨S100000, .i32⟩) main_call13.call0.v0 main_call13.call0.v1 (fun x v => Host.reduceWindow IntOp.addi ![100000] ![1] ![99999] ![0] x v reduceWindows_S100000_S100000_w100000s1p99999_0 h_S_),
    StableHlo.nullary main_c_45 (constantI S_ 32 1#32),
    StableHlo.unary main_c_45 main_v252 (broadcastInDim S100000 ![] bcast_S_S100000 : (⟨S_, .i32⟩ : BufTy).Contents (Elt F) → (⟨S100000, .i32⟩ : BufTy).Contents (Elt F)),
    StableHlo.binary main_v251 main_v252 main_v253 (subi : (⟨S100000, .i32⟩ : BufTy).Contents (Elt F) → (⟨S100000, .i32⟩ : BufTy).Contents (Elt F) → (⟨S100000, .i32⟩ : BufTy).Contents (Elt F)),
    StableHlo.TRef.nullary main_call14.c (constantI S_ 32 0#32),
    StableHlo.TRef.unary main_call14.c main_call14.v0 (broadcastInDim S100000 ![] bcast_S_S100000),
    StableHlo.TRef.binary (.of main_v253 : StableHlo.TRef sig ⟨S100000, .i32⟩) main_call14.v0 main_call14.v1 (cmpi .slt),
    StableHlo.TRef.nullary main_call14.c_0 (constantI S_ 32 2000#32),
    StableHlo.TRef.unary main_call14.c_0 main_call14.v2 (broadcastInDim S100000 ![] bcast_S_S100000),
    StableHlo.TRef.binary (.of main_v253 : StableHlo.TRef sig ⟨S100000, .i32⟩) main_call14.v2 main_call14.v3 addi,
    StableHlo.TRef.ternary main_call14.v1 main_call14.v3 (.of main_v253 : StableHlo.TRef sig ⟨S100000, .i32⟩) main_call14.call0.v0 select,
    StableHlo.TRef.unary main_call14.call0.v0 main_call14.v5 (broadcastInDim S100000x1 ![0] bcast_S100000_S100000x1_0),
    StableHlo.TRef.nullary main_call14.c_1 (constantI S1 32 1999#32),
    StableHlo.TRef.nullary main_call14.c_2 (constantI S_ 32 0#32),
    StableHlo.TRef.unary main_call14.c_2 main_call14.v6 (broadcastInDim S100000x1 ![] bcast_S_S100000x1),
    StableHlo.TRef.binary main_call14.v5 main_call14.v6 main_call14.v7 (cmpi .sge),
    StableHlo.TRef.unary main_call14.c_1 main_call14.v8 (broadcastInDim S1x1 ![1] bcast_S1_S1x1_1),
    StableHlo.TRef.unary main_call14.v8 main_call14.v9 (broadcastInDim S100000x1 ![0, 1] bcast_S1x1_S100000x1_0_1),
    StableHlo.TRef.binary main_call14.v5 main_call14.v9 main_call14.v10 (cmpi .sle),
    StableHlo.TRef.binary main_call14.v7 main_call14.v10 main_call14.v11 andi,
    StableHlo.TRef.nullary main_call14.c_3 (constantI S_ 1 1#1),
    StableHlo.TRef.binary main_call14.v11 main_call14.c_3 main_call14.v12 (fun x v => Host.reduce IntOp.andi x v reducesTo_S100000x1_S100000_d1 h_S_),
    StableHlo.TRef.binary (.of main_v227 : StableHlo.TRef sig ⟨S2000x128, .f32⟩) main_call14.v5 main_call14.v13 (fun x i => Host.gather gather_S2000x128_S100000x1_S100000x128_1_0_n_n_0_1_1128 x i),
    StableHlo.TRef.unary main_call14.v12 main_call14.v14 (broadcastInDim S100000x128 ![0] bcast_S100000_S100000x128_0),
    StableHlo.TRef.nullary main_call14.cst (constant S_ .f32 0x7FC00000#32),
    StableHlo.TRef.unary main_call14.cst main_call14.v15 (broadcastInDim S100000x128 ![] bcast_S_S100000x128),
    StableHlo.TRef.ternary main_call14.v14 main_call14.v13 main_call14.v15 main_call14.v16 select,
    StableHlo.nary ![main_v36, main_v83, main_v130, main_v177, main_v224, main_v254] main_v255 (fun u => concatenate S100000x768 1 [⟨S100000x128, u 0⟩, ⟨S100000x128, u 1⟩, ⟨S100000x128, u 2⟩, ⟨S100000x128, u 3⟩, ⟨S100000x128, u 4⟩, ⟨S100000x128, u 5⟩] concatenates_S100000x128_S100000x128_S100000x128_S100000x128_S100000x128_S100000x128_S100000x768_d1) ]

/-- The buffers `rTail` writes, in order. -/
abbrev rTail_W : List (Ref sig .tc) :=
  [main_cst_33, main_v225, main_v226, main_v227, main_c_34, main_v228, main_c_35, main_call10.v0.ref, main_call10.v1.ref, main_call10.v2.ref, main_c_36, main_v230, main_v231, main_c_37, main_v232, main_v233, main_v234, main_v235, main_c_38, main_v236, main_v237, main_call11.v0.ref, main_call11.v1.ref, main_call11.v2.ref, main_c_39, main_v239, main_c_40, main_v240, main_call12.call0.c.ref, main_call12.call0.v0.ref, main_call12.call0.v1.ref, main_c_41, main_v242, main_c_42, main_v243, main_v244, main_c_43, main_v245, main_v246, main_v247, main_v248, main_c_44, main_v249, main_v250, main_call13.call0.c.ref, main_call13.call0.v0.ref, main_call13.call0.v1.ref, main_c_45, main_v252, main_v253, main_call14.c.ref, main_call14.v0.ref, main_call14.v1.ref, main_call14.c_0.ref, main_call14.v2.ref, main_call14.v3.ref, main_call14.call0.v0.ref, main_call14.v5.ref, main_call14.c_1.ref, main_call14.c_2.ref, main_call14.v6.ref, main_call14.v7.ref, main_call14.v8.ref, main_call14.v9.ref, main_call14.v10.ref, main_call14.v11.ref, main_call14.c_3.ref, main_call14.v12.ref, main_call14.v13.ref, main_call14.v14.ref, main_call14.cst.ref, main_call14.v15.ref, main_call14.v16.ref, main_v255]

set_option maxRecDepth 16384 in
theorem rTail_writes : (rTail : List (HloOp τ sig (Elt F))).Forall fun op => op.writes ⊆ (rTail_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- Operations 395 … 442 of the reference's 442. -/
abbrev rCls : List (HloOp τ sig (Elt F)) :=
  [ StableHlo.binary main_v255 main_arg17 main_v256 ((fun l r => Host.dotGeneral dot_S100000x768_S768x256_S100000x256_1_0_0_1_n_n none l r) : (⟨S100000x768, .f32⟩ : BufTy).Contents (Elt F) → (⟨S768x256, .f32⟩ : BufTy).Contents (Elt F) → (⟨S100000x256, .f32⟩ : BufTy).Contents (Elt F)),
    StableHlo.unary main_arg18 main_v257 (broadcastInDim S1x256 ![1] bcast_S256_S1x256_1 : (⟨S256, .f32⟩ : BufTy).Contents (Elt F) → (⟨S1x256, .f32⟩ : BufTy).Contents (Elt F)),
    StableHlo.unary main_v257 main_v258 (broadcastInDim S100000x256 ![0, 1] bcast_S1x256_S100000x256_0_1 : (⟨S1x256, .f32⟩ : BufTy).Contents (Elt F) → (⟨S100000x256, .f32⟩ : BufTy).Contents (Elt F)),
    StableHlo.binary main_v256 main_v258 main_v259 (addf : (⟨S100000x256, .f32⟩ : BufTy).Contents (Elt F) → (⟨S100000x256, .f32⟩ : BufTy).Contents (Elt F) → (⟨S100000x256, .f32⟩ : BufTy).Contents (Elt F)),
    StableHlo.unary main_arg19 main_v260 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v260 main_v261 rfl shapeCasts_S1x256x256_S256x256,
    StableHlo.binary main_v259 main_v261 main_v262 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg20 main_v263 ((extractStridedSlice S1x256 ![0, 0] · slices_S2x256_S1x256_0_0) : (⟨S2x256, .f32⟩ : BufTy).Contents (Elt F) → (⟨S1x256, .f32⟩ : BufTy).Contents (Elt F)),
    StableHlo.reshape main_v263 main_v264 rfl shapeCasts_S1x256_S256,
    StableHlo.unary main_v264 main_v265 (broadcastInDim S1x256 ![1] bcast_S256_S1x256_1 : (⟨S256, .f32⟩ : BufTy).Contents (Elt F) → (⟨S1x256, .f32⟩ : BufTy).Contents (Elt F)),
    StableHlo.unary main_v265 main_v266 (broadcastInDim S100000x256 ![0, 1] bcast_S1x256_S100000x256_0_1 : (⟨S1x256, .f32⟩ : BufTy).Contents (Elt F) → (⟨S100000x256, .f32⟩ : BufTy).Contents (Elt F)),
    StableHlo.binary main_v262 main_v266 main_v267 (addf : (⟨S100000x256, .f32⟩ : BufTy).Contents (Elt F) → (⟨S100000x256, .f32⟩ : BufTy).Contents (Elt F) → (⟨S100000x256, .f32⟩ : BufTy).Contents (Elt F)),
    StableHlo.nullary main_cst_46 (constant S_ .f32 0x3C23D70A#32),
    StableHlo.TRef.nullary main_call15.cst (constant S_ .f32 0x00000000#32),
    StableHlo.TRef.unary main_call15.cst main_call15.v0 (broadcastInDim S100000x256 ![] bcast_S_S100000x256),
    StableHlo.TRef.binary (.of main_v267 : StableHlo.TRef sig ⟨S100000x256, .f32⟩) main_call15.v0 main_call15.v1 (cmpf .oge),
    StableHlo.TRef.unary (.of main_cst_46 : StableHlo.TRef sig ⟨S_, .f32⟩) main_call15.v2 id,
    StableHlo.TRef.unary main_call15.v2 main_call15.v3 (broadcastInDim S100000x256 ![] bcast_S_S100000x256),
    StableHlo.TRef.binary main_call15.v3 (.of main_v267 : StableHlo.TRef sig ⟨S100000x256, .f32⟩) main_call15.v4 mulf,
    StableHlo.TRef.ternary main_call15.v1 (.of main_v267 : StableHlo.TRef sig ⟨S100000x256, .f32⟩) main_call15.v4 main_call15.call0.v0 select,
    StableHlo.unary main_arg19 main_v269 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v269 main_v270 rfl shapeCasts_S1x256x256_S256x256,
    StableHlo.binary main_v268 main_v270 main_v271 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg20 main_v272 ((extractStridedSlice S1x256 ![1, 0] · slices_S2x256_S1x256_1_0) : (⟨S2x256, .f32⟩ : BufTy).Contents (Elt F) → (⟨S1x256, .f32⟩ : BufTy).Contents (Elt F)),
    StableHlo.reshape main_v272 main_v273 rfl shapeCasts_S1x256_S256,
    StableHlo.unary main_v273 main_v274 (broadcastInDim S1x256 ![1] bcast_S256_S1x256_1 : (⟨S256, .f32⟩ : BufTy).Contents (Elt F) → (⟨S1x256, .f32⟩ : BufTy).Contents (Elt F)),
    StableHlo.unary main_v274 main_v275 (broadcastInDim S100000x256 ![0, 1] bcast_S1x256_S100000x256_0_1 : (⟨S1x256, .f32⟩ : BufTy).Contents (Elt F) → (⟨S100000x256, .f32⟩ : BufTy).Contents (Elt F)),
    StableHlo.binary main_v271 main_v275 main_v276 (addf : (⟨S100000x256, .f32⟩ : BufTy).Contents (Elt F) → (⟨S100000x256, .f32⟩ : BufTy).Contents (Elt F) → (⟨S100000x256, .f32⟩ : BufTy).Contents (Elt F)),
    StableHlo.nullary main_cst_47 (constant S_ .f32 0x3C23D70A#32),
    StableHlo.TRef.nullary main_call16.cst (constant S_ .f32 0x00000000#32),
    StableHlo.TRef.unary main_call16.cst main_call16.v0 (broadcastInDim S100000x256 ![] bcast_S_S100000x256),
    StableHlo.TRef.binary (.of main_v276 : StableHlo.TRef sig ⟨S100000x256, .f32⟩) main_call16.v0 main_call16.v1 (cmpf .oge),
    StableHlo.TRef.unary (.of main_cst_47 : StableHlo.TRef sig ⟨S_, .f32⟩) main_call16.v2 id,
    StableHlo.TRef.unary main_call16.v2 main_call16.v3 (broadcastInDim S100000x256 ![] bcast_S_S100000x256),
    StableHlo.TRef.binary main_call16.v3 (.of main_v276 : StableHlo.TRef sig ⟨S100000x256, .f32⟩) main_call16.v4 mulf,
    StableHlo.TRef.ternary main_call16.v1 (.of main_v276 : StableHlo.TRef sig ⟨S100000x256, .f32⟩) main_call16.v4 main_call16.call0.v0 select,
    StableHlo.binary main_v277 main_arg21 main_v278 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    StableHlo.unary main_arg22 main_v279 (broadcastInDim S1x1 ![1] bcast_S1_S1x1_1 : (⟨S1, .f32⟩ : BufTy).Contents (Elt F) → (⟨S1x1, .f32⟩ : BufTy).Contents (Elt F)),
    StableHlo.unary main_v279 main_v280 (broadcastInDim S100000x1 ![0, 1] bcast_S1x1_S100000x1_0_1 : (⟨S1x1, .f32⟩ : BufTy).Contents (Elt F) → (⟨S100000x1, .f32⟩ : BufTy).Contents (Elt F)),
    StableHlo.binary main_v278 main_v280 main_v281 (addf : (⟨S100000x1, .f32⟩ : BufTy).Contents (Elt F) → (⟨S100000x1, .f32⟩ : BufTy).Contents (Elt F) → (⟨S100000x1, .f32⟩ : BufTy).Contents (Elt F)),
    StableHlo.unary main_v281 main_v282 (Host.negf : (⟨S100000x1, .f32⟩ : BufTy).Contents (Elt F) → (⟨S100000x1, .f32⟩ : BufTy).Contents (Elt F)),
    StableHlo.unary main_v282 main_v283 (Host.exp : (⟨S100000x1, .f32⟩ : BufTy).Contents (Elt F) → (⟨S100000x1, .f32⟩ : BufTy).Contents (Elt F)),
    StableHlo.nullary main_cst_48 (constant S_ .f32 0x3F800000#32),
    StableHlo.unary main_cst_48 main_v284 (broadcastInDim S100000x1 ![] bcast_S_S100000x1 : (⟨S_, .f32⟩ : BufTy).Contents (Elt F) → (⟨S100000x1, .f32⟩ : BufTy).Contents (Elt F)),
    StableHlo.binary main_v284 main_v283 main_v285 (addf : (⟨S100000x1, .f32⟩ : BufTy).Contents (Elt F) → (⟨S100000x1, .f32⟩ : BufTy).Contents (Elt F) → (⟨S100000x1, .f32⟩ : BufTy).Contents (Elt F)),
    StableHlo.nullary main_cst_49 (constant S_ .f32 0x3F800000#32),
    StableHlo.unary main_cst_49 main_v286 (broadcastInDim S100000x1 ![] bcast_S_S100000x1 : (⟨S_, .f32⟩ : BufTy).Contents (Elt F) → (⟨S100000x1, .f32⟩ : BufTy).Contents (Elt F)),
    StableHlo.binary main_v286 main_v285 main_v287 (Host.divf : (⟨S100000x1, .f32⟩ : BufTy).Contents (Elt F) → (⟨S100000x1, .f32⟩ : BufTy).Contents (Elt F) → (⟨S100000x1, .f32⟩ : BufTy).Contents (Elt F)) ]

/-- The buffers `rCls` writes, in order. -/
abbrev rCls_W : List (Ref sig .tc) :=
  [main_v256, main_v257, main_v258, main_v259, main_v260, main_v261, main_v262, main_v263, main_v264, main_v265, main_v266, main_v267, main_cst_46, main_call15.cst.ref, main_call15.v0.ref, main_call15.v1.ref, main_call15.v2.ref, main_call15.v3.ref, main_call15.v4.ref, main_call15.call0.v0.ref, main_v269, main_v270, main_v271, main_v272, main_v273, main_v274, main_v275, main_v276, main_cst_47, main_call16.cst.ref, main_call16.v0.ref, main_call16.v1.ref, main_call16.v2.ref, main_call16.v3.ref, main_call16.v4.ref, main_call16.call0.v0.ref, main_v278, main_v279, main_v280, main_v281, main_v282, main_v283, main_cst_48, main_v284, main_v285, main_cst_49, main_v286, main_v287]

set_option maxRecDepth 16384 in
theorem rCls_writes : (rCls : List (HloOp τ sig (Elt F))).Forall fun op => op.writes ⊆ (rCls_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

set_option maxRecDepth 65536 in
/-- The pieces in order are the whole list. -/
theorem ops_split : (Hand.ops : List (HloOp τ sig (Elt F))) = rH0 ++ rD0 ++ rH1 ++ rD1 ++ rH2 ++ rD2 ++ rH3 ++ rD3 ++ rH4 ++ rD4 ++ rTail ++ rCls := rfl

/-- The fold over the whole list is the pieces' folds composed. -/
theorem after_ops_split (V : Valuation τ sig (Elt F)) :
    after Hand.ops V = after rCls (after rTail (after rD4 (after rH4 (after rD3 (after rH3 (after rD2 (after rH2 (after rD1 (after rH1 (after rD0 (after rH0 (V)))))))))))) := by
  rw [ops_split]
  simp only [after_append]

end Cert.Val

end
-- ==== Proof.Val.GlueBase.lean ====
/- The two programs' buffer valuations at the ideal instance, named once for the modules that compare them. -/
import proofs.«145887_j33578054320560_2_alg».proof.Proof.Val.RefSplit
import proofs.«145887_j33578054320560_2_alg».proof.Proof.Gen.KernelIdeal.Launch
import Idealize.ShloMosaic.PureOps.Ideal

noncomputable section

namespace Cert.Val

open Idealize.ShloMosaic Idealize.ShloMosaic.TcCoe Idealize.SL.Sem Idealize.ShloMosaic.StableHlo

/-- A valuation of the kernel program's buffers at the ideal instance. -/
abbrev KVal := Valuation Cert.KernelIdeal.τ Cert.KernelIdeal.sig (Elt Ideal)
/-- A valuation of the reference program's buffers at the ideal instance. -/
abbrev RVal := Valuation Cert.ReferenceIdeal.τ Cert.ReferenceIdeal.sig (Elt Ideal)

end Cert.Val

end
-- ==== Proof.Val.ResultArgs.lean ====
/- The stages of the two programs' folds and what they keep. The kernel program's stages are its valuations between
   host stretches and kernel regions; the reference's are the folds of the pieces of its operation list, in order. A
   stage keeps every buffer its step does not write, so an argument buffer — which no step writes — holds the launch
   contents at every stage. -/
import proofs.«145887_j33578054320560_2_alg».proof.Proof.KI.Run
import proofs.«145887_j33578054320560_2_alg».proof.Proof.Val.GlueBase

noncomputable section

namespace Cert.Val

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The reference's stages -/
abbrev R0 : RVal := fun b => m' (c, b)
abbrev R1 : RVal := after rH0 (R0 m' c)
abbrev R2 : RVal := after rD0 (R1 m' c)
abbrev R3 : RVal := after rH1 (R2 m' c)
abbrev R4 : RVal := after rD1 (R3 m' c)
abbrev R5 : RVal := after rH2 (R4 m' c)
abbrev R6 : RVal := after rD2 (R5 m' c)
abbrev R7 : RVal := after rH3 (R6 m' c)
abbrev R8 : RVal := after rD3 (R7 m' c)
abbrev R9 : RVal := after rH4 (R8 m' c)
abbrev R10 : RVal := after rD4 (R9 m' c)
abbrev R11 : RVal := after rTail (R10 m' c)
abbrev R12 : RVal := after rCls (R11 m' c)

theorem after_ops_R12 : after Cert.ReferenceIdeal.Hand.ops (fun b => m' (c, b)) = R12 m' c := after_ops_split _

/-! ## One step keeps what it does not write -/
section Keep
variable (r : Ref Cert.KernelIdeal.sig .tc) (s : Ref Cert.ReferenceIdeal.sig .tc)

theorem kStep1 (h : r ∉ Cert.KernelIdeal.Gen.hostOps0_W) : (Cert.KernelIdeal.Hand.W1 m c) (Proc.devRef .tc r) = (Cert.KernelIdeal.Gen.V0 m c) (Proc.devRef .tc r) :=
  after_of_writes_sub Cert.KernelIdeal.Gen.hostOps0 _ Cert.KernelIdeal.Gen.hostOps0_writes h
theorem kStep2 (h : r ≠ Cert.KernelIdeal.main_v18) : (Cert.KernelIdeal.Hand.W2 m c) (Proc.devRef .tc r) = (Cert.KernelIdeal.Hand.W1 m c) (Proc.devRef .tc r) := by
  unfold Cert.KernelIdeal.Hand.W2; exact Function.update_of_ne (devRef_ne_of_ne h) _ _
theorem kStep4 (h : r ≠ Cert.KernelIdeal.main_v47) : (Cert.KernelIdeal.Hand.W4 m c) (Proc.devRef .tc r) = (Cert.KernelIdeal.Hand.W3 m c) (Proc.devRef .tc r) := by
  unfold Cert.KernelIdeal.Hand.W4; exact Function.update_of_ne (devRef_ne_of_ne h) _ _
theorem kStep6 (h : r ≠ Cert.KernelIdeal.main_v76) : (Cert.KernelIdeal.Hand.W6 m c) (Proc.devRef .tc r) = (Cert.KernelIdeal.Hand.W5 m c) (Proc.devRef .tc r) := by
  unfold Cert.KernelIdeal.Hand.W6; exact Function.update_of_ne (devRef_ne_of_ne h) _ _
theorem kStep8 (h : r ≠ Cert.KernelIdeal.main_v105) : (Cert.KernelIdeal.Hand.W8 m c) (Proc.devRef .tc r) = (Cert.KernelIdeal.Hand.W7 m c) (Proc.devRef .tc r) := by
  unfold Cert.KernelIdeal.Hand.W8; exact Function.update_of_ne (devRef_ne_of_ne h) _ _
theorem kStep10 (h : r ≠ Cert.KernelIdeal.main_v134) : (Cert.KernelIdeal.Hand.W10 m c) (Proc.devRef .tc r) = (Cert.KernelIdeal.Hand.W9 m c) (Proc.devRef .tc r) := by
  unfold Cert.KernelIdeal.Hand.W10; exact Function.update_of_ne (devRef_ne_of_ne h) _ _
theorem kStep3 (h : r ∉ Cert.KernelIdeal.Gen.hostOps1_W) : (Cert.KernelIdeal.Hand.W3 m c) (Proc.devRef .tc r) = (Cert.KernelIdeal.Hand.W2 m c) (Proc.devRef .tc r) := by
  unfold Cert.KernelIdeal.Hand.W3; exact after_of_writes_sub Cert.KernelIdeal.Gen.hostOps1 _ Cert.KernelIdeal.Gen.hostOps1_writes h
theorem kStep5 (h : r ∉ Cert.KernelIdeal.Gen.hostOps2_W) : (Cert.KernelIdeal.Hand.W5 m c) (Proc.devRef .tc r) = (Cert.KernelIdeal.Hand.W4 m c) (Proc.devRef .tc r) := by
  unfold Cert.KernelIdeal.Hand.W5; exact after_of_writes_sub Cert.KernelIdeal.Gen.hostOps2 _ Cert.KernelIdeal.Gen.hostOps2_writes h
theorem kStep7 (h : r ∉ Cert.KernelIdeal.Gen.hostOps3_W) : (Cert.KernelIdeal.Hand.W7 m c) (Proc.devRef .tc r) = (Cert.KernelIdeal.Hand.W6 m c) (Proc.devRef .tc r) := by
  unfold Cert.KernelIdeal.Hand.W7; exact after_of_writes_sub Cert.KernelIdeal.Gen.hostOps3 _ Cert.KernelIdeal.Gen.hostOps3_writes h
theorem kStep9 (h : r ∉ Cert.KernelIdeal.Gen.hostOps4_W) : (Cert.KernelIdeal.Hand.W9 m c) (Proc.devRef .tc r) = (Cert.KernelIdeal.Hand.W8 m c) (Proc.devRef .tc r) := by
  unfold Cert.KernelIdeal.Hand.W9; exact after_of_writes_sub Cert.KernelIdeal.Gen.hostOps4 _ Cert.KernelIdeal.Gen.hostOps4_writes h
theorem kStep21 (h0 : r ∉ Cert.KernelIdeal.Gen.hostOps5_W) (h1 : r ∉ Cert.KernelIdeal.Gen.hostOps5_1_W) (h2 : r ∉ Cert.KernelIdeal.Gen.hostOps5_2_W) (h3 : r ∉ Cert.KernelIdeal.Gen.hostOps5_3_W) (h4 : r ∉ Cert.KernelIdeal.Gen.hostOps5_4_W) (h5 : r ∉ Cert.KernelIdeal.Gen.hostOps5_5_W) (h6 : r ∉ Cert.KernelIdeal.Gen.hostOps5_6_W) (h7 : r ∉ Cert.KernelIdeal.Gen.hostOps5_7_W) (h8 : r ∉ Cert.KernelIdeal.Gen.hostOps5_8_W) (h9 : r ∉ Cert.KernelIdeal.Gen.hostOps5_9_W) (h10 : r ∉ Cert.KernelIdeal.Gen.hostOps5_10_W) :
    (Cert.KernelIdeal.Hand.W21 m c) (Proc.devRef .tc r) = (Cert.KernelIdeal.Hand.W10 m c) (Proc.devRef .tc r) := by
  unfold Cert.KernelIdeal.Hand.W21
  rw [after_of_writes_sub Cert.KernelIdeal.Gen.hostOps5_10 _ Cert.KernelIdeal.Gen.hostOps5_10_writes h10,
    after_of_writes_sub Cert.KernelIdeal.Gen.hostOps5_9 _ Cert.KernelIdeal.Gen.hostOps5_9_writes h9,
    after_of_writes_sub Cert.KernelIdeal.Gen.hostOps5_8 _ Cert.KernelIdeal.Gen.hostOps5_8_writes h8,
    after_of_writes_sub Cert.KernelIdeal.Gen.hostOps5_7 _ Cert.KernelIdeal.Gen.hostOps5_7_writes h7,
    after_of_writes_sub Cert.KernelIdeal.Gen.hostOps5_6 _ Cert.KernelIdeal.Gen.hostOps5_6_writes h6,
    after_of_writes_sub Cert.KernelIdeal.Gen.hostOps5_5 _ Cert.KernelIdeal.Gen.hostOps5_5_writes h5,
    after_of_writes_sub Cert.KernelIdeal.Gen.hostOps5_4 _ Cert.KernelIdeal.Gen.hostOps5_4_writes h4,
    after_of_writes_sub Cert.KernelIdeal.Gen.hostOps5_3 _ Cert.KernelIdeal.Gen.hostOps5_3_writes h3,
    after_of_writes_sub Cert.KernelIdeal.Gen.hostOps5_2 _ Cert.KernelIdeal.Gen.hostOps5_2_writes h2,
    after_of_writes_sub Cert.KernelIdeal.Gen.hostOps5_1 _ Cert.KernelIdeal.Gen.hostOps5_1_writes h1,
    after_of_writes_sub Cert.KernelIdeal.Gen.hostOps5 _ Cert.KernelIdeal.Gen.hostOps5_writes h0]
theorem rStep1 (h : s ∉ rH0_W) : (R1 m' c) (Proc.devRef .tc s) = (R0 m' c) (Proc.devRef .tc s) :=
  after_of_writes_sub rH0 _ rH0_writes h
theorem rStep2 (h : s ∉ rD0_W) : (R2 m' c) (Proc.devRef .tc s) = (R1 m' c) (Proc.devRef .tc s) :=
  after_of_writes_sub rD0 _ rD0_writes h
theorem rStep3 (h : s ∉ rH1_W) : (R3 m' c) (Proc.devRef .tc s) = (R2 m' c) (Proc.devRef .tc s) :=
  after_of_writes_sub rH1 _ rH1_writes h
theorem rStep4 (h : s ∉ rD1_W) : (R4 m' c) (Proc.devRef .tc s) = (R3 m' c) (Proc.devRef .tc s) :=
  after_of_writes_sub rD1 _ rD1_writes h
theorem rStep5 (h : s ∉ rH2_W) : (R5 m' c) (Proc.devRef .tc s) = (R4 m' c) (Proc.devRef .tc s) :=
  after_of_writes_sub rH2 _ rH2_writes h
theorem rStep6 (h : s ∉ rD2_W) : (R6 m' c) (Proc.devRef .tc s) = (R5 m' c) (Proc.devRef .tc s) :=
  after_of_writes_sub rD2 _ rD2_writes h
theorem rStep7 (h : s ∉ rH3_W) : (R7 m' c) (Proc.devRef .tc s) = (R6 m' c) (Proc.devRef .tc s) :=
  after_of_writes_sub rH3 _ rH3_writes h
theorem rStep8 (h : s ∉ rD3_W) : (R8 m' c) (Proc.devRef .tc s) = (R7 m' c) (Proc.devRef .tc s) :=
  after_of_writes_sub rD3 _ rD3_writes h
theorem rStep9 (h : s ∉ rH4_W) : (R9 m' c) (Proc.devRef .tc s) = (R8 m' c) (Proc.devRef .tc s) :=
  after_of_writes_sub rH4 _ rH4_writes h
theorem rStep10 (h : s ∉ rD4_W) : (R10 m' c) (Proc.devRef .tc s) = (R9 m' c) (Proc.devRef .tc s) :=
  after_of_writes_sub rD4 _ rD4_writes h
theorem rStep11 (h : s ∉ rTail_W) : (R11 m' c) (Proc.devRef .tc s) = (R10 m' c) (Proc.devRef .tc s) :=
  after_of_writes_sub rTail _ rTail_writes h
theorem rStep12 (h : s ∉ rCls_W) : (R12 m' c) (Proc.devRef .tc s) = (R11 m' c) (Proc.devRef .tc s) :=
  after_of_writes_sub rCls _ rCls_writes h
end Keep

/-! ## The arguments are never written: at every stage they are the launch contents -/
section Args
theorem kA1_2 : (Cert.KernelIdeal.Hand.W1 m c) (Proc.devRef .tc Cert.KernelIdeal.main_arg2) = m (c, Proc.devRef .tc Cert.KernelIdeal.main_arg2) :=
  kStep1 m c _ (by decide)
theorem kA2_2 : (Cert.KernelIdeal.Hand.W2 m c) (Proc.devRef .tc Cert.KernelIdeal.main_arg2) = m (c, Proc.devRef .tc Cert.KernelIdeal.main_arg2) :=
  (kStep2 m c _ (by decide)).trans (kA1_2 m c)
theorem kA3_2 : (Cert.KernelIdeal.Hand.W3 m c) (Proc.devRef .tc Cert.KernelIdeal.main_arg2) = m (c, Proc.devRef .tc Cert.KernelIdeal.main_arg2) :=
  (kStep3 m c _ (by decide)).trans (kA2_2 m c)
theorem kA4_2 : (Cert.KernelIdeal.Hand.W4 m c) (Proc.devRef .tc Cert.KernelIdeal.main_arg2) = m (c, Proc.devRef .tc Cert.KernelIdeal.main_arg2) :=
  (kStep4 m c _ (by decide)).trans (kA3_2 m c)
theorem kA5_2 : (Cert.KernelIdeal.Hand.W5 m c) (Proc.devRef .tc Cert.KernelIdeal.main_arg2) = m (c, Proc.devRef .tc Cert.KernelIdeal.main_arg2) :=
  (kStep5 m c _ (by decide)).trans (kA4_2 m c)
theorem kA6_2 : (Cert.KernelIdeal.Hand.W6 m c) (Proc.devRef .tc Cert.KernelIdeal.main_arg2) = m (c, Proc.devRef .tc Cert.KernelIdeal.main_arg2) :=
  (kStep6 m c _ (by decide)).trans (kA5_2 m c)
theorem kA7_2 : (Cert.KernelIdeal.Hand.W7 m c) (Proc.devRef .tc Cert.KernelIdeal.main_arg2) = m (c, Proc.devRef .tc Cert.KernelIdeal.main_arg2) :=
  (kStep7 m c _ (by decide)).trans (kA6_2 m c)
theorem kA8_2 : (Cert.KernelIdeal.Hand.W8 m c) (Proc.devRef .tc Cert.KernelIdeal.main_arg2) = m (c, Proc.devRef .tc Cert.KernelIdeal.main_arg2) :=
  (kStep8 m c _ (by decide)).trans (kA7_2 m c)
theorem kA9_2 : (Cert.KernelIdeal.Hand.W9 m c) (Proc.devRef .tc Cert.KernelIdeal.main_arg2) = m (c, Proc.devRef .tc Cert.KernelIdeal.main_arg2) :=
  (kStep9 m c _ (by decide)).trans (kA8_2 m c)
theorem kA10_2 : (Cert.KernelIdeal.Hand.W10 m c) (Proc.devRef .tc Cert.KernelIdeal.main_arg2) = m (c, Proc.devRef .tc Cert.KernelIdeal.main_arg2) :=
  (kStep10 m c _ (by decide)).trans (kA9_2 m c)
theorem rA1_2 : (R1 m' c) (Proc.devRef .tc Cert.ReferenceIdeal.main_arg2) = m' (c, Proc.devRef .tc Cert.ReferenceIdeal.main_arg2) :=
  rStep1 m' c _ (by decide)
theorem rA2_2 : (R2 m' c) (Proc.devRef .tc Cert.ReferenceIdeal.main_arg2) = m' (c, Proc.devRef .tc Cert.ReferenceIdeal.main_arg2) :=
  (rStep2 m' c _ (by decide)).trans (rA1_2 m' c)
theorem rA3_2 : (R3 m' c) (Proc.devRef .tc Cert.ReferenceIdeal.main_arg2) = m' (c, Proc.devRef .tc Cert.ReferenceIdeal.main_arg2) :=
  (rStep3 m' c _ (by decide)).trans (rA2_2 m' c)
theorem rA4_2 : (R4 m' c) (Proc.devRef .tc Cert.ReferenceIdeal.main_arg2) = m' (c, Proc.devRef .tc Cert.ReferenceIdeal.main_arg2) :=
  (rStep4 m' c _ (by decide)).trans (rA3_2 m' c)
theorem rA5_2 : (R5 m' c) (Proc.devRef .tc Cert.ReferenceIdeal.main_arg2) = m' (c, Proc.devRef .tc Cert.ReferenceIdeal.main_arg2) :=
  (rStep5 m' c _ (by decide)).trans (rA4_2 m' c)
theorem rA6_2 : (R6 m' c) (Proc.devRef .tc Cert.ReferenceIdeal.main_arg2) = m' (c, Proc.devRef .tc Cert.ReferenceIdeal.main_arg2) :=
  (rStep6 m' c _ (by decide)).trans (rA5_2 m' c)
theorem rA7_2 : (R7 m' c) (Proc.devRef .tc Cert.ReferenceIdeal.main_arg2) = m' (c, Proc.devRef .tc Cert.ReferenceIdeal.main_arg2) :=
  (rStep7 m' c _ (by decide)).trans (rA6_2 m' c)
theorem rA8_2 : (R8 m' c) (Proc.devRef .tc Cert.ReferenceIdeal.main_arg2) = m' (c, Proc.devRef .tc Cert.ReferenceIdeal.main_arg2) :=
  (rStep8 m' c _ (by decide)).trans (rA7_2 m' c)
theorem rA9_2 : (R9 m' c) (Proc.devRef .tc Cert.ReferenceIdeal.main_arg2) = m' (c, Proc.devRef .tc Cert.ReferenceIdeal.main_arg2) :=
  (rStep9 m' c _ (by decide)).trans (rA8_2 m' c)
theorem rA10_2 : (R10 m' c) (Proc.devRef .tc Cert.ReferenceIdeal.main_arg2) = m' (c, Proc.devRef .tc Cert.ReferenceIdeal.main_arg2) :=
  (rStep10 m' c _ (by decide)).trans (rA9_2 m' c)
theorem kA1_3 : (Cert.KernelIdeal.Hand.W1 m c) (Proc.devRef .tc Cert.KernelIdeal.main_arg3) = m (c, Proc.devRef .tc Cert.KernelIdeal.main_arg3) :=
  kStep1 m c _ (by decide)
theorem rA1_3 : (R1 m' c) (Proc.devRef .tc Cert.ReferenceIdeal.main_arg3) = m' (c, Proc.devRef .tc Cert.ReferenceIdeal.main_arg3) :=
  rStep1 m' c _ (by decide)
theorem kA1_4 : (Cert.KernelIdeal.Hand.W1 m c) (Proc.devRef .tc Cert.KernelIdeal.main_arg4) = m (c, Proc.devRef .tc Cert.KernelIdeal.main_arg4) :=
  kStep1 m c _ (by decide)
theorem rA1_4 : (R1 m' c) (Proc.devRef .tc Cert.ReferenceIdeal.main_arg4) = m' (c, Proc.devRef .tc Cert.ReferenceIdeal.main_arg4) :=
  rStep1 m' c _ (by decide)
theorem kA1_5 : (Cert.KernelIdeal.Hand.W1 m c) (Proc.devRef .tc Cert.KernelIdeal.main_arg5) = m (c, Proc.devRef .tc Cert.KernelIdeal.main_arg5) :=
  kStep1 m c _ (by decide)
theorem rA1_5 : (R1 m' c) (Proc.devRef .tc Cert.ReferenceIdeal.main_arg5) = m' (c, Proc.devRef .tc Cert.ReferenceIdeal.main_arg5) :=
  rStep1 m' c _ (by decide)
theorem kA1_6 : (Cert.KernelIdeal.Hand.W1 m c) (Proc.devRef .tc Cert.KernelIdeal.main_arg6) = m (c, Proc.devRef .tc Cert.KernelIdeal.main_arg6) :=
  kStep1 m c _ (by decide)
theorem rA1_6 : (R1 m' c) (Proc.devRef .tc Cert.ReferenceIdeal.main_arg6) = m' (c, Proc.devRef .tc Cert.ReferenceIdeal.main_arg6) :=
  rStep1 m' c _ (by decide)
theorem kA1_7 : (Cert.KernelIdeal.Hand.W1 m c) (Proc.devRef .tc Cert.KernelIdeal.main_arg7) = m (c, Proc.devRef .tc Cert.KernelIdeal.main_arg7) :=
  kStep1 m c _ (by decide)
theorem rA1_7 : (R1 m' c) (Proc.devRef .tc Cert.ReferenceIdeal.main_arg7) = m' (c, Proc.devRef .tc Cert.ReferenceIdeal.main_arg7) :=
  rStep1 m' c _ (by decide)
theorem kA1_8 : (Cert.KernelIdeal.Hand.W1 m c) (Proc.devRef .tc Cert.KernelIdeal.main_arg8) = m (c, Proc.devRef .tc Cert.KernelIdeal.main_arg8) :=
  kStep1 m c _ (by decide)
theorem rA1_8 : (R1 m' c) (Proc.devRef .tc Cert.ReferenceIdeal.main_arg8) = m' (c, Proc.devRef .tc Cert.ReferenceIdeal.main_arg8) :=
  rStep1 m' c _ (by decide)
theorem kA1_10 : (Cert.KernelIdeal.Hand.W1 m c) (Proc.devRef .tc Cert.KernelIdeal.main_arg10) = m (c, Proc.devRef .tc Cert.KernelIdeal.main_arg10) :=
  kStep1 m c _ (by decide)
theorem kA2_10 : (Cert.KernelIdeal.Hand.W2 m c) (Proc.devRef .tc Cert.KernelIdeal.main_arg10) = m (c, Proc.devRef .tc Cert.KernelIdeal.main_arg10) :=
  (kStep2 m c _ (by decide)).trans (kA1_10 m c)
theorem kA3_10 : (Cert.KernelIdeal.Hand.W3 m c) (Proc.devRef .tc Cert.KernelIdeal.main_arg10) = m (c, Proc.devRef .tc Cert.KernelIdeal.main_arg10) :=
  (kStep3 m c _ (by decide)).trans (kA2_10 m c)
theorem kA4_10 : (Cert.KernelIdeal.Hand.W4 m c) (Proc.devRef .tc Cert.KernelIdeal.main_arg10) = m (c, Proc.devRef .tc Cert.KernelIdeal.main_arg10) :=
  (kStep4 m c _ (by decide)).trans (kA3_10 m c)
theorem kA5_10 : (Cert.KernelIdeal.Hand.W5 m c) (Proc.devRef .tc Cert.KernelIdeal.main_arg10) = m (c, Proc.devRef .tc Cert.KernelIdeal.main_arg10) :=
  (kStep5 m c _ (by decide)).trans (kA4_10 m c)
theorem kA6_10 : (Cert.KernelIdeal.Hand.W6 m c) (Proc.devRef .tc Cert.KernelIdeal.main_arg10) = m (c, Proc.devRef .tc Cert.KernelIdeal.main_arg10) :=
  (kStep6 m c _ (by decide)).trans (kA5_10 m c)
theorem kA7_10 : (Cert.KernelIdeal.Hand.W7 m c) (Proc.devRef .tc Cert.KernelIdeal.main_arg10) = m (c, Proc.devRef .tc Cert.KernelIdeal.main_arg10) :=
  (kStep7 m c _ (by decide)).trans (kA6_10 m c)
theorem kA8_10 : (Cert.KernelIdeal.Hand.W8 m c) (Proc.devRef .tc Cert.KernelIdeal.main_arg10) = m (c, Proc.devRef .tc Cert.KernelIdeal.main_arg10) :=
  (kStep8 m c _ (by decide)).trans (kA7_10 m c)
theorem rA1_10 : (R1 m' c) (Proc.devRef .tc Cert.ReferenceIdeal.main_arg10) = m' (c, Proc.devRef .tc Cert.ReferenceIdeal.main_arg10) :=
  rStep1 m' c _ (by decide)
theorem rA2_10 : (R2 m' c) (Proc.devRef .tc Cert.ReferenceIdeal.main_arg10) = m' (c, Proc.devRef .tc Cert.ReferenceIdeal.main_arg10) :=
  (rStep2 m' c _ (by decide)).trans (rA1_10 m' c)
theorem rA3_10 : (R3 m' c) (Proc.devRef .tc Cert.ReferenceIdeal.main_arg10) = m' (c, Proc.devRef .tc Cert.ReferenceIdeal.main_arg10) :=
  (rStep3 m' c _ (by decide)).trans (rA2_10 m' c)
theorem rA4_10 : (R4 m' c) (Proc.devRef .tc Cert.ReferenceIdeal.main_arg10) = m' (c, Proc.devRef .tc Cert.ReferenceIdeal.main_arg10) :=
  (rStep4 m' c _ (by decide)).trans (rA3_10 m' c)
theorem rA5_10 : (R5 m' c) (Proc.devRef .tc Cert.ReferenceIdeal.main_arg10) = m' (c, Proc.devRef .tc Cert.ReferenceIdeal.main_arg10) :=
  (rStep5 m' c _ (by decide)).trans (rA4_10 m' c)
theorem rA6_10 : (R6 m' c) (Proc.devRef .tc Cert.ReferenceIdeal.main_arg10) = m' (c, Proc.devRef .tc Cert.ReferenceIdeal.main_arg10) :=
  (rStep6 m' c _ (by decide)).trans (rA5_10 m' c)
theorem rA7_10 : (R7 m' c) (Proc.devRef .tc Cert.ReferenceIdeal.main_arg10) = m' (c, Proc.devRef .tc Cert.ReferenceIdeal.main_arg10) :=
  (rStep7 m' c _ (by decide)).trans (rA6_10 m' c)
theorem rA8_10 : (R8 m' c) (Proc.devRef .tc Cert.ReferenceIdeal.main_arg10) = m' (c, Proc.devRef .tc Cert.ReferenceIdeal.main_arg10) :=
  (rStep8 m' c _ (by decide)).trans (rA7_10 m' c)
theorem kA1_11 : (Cert.KernelIdeal.Hand.W1 m c) (Proc.devRef .tc Cert.KernelIdeal.main_arg11) = m (c, Proc.devRef .tc Cert.KernelIdeal.main_arg11) :=
  kStep1 m c _ (by decide)
theorem kA2_11 : (Cert.KernelIdeal.Hand.W2 m c) (Proc.devRef .tc Cert.KernelIdeal.main_arg11) = m (c, Proc.devRef .tc Cert.KernelIdeal.main_arg11) :=
  (kStep2 m c _ (by decide)).trans (kA1_11 m c)
theorem kA3_11 : (Cert.KernelIdeal.Hand.W3 m c) (Proc.devRef .tc Cert.KernelIdeal.main_arg11) = m (c, Proc.devRef .tc Cert.KernelIdeal.main_arg11) :=
  (kStep3 m c _ (by decide)).trans (kA2_11 m c)
theorem kA4_11 : (Cert.KernelIdeal.Hand.W4 m c) (Proc.devRef .tc Cert.KernelIdeal.main_arg11) = m (c, Proc.devRef .tc Cert.KernelIdeal.main_arg11) :=
  (kStep4 m c _ (by decide)).trans (kA3_11 m c)
theorem kA5_11 : (Cert.KernelIdeal.Hand.W5 m c) (Proc.devRef .tc Cert.KernelIdeal.main_arg11) = m (c, Proc.devRef .tc Cert.KernelIdeal.main_arg11) :=
  (kStep5 m c _ (by decide)).trans (kA4_11 m c)
theorem kA6_11 : (Cert.KernelIdeal.Hand.W6 m c) (Proc.devRef .tc Cert.KernelIdeal.main_arg11) = m (c, Proc.devRef .tc Cert.KernelIdeal.main_arg11) :=
  (kStep6 m c _ (by decide)).trans (kA5_11 m c)
theorem kA7_11 : (Cert.KernelIdeal.Hand.W7 m c) (Proc.devRef .tc Cert.KernelIdeal.main_arg11) = m (c, Proc.devRef .tc Cert.KernelIdeal.main_arg11) :=
  (kStep7 m c _ (by decide)).trans (kA6_11 m c)
theorem kA8_11 : (Cert.KernelIdeal.Hand.W8 m c) (Proc.devRef .tc Cert.KernelIdeal.main_arg11) = m (c, Proc.devRef .tc Cert.KernelIdeal.main_arg11) :=
  (kStep8 m c _ (by decide)).trans (kA7_11 m c)
theorem rA1_11 : (R1 m' c) (Proc.devRef .tc Cert.ReferenceIdeal.main_arg11) = m' (c, Proc.devRef .tc Cert.ReferenceIdeal.main_arg11) :=
  rStep1 m' c _ (by decide)
theorem rA2_11 : (R2 m' c) (Proc.devRef .tc Cert.ReferenceIdeal.main_arg11) = m' (c, Proc.devRef .tc Cert.ReferenceIdeal.main_arg11) :=
  (rStep2 m' c _ (by decide)).trans (rA1_11 m' c)
theorem rA3_11 : (R3 m' c) (Proc.devRef .tc Cert.ReferenceIdeal.main_arg11) = m' (c, Proc.devRef .tc Cert.ReferenceIdeal.main_arg11) :=
  (rStep3 m' c _ (by decide)).trans (rA2_11 m' c)
theorem rA4_11 : (R4 m' c) (Proc.devRef .tc Cert.ReferenceIdeal.main_arg11) = m' (c, Proc.devRef .tc Cert.ReferenceIdeal.main_arg11) :=
  (rStep4 m' c _ (by decide)).trans (rA3_11 m' c)
theorem rA5_11 : (R5 m' c) (Proc.devRef .tc Cert.ReferenceIdeal.main_arg11) = m' (c, Proc.devRef .tc Cert.ReferenceIdeal.main_arg11) :=
  (rStep5 m' c _ (by decide)).trans (rA4_11 m' c)
theorem rA6_11 : (R6 m' c) (Proc.devRef .tc Cert.ReferenceIdeal.main_arg11) = m' (c, Proc.devRef .tc Cert.ReferenceIdeal.main_arg11) :=
  (rStep6 m' c _ (by decide)).trans (rA5_11 m' c)
theorem rA7_11 : (R7 m' c) (Proc.devRef .tc Cert.ReferenceIdeal.main_arg11) = m' (c, Proc.devRef .tc Cert.ReferenceIdeal.main_arg11) :=
  (rStep7 m' c _ (by decide)).trans (rA6_11 m' c)
theorem rA8_11 : (R8 m' c) (Proc.devRef .tc Cert.ReferenceIdeal.main_arg11) = m' (c, Proc.devRef .tc Cert.ReferenceIdeal.main_arg11) :=
  (rStep8 m' c _ (by decide)).trans (rA7_11 m' c)
theorem kA1_12 : (Cert.KernelIdeal.Hand.W1 m c) (Proc.devRef .tc Cert.KernelIdeal.main_arg12) = m (c, Proc.devRef .tc Cert.KernelIdeal.main_arg12) :=
  kStep1 m c _ (by decide)
theorem kA2_12 : (Cert.KernelIdeal.Hand.W2 m c) (Proc.devRef .tc Cert.KernelIdeal.main_arg12) = m (c, Proc.devRef .tc Cert.KernelIdeal.main_arg12) :=
  (kStep2 m c _ (by decide)).trans (kA1_12 m c)
theorem kA3_12 : (Cert.KernelIdeal.Hand.W3 m c) (Proc.devRef .tc Cert.KernelIdeal.main_arg12) = m (c, Proc.devRef .tc Cert.KernelIdeal.main_arg12) :=
  (kStep3 m c _ (by decide)).trans (kA2_12 m c)
theorem kA4_12 : (Cert.KernelIdeal.Hand.W4 m c) (Proc.devRef .tc Cert.KernelIdeal.main_arg12) = m (c, Proc.devRef .tc Cert.KernelIdeal.main_arg12) :=
  (kStep4 m c _ (by decide)).trans (kA3_12 m c)
theorem kA5_12 : (Cert.KernelIdeal.Hand.W5 m c) (Proc.devRef .tc Cert.KernelIdeal.main_arg12) = m (c, Proc.devRef .tc Cert.KernelIdeal.main_arg12) :=
  (kStep5 m c _ (by decide)).trans (kA4_12 m c)
theorem kA6_12 : (Cert.KernelIdeal.Hand.W6 m c) (Proc.devRef .tc Cert.KernelIdeal.main_arg12) = m (c, Proc.devRef .tc Cert.KernelIdeal.main_arg12) :=
  (kStep6 m c _ (by decide)).trans (kA5_12 m c)
theorem kA7_12 : (Cert.KernelIdeal.Hand.W7 m c) (Proc.devRef .tc Cert.KernelIdeal.main_arg12) = m (c, Proc.devRef .tc Cert.KernelIdeal.main_arg12) :=
  (kStep7 m c _ (by decide)).trans (kA6_12 m c)
theorem kA8_12 : (Cert.KernelIdeal.Hand.W8 m c) (Proc.devRef .tc Cert.KernelIdeal.main_arg12) = m (c, Proc.devRef .tc Cert.KernelIdeal.main_arg12) :=
  (kStep8 m c _ (by decide)).trans (kA7_12 m c)
theorem rA1_12 : (R1 m' c) (Proc.devRef .tc Cert.ReferenceIdeal.main_arg12) = m' (c, Proc.devRef .tc Cert.ReferenceIdeal.main_arg12) :=
  rStep1 m' c _ (by decide)
theorem rA2_12 : (R2 m' c) (Proc.devRef .tc Cert.ReferenceIdeal.main_arg12) = m' (c, Proc.devRef .tc Cert.ReferenceIdeal.main_arg12) :=
  (rStep2 m' c _ (by decide)).trans (rA1_12 m' c)
theorem rA3_12 : (R3 m' c) (Proc.devRef .tc Cert.ReferenceIdeal.main_arg12) = m' (c, Proc.devRef .tc Cert.ReferenceIdeal.main_arg12) :=
  (rStep3 m' c _ (by decide)).trans (rA2_12 m' c)
theorem rA4_12 : (R4 m' c) (Proc.devRef .tc Cert.ReferenceIdeal.main_arg12) = m' (c, Proc.devRef .tc Cert.ReferenceIdeal.main_arg12) :=
  (rStep4 m' c _ (by decide)).trans (rA3_12 m' c)
theorem rA5_12 : (R5 m' c) (Proc.devRef .tc Cert.ReferenceIdeal.main_arg12) = m' (c, Proc.devRef .tc Cert.ReferenceIdeal.main_arg12) :=
  (rStep5 m' c _ (by decide)).trans (rA4_12 m' c)
theorem rA6_12 : (R6 m' c) (Proc.devRef .tc Cert.ReferenceIdeal.main_arg12) = m' (c, Proc.devRef .tc Cert.ReferenceIdeal.main_arg12) :=
  (rStep6 m' c _ (by decide)).trans (rA5_12 m' c)
theorem rA7_12 : (R7 m' c) (Proc.devRef .tc Cert.ReferenceIdeal.main_arg12) = m' (c, Proc.devRef .tc Cert.ReferenceIdeal.main_arg12) :=
  (rStep7 m' c _ (by decide)).trans (rA6_12 m' c)
theorem rA8_12 : (R8 m' c) (Proc.devRef .tc Cert.ReferenceIdeal.main_arg12) = m' (c, Proc.devRef .tc Cert.ReferenceIdeal.main_arg12) :=
  (rStep8 m' c _ (by decide)).trans (rA7_12 m' c)
theorem kA1_13 : (Cert.KernelIdeal.Hand.W1 m c) (Proc.devRef .tc Cert.KernelIdeal.main_arg13) = m (c, Proc.devRef .tc Cert.KernelIdeal.main_arg13) :=
  kStep1 m c _ (by decide)
theorem kA2_13 : (Cert.KernelIdeal.Hand.W2 m c) (Proc.devRef .tc Cert.KernelIdeal.main_arg13) = m (c, Proc.devRef .tc Cert.KernelIdeal.main_arg13) :=
  (kStep2 m c _ (by decide)).trans (kA1_13 m c)
theorem kA3_13 : (Cert.KernelIdeal.Hand.W3 m c) (Proc.devRef .tc Cert.KernelIdeal.main_arg13) = m (c, Proc.devRef .tc Cert.KernelIdeal.main_arg13) :=
  (kStep3 m c _ (by decide)).trans (kA2_13 m c)
theorem kA4_13 : (Cert.KernelIdeal.Hand.W4 m c) (Proc.devRef .tc Cert.KernelIdeal.main_arg13) = m (c, Proc.devRef .tc Cert.KernelIdeal.main_arg13) :=
  (kStep4 m c _ (by decide)).trans (kA3_13 m c)
theorem kA5_13 : (Cert.KernelIdeal.Hand.W5 m c) (Proc.devRef .tc Cert.KernelIdeal.main_arg13) = m (c, Proc.devRef .tc Cert.KernelIdeal.main_arg13) :=
  (kStep5 m c _ (by decide)).trans (kA4_13 m c)
theorem kA6_13 : (Cert.KernelIdeal.Hand.W6 m c) (Proc.devRef .tc Cert.KernelIdeal.main_arg13) = m (c, Proc.devRef .tc Cert.KernelIdeal.main_arg13) :=
  (kStep6 m c _ (by decide)).trans (kA5_13 m c)
theorem kA7_13 : (Cert.KernelIdeal.Hand.W7 m c) (Proc.devRef .tc Cert.KernelIdeal.main_arg13) = m (c, Proc.devRef .tc Cert.KernelIdeal.main_arg13) :=
  (kStep7 m c _ (by decide)).trans (kA6_13 m c)
theorem kA8_13 : (Cert.KernelIdeal.Hand.W8 m c) (Proc.devRef .tc Cert.KernelIdeal.main_arg13) = m (c, Proc.devRef .tc Cert.KernelIdeal.main_arg13) :=
  (kStep8 m c _ (by decide)).trans (kA7_13 m c)
theorem rA1_13 : (R1 m' c) (Proc.devRef .tc Cert.ReferenceIdeal.main_arg13) = m' (c, Proc.devRef .tc Cert.ReferenceIdeal.main_arg13) :=
  rStep1 m' c _ (by decide)
theorem rA2_13 : (R2 m' c) (Proc.devRef .tc Cert.ReferenceIdeal.main_arg13) = m' (c, Proc.devRef .tc Cert.ReferenceIdeal.main_arg13) :=
  (rStep2 m' c _ (by decide)).trans (rA1_13 m' c)
theorem rA3_13 : (R3 m' c) (Proc.devRef .tc Cert.ReferenceIdeal.main_arg13) = m' (c, Proc.devRef .tc Cert.ReferenceIdeal.main_arg13) :=
  (rStep3 m' c _ (by decide)).trans (rA2_13 m' c)
theorem rA4_13 : (R4 m' c) (Proc.devRef .tc Cert.ReferenceIdeal.main_arg13) = m' (c, Proc.devRef .tc Cert.ReferenceIdeal.main_arg13) :=
  (rStep4 m' c _ (by decide)).trans (rA3_13 m' c)
theorem rA5_13 : (R5 m' c) (Proc.devRef .tc Cert.ReferenceIdeal.main_arg13) = m' (c, Proc.devRef .tc Cert.ReferenceIdeal.main_arg13) :=
  (rStep5 m' c _ (by decide)).trans (rA4_13 m' c)
theorem rA6_13 : (R6 m' c) (Proc.devRef .tc Cert.ReferenceIdeal.main_arg13) = m' (c, Proc.devRef .tc Cert.ReferenceIdeal.main_arg13) :=
  (rStep6 m' c _ (by decide)).trans (rA5_13 m' c)
theorem rA7_13 : (R7 m' c) (Proc.devRef .tc Cert.ReferenceIdeal.main_arg13) = m' (c, Proc.devRef .tc Cert.ReferenceIdeal.main_arg13) :=
  (rStep7 m' c _ (by decide)).trans (rA6_13 m' c)
theorem rA8_13 : (R8 m' c) (Proc.devRef .tc Cert.ReferenceIdeal.main_arg13) = m' (c, Proc.devRef .tc Cert.ReferenceIdeal.main_arg13) :=
  (rStep8 m' c _ (by decide)).trans (rA7_13 m' c)
theorem kA1_14 : (Cert.KernelIdeal.Hand.W1 m c) (Proc.devRef .tc Cert.KernelIdeal.main_arg14) = m (c, Proc.devRef .tc Cert.KernelIdeal.main_arg14) :=
  kStep1 m c _ (by decide)
theorem kA2_14 : (Cert.KernelIdeal.Hand.W2 m c) (Proc.devRef .tc Cert.KernelIdeal.main_arg14) = m (c, Proc.devRef .tc Cert.KernelIdeal.main_arg14) :=
  (kStep2 m c _ (by decide)).trans (kA1_14 m c)
theorem kA3_14 : (Cert.KernelIdeal.Hand.W3 m c) (Proc.devRef .tc Cert.KernelIdeal.main_arg14) = m (c, Proc.devRef .tc Cert.KernelIdeal.main_arg14) :=
  (kStep3 m c _ (by decide)).trans (kA2_14 m c)
theorem kA4_14 : (Cert.KernelIdeal.Hand.W4 m c) (Proc.devRef .tc Cert.KernelIdeal.main_arg14) = m (c, Proc.devRef .tc Cert.KernelIdeal.main_arg14) :=
  (kStep4 m c _ (by decide)).trans (kA3_14 m c)
theorem kA5_14 : (Cert.KernelIdeal.Hand.W5 m c) (Proc.devRef .tc Cert.KernelIdeal.main_arg14) = m (c, Proc.devRef .tc Cert.KernelIdeal.main_arg14) :=
  (kStep5 m c _ (by decide)).trans (kA4_14 m c)
theorem kA6_14 : (Cert.KernelIdeal.Hand.W6 m c) (Proc.devRef .tc Cert.KernelIdeal.main_arg14) = m (c, Proc.devRef .tc Cert.KernelIdeal.main_arg14) :=
  (kStep6 m c _ (by decide)).trans (kA5_14 m c)
theorem kA7_14 : (Cert.KernelIdeal.Hand.W7 m c) (Proc.devRef .tc Cert.KernelIdeal.main_arg14) = m (c, Proc.devRef .tc Cert.KernelIdeal.main_arg14) :=
  (kStep7 m c _ (by decide)).trans (kA6_14 m c)
theorem kA8_14 : (Cert.KernelIdeal.Hand.W8 m c) (Proc.devRef .tc Cert.KernelIdeal.main_arg14) = m (c, Proc.devRef .tc Cert.KernelIdeal.main_arg14) :=
  (kStep8 m c _ (by decide)).trans (kA7_14 m c)
theorem rA1_14 : (R1 m' c) (Proc.devRef .tc Cert.ReferenceIdeal.main_arg14) = m' (c, Proc.devRef .tc Cert.ReferenceIdeal.main_arg14) :=
  rStep1 m' c _ (by decide)
theorem rA2_14 : (R2 m' c) (Proc.devRef .tc Cert.ReferenceIdeal.main_arg14) = m' (c, Proc.devRef .tc Cert.ReferenceIdeal.main_arg14) :=
  (rStep2 m' c _ (by decide)).trans (rA1_14 m' c)
theorem rA3_14 : (R3 m' c) (Proc.devRef .tc Cert.ReferenceIdeal.main_arg14) = m' (c, Proc.devRef .tc Cert.ReferenceIdeal.main_arg14) :=
  (rStep3 m' c _ (by decide)).trans (rA2_14 m' c)
theorem rA4_14 : (R4 m' c) (Proc.devRef .tc Cert.ReferenceIdeal.main_arg14) = m' (c, Proc.devRef .tc Cert.ReferenceIdeal.main_arg14) :=
  (rStep4 m' c _ (by decide)).trans (rA3_14 m' c)
theorem rA5_14 : (R5 m' c) (Proc.devRef .tc Cert.ReferenceIdeal.main_arg14) = m' (c, Proc.devRef .tc Cert.ReferenceIdeal.main_arg14) :=
  (rStep5 m' c _ (by decide)).trans (rA4_14 m' c)
theorem rA6_14 : (R6 m' c) (Proc.devRef .tc Cert.ReferenceIdeal.main_arg14) = m' (c, Proc.devRef .tc Cert.ReferenceIdeal.main_arg14) :=
  (rStep6 m' c _ (by decide)).trans (rA5_14 m' c)
theorem rA7_14 : (R7 m' c) (Proc.devRef .tc Cert.ReferenceIdeal.main_arg14) = m' (c, Proc.devRef .tc Cert.ReferenceIdeal.main_arg14) :=
  (rStep7 m' c _ (by decide)).trans (rA6_14 m' c)
theorem rA8_14 : (R8 m' c) (Proc.devRef .tc Cert.ReferenceIdeal.main_arg14) = m' (c, Proc.devRef .tc Cert.ReferenceIdeal.main_arg14) :=
  (rStep8 m' c _ (by decide)).trans (rA7_14 m' c)
theorem kA1_15 : (Cert.KernelIdeal.Hand.W1 m c) (Proc.devRef .tc Cert.KernelIdeal.main_arg15) = m (c, Proc.devRef .tc Cert.KernelIdeal.main_arg15) :=
  kStep1 m c _ (by decide)
theorem kA2_15 : (Cert.KernelIdeal.Hand.W2 m c) (Proc.devRef .tc Cert.KernelIdeal.main_arg15) = m (c, Proc.devRef .tc Cert.KernelIdeal.main_arg15) :=
  (kStep2 m c _ (by decide)).trans (kA1_15 m c)
theorem kA3_15 : (Cert.KernelIdeal.Hand.W3 m c) (Proc.devRef .tc Cert.KernelIdeal.main_arg15) = m (c, Proc.devRef .tc Cert.KernelIdeal.main_arg15) :=
  (kStep3 m c _ (by decide)).trans (kA2_15 m c)
theorem kA4_15 : (Cert.KernelIdeal.Hand.W4 m c) (Proc.devRef .tc Cert.KernelIdeal.main_arg15) = m (c, Proc.devRef .tc Cert.KernelIdeal.main_arg15) :=
  (kStep4 m c _ (by decide)).trans (kA3_15 m c)
theorem kA5_15 : (Cert.KernelIdeal.Hand.W5 m c) (Proc.devRef .tc Cert.KernelIdeal.main_arg15) = m (c, Proc.devRef .tc Cert.KernelIdeal.main_arg15) :=
  (kStep5 m c _ (by decide)).trans (kA4_15 m c)
theorem kA6_15 : (Cert.KernelIdeal.Hand.W6 m c) (Proc.devRef .tc Cert.KernelIdeal.main_arg15) = m (c, Proc.devRef .tc Cert.KernelIdeal.main_arg15) :=
  (kStep6 m c _ (by decide)).trans (kA5_15 m c)
theorem kA7_15 : (Cert.KernelIdeal.Hand.W7 m c) (Proc.devRef .tc Cert.KernelIdeal.main_arg15) = m (c, Proc.devRef .tc Cert.KernelIdeal.main_arg15) :=
  (kStep7 m c _ (by decide)).trans (kA6_15 m c)
theorem kA8_15 : (Cert.KernelIdeal.Hand.W8 m c) (Proc.devRef .tc Cert.KernelIdeal.main_arg15) = m (c, Proc.devRef .tc Cert.KernelIdeal.main_arg15) :=
  (kStep8 m c _ (by decide)).trans (kA7_15 m c)
theorem rA1_15 : (R1 m' c) (Proc.devRef .tc Cert.ReferenceIdeal.main_arg15) = m' (c, Proc.devRef .tc Cert.ReferenceIdeal.main_arg15) :=
  rStep1 m' c _ (by decide)
theorem rA2_15 : (R2 m' c) (Proc.devRef .tc Cert.ReferenceIdeal.main_arg15) = m' (c, Proc.devRef .tc Cert.ReferenceIdeal.main_arg15) :=
  (rStep2 m' c _ (by decide)).trans (rA1_15 m' c)
theorem rA3_15 : (R3 m' c) (Proc.devRef .tc Cert.ReferenceIdeal.main_arg15) = m' (c, Proc.devRef .tc Cert.ReferenceIdeal.main_arg15) :=
  (rStep3 m' c _ (by decide)).trans (rA2_15 m' c)
theorem rA4_15 : (R4 m' c) (Proc.devRef .tc Cert.ReferenceIdeal.main_arg15) = m' (c, Proc.devRef .tc Cert.ReferenceIdeal.main_arg15) :=
  (rStep4 m' c _ (by decide)).trans (rA3_15 m' c)
theorem rA5_15 : (R5 m' c) (Proc.devRef .tc Cert.ReferenceIdeal.main_arg15) = m' (c, Proc.devRef .tc Cert.ReferenceIdeal.main_arg15) :=
  (rStep5 m' c _ (by decide)).trans (rA4_15 m' c)
theorem rA6_15 : (R6 m' c) (Proc.devRef .tc Cert.ReferenceIdeal.main_arg15) = m' (c, Proc.devRef .tc Cert.ReferenceIdeal.main_arg15) :=
  (rStep6 m' c _ (by decide)).trans (rA5_15 m' c)
theorem rA7_15 : (R7 m' c) (Proc.devRef .tc Cert.ReferenceIdeal.main_arg15) = m' (c, Proc.devRef .tc Cert.ReferenceIdeal.main_arg15) :=
  (rStep7 m' c _ (by decide)).trans (rA6_15 m' c)
theorem rA8_15 : (R8 m' c) (Proc.devRef .tc Cert.ReferenceIdeal.main_arg15) = m' (c, Proc.devRef .tc Cert.ReferenceIdeal.main_arg15) :=
  (rStep8 m' c _ (by decide)).trans (rA7_15 m' c)
theorem kA1_16 : (Cert.KernelIdeal.Hand.W1 m c) (Proc.devRef .tc Cert.KernelIdeal.main_arg16) = m (c, Proc.devRef .tc Cert.KernelIdeal.main_arg16) :=
  kStep1 m c _ (by decide)
theorem kA2_16 : (Cert.KernelIdeal.Hand.W2 m c) (Proc.devRef .tc Cert.KernelIdeal.main_arg16) = m (c, Proc.devRef .tc Cert.KernelIdeal.main_arg16) :=
  (kStep2 m c _ (by decide)).trans (kA1_16 m c)
theorem kA3_16 : (Cert.KernelIdeal.Hand.W3 m c) (Proc.devRef .tc Cert.KernelIdeal.main_arg16) = m (c, Proc.devRef .tc Cert.KernelIdeal.main_arg16) :=
  (kStep3 m c _ (by decide)).trans (kA2_16 m c)
theorem kA4_16 : (Cert.KernelIdeal.Hand.W4 m c) (Proc.devRef .tc Cert.KernelIdeal.main_arg16) = m (c, Proc.devRef .tc Cert.KernelIdeal.main_arg16) :=
  (kStep4 m c _ (by decide)).trans (kA3_16 m c)
theorem kA5_16 : (Cert.KernelIdeal.Hand.W5 m c) (Proc.devRef .tc Cert.KernelIdeal.main_arg16) = m (c, Proc.devRef .tc Cert.KernelIdeal.main_arg16) :=
  (kStep5 m c _ (by decide)).trans (kA4_16 m c)
theorem kA6_16 : (Cert.KernelIdeal.Hand.W6 m c) (Proc.devRef .tc Cert.KernelIdeal.main_arg16) = m (c, Proc.devRef .tc Cert.KernelIdeal.main_arg16) :=
  (kStep6 m c _ (by decide)).trans (kA5_16 m c)
theorem kA7_16 : (Cert.KernelIdeal.Hand.W7 m c) (Proc.devRef .tc Cert.KernelIdeal.main_arg16) = m (c, Proc.devRef .tc Cert.KernelIdeal.main_arg16) :=
  (kStep7 m c _ (by decide)).trans (kA6_16 m c)
theorem kA8_16 : (Cert.KernelIdeal.Hand.W8 m c) (Proc.devRef .tc Cert.KernelIdeal.main_arg16) = m (c, Proc.devRef .tc Cert.KernelIdeal.main_arg16) :=
  (kStep8 m c _ (by decide)).trans (kA7_16 m c)
theorem rA1_16 : (R1 m' c) (Proc.devRef .tc Cert.ReferenceIdeal.main_arg16) = m' (c, Proc.devRef .tc Cert.ReferenceIdeal.main_arg16) :=
  rStep1 m' c _ (by decide)
theorem rA2_16 : (R2 m' c) (Proc.devRef .tc Cert.ReferenceIdeal.main_arg16) = m' (c, Proc.devRef .tc Cert.ReferenceIdeal.main_arg16) :=
  (rStep2 m' c _ (by decide)).trans (rA1_16 m' c)
theorem rA3_16 : (R3 m' c) (Proc.devRef .tc Cert.ReferenceIdeal.main_arg16) = m' (c, Proc.devRef .tc Cert.ReferenceIdeal.main_arg16) :=
  (rStep3 m' c _ (by decide)).trans (rA2_16 m' c)
theorem rA4_16 : (R4 m' c) (Proc.devRef .tc Cert.ReferenceIdeal.main_arg16) = m' (c, Proc.devRef .tc Cert.ReferenceIdeal.main_arg16) :=
  (rStep4 m' c _ (by decide)).trans (rA3_16 m' c)
theorem rA5_16 : (R5 m' c) (Proc.devRef .tc Cert.ReferenceIdeal.main_arg16) = m' (c, Proc.devRef .tc Cert.ReferenceIdeal.main_arg16) :=
  (rStep5 m' c _ (by decide)).trans (rA4_16 m' c)
theorem rA6_16 : (R6 m' c) (Proc.devRef .tc Cert.ReferenceIdeal.main_arg16) = m' (c, Proc.devRef .tc Cert.ReferenceIdeal.main_arg16) :=
  (rStep6 m' c _ (by decide)).trans (rA5_16 m' c)
theorem rA7_16 : (R7 m' c) (Proc.devRef .tc Cert.ReferenceIdeal.main_arg16) = m' (c, Proc.devRef .tc Cert.ReferenceIdeal.main_arg16) :=
  (rStep7 m' c _ (by decide)).trans (rA6_16 m' c)
theorem rA8_16 : (R8 m' c) (Proc.devRef .tc Cert.ReferenceIdeal.main_arg16) = m' (c, Proc.devRef .tc Cert.ReferenceIdeal.main_arg16) :=
  (rStep8 m' c _ (by decide)).trans (rA7_16 m' c)
theorem kA1_17 : (Cert.KernelIdeal.Hand.W1 m c) (Proc.devRef .tc Cert.KernelIdeal.main_arg17) = m (c, Proc.devRef .tc Cert.KernelIdeal.main_arg17) :=
  kStep1 m c _ (by decide)
theorem kA2_17 : (Cert.KernelIdeal.Hand.W2 m c) (Proc.devRef .tc Cert.KernelIdeal.main_arg17) = m (c, Proc.devRef .tc Cert.KernelIdeal.main_arg17) :=
  (kStep2 m c _ (by decide)).trans (kA1_17 m c)
theorem kA3_17 : (Cert.KernelIdeal.Hand.W3 m c) (Proc.devRef .tc Cert.KernelIdeal.main_arg17) = m (c, Proc.devRef .tc Cert.KernelIdeal.main_arg17) :=
  (kStep3 m c _ (by decide)).trans (kA2_17 m c)
theorem kA4_17 : (Cert.KernelIdeal.Hand.W4 m c) (Proc.devRef .tc Cert.KernelIdeal.main_arg17) = m (c, Proc.devRef .tc Cert.KernelIdeal.main_arg17) :=
  (kStep4 m c _ (by decide)).trans (kA3_17 m c)
theorem kA5_17 : (Cert.KernelIdeal.Hand.W5 m c) (Proc.devRef .tc Cert.KernelIdeal.main_arg17) = m (c, Proc.devRef .tc Cert.KernelIdeal.main_arg17) :=
  (kStep5 m c _ (by decide)).trans (kA4_17 m c)
theorem kA6_17 : (Cert.KernelIdeal.Hand.W6 m c) (Proc.devRef .tc Cert.KernelIdeal.main_arg17) = m (c, Proc.devRef .tc Cert.KernelIdeal.main_arg17) :=
  (kStep6 m c _ (by decide)).trans (kA5_17 m c)
theorem kA7_17 : (Cert.KernelIdeal.Hand.W7 m c) (Proc.devRef .tc Cert.KernelIdeal.main_arg17) = m (c, Proc.devRef .tc Cert.KernelIdeal.main_arg17) :=
  (kStep7 m c _ (by decide)).trans (kA6_17 m c)
theorem kA8_17 : (Cert.KernelIdeal.Hand.W8 m c) (Proc.devRef .tc Cert.KernelIdeal.main_arg17) = m (c, Proc.devRef .tc Cert.KernelIdeal.main_arg17) :=
  (kStep8 m c _ (by decide)).trans (kA7_17 m c)
theorem kA9_17 : (Cert.KernelIdeal.Hand.W9 m c) (Proc.devRef .tc Cert.KernelIdeal.main_arg17) = m (c, Proc.devRef .tc Cert.KernelIdeal.main_arg17) :=
  (kStep9 m c _ (by decide)).trans (kA8_17 m c)
theorem kA10_17 : (Cert.KernelIdeal.Hand.W10 m c) (Proc.devRef .tc Cert.KernelIdeal.main_arg17) = m (c, Proc.devRef .tc Cert.KernelIdeal.main_arg17) :=
  (kStep10 m c _ (by decide)).trans (kA9_17 m c)
theorem kA21_17 : (Cert.KernelIdeal.Hand.W21 m c) (Proc.devRef .tc Cert.KernelIdeal.main_arg17) = m (c, Proc.devRef .tc Cert.KernelIdeal.main_arg17) :=
  (kStep21 m c _ (by decide) (by decide) (by decide) (by decide) (by decide) (by decide) (by decide) (by decide) (by decide) (by decide) (by decide)).trans (kA10_17 m c)
theorem rA1_17 : (R1 m' c) (Proc.devRef .tc Cert.ReferenceIdeal.main_arg17) = m' (c, Proc.devRef .tc Cert.ReferenceIdeal.main_arg17) :=
  rStep1 m' c _ (by decide)
theorem rA2_17 : (R2 m' c) (Proc.devRef .tc Cert.ReferenceIdeal.main_arg17) = m' (c, Proc.devRef .tc Cert.ReferenceIdeal.main_arg17) :=
  (rStep2 m' c _ (by decide)).trans (rA1_17 m' c)
theorem rA3_17 : (R3 m' c) (Proc.devRef .tc Cert.ReferenceIdeal.main_arg17) = m' (c, Proc.devRef .tc Cert.ReferenceIdeal.main_arg17) :=
  (rStep3 m' c _ (by decide)).trans (rA2_17 m' c)
theorem rA4_17 : (R4 m' c) (Proc.devRef .tc Cert.ReferenceIdeal.main_arg17) = m' (c, Proc.devRef .tc Cert.ReferenceIdeal.main_arg17) :=
  (rStep4 m' c _ (by decide)).trans (rA3_17 m' c)
theorem rA5_17 : (R5 m' c) (Proc.devRef .tc Cert.ReferenceIdeal.main_arg17) = m' (c, Proc.devRef .tc Cert.ReferenceIdeal.main_arg17) :=
  (rStep5 m' c _ (by decide)).trans (rA4_17 m' c)
theorem rA6_17 : (R6 m' c) (Proc.devRef .tc Cert.ReferenceIdeal.main_arg17) = m' (c, Proc.devRef .tc Cert.ReferenceIdeal.main_arg17) :=
  (rStep6 m' c _ (by decide)).trans (rA5_17 m' c)
theorem rA7_17 : (R7 m' c) (Proc.devRef .tc Cert.ReferenceIdeal.main_arg17) = m' (c, Proc.devRef .tc Cert.ReferenceIdeal.main_arg17) :=
  (rStep7 m' c _ (by decide)).trans (rA6_17 m' c)
theorem rA8_17 : (R8 m' c) (Proc.devRef .tc Cert.ReferenceIdeal.main_arg17) = m' (c, Proc.devRef .tc Cert.ReferenceIdeal.main_arg17) :=
  (rStep8 m' c _ (by decide)).trans (rA7_17 m' c)
theorem rA9_17 : (R9 m' c) (Proc.devRef .tc Cert.ReferenceIdeal.main_arg17) = m' (c, Proc.devRef .tc Cert.ReferenceIdeal.main_arg17) :=
  (rStep9 m' c _ (by decide)).trans (rA8_17 m' c)
theorem rA10_17 : (R10 m' c) (Proc.devRef .tc Cert.ReferenceIdeal.main_arg17) = m' (c, Proc.devRef .tc Cert.ReferenceIdeal.main_arg17) :=
  (rStep10 m' c _ (by decide)).trans (rA9_17 m' c)
theorem rA11_17 : (R11 m' c) (Proc.devRef .tc Cert.ReferenceIdeal.main_arg17) = m' (c, Proc.devRef .tc Cert.ReferenceIdeal.main_arg17) :=
  (rStep11 m' c _ (by decide)).trans (rA10_17 m' c)
theorem kA1_18 : (Cert.KernelIdeal.Hand.W1 m c) (Proc.devRef .tc Cert.KernelIdeal.main_arg18) = m (c, Proc.devRef .tc Cert.KernelIdeal.main_arg18) :=
  kStep1 m c _ (by decide)
theorem kA2_18 : (Cert.KernelIdeal.Hand.W2 m c) (Proc.devRef .tc Cert.KernelIdeal.main_arg18) = m (c, Proc.devRef .tc Cert.KernelIdeal.main_arg18) :=
  (kStep2 m c _ (by decide)).trans (kA1_18 m c)
theorem kA3_18 : (Cert.KernelIdeal.Hand.W3 m c) (Proc.devRef .tc Cert.KernelIdeal.main_arg18) = m (c, Proc.devRef .tc Cert.KernelIdeal.main_arg18) :=
  (kStep3 m c _ (by decide)).trans (kA2_18 m c)
theorem kA4_18 : (Cert.KernelIdeal.Hand.W4 m c) (Proc.devRef .tc Cert.KernelIdeal.main_arg18) = m (c, Proc.devRef .tc Cert.KernelIdeal.main_arg18) :=
  (kStep4 m c _ (by decide)).trans (kA3_18 m c)
theorem kA5_18 : (Cert.KernelIdeal.Hand.W5 m c) (Proc.devRef .tc Cert.KernelIdeal.main_arg18) = m (c, Proc.devRef .tc Cert.KernelIdeal.main_arg18) :=
  (kStep5 m c _ (by decide)).trans (kA4_18 m c)
theorem kA6_18 : (Cert.KernelIdeal.Hand.W6 m c) (Proc.devRef .tc Cert.KernelIdeal.main_arg18) = m (c, Proc.devRef .tc Cert.KernelIdeal.main_arg18) :=
  (kStep6 m c _ (by decide)).trans (kA5_18 m c)
theorem kA7_18 : (Cert.KernelIdeal.Hand.W7 m c) (Proc.devRef .tc Cert.KernelIdeal.main_arg18) = m (c, Proc.devRef .tc Cert.KernelIdeal.main_arg18) :=
  (kStep7 m c _ (by decide)).trans (kA6_18 m c)
theorem kA8_18 : (Cert.KernelIdeal.Hand.W8 m c) (Proc.devRef .tc Cert.KernelIdeal.main_arg18) = m (c, Proc.devRef .tc Cert.KernelIdeal.main_arg18) :=
  (kStep8 m c _ (by decide)).trans (kA7_18 m c)
theorem kA9_18 : (Cert.KernelIdeal.Hand.W9 m c) (Proc.devRef .tc Cert.KernelIdeal.main_arg18) = m (c, Proc.devRef .tc Cert.KernelIdeal.main_arg18) :=
  (kStep9 m c _ (by decide)).trans (kA8_18 m c)
theorem kA10_18 : (Cert.KernelIdeal.Hand.W10 m c) (Proc.devRef .tc Cert.KernelIdeal.main_arg18) = m (c, Proc.devRef .tc Cert.KernelIdeal.main_arg18) :=
  (kStep10 m c _ (by decide)).trans (kA9_18 m c)
theorem kA21_18 : (Cert.KernelIdeal.Hand.W21 m c) (Proc.devRef .tc Cert.KernelIdeal.main_arg18) = m (c, Proc.devRef .tc Cert.KernelIdeal.main_arg18) :=
  (kStep21 m c _ (by decide) (by decide) (by decide) (by decide) (by decide) (by decide) (by decide) (by decide) (by decide) (by decide) (by decide)).trans (kA10_18 m c)
theorem rA1_18 : (R1 m' c) (Proc.devRef .tc Cert.ReferenceIdeal.main_arg18) = m' (c, Proc.devRef .tc Cert.ReferenceIdeal.main_arg18) :=
  rStep1 m' c _ (by decide)
theorem rA2_18 : (R2 m' c) (Proc.devRef .tc Cert.ReferenceIdeal.main_arg18) = m' (c, Proc.devRef .tc Cert.ReferenceIdeal.main_arg18) :=
  (rStep2 m' c _ (by decide)).trans (rA1_18 m' c)
theorem rA3_18 : (R3 m' c) (Proc.devRef .tc Cert.ReferenceIdeal.main_arg18) = m' (c, Proc.devRef .tc Cert.ReferenceIdeal.main_arg18) :=
  (rStep3 m' c _ (by decide)).trans (rA2_18 m' c)
theorem rA4_18 : (R4 m' c) (Proc.devRef .tc Cert.ReferenceIdeal.main_arg18) = m' (c, Proc.devRef .tc Cert.ReferenceIdeal.main_arg18) :=
  (rStep4 m' c _ (by decide)).trans (rA3_18 m' c)
theorem rA5_18 : (R5 m' c) (Proc.devRef .tc Cert.ReferenceIdeal.main_arg18) = m' (c, Proc.devRef .tc Cert.ReferenceIdeal.main_arg18) :=
  (rStep5 m' c _ (by decide)).trans (rA4_18 m' c)
theorem rA6_18 : (R6 m' c) (Proc.devRef .tc Cert.ReferenceIdeal.main_arg18) = m' (c, Proc.devRef .tc Cert.ReferenceIdeal.main_arg18) :=
  (rStep6 m' c _ (by decide)).trans (rA5_18 m' c)
theorem rA7_18 : (R7 m' c) (Proc.devRef .tc Cert.ReferenceIdeal.main_arg18) = m' (c, Proc.devRef .tc Cert.ReferenceIdeal.main_arg18) :=
  (rStep7 m' c _ (by decide)).trans (rA6_18 m' c)
theorem rA8_18 : (R8 m' c) (Proc.devRef .tc Cert.ReferenceIdeal.main_arg18) = m' (c, Proc.devRef .tc Cert.ReferenceIdeal.main_arg18) :=
  (rStep8 m' c _ (by decide)).trans (rA7_18 m' c)
theorem rA9_18 : (R9 m' c) (Proc.devRef .tc Cert.ReferenceIdeal.main_arg18) = m' (c, Proc.devRef .tc Cert.ReferenceIdeal.main_arg18) :=
  (rStep9 m' c _ (by decide)).trans (rA8_18 m' c)
theorem rA10_18 : (R10 m' c) (Proc.devRef .tc Cert.ReferenceIdeal.main_arg18) = m' (c, Proc.devRef .tc Cert.ReferenceIdeal.main_arg18) :=
  (rStep10 m' c _ (by decide)).trans (rA9_18 m' c)
theorem rA11_18 : (R11 m' c) (Proc.devRef .tc Cert.ReferenceIdeal.main_arg18) = m' (c, Proc.devRef .tc Cert.ReferenceIdeal.main_arg18) :=
  (rStep11 m' c _ (by decide)).trans (rA10_18 m' c)
theorem kA1_19 : (Cert.KernelIdeal.Hand.W1 m c) (Proc.devRef .tc Cert.KernelIdeal.main_arg19) = m (c, Proc.devRef .tc Cert.KernelIdeal.main_arg19) :=
  kStep1 m c _ (by decide)
theorem kA2_19 : (Cert.KernelIdeal.Hand.W2 m c) (Proc.devRef .tc Cert.KernelIdeal.main_arg19) = m (c, Proc.devRef .tc Cert.KernelIdeal.main_arg19) :=
  (kStep2 m c _ (by decide)).trans (kA1_19 m c)
theorem kA3_19 : (Cert.KernelIdeal.Hand.W3 m c) (Proc.devRef .tc Cert.KernelIdeal.main_arg19) = m (c, Proc.devRef .tc Cert.KernelIdeal.main_arg19) :=
  (kStep3 m c _ (by decide)).trans (kA2_19 m c)
theorem kA4_19 : (Cert.KernelIdeal.Hand.W4 m c) (Proc.devRef .tc Cert.KernelIdeal.main_arg19) = m (c, Proc.devRef .tc Cert.KernelIdeal.main_arg19) :=
  (kStep4 m c _ (by decide)).trans (kA3_19 m c)
theorem kA5_19 : (Cert.KernelIdeal.Hand.W5 m c) (Proc.devRef .tc Cert.KernelIdeal.main_arg19) = m (c, Proc.devRef .tc Cert.KernelIdeal.main_arg19) :=
  (kStep5 m c _ (by decide)).trans (kA4_19 m c)
theorem kA6_19 : (Cert.KernelIdeal.Hand.W6 m c) (Proc.devRef .tc Cert.KernelIdeal.main_arg19) = m (c, Proc.devRef .tc Cert.KernelIdeal.main_arg19) :=
  (kStep6 m c _ (by decide)).trans (kA5_19 m c)
theorem kA7_19 : (Cert.KernelIdeal.Hand.W7 m c) (Proc.devRef .tc Cert.KernelIdeal.main_arg19) = m (c, Proc.devRef .tc Cert.KernelIdeal.main_arg19) :=
  (kStep7 m c _ (by decide)).trans (kA6_19 m c)
theorem kA8_19 : (Cert.KernelIdeal.Hand.W8 m c) (Proc.devRef .tc Cert.KernelIdeal.main_arg19) = m (c, Proc.devRef .tc Cert.KernelIdeal.main_arg19) :=
  (kStep8 m c _ (by decide)).trans (kA7_19 m c)
theorem kA9_19 : (Cert.KernelIdeal.Hand.W9 m c) (Proc.devRef .tc Cert.KernelIdeal.main_arg19) = m (c, Proc.devRef .tc Cert.KernelIdeal.main_arg19) :=
  (kStep9 m c _ (by decide)).trans (kA8_19 m c)
theorem kA10_19 : (Cert.KernelIdeal.Hand.W10 m c) (Proc.devRef .tc Cert.KernelIdeal.main_arg19) = m (c, Proc.devRef .tc Cert.KernelIdeal.main_arg19) :=
  (kStep10 m c _ (by decide)).trans (kA9_19 m c)
theorem kA21_19 : (Cert.KernelIdeal.Hand.W21 m c) (Proc.devRef .tc Cert.KernelIdeal.main_arg19) = m (c, Proc.devRef .tc Cert.KernelIdeal.main_arg19) :=
  (kStep21 m c _ (by decide) (by decide) (by decide) (by decide) (by decide) (by decide) (by decide) (by decide) (by decide) (by decide) (by decide)).trans (kA10_19 m c)
theorem rA1_19 : (R1 m' c) (Proc.devRef .tc Cert.ReferenceIdeal.main_arg19) = m' (c, Proc.devRef .tc Cert.ReferenceIdeal.main_arg19) :=
  rStep1 m' c _ (by decide)
theorem rA2_19 : (R2 m' c) (Proc.devRef .tc Cert.ReferenceIdeal.main_arg19) = m' (c, Proc.devRef .tc Cert.ReferenceIdeal.main_arg19) :=
  (rStep2 m' c _ (by decide)).trans (rA1_19 m' c)
theorem rA3_19 : (R3 m' c) (Proc.devRef .tc Cert.ReferenceIdeal.main_arg19) = m' (c, Proc.devRef .tc Cert.ReferenceIdeal.main_arg19) :=
  (rStep3 m' c _ (by decide)).trans (rA2_19 m' c)
theorem rA4_19 : (R4 m' c) (Proc.devRef .tc Cert.ReferenceIdeal.main_arg19) = m' (c, Proc.devRef .tc Cert.ReferenceIdeal.main_arg19) :=
  (rStep4 m' c _ (by decide)).trans (rA3_19 m' c)
theorem rA5_19 : (R5 m' c) (Proc.devRef .tc Cert.ReferenceIdeal.main_arg19) = m' (c, Proc.devRef .tc Cert.ReferenceIdeal.main_arg19) :=
  (rStep5 m' c _ (by decide)).trans (rA4_19 m' c)
theorem rA6_19 : (R6 m' c) (Proc.devRef .tc Cert.ReferenceIdeal.main_arg19) = m' (c, Proc.devRef .tc Cert.ReferenceIdeal.main_arg19) :=
  (rStep6 m' c _ (by decide)).trans (rA5_19 m' c)
theorem rA7_19 : (R7 m' c) (Proc.devRef .tc Cert.ReferenceIdeal.main_arg19) = m' (c, Proc.devRef .tc Cert.ReferenceIdeal.main_arg19) :=
  (rStep7 m' c _ (by decide)).trans (rA6_19 m' c)
theorem rA8_19 : (R8 m' c) (Proc.devRef .tc Cert.ReferenceIdeal.main_arg19) = m' (c, Proc.devRef .tc Cert.ReferenceIdeal.main_arg19) :=
  (rStep8 m' c _ (by decide)).trans (rA7_19 m' c)
theorem rA9_19 : (R9 m' c) (Proc.devRef .tc Cert.ReferenceIdeal.main_arg19) = m' (c, Proc.devRef .tc Cert.ReferenceIdeal.main_arg19) :=
  (rStep9 m' c _ (by decide)).trans (rA8_19 m' c)
theorem rA10_19 : (R10 m' c) (Proc.devRef .tc Cert.ReferenceIdeal.main_arg19) = m' (c, Proc.devRef .tc Cert.ReferenceIdeal.main_arg19) :=
  (rStep10 m' c _ (by decide)).trans (rA9_19 m' c)
theorem rA11_19 : (R11 m' c) (Proc.devRef .tc Cert.ReferenceIdeal.main_arg19) = m' (c, Proc.devRef .tc Cert.ReferenceIdeal.main_arg19) :=
  (rStep11 m' c _ (by decide)).trans (rA10_19 m' c)
theorem kA1_20 : (Cert.KernelIdeal.Hand.W1 m c) (Proc.devRef .tc Cert.KernelIdeal.main_arg20) = m (c, Proc.devRef .tc Cert.KernelIdeal.main_arg20) :=
  kStep1 m c _ (by decide)
theorem kA2_20 : (Cert.KernelIdeal.Hand.W2 m c) (Proc.devRef .tc Cert.KernelIdeal.main_arg20) = m (c, Proc.devRef .tc Cert.KernelIdeal.main_arg20) :=
  (kStep2 m c _ (by decide)).trans (kA1_20 m c)
theorem kA3_20 : (Cert.KernelIdeal.Hand.W3 m c) (Proc.devRef .tc Cert.KernelIdeal.main_arg20) = m (c, Proc.devRef .tc Cert.KernelIdeal.main_arg20) :=
  (kStep3 m c _ (by decide)).trans (kA2_20 m c)
theorem kA4_20 : (Cert.KernelIdeal.Hand.W4 m c) (Proc.devRef .tc Cert.KernelIdeal.main_arg20) = m (c, Proc.devRef .tc Cert.KernelIdeal.main_arg20) :=
  (kStep4 m c _ (by decide)).trans (kA3_20 m c)
theorem kA5_20 : (Cert.KernelIdeal.Hand.W5 m c) (Proc.devRef .tc Cert.KernelIdeal.main_arg20) = m (c, Proc.devRef .tc Cert.KernelIdeal.main_arg20) :=
  (kStep5 m c _ (by decide)).trans (kA4_20 m c)
theorem kA6_20 : (Cert.KernelIdeal.Hand.W6 m c) (Proc.devRef .tc Cert.KernelIdeal.main_arg20) = m (c, Proc.devRef .tc Cert.KernelIdeal.main_arg20) :=
  (kStep6 m c _ (by decide)).trans (kA5_20 m c)
theorem kA7_20 : (Cert.KernelIdeal.Hand.W7 m c) (Proc.devRef .tc Cert.KernelIdeal.main_arg20) = m (c, Proc.devRef .tc Cert.KernelIdeal.main_arg20) :=
  (kStep7 m c _ (by decide)).trans (kA6_20 m c)
theorem kA8_20 : (Cert.KernelIdeal.Hand.W8 m c) (Proc.devRef .tc Cert.KernelIdeal.main_arg20) = m (c, Proc.devRef .tc Cert.KernelIdeal.main_arg20) :=
  (kStep8 m c _ (by decide)).trans (kA7_20 m c)
theorem kA9_20 : (Cert.KernelIdeal.Hand.W9 m c) (Proc.devRef .tc Cert.KernelIdeal.main_arg20) = m (c, Proc.devRef .tc Cert.KernelIdeal.main_arg20) :=
  (kStep9 m c _ (by decide)).trans (kA8_20 m c)
theorem kA10_20 : (Cert.KernelIdeal.Hand.W10 m c) (Proc.devRef .tc Cert.KernelIdeal.main_arg20) = m (c, Proc.devRef .tc Cert.KernelIdeal.main_arg20) :=
  (kStep10 m c _ (by decide)).trans (kA9_20 m c)
theorem kA21_20 : (Cert.KernelIdeal.Hand.W21 m c) (Proc.devRef .tc Cert.KernelIdeal.main_arg20) = m (c, Proc.devRef .tc Cert.KernelIdeal.main_arg20) :=
  (kStep21 m c _ (by decide) (by decide) (by decide) (by decide) (by decide) (by decide) (by decide) (by decide) (by decide) (by decide) (by decide)).trans (kA10_20 m c)
theorem rA1_20 : (R1 m' c) (Proc.devRef .tc Cert.ReferenceIdeal.main_arg20) = m' (c, Proc.devRef .tc Cert.ReferenceIdeal.main_arg20) :=
  rStep1 m' c _ (by decide)
theorem rA2_20 : (R2 m' c) (Proc.devRef .tc Cert.ReferenceIdeal.main_arg20) = m' (c, Proc.devRef .tc Cert.ReferenceIdeal.main_arg20) :=
  (rStep2 m' c _ (by decide)).trans (rA1_20 m' c)
theorem rA3_20 : (R3 m' c) (Proc.devRef .tc Cert.ReferenceIdeal.main_arg20) = m' (c, Proc.devRef .tc Cert.ReferenceIdeal.main_arg20) :=
  (rStep3 m' c _ (by decide)).trans (rA2_20 m' c)
theorem rA4_20 : (R4 m' c) (Proc.devRef .tc Cert.ReferenceIdeal.main_arg20) = m' (c, Proc.devRef .tc Cert.ReferenceIdeal.main_arg20) :=
  (rStep4 m' c _ (by decide)).trans (rA3_20 m' c)
theorem rA5_20 : (R5 m' c) (Proc.devRef .tc Cert.ReferenceIdeal.main_arg20) = m' (c, Proc.devRef .tc Cert.ReferenceIdeal.main_arg20) :=
  (rStep5 m' c _ (by decide)).trans (rA4_20 m' c)
theorem rA6_20 : (R6 m' c) (Proc.devRef .tc Cert.ReferenceIdeal.main_arg20) = m' (c, Proc.devRef .tc Cert.ReferenceIdeal.main_arg20) :=
  (rStep6 m' c _ (by decide)).trans (rA5_20 m' c)
theorem rA7_20 : (R7 m' c) (Proc.devRef .tc Cert.ReferenceIdeal.main_arg20) = m' (c, Proc.devRef .tc Cert.ReferenceIdeal.main_arg20) :=
  (rStep7 m' c _ (by decide)).trans (rA6_20 m' c)
theorem rA8_20 : (R8 m' c) (Proc.devRef .tc Cert.ReferenceIdeal.main_arg20) = m' (c, Proc.devRef .tc Cert.ReferenceIdeal.main_arg20) :=
  (rStep8 m' c _ (by decide)).trans (rA7_20 m' c)
theorem rA9_20 : (R9 m' c) (Proc.devRef .tc Cert.ReferenceIdeal.main_arg20) = m' (c, Proc.devRef .tc Cert.ReferenceIdeal.main_arg20) :=
  (rStep9 m' c _ (by decide)).trans (rA8_20 m' c)
theorem rA10_20 : (R10 m' c) (Proc.devRef .tc Cert.ReferenceIdeal.main_arg20) = m' (c, Proc.devRef .tc Cert.ReferenceIdeal.main_arg20) :=
  (rStep10 m' c _ (by decide)).trans (rA9_20 m' c)
theorem rA11_20 : (R11 m' c) (Proc.devRef .tc Cert.ReferenceIdeal.main_arg20) = m' (c, Proc.devRef .tc Cert.ReferenceIdeal.main_arg20) :=
  (rStep11 m' c _ (by decide)).trans (rA10_20 m' c)
theorem kA1_21 : (Cert.KernelIdeal.Hand.W1 m c) (Proc.devRef .tc Cert.KernelIdeal.main_arg21) = m (c, Proc.devRef .tc Cert.KernelIdeal.main_arg21) :=
  kStep1 m c _ (by decide)
theorem kA2_21 : (Cert.KernelIdeal.Hand.W2 m c) (Proc.devRef .tc Cert.KernelIdeal.main_arg21) = m (c, Proc.devRef .tc Cert.KernelIdeal.main_arg21) :=
  (kStep2 m c _ (by decide)).trans (kA1_21 m c)
theorem kA3_21 : (Cert.KernelIdeal.Hand.W3 m c) (Proc.devRef .tc Cert.KernelIdeal.main_arg21) = m (c, Proc.devRef .tc Cert.KernelIdeal.main_arg21) :=
  (kStep3 m c _ (by decide)).trans (kA2_21 m c)
theorem kA4_21 : (Cert.KernelIdeal.Hand.W4 m c) (Proc.devRef .tc Cert.KernelIdeal.main_arg21) = m (c, Proc.devRef .tc Cert.KernelIdeal.main_arg21) :=
  (kStep4 m c _ (by decide)).trans (kA3_21 m c)
theorem kA5_21 : (Cert.KernelIdeal.Hand.W5 m c) (Proc.devRef .tc Cert.KernelIdeal.main_arg21) = m (c, Proc.devRef .tc Cert.KernelIdeal.main_arg21) :=
  (kStep5 m c _ (by decide)).trans (kA4_21 m c)
theorem kA6_21 : (Cert.KernelIdeal.Hand.W6 m c) (Proc.devRef .tc Cert.KernelIdeal.main_arg21) = m (c, Proc.devRef .tc Cert.KernelIdeal.main_arg21) :=
  (kStep6 m c _ (by decide)).trans (kA5_21 m c)
theorem kA7_21 : (Cert.KernelIdeal.Hand.W7 m c) (Proc.devRef .tc Cert.KernelIdeal.main_arg21) = m (c, Proc.devRef .tc Cert.KernelIdeal.main_arg21) :=
  (kStep7 m c _ (by decide)).trans (kA6_21 m c)
theorem kA8_21 : (Cert.KernelIdeal.Hand.W8 m c) (Proc.devRef .tc Cert.KernelIdeal.main_arg21) = m (c, Proc.devRef .tc Cert.KernelIdeal.main_arg21) :=
  (kStep8 m c _ (by decide)).trans (kA7_21 m c)
theorem kA9_21 : (Cert.KernelIdeal.Hand.W9 m c) (Proc.devRef .tc Cert.KernelIdeal.main_arg21) = m (c, Proc.devRef .tc Cert.KernelIdeal.main_arg21) :=
  (kStep9 m c _ (by decide)).trans (kA8_21 m c)
theorem kA10_21 : (Cert.KernelIdeal.Hand.W10 m c) (Proc.devRef .tc Cert.KernelIdeal.main_arg21) = m (c, Proc.devRef .tc Cert.KernelIdeal.main_arg21) :=
  (kStep10 m c _ (by decide)).trans (kA9_21 m c)
theorem kA21_21 : (Cert.KernelIdeal.Hand.W21 m c) (Proc.devRef .tc Cert.KernelIdeal.main_arg21) = m (c, Proc.devRef .tc Cert.KernelIdeal.main_arg21) :=
  (kStep21 m c _ (by decide) (by decide) (by decide) (by decide) (by decide) (by decide) (by decide) (by decide) (by decide) (by decide) (by decide)).trans (kA10_21 m c)
theorem rA1_21 : (R1 m' c) (Proc.devRef .tc Cert.ReferenceIdeal.main_arg21) = m' (c, Proc.devRef .tc Cert.ReferenceIdeal.main_arg21) :=
  rStep1 m' c _ (by decide)
theorem rA2_21 : (R2 m' c) (Proc.devRef .tc Cert.ReferenceIdeal.main_arg21) = m' (c, Proc.devRef .tc Cert.ReferenceIdeal.main_arg21) :=
  (rStep2 m' c _ (by decide)).trans (rA1_21 m' c)
theorem rA3_21 : (R3 m' c) (Proc.devRef .tc Cert.ReferenceIdeal.main_arg21) = m' (c, Proc.devRef .tc Cert.ReferenceIdeal.main_arg21) :=
  (rStep3 m' c _ (by decide)).trans (rA2_21 m' c)
theorem rA4_21 : (R4 m' c) (Proc.devRef .tc Cert.ReferenceIdeal.main_arg21) = m' (c, Proc.devRef .tc Cert.ReferenceIdeal.main_arg21) :=
  (rStep4 m' c _ (by decide)).trans (rA3_21 m' c)
theorem rA5_21 : (R5 m' c) (Proc.devRef .tc Cert.ReferenceIdeal.main_arg21) = m' (c, Proc.devRef .tc Cert.ReferenceIdeal.main_arg21) :=
  (rStep5 m' c _ (by decide)).trans (rA4_21 m' c)
theorem rA6_21 : (R6 m' c) (Proc.devRef .tc Cert.ReferenceIdeal.main_arg21) = m' (c, Proc.devRef .tc Cert.ReferenceIdeal.main_arg21) :=
  (rStep6 m' c _ (by decide)).trans (rA5_21 m' c)
theorem rA7_21 : (R7 m' c) (Proc.devRef .tc Cert.ReferenceIdeal.main_arg21) = m' (c, Proc.devRef .tc Cert.ReferenceIdeal.main_arg21) :=
  (rStep7 m' c _ (by decide)).trans (rA6_21 m' c)
theorem rA8_21 : (R8 m' c) (Proc.devRef .tc Cert.ReferenceIdeal.main_arg21) = m' (c, Proc.devRef .tc Cert.ReferenceIdeal.main_arg21) :=
  (rStep8 m' c _ (by decide)).trans (rA7_21 m' c)
theorem rA9_21 : (R9 m' c) (Proc.devRef .tc Cert.ReferenceIdeal.main_arg21) = m' (c, Proc.devRef .tc Cert.ReferenceIdeal.main_arg21) :=
  (rStep9 m' c _ (by decide)).trans (rA8_21 m' c)
theorem rA10_21 : (R10 m' c) (Proc.devRef .tc Cert.ReferenceIdeal.main_arg21) = m' (c, Proc.devRef .tc Cert.ReferenceIdeal.main_arg21) :=
  (rStep10 m' c _ (by decide)).trans (rA9_21 m' c)
theorem rA11_21 : (R11 m' c) (Proc.devRef .tc Cert.ReferenceIdeal.main_arg21) = m' (c, Proc.devRef .tc Cert.ReferenceIdeal.main_arg21) :=
  (rStep11 m' c _ (by decide)).trans (rA10_21 m' c)
theorem kA1_22 : (Cert.KernelIdeal.Hand.W1 m c) (Proc.devRef .tc Cert.KernelIdeal.main_arg22) = m (c, Proc.devRef .tc Cert.KernelIdeal.main_arg22) :=
  kStep1 m c _ (by decide)
theorem kA2_22 : (Cert.KernelIdeal.Hand.W2 m c) (Proc.devRef .tc Cert.KernelIdeal.main_arg22) = m (c, Proc.devRef .tc Cert.KernelIdeal.main_arg22) :=
  (kStep2 m c _ (by decide)).trans (kA1_22 m c)
theorem kA3_22 : (Cert.KernelIdeal.Hand.W3 m c) (Proc.devRef .tc Cert.KernelIdeal.main_arg22) = m (c, Proc.devRef .tc Cert.KernelIdeal.main_arg22) :=
  (kStep3 m c _ (by decide)).trans (kA2_22 m c)
theorem kA4_22 : (Cert.KernelIdeal.Hand.W4 m c) (Proc.devRef .tc Cert.KernelIdeal.main_arg22) = m (c, Proc.devRef .tc Cert.KernelIdeal.main_arg22) :=
  (kStep4 m c _ (by decide)).trans (kA3_22 m c)
theorem kA5_22 : (Cert.KernelIdeal.Hand.W5 m c) (Proc.devRef .tc Cert.KernelIdeal.main_arg22) = m (c, Proc.devRef .tc Cert.KernelIdeal.main_arg22) :=
  (kStep5 m c _ (by decide)).trans (kA4_22 m c)
theorem kA6_22 : (Cert.KernelIdeal.Hand.W6 m c) (Proc.devRef .tc Cert.KernelIdeal.main_arg22) = m (c, Proc.devRef .tc Cert.KernelIdeal.main_arg22) :=
  (kStep6 m c _ (by decide)).trans (kA5_22 m c)
theorem kA7_22 : (Cert.KernelIdeal.Hand.W7 m c) (Proc.devRef .tc Cert.KernelIdeal.main_arg22) = m (c, Proc.devRef .tc Cert.KernelIdeal.main_arg22) :=
  (kStep7 m c _ (by decide)).trans (kA6_22 m c)
theorem kA8_22 : (Cert.KernelIdeal.Hand.W8 m c) (Proc.devRef .tc Cert.KernelIdeal.main_arg22) = m (c, Proc.devRef .tc Cert.KernelIdeal.main_arg22) :=
  (kStep8 m c _ (by decide)).trans (kA7_22 m c)
theorem kA9_22 : (Cert.KernelIdeal.Hand.W9 m c) (Proc.devRef .tc Cert.KernelIdeal.main_arg22) = m (c, Proc.devRef .tc Cert.KernelIdeal.main_arg22) :=
  (kStep9 m c _ (by decide)).trans (kA8_22 m c)
theorem kA10_22 : (Cert.KernelIdeal.Hand.W10 m c) (Proc.devRef .tc Cert.KernelIdeal.main_arg22) = m (c, Proc.devRef .tc Cert.KernelIdeal.main_arg22) :=
  (kStep10 m c _ (by decide)).trans (kA9_22 m c)
theorem kA21_22 : (Cert.KernelIdeal.Hand.W21 m c) (Proc.devRef .tc Cert.KernelIdeal.main_arg22) = m (c, Proc.devRef .tc Cert.KernelIdeal.main_arg22) :=
  (kStep21 m c _ (by decide) (by decide) (by decide) (by decide) (by decide) (by decide) (by decide) (by decide) (by decide) (by decide) (by decide)).trans (kA10_22 m c)
theorem rA1_22 : (R1 m' c) (Proc.devRef .tc Cert.ReferenceIdeal.main_arg22) = m' (c, Proc.devRef .tc Cert.ReferenceIdeal.main_arg22) :=
  rStep1 m' c _ (by decide)
theorem rA2_22 : (R2 m' c) (Proc.devRef .tc Cert.ReferenceIdeal.main_arg22) = m' (c, Proc.devRef .tc Cert.ReferenceIdeal.main_arg22) :=
  (rStep2 m' c _ (by decide)).trans (rA1_22 m' c)
theorem rA3_22 : (R3 m' c) (Proc.devRef .tc Cert.ReferenceIdeal.main_arg22) = m' (c, Proc.devRef .tc Cert.ReferenceIdeal.main_arg22) :=
  (rStep3 m' c _ (by decide)).trans (rA2_22 m' c)
theorem rA4_22 : (R4 m' c) (Proc.devRef .tc Cert.ReferenceIdeal.main_arg22) = m' (c, Proc.devRef .tc Cert.ReferenceIdeal.main_arg22) :=
  (rStep4 m' c _ (by decide)).trans (rA3_22 m' c)
theorem rA5_22 : (R5 m' c) (Proc.devRef .tc Cert.ReferenceIdeal.main_arg22) = m' (c, Proc.devRef .tc Cert.ReferenceIdeal.main_arg22) :=
  (rStep5 m' c _ (by decide)).trans (rA4_22 m' c)
theorem rA6_22 : (R6 m' c) (Proc.devRef .tc Cert.ReferenceIdeal.main_arg22) = m' (c, Proc.devRef .tc Cert.ReferenceIdeal.main_arg22) :=
  (rStep6 m' c _ (by decide)).trans (rA5_22 m' c)
theorem rA7_22 : (R7 m' c) (Proc.devRef .tc Cert.ReferenceIdeal.main_arg22) = m' (c, Proc.devRef .tc Cert.ReferenceIdeal.main_arg22) :=
  (rStep7 m' c _ (by decide)).trans (rA6_22 m' c)
theorem rA8_22 : (R8 m' c) (Proc.devRef .tc Cert.ReferenceIdeal.main_arg22) = m' (c, Proc.devRef .tc Cert.ReferenceIdeal.main_arg22) :=
  (rStep8 m' c _ (by decide)).trans (rA7_22 m' c)
theorem rA9_22 : (R9 m' c) (Proc.devRef .tc Cert.ReferenceIdeal.main_arg22) = m' (c, Proc.devRef .tc Cert.ReferenceIdeal.main_arg22) :=
  (rStep9 m' c _ (by decide)).trans (rA8_22 m' c)
theorem rA10_22 : (R10 m' c) (Proc.devRef .tc Cert.ReferenceIdeal.main_arg22) = m' (c, Proc.devRef .tc Cert.ReferenceIdeal.main_arg22) :=
  (rStep10 m' c _ (by decide)).trans (rA9_22 m' c)
theorem rA11_22 : (R11 m' c) (Proc.devRef .tc Cert.ReferenceIdeal.main_arg22) = m' (c, Proc.devRef .tc Cert.ReferenceIdeal.main_arg22) :=
  (rStep11 m' c _ (by decide)).trans (rA10_22 m' c)
end Args

end Cert.Val

end
-- ==== Proof.Val.Glue0.lean ====
/- The first host stretch of the two programs: the same operations on the same arguments leave the same
   values in the buffers read later — the edge endpoints (rows 0 and 1 of the edge table as vectors) and the first
   layer's combined features. Each side's fold is read back as the operations' composed term over the argument
   buffers; the arguments agree by hypothesis and the two terms are then the same term. -/
import proofs.«145887_j33578054320560_2_alg».proof.Proof.Val.GlueBase

noncomputable section

namespace Cert.Val

open Idealize.ShloMosaic Idealize.ShloMosaic.TcCoe Idealize.SL.Sem Idealize.ShloMosaic.StableHlo

set_option maxRecDepth 16384 in
theorem glue0_v1 (Vk : KVal) (Vr : RVal)
    (h1 : Vk (Proc.devRef .tc Cert.KernelIdeal.main_arg1) = Vr (Proc.devRef .tc Cert.ReferenceIdeal.main_arg1)) :
    after Cert.KernelIdeal.Gen.hostOps0 Vk (Proc.devRef .tc Cert.KernelIdeal.main_v1) = after rH0 Vr (Proc.devRef .tc Cert.ReferenceIdeal.main_v1) := by
  simp only [Cert.KernelIdeal.Gen.hostOps0, rH0]
  after_results_simp
  rw [h1]
  rfl

set_option maxRecDepth 16384 in
theorem glue0_v3 (Vk : KVal) (Vr : RVal)
    (h1 : Vk (Proc.devRef .tc Cert.KernelIdeal.main_arg1) = Vr (Proc.devRef .tc Cert.ReferenceIdeal.main_arg1)) :
    after Cert.KernelIdeal.Gen.hostOps0 Vk (Proc.devRef .tc Cert.KernelIdeal.main_v3) = after rH0 Vr (Proc.devRef .tc Cert.ReferenceIdeal.main_v3) := by
  simp only [Cert.KernelIdeal.Gen.hostOps0, rH0]
  after_results_simp
  rw [h1]
  rfl

set_option maxRecDepth 16384 in
theorem glue0_v17 (Vk : KVal) (Vr : RVal)
    (h0 : Vk (Proc.devRef .tc Cert.KernelIdeal.main_arg0) = Vr (Proc.devRef .tc Cert.ReferenceIdeal.main_arg0))
    (h1 : Vk (Proc.devRef .tc Cert.KernelIdeal.main_arg1) = Vr (Proc.devRef .tc Cert.ReferenceIdeal.main_arg1))
    (h9 : Vk (Proc.devRef .tc Cert.KernelIdeal.main_arg9) = Vr (Proc.devRef .tc Cert.ReferenceIdeal.main_arg9)) :
    after Cert.KernelIdeal.Gen.hostOps0 Vk (Proc.devRef .tc Cert.KernelIdeal.main_v17) = after rH0 Vr (Proc.devRef .tc Cert.ReferenceIdeal.main_v17) := by
  simp only [Cert.KernelIdeal.Gen.hostOps0, rH0]
  after_results_simp
  rw [h0, h1, h9]
  rfl

end Cert.Val

end
-- ==== Proof.Val.Glue1.lean ====
/- Host stretch 1 of the two programs (the operations between layer 0's dense part and layer 1's): the seven operands
   of layer 1's dense part — the combined features (the previous layer's output scaled by one plus the layer's
   epsilon, plus its neighbour sum by gather and scatter-add over the edge endpoints) and the six parameter rows
   sliced from the stacked parameters — have the same values in both programs when the previous layer's output, the
   edge endpoints and the stacked parameters agree. The two programs run these operations in different orders; the
   values are compared buffer by buffer, each read back as its operations' composed term. -/
import proofs.«145887_j33578054320560_2_alg».proof.Proof.Val.GlueBase

noncomputable section

namespace Cert.Val

open Idealize.ShloMosaic Idealize.ShloMosaic.TcCoe Idealize.SL.Sem Idealize.ShloMosaic.StableHlo

set_option maxRecDepth 16384 in
theorem glue1_W (Vk : KVal) (Vr : RVal)
    (ha : Vk (Proc.devRef .tc Cert.KernelIdeal.main_arg10) = Vr (Proc.devRef .tc Cert.ReferenceIdeal.main_arg10)) :
    after Cert.KernelIdeal.Gen.hostOps1 Vk (Proc.devRef .tc Cert.KernelIdeal.main_v36) = after rH1 Vr (Proc.devRef .tc Cert.ReferenceIdeal.main_v38) := by
  simp only [Cert.KernelIdeal.Gen.hostOps1, rH1]
  after_results_simp
  rw [ha]
  rfl

set_option maxRecDepth 16384 in
theorem glue1_b (Vk : KVal) (Vr : RVal)
    (ha : Vk (Proc.devRef .tc Cert.KernelIdeal.main_arg11) = Vr (Proc.devRef .tc Cert.ReferenceIdeal.main_arg11)) :
    after Cert.KernelIdeal.Gen.hostOps1 Vk (Proc.devRef .tc Cert.KernelIdeal.main_v38) = after rH1 Vr (Proc.devRef .tc Cert.ReferenceIdeal.main_v40) := by
  simp only [Cert.KernelIdeal.Gen.hostOps1, rH1]
  after_results_simp
  rw [ha]
  rfl

set_option maxRecDepth 16384 in
theorem glue1_g (Vk : KVal) (Vr : RVal)
    (ha : Vk (Proc.devRef .tc Cert.KernelIdeal.main_arg12) = Vr (Proc.devRef .tc Cert.ReferenceIdeal.main_arg12)) :
    after Cert.KernelIdeal.Gen.hostOps1 Vk (Proc.devRef .tc Cert.KernelIdeal.main_v40) = after rH1 Vr (Proc.devRef .tc Cert.ReferenceIdeal.main_v42) := by
  simp only [Cert.KernelIdeal.Gen.hostOps1, rH1]
  after_results_simp
  rw [ha]
  rfl

set_option maxRecDepth 16384 in
theorem glue1_be (Vk : KVal) (Vr : RVal)
    (ha : Vk (Proc.devRef .tc Cert.KernelIdeal.main_arg13) = Vr (Proc.devRef .tc Cert.ReferenceIdeal.main_arg13)) :
    after Cert.KernelIdeal.Gen.hostOps1 Vk (Proc.devRef .tc Cert.KernelIdeal.main_v42) = after rH1 Vr (Proc.devRef .tc Cert.ReferenceIdeal.main_v44) := by
  simp only [Cert.KernelIdeal.Gen.hostOps1, rH1]
  after_results_simp
  rw [ha]
  rfl

set_option maxRecDepth 16384 in
theorem glue1_m (Vk : KVal) (Vr : RVal)
    (ha : Vk (Proc.devRef .tc Cert.KernelIdeal.main_arg14) = Vr (Proc.devRef .tc Cert.ReferenceIdeal.main_arg14)) :
    after Cert.KernelIdeal.Gen.hostOps1 Vk (Proc.devRef .tc Cert.KernelIdeal.main_v44) = after rH1 Vr (Proc.devRef .tc Cert.ReferenceIdeal.main_v46) := by
  simp only [Cert.KernelIdeal.Gen.hostOps1, rH1]
  after_results_simp
  rw [ha]
  rfl

set_option maxRecDepth 16384 in
theorem glue1_v (Vk : KVal) (Vr : RVal)
    (ha : Vk (Proc.devRef .tc Cert.KernelIdeal.main_arg15) = Vr (Proc.devRef .tc Cert.ReferenceIdeal.main_arg15)) :
    after Cert.KernelIdeal.Gen.hostOps1 Vk (Proc.devRef .tc Cert.KernelIdeal.main_v46) = after rH1 Vr (Proc.devRef .tc Cert.ReferenceIdeal.main_v48) := by
  simp only [Cert.KernelIdeal.Gen.hostOps1, rH1]
  after_results_simp
  rw [ha]
  rfl

set_option maxRecDepth 16384 in
theorem glue1_x (Vk : KVal) (Vr : RVal)
    (hin : Vk (Proc.devRef .tc Cert.KernelIdeal.main_v18) = Vr (Proc.devRef .tc Cert.ReferenceIdeal.main_v36))
    (h1 : Vk (Proc.devRef .tc Cert.KernelIdeal.main_v1) = Vr (Proc.devRef .tc Cert.ReferenceIdeal.main_v1))
    (h3 : Vk (Proc.devRef .tc Cert.KernelIdeal.main_v3) = Vr (Proc.devRef .tc Cert.ReferenceIdeal.main_v3))
    (ha : Vk (Proc.devRef .tc Cert.KernelIdeal.main_arg16) = Vr (Proc.devRef .tc Cert.ReferenceIdeal.main_arg16)) :
    after Cert.KernelIdeal.Gen.hostOps1 Vk (Proc.devRef .tc Cert.KernelIdeal.main_v34) = after rH1 Vr (Proc.devRef .tc Cert.ReferenceIdeal.main_v64) := by
  simp only [Cert.KernelIdeal.Gen.hostOps1, rH1]
  after_results_simp
  rw [hin, h1, h3, ha]
  rfl

end Cert.Val

end
-- ==== Proof.Val.Glue2.lean ====
/- Host stretch 2 of the two programs (the operations between layer 1's dense part and layer 2's): the seven operands
   of layer 2's dense part — the combined features (the previous layer's output scaled by one plus the layer's
   epsilon, plus its neighbour sum by gather and scatter-add over the edge endpoints) and the six parameter rows
   sliced from the stacked parameters — have the same values in both programs when the previous layer's output, the
   edge endpoints and the stacked parameters agree. The two programs run these operations in different orders; the
   values are compared buffer by buffer, each read back as its operations' composed term. -/
import proofs.«145887_j33578054320560_2_alg».proof.Proof.Val.GlueBase

noncomputable section

namespace Cert.Val

open Idealize.ShloMosaic Idealize.ShloMosaic.TcCoe Idealize.SL.Sem Idealize.ShloMosaic.StableHlo

set_option maxRecDepth 16384 in
theorem glue2_W (Vk : KVal) (Vr : RVal)
    (ha : Vk (Proc.devRef .tc Cert.KernelIdeal.main_arg10) = Vr (Proc.devRef .tc Cert.ReferenceIdeal.main_arg10)) :
    after Cert.KernelIdeal.Gen.hostOps2 Vk (Proc.devRef .tc Cert.KernelIdeal.main_v65) = after rH2 Vr (Proc.devRef .tc Cert.ReferenceIdeal.main_v85) := by
  simp only [Cert.KernelIdeal.Gen.hostOps2, rH2]
  after_results_simp
  rw [ha]
  rfl

set_option maxRecDepth 16384 in
theorem glue2_b (Vk : KVal) (Vr : RVal)
    (ha : Vk (Proc.devRef .tc Cert.KernelIdeal.main_arg11) = Vr (Proc.devRef .tc Cert.ReferenceIdeal.main_arg11)) :
    after Cert.KernelIdeal.Gen.hostOps2 Vk (Proc.devRef .tc Cert.KernelIdeal.main_v67) = after rH2 Vr (Proc.devRef .tc Cert.ReferenceIdeal.main_v87) := by
  simp only [Cert.KernelIdeal.Gen.hostOps2, rH2]
  after_results_simp
  rw [ha]
  rfl

set_option maxRecDepth 16384 in
theorem glue2_g (Vk : KVal) (Vr : RVal)
    (ha : Vk (Proc.devRef .tc Cert.KernelIdeal.main_arg12) = Vr (Proc.devRef .tc Cert.ReferenceIdeal.main_arg12)) :
    after Cert.KernelIdeal.Gen.hostOps2 Vk (Proc.devRef .tc Cert.KernelIdeal.main_v69) = after rH2 Vr (Proc.devRef .tc Cert.ReferenceIdeal.main_v89) := by
  simp only [Cert.KernelIdeal.Gen.hostOps2, rH2]
  after_results_simp
  rw [ha]
  rfl

set_option maxRecDepth 16384 in
theorem glue2_be (Vk : KVal) (Vr : RVal)
    (ha : Vk (Proc.devRef .tc Cert.KernelIdeal.main_arg13) = Vr (Proc.devRef .tc Cert.ReferenceIdeal.main_arg13)) :
    after Cert.KernelIdeal.Gen.hostOps2 Vk (Proc.devRef .tc Cert.KernelIdeal.main_v71) = after rH2 Vr (Proc.devRef .tc Cert.ReferenceIdeal.main_v91) := by
  simp only [Cert.KernelIdeal.Gen.hostOps2, rH2]
  after_results_simp
  rw [ha]
  rfl

set_option maxRecDepth 16384 in
theorem glue2_m (Vk : KVal) (Vr : RVal)
    (ha : Vk (Proc.devRef .tc Cert.KernelIdeal.main_arg14) = Vr (Proc.devRef .tc Cert.ReferenceIdeal.main_arg14)) :
    after Cert.KernelIdeal.Gen.hostOps2 Vk (Proc.devRef .tc Cert.KernelIdeal.main_v73) = after rH2 Vr (Proc.devRef .tc Cert.ReferenceIdeal.main_v93) := by
  simp only [Cert.KernelIdeal.Gen.hostOps2, rH2]
  after_results_simp
  rw [ha]
  rfl

set_option maxRecDepth 16384 in
theorem glue2_v (Vk : KVal) (Vr : RVal)
    (ha : Vk (Proc.devRef .tc Cert.KernelIdeal.main_arg15) = Vr (Proc.devRef .tc Cert.ReferenceIdeal.main_arg15)) :
    after Cert.KernelIdeal.Gen.hostOps2 Vk (Proc.devRef .tc Cert.KernelIdeal.main_v75) = after rH2 Vr (Proc.devRef .tc Cert.ReferenceIdeal.main_v95) := by
  simp only [Cert.KernelIdeal.Gen.hostOps2, rH2]
  after_results_simp
  rw [ha]
  rfl

set_option maxRecDepth 16384 in
theorem glue2_x (Vk : KVal) (Vr : RVal)
    (hin : Vk (Proc.devRef .tc Cert.KernelIdeal.main_v47) = Vr (Proc.devRef .tc Cert.ReferenceIdeal.main_v83))
    (h1 : Vk (Proc.devRef .tc Cert.KernelIdeal.main_v1) = Vr (Proc.devRef .tc Cert.ReferenceIdeal.main_v1))
    (h3 : Vk (Proc.devRef .tc Cert.KernelIdeal.main_v3) = Vr (Proc.devRef .tc Cert.ReferenceIdeal.main_v3))
    (ha : Vk (Proc.devRef .tc Cert.KernelIdeal.main_arg16) = Vr (Proc.devRef .tc Cert.ReferenceIdeal.main_arg16)) :
    after Cert.KernelIdeal.Gen.hostOps2 Vk (Proc.devRef .tc Cert.KernelIdeal.main_v63) = after rH2 Vr (Proc.devRef .tc Cert.ReferenceIdeal.main_v111) := by
  simp only [Cert.KernelIdeal.Gen.hostOps2, rH2]
  after_results_simp
  rw [hin, h1, h3, ha]
  rfl

end Cert.Val

end
-- ==== Proof.Val.Glue3.lean ====
/- Host stretch 3 of the two programs (the operations between layer 2's dense part and layer 3's): the seven operands
   of layer 3's dense part — the combined features (the previous layer's output scaled by one plus the layer's
   epsilon, plus its neighbour sum by gather and scatter-add over the edge endpoints) and the six parameter rows
   sliced from the stacked parameters — have the same values in both programs when the previous layer's output, the
   edge endpoints and the stacked parameters agree. The two programs run these operations in different orders; the
   values are compared buffer by buffer, each read back as its operations' composed term. -/
import proofs.«145887_j33578054320560_2_alg».proof.Proof.Val.GlueBase

noncomputable section

namespace Cert.Val

open Idealize.ShloMosaic Idealize.ShloMosaic.TcCoe Idealize.SL.Sem Idealize.ShloMosaic.StableHlo

set_option maxRecDepth 16384 in
theorem glue3_W (Vk : KVal) (Vr : RVal)
    (ha : Vk (Proc.devRef .tc Cert.KernelIdeal.main_arg10) = Vr (Proc.devRef .tc Cert.ReferenceIdeal.main_arg10)) :
    after Cert.KernelIdeal.Gen.hostOps3 Vk (Proc.devRef .tc Cert.KernelIdeal.main_v94) = after rH3 Vr (Proc.devRef .tc Cert.ReferenceIdeal.main_v132) := by
  simp only [Cert.KernelIdeal.Gen.hostOps3, rH3]
  after_results_simp
  rw [ha]
  rfl

set_option maxRecDepth 16384 in
theorem glue3_b (Vk : KVal) (Vr : RVal)
    (ha : Vk (Proc.devRef .tc Cert.KernelIdeal.main_arg11) = Vr (Proc.devRef .tc Cert.ReferenceIdeal.main_arg11)) :
    after Cert.KernelIdeal.Gen.hostOps3 Vk (Proc.devRef .tc Cert.KernelIdeal.main_v96) = after rH3 Vr (Proc.devRef .tc Cert.ReferenceIdeal.main_v134) := by
  simp only [Cert.KernelIdeal.Gen.hostOps3, rH3]
  after_results_simp
  rw [ha]
  rfl

set_option maxRecDepth 16384 in
theorem glue3_g (Vk : KVal) (Vr : RVal)
    (ha : Vk (Proc.devRef .tc Cert.KernelIdeal.main_arg12) = Vr (Proc.devRef .tc Cert.ReferenceIdeal.main_arg12)) :
    after Cert.KernelIdeal.Gen.hostOps3 Vk (Proc.devRef .tc Cert.KernelIdeal.main_v98) = after rH3 Vr (Proc.devRef .tc Cert.ReferenceIdeal.main_v136) := by
  simp only [Cert.KernelIdeal.Gen.hostOps3, rH3]
  after_results_simp
  rw [ha]
  rfl

set_option maxRecDepth 16384 in
theorem glue3_be (Vk : KVal) (Vr : RVal)
    (ha : Vk (Proc.devRef .tc Cert.KernelIdeal.main_arg13) = Vr (Proc.devRef .tc Cert.ReferenceIdeal.main_arg13)) :
    after Cert.KernelIdeal.Gen.hostOps3 Vk (Proc.devRef .tc Cert.KernelIdeal.main_v100) = after rH3 Vr (Proc.devRef .tc Cert.ReferenceIdeal.main_v138) := by
  simp only [Cert.KernelIdeal.Gen.hostOps3, rH3]
  after_results_simp
  rw [ha]
  rfl

set_option maxRecDepth 16384 in
theorem glue3_m (Vk : KVal) (Vr : RVal)
    (ha : Vk (Proc.devRef .tc Cert.KernelIdeal.main_arg14) = Vr (Proc.devRef .tc Cert.ReferenceIdeal.main_arg14)) :
    after Cert.KernelIdeal.Gen.hostOps3 Vk (Proc.devRef .tc Cert.KernelIdeal.main_v102) = after rH3 Vr (Proc.devRef .tc Cert.ReferenceIdeal.main_v140) := by
  simp only [Cert.KernelIdeal.Gen.hostOps3, rH3]
  after_results_simp
  rw [ha]
  rfl

set_option maxRecDepth 16384 in
theorem glue3_v (Vk : KVal) (Vr : RVal)
    (ha : Vk (Proc.devRef .tc Cert.KernelIdeal.main_arg15) = Vr (Proc.devRef .tc Cert.ReferenceIdeal.main_arg15)) :
    after Cert.KernelIdeal.Gen.hostOps3 Vk (Proc.devRef .tc Cert.KernelIdeal.main_v104) = after rH3 Vr (Proc.devRef .tc Cert.ReferenceIdeal.main_v142) := by
  simp only [Cert.KernelIdeal.Gen.hostOps3, rH3]
  after_results_simp
  rw [ha]
  rfl

set_option maxRecDepth 16384 in
theorem glue3_x (Vk : KVal) (Vr : RVal)
    (hin : Vk (Proc.devRef .tc Cert.KernelIdeal.main_v76) = Vr (Proc.devRef .tc Cert.ReferenceIdeal.main_v130))
    (h1 : Vk (Proc.devRef .tc Cert.KernelIdeal.main_v1) = Vr (Proc.devRef .tc Cert.ReferenceIdeal.main_v1))
    (h3 : Vk (Proc.devRef .tc Cert.KernelIdeal.main_v3) = Vr (Proc.devRef .tc Cert.ReferenceIdeal.main_v3))
    (ha : Vk (Proc.devRef .tc Cert.KernelIdeal.main_arg16) = Vr (Proc.devRef .tc Cert.ReferenceIdeal.main_arg16)) :
    after Cert.KernelIdeal.Gen.hostOps3 Vk (Proc.devRef .tc Cert.KernelIdeal.main_v92) = after rH3 Vr (Proc.devRef .tc Cert.ReferenceIdeal.main_v158) := by
  simp only [Cert.KernelIdeal.Gen.hostOps3, rH3]
  after_results_simp
  rw [hin, h1, h3, ha]
  rfl

end Cert.Val

end
-- ==== Proof.Val.Glue4.lean ====
/- Host stretch 4 of the two programs (the operations between layer 3's dense part and layer 4's): the seven operands
   of layer 4's dense part — the combined features (the previous layer's output scaled by one plus the layer's
   epsilon, plus its neighbour sum by gather and scatter-add over the edge endpoints) and the six parameter rows
   sliced from the stacked parameters — have the same values in both programs when the previous layer's output, the
   edge endpoints and the stacked parameters agree. The two programs run these operations in different orders; the
   values are compared buffer by buffer, each read back as its operations' composed term. -/
import proofs.«145887_j33578054320560_2_alg».proof.Proof.Val.GlueBase

noncomputable section

namespace Cert.Val

open Idealize.ShloMosaic Idealize.ShloMosaic.TcCoe Idealize.SL.Sem Idealize.ShloMosaic.StableHlo

set_option maxRecDepth 16384 in
theorem glue4_W (Vk : KVal) (Vr : RVal)
    (ha : Vk (Proc.devRef .tc Cert.KernelIdeal.main_arg10) = Vr (Proc.devRef .tc Cert.ReferenceIdeal.main_arg10)) :
    after Cert.KernelIdeal.Gen.hostOps4 Vk (Proc.devRef .tc Cert.KernelIdeal.main_v123) = after rH4 Vr (Proc.devRef .tc Cert.ReferenceIdeal.main_v179) := by
  simp only [Cert.KernelIdeal.Gen.hostOps4, rH4]
  after_results_simp
  rw [ha]
  rfl

set_option maxRecDepth 16384 in
theorem glue4_b (Vk : KVal) (Vr : RVal)
    (ha : Vk (Proc.devRef .tc Cert.KernelIdeal.main_arg11) = Vr (Proc.devRef .tc Cert.ReferenceIdeal.main_arg11)) :
    after Cert.KernelIdeal.Gen.hostOps4 Vk (Proc.devRef .tc Cert.KernelIdeal.main_v125) = after rH4 Vr (Proc.devRef .tc Cert.ReferenceIdeal.main_v181) := by
  simp only [Cert.KernelIdeal.Gen.hostOps4, rH4]
  after_results_simp
  rw [ha]
  rfl

set_option maxRecDepth 16384 in
theorem glue4_g (Vk : KVal) (Vr : RVal)
    (ha : Vk (Proc.devRef .tc Cert.KernelIdeal.main_arg12) = Vr (Proc.devRef .tc Cert.ReferenceIdeal.main_arg12)) :
    after Cert.KernelIdeal.Gen.hostOps4 Vk (Proc.devRef .tc Cert.KernelIdeal.main_v127) = after rH4 Vr (Proc.devRef .tc Cert.ReferenceIdeal.main_v183) := by
  simp only [Cert.KernelIdeal.Gen.hostOps4, rH4]
  after_results_simp
  rw [ha]
  rfl

set_option maxRecDepth 16384 in
theorem glue4_be (Vk : KVal) (Vr : RVal)
    (ha : Vk (Proc.devRef .tc Cert.KernelIdeal.main_arg13) = Vr (Proc.devRef .tc Cert.ReferenceIdeal.main_arg13)) :
    after Cert.KernelIdeal.Gen.hostOps4 Vk (Proc.devRef .tc Cert.KernelIdeal.main_v129) = after rH4 Vr (Proc.devRef .tc Cert.ReferenceIdeal.main_v185) := by
  simp only [Cert.KernelIdeal.Gen.hostOps4, rH4]
  after_results_simp
  rw [ha]
  rfl

set_option maxRecDepth 16384 in
theorem glue4_m (Vk : KVal) (Vr : RVal)
    (ha : Vk (Proc.devRef .tc Cert.KernelIdeal.main_arg14) = Vr (Proc.devRef .tc Cert.ReferenceIdeal.main_arg14)) :
    after Cert.KernelIdeal.Gen.hostOps4 Vk (Proc.devRef .tc Cert.KernelIdeal.main_v131) = after rH4 Vr (Proc.devRef .tc Cert.ReferenceIdeal.main_v187) := by
  simp only [Cert.KernelIdeal.Gen.hostOps4, rH4]
  after_results_simp
  rw [ha]
  rfl

set_option maxRecDepth 16384 in
theorem glue4_v (Vk : KVal) (Vr : RVal)
    (ha : Vk (Proc.devRef .tc Cert.KernelIdeal.main_arg15) = Vr (Proc.devRef .tc Cert.ReferenceIdeal.main_arg15)) :
    after Cert.KernelIdeal.Gen.hostOps4 Vk (Proc.devRef .tc Cert.KernelIdeal.main_v133) = after rH4 Vr (Proc.devRef .tc Cert.ReferenceIdeal.main_v189) := by
  simp only [Cert.KernelIdeal.Gen.hostOps4, rH4]
  after_results_simp
  rw [ha]
  rfl

set_option maxRecDepth 16384 in
theorem glue4_x (Vk : KVal) (Vr : RVal)
    (hin : Vk (Proc.devRef .tc Cert.KernelIdeal.main_v105) = Vr (Proc.devRef .tc Cert.ReferenceIdeal.main_v177))
    (h1 : Vk (Proc.devRef .tc Cert.KernelIdeal.main_v1) = Vr (Proc.devRef .tc Cert.ReferenceIdeal.main_v1))
    (h3 : Vk (Proc.devRef .tc Cert.KernelIdeal.main_v3) = Vr (Proc.devRef .tc Cert.ReferenceIdeal.main_v3))
    (ha : Vk (Proc.devRef .tc Cert.KernelIdeal.main_arg16) = Vr (Proc.devRef .tc Cert.ReferenceIdeal.main_arg16)) :
    after Cert.KernelIdeal.Gen.hostOps4 Vk (Proc.devRef .tc Cert.KernelIdeal.main_v121) = after rH4 Vr (Proc.devRef .tc Cert.ReferenceIdeal.main_v205) := by
  simp only [Cert.KernelIdeal.Gen.hostOps4, rH4]
  after_results_simp
  rw [hin, h1, h3, ha]
  rfl

end Cert.Val

end
-- ==== Proof.Val.GlueTail.lean ====
/- The host stretches between the last layer and the classifier in the two programs (the pooling by segment, the
   node counts, the repeat of the pooled rows back to the nodes with its cumulative sums, clip and take, and the
   concatenation of the five layers' outputs with the repeated pooled rows): the concatenated features have the same
   value in both programs when the five layers' outputs and the segment ids agree. The reference's operations are cut
   where the kernel program's eleven stretches end; stretch by stretch, the one buffer a stretch hands on has the same
   contents in both programs given that of the buffers it reads — each side read back as the stretch's operations'
   composed term over those buffers — and a buffer a stretch does not write keeps its contents. The concatenation is
   read with each operand's contents at its own reference (`nary6_result`). -/
import proofs.«145887_j33578054320560_2_alg».proof.Proof.Val.GlueBase
import proofs.«145887_j33578054320560_2_alg».proof.Proof.Gen.KernelIdeal.Regions

noncomputable section

namespace Cert.Val

open Idealize.ShloMosaic Idealize.ShloMosaic.TcCoe Idealize.SL.Sem Idealize.ShloMosaic.StableHlo

section Nary6
variable {τ : Topo} {sig : RefSig} {Val : EltTy → Type} {x a b c d e y : Ref sig .tc}

/-- `nary` over a literal family of six references: the result with each operand's contents at its own reference. -/
theorem nary6_result
    (f : ((k : Fin 6) → ((![x, a, b, c, d, e] : Fin 6 → Ref sig .tc) k).ty.Contents Val) → y.ty.Contents Val) (hxs hy)
    (V : Valuation τ sig Val) :
    (nary (τ := τ) ![x, a, b, c, d, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc d)) (Fin.cons (V (Proc.devRef .tc e)) (fun i => i.elim0))))))) := by
  rw [nary_result]; congr 1; funext k; fin_cases k <;> rfl
end Nary6

section Lists
open Cert.ReferenceIdeal Cert.ReferenceIdeal.Gen
variable {F : FTy → Type} [FloatOps F]

/-- The reference's operations matching the kernel program's stretch 0 after the last layer. -/
abbrev rT0 : List (HloOp τ sig (Elt F)) :=
  [ StableHlo.nullary main_cst_33 (constant S_ .f32 0x00000000#32),
    StableHlo.unary main_cst_33 main_v225 (broadcastInDim S2000x128 ![] bcast_S_S2000x128 : (⟨S_, .f32⟩ : BufTy).Contents (Elt F) → (⟨S2000x128, .f32⟩ : BufTy).Contents (Elt F)),
    StableHlo.unary main_arg2 main_v226 (broadcastInDim S100000x1 ![0] bcast_S100000_S100000x1_0 : (⟨S100000, .i32⟩ : BufTy).Contents (Elt F) → (⟨S100000x1, .i32⟩ : BufTy).Contents (Elt F)),
    StableHlo.ternary main_v225 main_v226 main_v224 main_v227 ((fun x i u => Host.scatterAdd scatter_S2000x128_S100000x1_S100000x128_1_0_0_1 x i u) : (⟨S2000x128, .f32⟩ : BufTy).Contents (Elt F) → (⟨S100000x1, .i32⟩ : BufTy).Contents (Elt F) → (⟨S100000x128, .f32⟩ : BufTy).Contents (Elt F) → (⟨S2000x128, .f32⟩ : BufTy).Contents (Elt F)),
    StableHlo.nullary main_c_34 (constantI S_ 32 0#32),
    StableHlo.unary main_c_34 main_v228 (broadcastInDim S2000 ![] bcast_S_S2000 : (⟨S_, .i32⟩ : BufTy).Contents (Elt F) → (⟨S2000, .i32⟩ : BufTy).Contents (Elt F)),
    StableHlo.nullary main_c_35 (constantI S_ 32 0#32) ]
abbrev rT0_W : List (Ref sig .tc) := [main_cst_33, main_v225, main_v226, main_v227, main_c_34, main_v228, main_c_35]
set_option maxRecDepth 16384 in
theorem rT0_writes : (rT0 : List (HloOp τ sig (Elt F))).Forall fun op => op.writes ⊆ (rT0_W.map (Proc.devRef (τ := τ) .tc)).toFinset := by
  simp only [List.Forall]
  refine ⟨?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 1 after the last layer. -/
abbrev rT1 : List (HloOp τ sig (Elt F)) :=
  [ StableHlo.TRef.unary (.of main_c_35 : StableHlo.TRef sig ⟨S_, .i32⟩) main_call10.v0 id,
    StableHlo.TRef.unary main_call10.v0 main_call10.v1 (broadcastInDim S100000 ![] bcast_S_S100000),
    StableHlo.TRef.binary main_call10.v1 (.of main_arg2 : StableHlo.TRef sig ⟨S100000, .i32⟩) main_call10.v2 maxsi ]
abbrev rT1_W : List (Ref sig .tc) := [main_call10.v0.ref, main_call10.v1.ref, main_call10.v2.ref]
set_option maxRecDepth 16384 in
theorem rT1_writes : (rT1 : List (HloOp τ sig (Elt F))).Forall fun op => op.writes ⊆ (rT1_W.map (Proc.devRef (τ := τ) .tc)).toFinset := by
  simp only [List.Forall]
  refine ⟨?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 2 after the last layer. -/
abbrev rT2 : List (HloOp τ sig (Elt F)) :=
  [ StableHlo.nullary main_c_36 (constantI S_ 32 0#32),
    StableHlo.unary main_c_36 main_v230 (broadcastInDim S100000 ![] bcast_S_S100000 : (⟨S_, .i32⟩ : BufTy).Contents (Elt F) → (⟨S100000, .i32⟩ : BufTy).Contents (Elt F)),
    StableHlo.binary main_v229 main_v230 main_v231 (cmpi .slt : (⟨S100000, .i32⟩ : BufTy).Contents (Elt F) → (⟨S100000, .i32⟩ : BufTy).Contents (Elt F) → (⟨S100000, .i1⟩ : BufTy).Contents (Elt F)),
    StableHlo.nullary main_c_37 (constantI S_ 32 2000#32),
    StableHlo.unary main_c_37 main_v232 (broadcastInDim S100000 ![] bcast_S_S100000 : (⟨S_, .i32⟩ : BufTy).Contents (Elt F) → (⟨S100000, .i32⟩ : BufTy).Contents (Elt F)),
    StableHlo.binary main_v229 main_v232 main_v233 (addi : (⟨S100000, .i32⟩ : BufTy).Contents (Elt F) → (⟨S100000, .i32⟩ : BufTy).Contents (Elt F) → (⟨S100000, .i32⟩ : BufTy).Contents (Elt F)),
    StableHlo.ternary main_v231 main_v233 main_v229 main_v234 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v234 main_v235 (broadcastInDim S100000x1 ![0] bcast_S100000_S100000x1_0 : (⟨S100000, .i32⟩ : BufTy).Contents (Elt F) → (⟨S100000x1, .i32⟩ : BufTy).Contents (Elt F)),
    StableHlo.nullary main_c_38 (constantI S_ 32 1#32),
    StableHlo.unary main_c_38 main_v236 (broadcastInDim S100000 ![] bcast_S_S100000 : (⟨S_, .i32⟩ : BufTy).Contents (Elt F) → (⟨S100000, .i32⟩ : BufTy).Contents (Elt F)),
    StableHlo.ternary main_v228 main_v235 main_v236 main_v237 ((fun x i u => Host.scatter scatter_S2000_S100000x1_S100000_n_0_0_1 IntOp.addi x i u) : (⟨S2000, .i32⟩ : BufTy).Contents (Elt F) → (⟨S100000x1, .i32⟩ : BufTy).Contents (Elt F) → (⟨S100000, .i32⟩ : BufTy).Contents (Elt F) → (⟨S2000, .i32⟩ : BufTy).Contents (Elt F)) ]
abbrev rT2_W : List (Ref sig .tc) := [main_c_36, main_v230, main_v231, main_c_37, main_v232, main_v233, main_v234, main_v235, main_c_38, main_v236, main_v237]
set_option maxRecDepth 16384 in
theorem rT2_writes : (rT2 : List (HloOp τ sig (Elt F))).Forall fun op => op.writes ⊆ (rT2_W.map (Proc.devRef (τ := τ) .tc)).toFinset := by
  simp only [List.Forall]
  refine ⟨?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 3 after the last layer. -/
abbrev rT3 : List (HloOp τ sig (Elt F)) :=
  [ StableHlo.TRef.unary (.of main_v237 : StableHlo.TRef sig ⟨S2000, .i32⟩) main_call11.v0 (extractStridedSlice S1 ![1999] · slices_S2000_S1_1999),
    StableHlo.TRef.unary (.of main_v237 : StableHlo.TRef sig ⟨S2000, .i32⟩) main_call11.v1 (extractStridedSlice S1999 ![0] · slices_S2000_S1999_0),
    StableHlo.TRef.binary main_call11.v0 main_call11.v1 main_call11.v2 (fun a b => concatenate S2000 0 [⟨S1, a⟩, ⟨S1999, b⟩] concatenates_S1_S1999_S2000_d0) ]
abbrev rT3_W : List (Ref sig .tc) := [main_call11.v0.ref, main_call11.v1.ref, main_call11.v2.ref]
set_option maxRecDepth 16384 in
theorem rT3_writes : (rT3 : List (HloOp τ sig (Elt F))).Forall fun op => op.writes ⊆ (rT3_W.map (Proc.devRef (τ := τ) .tc)).toFinset := by
  simp only [List.Forall]
  refine ⟨?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 4 after the last layer. -/
abbrev rT4 : List (HloOp τ sig (Elt F)) :=
  [ StableHlo.nullary main_c_39 (constantI S_ 32 0#32),
    StableHlo.unary main_c_39 main_v239 (broadcastInDim S1 ![] bcast_S_S1 : (⟨S_, .i32⟩ : BufTy).Contents (Elt F) → (⟨S1, .i32⟩ : BufTy).Contents (Elt F)),
    StableHlo.nullary main_c_40 (constantI S_ 32 0#32),
    StableHlo.ternary main_v238 main_v239 main_c_40 main_v240 ((fun x i u => Host.scatter scatter_S2000_S1_S__n_0_0_0 (fun _ b => b) x i u) : (⟨S2000, .i32⟩ : BufTy).Contents (Elt F) → (⟨S1, .i32⟩ : BufTy).Contents (Elt F) → (⟨S_, .i32⟩ : BufTy).Contents (Elt F) → (⟨S2000, .i32⟩ : BufTy).Contents (Elt F)) ]
abbrev rT4_W : List (Ref sig .tc) := [main_c_39, main_v239, main_c_40, main_v240]
set_option maxRecDepth 16384 in
theorem rT4_writes : (rT4 : List (HloOp τ sig (Elt F))).Forall fun op => op.writes ⊆ (rT4_W.map (Proc.devRef (τ := τ) .tc)).toFinset := by
  simp only [List.Forall]
  refine ⟨?_, ?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 5 after the last layer. -/
abbrev rT5 : List (HloOp τ sig (Elt F)) :=
  [ StableHlo.TRef.nullary main_call12.call0.c (constantI S_ 32 0#32),
    StableHlo.TRef.unary main_call12.call0.c main_call12.call0.v0 (broadcastInDim S_ ![] bcast_S_S_),
    StableHlo.TRef.binary (.of main_v240 : StableHlo.TRef sig ⟨S2000, .i32⟩) main_call12.call0.v0 main_call12.call0.v1 (fun x v => Host.reduceWindow IntOp.addi ![2000] ![1] ![1999] ![0] x v reduceWindows_S2000_S2000_w2000s1p1999_0 h_S_) ]
abbrev rT5_W : List (Ref sig .tc) := [main_call12.call0.c.ref, main_call12.call0.v0.ref, main_call12.call0.v1.ref]
set_option maxRecDepth 16384 in
theorem rT5_writes : (rT5 : List (HloOp τ sig (Elt F))).Forall fun op => op.writes ⊆ (rT5_W.map (Proc.devRef (τ := τ) .tc)).toFinset := by
  simp only [List.Forall]
  refine ⟨?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 6 after the last layer. -/
abbrev rT6 : List (HloOp τ sig (Elt F)) :=
  [ StableHlo.nullary main_c_41 (constantI S_ 32 0#32),
    StableHlo.unary main_c_41 main_v242 (broadcastInDim S100000 ![] bcast_S_S100000 : (⟨S_, .i32⟩ : BufTy).Contents (Elt F) → (⟨S100000, .i32⟩ : BufTy).Contents (Elt F)),
    StableHlo.nullary main_c_42 (constantI S_ 32 0#32),
    StableHlo.unary main_c_42 main_v243 (broadcastInDim S2000 ![] bcast_S_S2000 : (⟨S_, .i32⟩ : BufTy).Contents (Elt F) → (⟨S2000, .i32⟩ : BufTy).Contents (Elt F)),
    StableHlo.binary main_v241 main_v243 main_v244 (cmpi .slt : (⟨S2000, .i32⟩ : BufTy).Contents (Elt F) → (⟨S2000, .i32⟩ : BufTy).Contents (Elt F) → (⟨S2000, .i1⟩ : BufTy).Contents (Elt F)),
    StableHlo.nullary main_c_43 (constantI S_ 32 100000#32),
    StableHlo.unary main_c_43 main_v245 (broadcastInDim S2000 ![] bcast_S_S2000 : (⟨S_, .i32⟩ : BufTy).Contents (Elt F) → (⟨S2000, .i32⟩ : BufTy).Contents (Elt F)),
    StableHlo.binary main_v241 main_v245 main_v246 (addi : (⟨S2000, .i32⟩ : BufTy).Contents (Elt F) → (⟨S2000, .i32⟩ : BufTy).Contents (Elt F) → (⟨S2000, .i32⟩ : BufTy).Contents (Elt F)),
    StableHlo.ternary main_v244 main_v246 main_v241 main_v247 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v247 main_v248 (broadcastInDim S2000x1 ![0] bcast_S2000_S2000x1_0 : (⟨S2000, .i32⟩ : BufTy).Contents (Elt F) → (⟨S2000x1, .i32⟩ : BufTy).Contents (Elt F)),
    StableHlo.nullary main_c_44 (constantI S_ 32 1#32),
    StableHlo.unary main_c_44 main_v249 (broadcastInDim S2000 ![] bcast_S_S2000 : (⟨S_, .i32⟩ : BufTy).Contents (Elt F) → (⟨S2000, .i32⟩ : BufTy).Contents (Elt F)),
    StableHlo.ternary main_v242 main_v248 main_v249 main_v250 ((fun x i u => Host.scatter scatter_S100000_S2000x1_S2000_n_0_0_1 IntOp.addi x i u) : (⟨S100000, .i32⟩ : BufTy).Contents (Elt F) → (⟨S2000x1, .i32⟩ : BufTy).Contents (Elt F) → (⟨S2000, .i32⟩ : BufTy).Contents (Elt F) → (⟨S100000, .i32⟩ : BufTy).Contents (Elt F)) ]
abbrev rT6_W : List (Ref sig .tc) := [main_c_41, main_v242, main_c_42, main_v243, main_v244, main_c_43, main_v245, main_v246, main_v247, main_v248, main_c_44, main_v249, main_v250]
set_option maxRecDepth 16384 in
theorem rT6_writes : (rT6 : List (HloOp τ sig (Elt F))).Forall fun op => op.writes ⊆ (rT6_W.map (Proc.devRef (τ := τ) .tc)).toFinset := by
  simp only [List.Forall]
  refine ⟨?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 7 after the last layer. -/
abbrev rT7 : List (HloOp τ sig (Elt F)) :=
  [ StableHlo.TRef.nullary main_call13.call0.c (constantI S_ 32 0#32),
    StableHlo.TRef.unary main_call13.call0.c main_call13.call0.v0 (broadcastInDim S_ ![] bcast_S_S_),
    StableHlo.TRef.binary (.of main_v250 : StableHlo.TRef sig ⟨S100000, .i32⟩) main_call13.call0.v0 main_call13.call0.v1 (fun x v => Host.reduceWindow IntOp.addi ![100000] ![1] ![99999] ![0] x v reduceWindows_S100000_S100000_w100000s1p99999_0 h_S_) ]
abbrev rT7_W : List (Ref sig .tc) := [main_call13.call0.c.ref, main_call13.call0.v0.ref, main_call13.call0.v1.ref]
set_option maxRecDepth 16384 in
theorem rT7_writes : (rT7 : List (HloOp τ sig (Elt F))).Forall fun op => op.writes ⊆ (rT7_W.map (Proc.devRef (τ := τ) .tc)).toFinset := by
  simp only [List.Forall]
  refine ⟨?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 8 after the last layer. -/
abbrev rT8 : List (HloOp τ sig (Elt F)) :=
  [ StableHlo.nullary main_c_45 (constantI S_ 32 1#32),
    StableHlo.unary main_c_45 main_v252 (broadcastInDim S100000 ![] bcast_S_S100000 : (⟨S_, .i32⟩ : BufTy).Contents (Elt F) → (⟨S100000, .i32⟩ : BufTy).Contents (Elt F)),
    StableHlo.binary main_v251 main_v252 main_v253 (subi : (⟨S100000, .i32⟩ : BufTy).Contents (Elt F) → (⟨S100000, .i32⟩ : BufTy).Contents (Elt F) → (⟨S100000, .i32⟩ : BufTy).Contents (Elt F)) ]
abbrev rT8_W : List (Ref sig .tc) := [main_c_45, main_v252, main_v253]
set_option maxRecDepth 16384 in
theorem rT8_writes : (rT8 : List (HloOp τ sig (Elt F))).Forall fun op => op.writes ⊆ (rT8_W.map (Proc.devRef (τ := τ) .tc)).toFinset := by
  simp only [List.Forall]
  refine ⟨?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 9 after the last layer. -/
abbrev rT9 : List (HloOp τ sig (Elt F)) :=
  [ StableHlo.TRef.nullary main_call14.c (constantI S_ 32 0#32),
    StableHlo.TRef.unary main_call14.c main_call14.v0 (broadcastInDim S100000 ![] bcast_S_S100000),
    StableHlo.TRef.binary (.of main_v253 : StableHlo.TRef sig ⟨S100000, .i32⟩) main_call14.v0 main_call14.v1 (cmpi .slt),
    StableHlo.TRef.nullary main_call14.c_0 (constantI S_ 32 2000#32),
    StableHlo.TRef.unary main_call14.c_0 main_call14.v2 (broadcastInDim S100000 ![] bcast_S_S100000),
    StableHlo.TRef.binary (.of main_v253 : StableHlo.TRef sig ⟨S100000, .i32⟩) main_call14.v2 main_call14.v3 addi,
    StableHlo.TRef.ternary main_call14.v1 main_call14.v3 (.of main_v253 : StableHlo.TRef sig ⟨S100000, .i32⟩) main_call14.call0.v0 select,
    StableHlo.TRef.unary main_call14.call0.v0 main_call14.v5 (broadcastInDim S100000x1 ![0] bcast_S100000_S100000x1_0),
    StableHlo.TRef.nullary main_call14.c_1 (constantI S1 32 1999#32),
    StableHlo.TRef.nullary main_call14.c_2 (constantI S_ 32 0#32),
    StableHlo.TRef.unary main_call14.c_2 main_call14.v6 (broadcastInDim S100000x1 ![] bcast_S_S100000x1),
    StableHlo.TRef.binary main_call14.v5 main_call14.v6 main_call14.v7 (cmpi .sge),
    StableHlo.TRef.unary main_call14.c_1 main_call14.v8 (broadcastInDim S1x1 ![1] bcast_S1_S1x1_1),
    StableHlo.TRef.unary main_call14.v8 main_call14.v9 (broadcastInDim S100000x1 ![0, 1] bcast_S1x1_S100000x1_0_1),
    StableHlo.TRef.binary main_call14.v5 main_call14.v9 main_call14.v10 (cmpi .sle),
    StableHlo.TRef.binary main_call14.v7 main_call14.v10 main_call14.v11 andi,
    StableHlo.TRef.nullary main_call14.c_3 (constantI S_ 1 1#1),
    StableHlo.TRef.binary main_call14.v11 main_call14.c_3 main_call14.v12 (fun x v => Host.reduce IntOp.andi x v reducesTo_S100000x1_S100000_d1 h_S_),
    StableHlo.TRef.binary (.of main_v227 : StableHlo.TRef sig ⟨S2000x128, .f32⟩) main_call14.v5 main_call14.v13 (fun x i => Host.gather gather_S2000x128_S100000x1_S100000x128_1_0_n_n_0_1_1128 x i),
    StableHlo.TRef.unary main_call14.v12 main_call14.v14 (broadcastInDim S100000x128 ![0] bcast_S100000_S100000x128_0),
    StableHlo.TRef.nullary main_call14.cst (constant S_ .f32 0x7FC00000#32),
    StableHlo.TRef.unary main_call14.cst main_call14.v15 (broadcastInDim S100000x128 ![] bcast_S_S100000x128),
    StableHlo.TRef.ternary main_call14.v14 main_call14.v13 main_call14.v15 main_call14.v16 select ]
abbrev rT9_W : List (Ref sig .tc) := [main_call14.c.ref, main_call14.v0.ref, main_call14.v1.ref, main_call14.c_0.ref, main_call14.v2.ref, main_call14.v3.ref, main_call14.call0.v0.ref, main_call14.v5.ref, main_call14.c_1.ref, main_call14.c_2.ref, main_call14.v6.ref, main_call14.v7.ref, main_call14.v8.ref, main_call14.v9.ref, main_call14.v10.ref, main_call14.v11.ref, main_call14.c_3.ref, main_call14.v12.ref, main_call14.v13.ref, main_call14.v14.ref, main_call14.cst.ref, main_call14.v15.ref, main_call14.v16.ref]
set_option maxRecDepth 16384 in
theorem rT9_writes : (rT9 : List (HloOp τ sig (Elt F))).Forall fun op => op.writes ⊆ (rT9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes,
      Finset.singleton_subset_iff, List.mem_toFinset]; exact List.mem_map_of_mem (by decide))

/-- The reference's operations matching the kernel program's stretch 10 after the last layer. -/
abbrev rT10 : List (HloOp τ sig (Elt F)) :=
  [ StableHlo.nary ![main_v36, main_v83, main_v130, main_v177, main_v224, main_v254] main_v255 (fun u => concatenate S100000x768 1 [⟨S100000x128, u 0⟩, ⟨S100000x128, u 1⟩, ⟨S100000x128, u 2⟩, ⟨S100000x128, u 3⟩, ⟨S100000x128, u 4⟩, ⟨S100000x128, u 5⟩] concatenates_S100000x128_S100000x128_S100000x128_S100000x128_S100000x128_S100000x128_S100000x768_d1) ]
abbrev rT10_W : List (Ref sig .tc) := [main_v255]
set_option maxRecDepth 16384 in
theorem rT10_writes : (rT10 : List (HloOp τ sig (Elt F))).Forall fun op => op.writes ⊆ (rT10_W.map (Proc.devRef (τ := τ) .tc)).toFinset := by
  simp only [List.Forall]
  (simp only [nullary_writes, unary_writes, binary_writes, ternary_writes, reshape_writes, nary_writes,
      Finset.singleton_subset_iff, List.mem_toFinset]; exact List.mem_map_of_mem (by decide))

set_option maxRecDepth 65536 in
theorem rTail_split : (rTail : List (HloOp τ sig (Elt F))) = rT0 ++ rT1 ++ rT2 ++ rT3 ++ rT4 ++ rT5 ++ rT6 ++ rT7 ++ rT8 ++ rT9 ++ rT10 := rfl
end Lists

/-! ## The stages of the two folds -/
abbrev kS0 (V : KVal) : KVal := V
abbrev kS1 (V : KVal) : KVal := after Cert.KernelIdeal.Gen.hostOps5 (kS0 V)
abbrev kS2 (V : KVal) : KVal := after Cert.KernelIdeal.Gen.hostOps5_1 (kS1 V)
abbrev kS3 (V : KVal) : KVal := after Cert.KernelIdeal.Gen.hostOps5_2 (kS2 V)
abbrev kS4 (V : KVal) : KVal := after Cert.KernelIdeal.Gen.hostOps5_3 (kS3 V)
abbrev kS5 (V : KVal) : KVal := after Cert.KernelIdeal.Gen.hostOps5_4 (kS4 V)
abbrev kS6 (V : KVal) : KVal := after Cert.KernelIdeal.Gen.hostOps5_5 (kS5 V)
abbrev kS7 (V : KVal) : KVal := after Cert.KernelIdeal.Gen.hostOps5_6 (kS6 V)
abbrev kS8 (V : KVal) : KVal := after Cert.KernelIdeal.Gen.hostOps5_7 (kS7 V)
abbrev kS9 (V : KVal) : KVal := after Cert.KernelIdeal.Gen.hostOps5_8 (kS8 V)
abbrev kS10 (V : KVal) : KVal := after Cert.KernelIdeal.Gen.hostOps5_9 (kS9 V)
abbrev kS11 (V : KVal) : KVal := after Cert.KernelIdeal.Gen.hostOps5_10 (kS10 V)
abbrev rS0 (V : RVal) : RVal := V
abbrev rS1 (V : RVal) : RVal := after rT0 (rS0 V)
abbrev rS2 (V : RVal) : RVal := after rT1 (rS1 V)
abbrev rS3 (V : RVal) : RVal := after rT2 (rS2 V)
abbrev rS4 (V : RVal) : RVal := after rT3 (rS3 V)
abbrev rS5 (V : RVal) : RVal := after rT4 (rS4 V)
abbrev rS6 (V : RVal) : RVal := after rT5 (rS5 V)
abbrev rS7 (V : RVal) : RVal := after rT6 (rS6 V)
abbrev rS8 (V : RVal) : RVal := after rT7 (rS7 V)
abbrev rS9 (V : RVal) : RVal := after rT8 (rS8 V)
abbrev rS10 (V : RVal) : RVal := after rT9 (rS9 V)
abbrev rS11 (V : RVal) : RVal := after rT10 (rS10 V)

theorem rTail_after (V : RVal) : after rTail V = rS11 V := by
  rw [rTail_split]
  simp only [after_append]

theorem kKeep0 (V : KVal) (r : Ref Cert.KernelIdeal.sig .tc) (h : r ∉ Cert.KernelIdeal.Gen.hostOps5_W) : kS1 V (Proc.devRef .tc r) = kS0 V (Proc.devRef .tc r) :=
  after_of_writes_sub Cert.KernelIdeal.Gen.hostOps5 _ Cert.KernelIdeal.Gen.hostOps5_writes h
theorem rKeep0 (V : RVal) (r : Ref Cert.ReferenceIdeal.sig .tc) (h : r ∉ rT0_W) : rS1 V (Proc.devRef .tc r) = rS0 V (Proc.devRef .tc r) :=
  after_of_writes_sub rT0 _ rT0_writes h
theorem kKeep1 (V : KVal) (r : Ref Cert.KernelIdeal.sig .tc) (h : r ∉ Cert.KernelIdeal.Gen.hostOps5_1_W) : kS2 V (Proc.devRef .tc r) = kS1 V (Proc.devRef .tc r) :=
  after_of_writes_sub Cert.KernelIdeal.Gen.hostOps5_1 _ Cert.KernelIdeal.Gen.hostOps5_1_writes h
theorem rKeep1 (V : RVal) (r : Ref Cert.ReferenceIdeal.sig .tc) (h : r ∉ rT1_W) : rS2 V (Proc.devRef .tc r) = rS1 V (Proc.devRef .tc r) :=
  after_of_writes_sub rT1 _ rT1_writes h
theorem kKeep2 (V : KVal) (r : Ref Cert.KernelIdeal.sig .tc) (h : r ∉ Cert.KernelIdeal.Gen.hostOps5_2_W) : kS3 V (Proc.devRef .tc r) = kS2 V (Proc.devRef .tc r) :=
  after_of_writes_sub Cert.KernelIdeal.Gen.hostOps5_2 _ Cert.KernelIdeal.Gen.hostOps5_2_writes h
theorem rKeep2 (V : RVal) (r : Ref Cert.ReferenceIdeal.sig .tc) (h : r ∉ rT2_W) : rS3 V (Proc.devRef .tc r) = rS2 V (Proc.devRef .tc r) :=
  after_of_writes_sub rT2 _ rT2_writes h
theorem kKeep3 (V : KVal) (r : Ref Cert.KernelIdeal.sig .tc) (h : r ∉ Cert.KernelIdeal.Gen.hostOps5_3_W) : kS4 V (Proc.devRef .tc r) = kS3 V (Proc.devRef .tc r) :=
  after_of_writes_sub Cert.KernelIdeal.Gen.hostOps5_3 _ Cert.KernelIdeal.Gen.hostOps5_3_writes h
theorem rKeep3 (V : RVal) (r : Ref Cert.ReferenceIdeal.sig .tc) (h : r ∉ rT3_W) : rS4 V (Proc.devRef .tc r) = rS3 V (Proc.devRef .tc r) :=
  after_of_writes_sub rT3 _ rT3_writes h
theorem kKeep4 (V : KVal) (r : Ref Cert.KernelIdeal.sig .tc) (h : r ∉ Cert.KernelIdeal.Gen.hostOps5_4_W) : kS5 V (Proc.devRef .tc r) = kS4 V (Proc.devRef .tc r) :=
  after_of_writes_sub Cert.KernelIdeal.Gen.hostOps5_4 _ Cert.KernelIdeal.Gen.hostOps5_4_writes h
theorem rKeep4 (V : RVal) (r : Ref Cert.ReferenceIdeal.sig .tc) (h : r ∉ rT4_W) : rS5 V (Proc.devRef .tc r) = rS4 V (Proc.devRef .tc r) :=
  after_of_writes_sub rT4 _ rT4_writes h
theorem kKeep5 (V : KVal) (r : Ref Cert.KernelIdeal.sig .tc) (h : r ∉ Cert.KernelIdeal.Gen.hostOps5_5_W) : kS6 V (Proc.devRef .tc r) = kS5 V (Proc.devRef .tc r) :=
  after_of_writes_sub Cert.KernelIdeal.Gen.hostOps5_5 _ Cert.KernelIdeal.Gen.hostOps5_5_writes h
theorem rKeep5 (V : RVal) (r : Ref Cert.ReferenceIdeal.sig .tc) (h : r ∉ rT5_W) : rS6 V (Proc.devRef .tc r) = rS5 V (Proc.devRef .tc r) :=
  after_of_writes_sub rT5 _ rT5_writes h
theorem kKeep6 (V : KVal) (r : Ref Cert.KernelIdeal.sig .tc) (h : r ∉ Cert.KernelIdeal.Gen.hostOps5_6_W) : kS7 V (Proc.devRef .tc r) = kS6 V (Proc.devRef .tc r) :=
  after_of_writes_sub Cert.KernelIdeal.Gen.hostOps5_6 _ Cert.KernelIdeal.Gen.hostOps5_6_writes h
theorem rKeep6 (V : RVal) (r : Ref Cert.ReferenceIdeal.sig .tc) (h : r ∉ rT6_W) : rS7 V (Proc.devRef .tc r) = rS6 V (Proc.devRef .tc r) :=
  after_of_writes_sub rT6 _ rT6_writes h
theorem kKeep7 (V : KVal) (r : Ref Cert.KernelIdeal.sig .tc) (h : r ∉ Cert.KernelIdeal.Gen.hostOps5_7_W) : kS8 V (Proc.devRef .tc r) = kS7 V (Proc.devRef .tc r) :=
  after_of_writes_sub Cert.KernelIdeal.Gen.hostOps5_7 _ Cert.KernelIdeal.Gen.hostOps5_7_writes h
theorem rKeep7 (V : RVal) (r : Ref Cert.ReferenceIdeal.sig .tc) (h : r ∉ rT7_W) : rS8 V (Proc.devRef .tc r) = rS7 V (Proc.devRef .tc r) :=
  after_of_writes_sub rT7 _ rT7_writes h
theorem kKeep8 (V : KVal) (r : Ref Cert.KernelIdeal.sig .tc) (h : r ∉ Cert.KernelIdeal.Gen.hostOps5_8_W) : kS9 V (Proc.devRef .tc r) = kS8 V (Proc.devRef .tc r) :=
  after_of_writes_sub Cert.KernelIdeal.Gen.hostOps5_8 _ Cert.KernelIdeal.Gen.hostOps5_8_writes h
theorem rKeep8 (V : RVal) (r : Ref Cert.ReferenceIdeal.sig .tc) (h : r ∉ rT8_W) : rS9 V (Proc.devRef .tc r) = rS8 V (Proc.devRef .tc r) :=
  after_of_writes_sub rT8 _ rT8_writes h
theorem kKeep9 (V : KVal) (r : Ref Cert.KernelIdeal.sig .tc) (h : r ∉ Cert.KernelIdeal.Gen.hostOps5_9_W) : kS10 V (Proc.devRef .tc r) = kS9 V (Proc.devRef .tc r) :=
  after_of_writes_sub Cert.KernelIdeal.Gen.hostOps5_9 _ Cert.KernelIdeal.Gen.hostOps5_9_writes h
theorem rKeep9 (V : RVal) (r : Ref Cert.ReferenceIdeal.sig .tc) (h : r ∉ rT9_W) : rS10 V (Proc.devRef .tc r) = rS9 V (Proc.devRef .tc r) :=
  after_of_writes_sub rT9 _ rT9_writes h
theorem kKeep10 (V : KVal) (r : Ref Cert.KernelIdeal.sig .tc) (h : r ∉ Cert.KernelIdeal.Gen.hostOps5_10_W) : kS11 V (Proc.devRef .tc r) = kS10 V (Proc.devRef .tc r) :=
  after_of_writes_sub Cert.KernelIdeal.Gen.hostOps5_10 _ Cert.KernelIdeal.Gen.hostOps5_10_writes h
theorem rKeep10 (V : RVal) (r : Ref Cert.ReferenceIdeal.sig .tc) (h : r ∉ rT10_W) : rS11 V (Proc.devRef .tc r) = rS10 V (Proc.devRef .tc r) :=
  after_of_writes_sub rT10 _ rT10_writes h

/-! ## Stretch by stretch -/

set_option maxRecDepth 65536 in
theorem gT0_v137 (Vk : KVal) (Vr : RVal)
    (h134 : Vk (Proc.devRef .tc Cert.KernelIdeal.main_v134) = Vr (Proc.devRef .tc Cert.ReferenceIdeal.main_v224))
    (h2 : Vk (Proc.devRef .tc Cert.KernelIdeal.main_arg2) = Vr (Proc.devRef .tc Cert.ReferenceIdeal.main_arg2)) :
    after Cert.KernelIdeal.Gen.hostOps5 Vk (Proc.devRef .tc Cert.KernelIdeal.main_v137) = after rT0 Vr (Proc.devRef .tc Cert.ReferenceIdeal.main_v227) := by
  simp only [Cert.KernelIdeal.Gen.hostOps5, rT0]
  after_results_simp
  rw [h134, h2]
  all_goals rfl

set_option maxRecDepth 65536 in
theorem gT0_v138 (Vk : KVal) (Vr : RVal) :
    after Cert.KernelIdeal.Gen.hostOps5 Vk (Proc.devRef .tc Cert.KernelIdeal.main_v138) = after rT0 Vr (Proc.devRef .tc Cert.ReferenceIdeal.main_v228) := by
  simp only [Cert.KernelIdeal.Gen.hostOps5, rT0]
  after_results_simp
  all_goals rfl

set_option maxRecDepth 65536 in
theorem gT0_c20 (Vk : KVal) (Vr : RVal) :
    after Cert.KernelIdeal.Gen.hostOps5 Vk (Proc.devRef .tc Cert.KernelIdeal.main_c_20) = after rT0 Vr (Proc.devRef .tc Cert.ReferenceIdeal.main_c_35) := by
  simp only [Cert.KernelIdeal.Gen.hostOps5, rT0]
  after_results_simp
  all_goals rfl

set_option maxRecDepth 65536 in
theorem gT1_v139 (Vk : KVal) (Vr : RVal)
    (hc : Vk (Proc.devRef .tc Cert.KernelIdeal.main_c_20) = Vr (Proc.devRef .tc Cert.ReferenceIdeal.main_c_35))
    (h2 : Vk (Proc.devRef .tc Cert.KernelIdeal.main_arg2) = Vr (Proc.devRef .tc Cert.ReferenceIdeal.main_arg2)) :
    after Cert.KernelIdeal.Gen.hostOps5_1 Vk (Proc.devRef .tc Cert.KernelIdeal.main_v139) = after rT1 Vr (Proc.devRef .tc Cert.ReferenceIdeal.main_v229) := by
  simp only [Cert.KernelIdeal.Gen.hostOps5_1, rT1]
  after_results_simp
  rw [hc, h2]
  all_goals rfl

set_option maxRecDepth 65536 in
theorem gT2_v147 (Vk : KVal) (Vr : RVal)
    (h139 : Vk (Proc.devRef .tc Cert.KernelIdeal.main_v139) = Vr (Proc.devRef .tc Cert.ReferenceIdeal.main_v229))
    (h138 : Vk (Proc.devRef .tc Cert.KernelIdeal.main_v138) = Vr (Proc.devRef .tc Cert.ReferenceIdeal.main_v228)) :
    after Cert.KernelIdeal.Gen.hostOps5_2 Vk (Proc.devRef .tc Cert.KernelIdeal.main_v147) = after rT2 Vr (Proc.devRef .tc Cert.ReferenceIdeal.main_v237) := by
  simp only [Cert.KernelIdeal.Gen.hostOps5_2, rT2]
  after_results_simp
  rw [h139, h138]
  all_goals rfl

set_option maxRecDepth 65536 in
theorem gT3_v148 (Vk : KVal) (Vr : RVal)
    (h147 : Vk (Proc.devRef .tc Cert.KernelIdeal.main_v147) = Vr (Proc.devRef .tc Cert.ReferenceIdeal.main_v237)) :
    after Cert.KernelIdeal.Gen.hostOps5_3 Vk (Proc.devRef .tc Cert.KernelIdeal.main_v148) = after rT3 Vr (Proc.devRef .tc Cert.ReferenceIdeal.main_v238) := by
  simp only [Cert.KernelIdeal.Gen.hostOps5_3, rT3]
  after_results
  rw [h147]
  all_goals rfl

set_option maxRecDepth 65536 in
theorem gT4_v150 (Vk : KVal) (Vr : RVal)
    (h148 : Vk (Proc.devRef .tc Cert.KernelIdeal.main_v148) = Vr (Proc.devRef .tc Cert.ReferenceIdeal.main_v238)) :
    after Cert.KernelIdeal.Gen.hostOps5_4 Vk (Proc.devRef .tc Cert.KernelIdeal.main_v150) = after rT4 Vr (Proc.devRef .tc Cert.ReferenceIdeal.main_v240) := by
  simp only [Cert.KernelIdeal.Gen.hostOps5_4, rT4]
  after_results_simp
  rw [h148]
  all_goals rfl

set_option maxRecDepth 65536 in
theorem gT5_v151 (Vk : KVal) (Vr : RVal)
    (h150 : Vk (Proc.devRef .tc Cert.KernelIdeal.main_v150) = Vr (Proc.devRef .tc Cert.ReferenceIdeal.main_v240)) :
    after Cert.KernelIdeal.Gen.hostOps5_5 Vk (Proc.devRef .tc Cert.KernelIdeal.main_v151) = after rT5 Vr (Proc.devRef .tc Cert.ReferenceIdeal.main_v241) := by
  simp only [Cert.KernelIdeal.Gen.hostOps5_5, rT5]
  after_results_simp
  rw [h150]
  all_goals rfl

set_option maxRecDepth 65536 in
theorem gT6_v160 (Vk : KVal) (Vr : RVal)
    (h151 : Vk (Proc.devRef .tc Cert.KernelIdeal.main_v151) = Vr (Proc.devRef .tc Cert.ReferenceIdeal.main_v241)) :
    after Cert.KernelIdeal.Gen.hostOps5_6 Vk (Proc.devRef .tc Cert.KernelIdeal.main_v160) = after rT6 Vr (Proc.devRef .tc Cert.ReferenceIdeal.main_v250) := by
  simp only [Cert.KernelIdeal.Gen.hostOps5_6, rT6]
  after_results_simp
  rw [h151]
  all_goals rfl

set_option maxRecDepth 65536 in
theorem gT7_v161 (Vk : KVal) (Vr : RVal)
    (h160 : Vk (Proc.devRef .tc Cert.KernelIdeal.main_v160) = Vr (Proc.devRef .tc Cert.ReferenceIdeal.main_v250)) :
    after Cert.KernelIdeal.Gen.hostOps5_7 Vk (Proc.devRef .tc Cert.KernelIdeal.main_v161) = after rT7 Vr (Proc.devRef .tc Cert.ReferenceIdeal.main_v251) := by
  simp only [Cert.KernelIdeal.Gen.hostOps5_7, rT7]
  after_results_simp
  rw [h160]
  all_goals rfl

set_option maxRecDepth 65536 in
theorem gT8_v163 (Vk : KVal) (Vr : RVal)
    (h161 : Vk (Proc.devRef .tc Cert.KernelIdeal.main_v161) = Vr (Proc.devRef .tc Cert.ReferenceIdeal.main_v251)) :
    after Cert.KernelIdeal.Gen.hostOps5_8 Vk (Proc.devRef .tc Cert.KernelIdeal.main_v163) = after rT8 Vr (Proc.devRef .tc Cert.ReferenceIdeal.main_v253) := by
  simp only [Cert.KernelIdeal.Gen.hostOps5_8, rT8]
  after_results_simp
  rw [h161]
  all_goals rfl

set_option maxRecDepth 65536 in
theorem gT9_v164 (Vk : KVal) (Vr : RVal)
    (h163 : Vk (Proc.devRef .tc Cert.KernelIdeal.main_v163) = Vr (Proc.devRef .tc Cert.ReferenceIdeal.main_v253))
    (h137 : Vk (Proc.devRef .tc Cert.KernelIdeal.main_v137) = Vr (Proc.devRef .tc Cert.ReferenceIdeal.main_v227)) :
    after Cert.KernelIdeal.Gen.hostOps5_9 Vk (Proc.devRef .tc Cert.KernelIdeal.main_v164) = after rT9 Vr (Proc.devRef .tc Cert.ReferenceIdeal.main_v254) := by
  simp only [Cert.KernelIdeal.Gen.hostOps5_9, rT9]
  after_results_simp
  rw [h163, h137]
  all_goals rfl

set_option maxRecDepth 65536 in
theorem gT10_v165 (Vk : KVal) (Vr : RVal)
    (h18 : Vk (Proc.devRef .tc Cert.KernelIdeal.main_v18) = Vr (Proc.devRef .tc Cert.ReferenceIdeal.main_v36))
    (h47 : Vk (Proc.devRef .tc Cert.KernelIdeal.main_v47) = Vr (Proc.devRef .tc Cert.ReferenceIdeal.main_v83))
    (h76 : Vk (Proc.devRef .tc Cert.KernelIdeal.main_v76) = Vr (Proc.devRef .tc Cert.ReferenceIdeal.main_v130))
    (h105 : Vk (Proc.devRef .tc Cert.KernelIdeal.main_v105) = Vr (Proc.devRef .tc Cert.ReferenceIdeal.main_v177))
    (h134 : Vk (Proc.devRef .tc Cert.KernelIdeal.main_v134) = Vr (Proc.devRef .tc Cert.ReferenceIdeal.main_v224))
    (h164 : Vk (Proc.devRef .tc Cert.KernelIdeal.main_v164) = Vr (Proc.devRef .tc Cert.ReferenceIdeal.main_v254)) :
    after Cert.KernelIdeal.Gen.hostOps5_10 Vk (Proc.devRef .tc Cert.KernelIdeal.main_v165) = after rT10 Vr (Proc.devRef .tc Cert.ReferenceIdeal.main_v255) := by
  simp only [Cert.KernelIdeal.Gen.hostOps5_10, rT10, after_cons, after_nil]
  rw [nary6_result, nary6_result, h18, h47, h76, h105, h134, h164]
  all_goals rfl

/-! ## The chain -/
set_option maxRecDepth 65536 in
theorem glueTail_cat (Vk : KVal) (Vr : RVal)
    (h18 : Vk (Proc.devRef .tc Cert.KernelIdeal.main_v18) = Vr (Proc.devRef .tc Cert.ReferenceIdeal.main_v36))
    (h47 : Vk (Proc.devRef .tc Cert.KernelIdeal.main_v47) = Vr (Proc.devRef .tc Cert.ReferenceIdeal.main_v83))
    (h76 : Vk (Proc.devRef .tc Cert.KernelIdeal.main_v76) = Vr (Proc.devRef .tc Cert.ReferenceIdeal.main_v130))
    (h105 : Vk (Proc.devRef .tc Cert.KernelIdeal.main_v105) = Vr (Proc.devRef .tc Cert.ReferenceIdeal.main_v177))
    (h134 : Vk (Proc.devRef .tc Cert.KernelIdeal.main_v134) = Vr (Proc.devRef .tc Cert.ReferenceIdeal.main_v224))
    (h2 : Vk (Proc.devRef .tc Cert.KernelIdeal.main_arg2) = Vr (Proc.devRef .tc Cert.ReferenceIdeal.main_arg2)) :
    after Cert.KernelIdeal.Gen.hostOps5_10 (after Cert.KernelIdeal.Gen.hostOps5_9 (after Cert.KernelIdeal.Gen.hostOps5_8 (after Cert.KernelIdeal.Gen.hostOps5_7 (after Cert.KernelIdeal.Gen.hostOps5_6 (after Cert.KernelIdeal.Gen.hostOps5_5 (after Cert.KernelIdeal.Gen.hostOps5_4 (after Cert.KernelIdeal.Gen.hostOps5_3 (after Cert.KernelIdeal.Gen.hostOps5_2 (after Cert.KernelIdeal.Gen.hostOps5_1 (after Cert.KernelIdeal.Gen.hostOps5 (Vk))))))))))) (Proc.devRef .tc Cert.KernelIdeal.main_v165)
      = after rTail Vr (Proc.devRef .tc Cert.ReferenceIdeal.main_v255) := by
  rw [rTail_after]
  have a137 : (kS1 Vk) (Proc.devRef .tc Cert.KernelIdeal.main_v137) = (rS1 Vr) (Proc.devRef .tc Cert.ReferenceIdeal.main_v227) := gT0_v137 Vk Vr h134 h2
  have a138 : (kS1 Vk) (Proc.devRef .tc Cert.KernelIdeal.main_v138) = (rS1 Vr) (Proc.devRef .tc Cert.ReferenceIdeal.main_v228) := gT0_v138 Vk Vr
  have ac20 : (kS1 Vk) (Proc.devRef .tc Cert.KernelIdeal.main_c_20) = (rS1 Vr) (Proc.devRef .tc Cert.ReferenceIdeal.main_c_35) := gT0_c20 Vk Vr
  have a2 : (kS1 Vk) (Proc.devRef .tc Cert.KernelIdeal.main_arg2) = (rS1 Vr) (Proc.devRef .tc Cert.ReferenceIdeal.main_arg2) := (((kKeep0 Vk _ (by decide))).trans ((h2).trans ((rKeep0 Vr _ (by decide))).symm))
  have a139 : (kS2 Vk) (Proc.devRef .tc Cert.KernelIdeal.main_v139) = (rS2 Vr) (Proc.devRef .tc Cert.ReferenceIdeal.main_v229) := gT1_v139 (kS1 Vk) (rS1 Vr) ac20 a2
  have a138' : (kS2 Vk) (Proc.devRef .tc Cert.KernelIdeal.main_v138) = (rS2 Vr) (Proc.devRef .tc Cert.ReferenceIdeal.main_v228) := (((kKeep1 Vk _ (by decide))).trans ((a138).trans ((rKeep1 Vr _ (by decide))).symm))
  have a147 : (kS3 Vk) (Proc.devRef .tc Cert.KernelIdeal.main_v147) = (rS3 Vr) (Proc.devRef .tc Cert.ReferenceIdeal.main_v237) := gT2_v147 (kS2 Vk) (rS2 Vr) a139 a138'
  have a148 : (kS4 Vk) (Proc.devRef .tc Cert.KernelIdeal.main_v148) = (rS4 Vr) (Proc.devRef .tc Cert.ReferenceIdeal.main_v238) := gT3_v148 (kS3 Vk) (rS3 Vr) a147
  have a150 : (kS5 Vk) (Proc.devRef .tc Cert.KernelIdeal.main_v150) = (rS5 Vr) (Proc.devRef .tc Cert.ReferenceIdeal.main_v240) := gT4_v150 (kS4 Vk) (rS4 Vr) a148
  have a151 : (kS6 Vk) (Proc.devRef .tc Cert.KernelIdeal.main_v151) = (rS6 Vr) (Proc.devRef .tc Cert.ReferenceIdeal.main_v241) := gT5_v151 (kS5 Vk) (rS5 Vr) a150
  have a160 : (kS7 Vk) (Proc.devRef .tc Cert.KernelIdeal.main_v160) = (rS7 Vr) (Proc.devRef .tc Cert.ReferenceIdeal.main_v250) := gT6_v160 (kS6 Vk) (rS6 Vr) a151
  have a161 : (kS8 Vk) (Proc.devRef .tc Cert.KernelIdeal.main_v161) = (rS8 Vr) (Proc.devRef .tc Cert.ReferenceIdeal.main_v251) := gT7_v161 (kS7 Vk) (rS7 Vr) a160
  have a163 : (kS9 Vk) (Proc.devRef .tc Cert.KernelIdeal.main_v163) = (rS9 Vr) (Proc.devRef .tc Cert.ReferenceIdeal.main_v253) := gT8_v163 (kS8 Vk) (rS8 Vr) a161
  have a137' : (kS9 Vk) (Proc.devRef .tc Cert.KernelIdeal.main_v137) = (rS9 Vr) (Proc.devRef .tc Cert.ReferenceIdeal.main_v227) := ((((kKeep8 Vk _ (by decide)).trans ((kKeep7 Vk _ (by decide)).trans ((kKeep6 Vk _ (by decide)).trans ((kKeep5 Vk _ (by decide)).trans ((kKeep4 Vk _ (by decide)).trans ((kKeep3 Vk _ (by decide)).trans ((kKeep2 Vk _ (by decide)).trans (kKeep1 Vk _ (by decide)))))))))).trans ((a137).trans (((rKeep8 Vr _ (by decide)).trans ((rKeep7 Vr _ (by decide)).trans ((rKeep6 Vr _ (by decide)).trans ((rKeep5 Vr _ (by decide)).trans ((rKeep4 Vr _ (by decide)).trans ((rKeep3 Vr _ (by decide)).trans ((rKeep2 Vr _ (by decide)).trans (rKeep1 Vr _ (by decide)))))))))).symm))
  have a164 : (kS10 Vk) (Proc.devRef .tc Cert.KernelIdeal.main_v164) = (rS10 Vr) (Proc.devRef .tc Cert.ReferenceIdeal.main_v254) := gT9_v164 (kS9 Vk) (rS9 Vr) a163 a137'
  have b18 : (kS10 Vk) (Proc.devRef .tc Cert.KernelIdeal.main_v18) = (rS10 Vr) (Proc.devRef .tc Cert.ReferenceIdeal.main_v36) := ((((kKeep9 Vk _ (by decide)).trans ((kKeep8 Vk _ (by decide)).trans ((kKeep7 Vk _ (by decide)).trans ((kKeep6 Vk _ (by decide)).trans ((kKeep5 Vk _ (by decide)).trans ((kKeep4 Vk _ (by decide)).trans ((kKeep3 Vk _ (by decide)).trans ((kKeep2 Vk _ (by decide)).trans ((kKeep1 Vk _ (by decide)).trans (kKeep0 Vk _ (by decide)))))))))))).trans ((h18).trans (((rKeep9 Vr _ (by decide)).trans ((rKeep8 Vr _ (by decide)).trans ((rKeep7 Vr _ (by decide)).trans ((rKeep6 Vr _ (by decide)).trans ((rKeep5 Vr _ (by decide)).trans ((rKeep4 Vr _ (by decide)).trans ((rKeep3 Vr _ (by decide)).trans ((rKeep2 Vr _ (by decide)).trans ((rKeep1 Vr _ (by decide)).trans (rKeep0 Vr _ (by decide)))))))))))).symm))
  have b47 : (kS10 Vk) (Proc.devRef .tc Cert.KernelIdeal.main_v47) = (rS10 Vr) (Proc.devRef .tc Cert.ReferenceIdeal.main_v83) := ((((kKeep9 Vk _ (by decide)).trans ((kKeep8 Vk _ (by decide)).trans ((kKeep7 Vk _ (by decide)).trans ((kKeep6 Vk _ (by decide)).trans ((kKeep5 Vk _ (by decide)).trans ((kKeep4 Vk _ (by decide)).trans ((kKeep3 Vk _ (by decide)).trans ((kKeep2 Vk _ (by decide)).trans ((kKeep1 Vk _ (by decide)).trans (kKeep0 Vk _ (by decide)))))))))))).trans ((h47).trans (((rKeep9 Vr _ (by decide)).trans ((rKeep8 Vr _ (by decide)).trans ((rKeep7 Vr _ (by decide)).trans ((rKeep6 Vr _ (by decide)).trans ((rKeep5 Vr _ (by decide)).trans ((rKeep4 Vr _ (by decide)).trans ((rKeep3 Vr _ (by decide)).trans ((rKeep2 Vr _ (by decide)).trans ((rKeep1 Vr _ (by decide)).trans (rKeep0 Vr _ (by decide)))))))))))).symm))
  have b76 : (kS10 Vk) (Proc.devRef .tc Cert.KernelIdeal.main_v76) = (rS10 Vr) (Proc.devRef .tc Cert.ReferenceIdeal.main_v130) := ((((kKeep9 Vk _ (by decide)).trans ((kKeep8 Vk _ (by decide)).trans ((kKeep7 Vk _ (by decide)).trans ((kKeep6 Vk _ (by decide)).trans ((kKeep5 Vk _ (by decide)).trans ((kKeep4 Vk _ (by decide)).trans ((kKeep3 Vk _ (by decide)).trans ((kKeep2 Vk _ (by decide)).trans ((kKeep1 Vk _ (by decide)).trans (kKeep0 Vk _ (by decide)))))))))))).trans ((h76).trans (((rKeep9 Vr _ (by decide)).trans ((rKeep8 Vr _ (by decide)).trans ((rKeep7 Vr _ (by decide)).trans ((rKeep6 Vr _ (by decide)).trans ((rKeep5 Vr _ (by decide)).trans ((rKeep4 Vr _ (by decide)).trans ((rKeep3 Vr _ (by decide)).trans ((rKeep2 Vr _ (by decide)).trans ((rKeep1 Vr _ (by decide)).trans (rKeep0 Vr _ (by decide)))))))))))).symm))
  have b105 : (kS10 Vk) (Proc.devRef .tc Cert.KernelIdeal.main_v105) = (rS10 Vr) (Proc.devRef .tc Cert.ReferenceIdeal.main_v177) := ((((kKeep9 Vk _ (by decide)).trans ((kKeep8 Vk _ (by decide)).trans ((kKeep7 Vk _ (by decide)).trans ((kKeep6 Vk _ (by decide)).trans ((kKeep5 Vk _ (by decide)).trans ((kKeep4 Vk _ (by decide)).trans ((kKeep3 Vk _ (by decide)).trans ((kKeep2 Vk _ (by decide)).trans ((kKeep1 Vk _ (by decide)).trans (kKeep0 Vk _ (by decide)))))))))))).trans ((h105).trans (((rKeep9 Vr _ (by decide)).trans ((rKeep8 Vr _ (by decide)).trans ((rKeep7 Vr _ (by decide)).trans ((rKeep6 Vr _ (by decide)).trans ((rKeep5 Vr _ (by decide)).trans ((rKeep4 Vr _ (by decide)).trans ((rKeep3 Vr _ (by decide)).trans ((rKeep2 Vr _ (by decide)).trans ((rKeep1 Vr _ (by decide)).trans (rKeep0 Vr _ (by decide)))))))))))).symm))
  have b134 : (kS10 Vk) (Proc.devRef .tc Cert.KernelIdeal.main_v134) = (rS10 Vr) (Proc.devRef .tc Cert.ReferenceIdeal.main_v224) := ((((kKeep9 Vk _ (by decide)).trans ((kKeep8 Vk _ (by decide)).trans ((kKeep7 Vk _ (by decide)).trans ((kKeep6 Vk _ (by decide)).trans ((kKeep5 Vk _ (by decide)).trans ((kKeep4 Vk _ (by decide)).trans ((kKeep3 Vk _ (by decide)).trans ((kKeep2 Vk _ (by decide)).trans ((kKeep1 Vk _ (by decide)).trans (kKeep0 Vk _ (by decide)))))))))))).trans ((h134).trans (((rKeep9 Vr _ (by decide)).trans ((rKeep8 Vr _ (by decide)).trans ((rKeep7 Vr _ (by decide)).trans ((rKeep6 Vr _ (by decide)).trans ((rKeep5 Vr _ (by decide)).trans ((rKeep4 Vr _ (by decide)).trans ((rKeep3 Vr _ (by decide)).trans ((rKeep2 Vr _ (by decide)).trans ((rKeep1 Vr _ (by decide)).trans (rKeep0 Vr _ (by decide)))))))))))).symm))
  exact gT10_v165 (kS10 Vk) (rS10 Vr) b18 b47 b76 b105 b134 a164

end Cert.Val

end
-- ==== Proof.Val.GinRef.lean ====
/- The dense part of one layer of the reference, as one function of the layer's input arrays: the reference's
   printed host operations from the layer's matrix product to the result of its second leaky rectifier, composed
   in the printed order with the reference's own records, at the ideal values. -/
import proofs.«145887_j33578054320560_2_alg».proof.Proof.Gen.ReferenceIdeal
import Idealize.ShloMosaic.PureOps.Ideal

noncomputable section

namespace Cert.Val

open Idealize.ShloMosaic Idealize.SL.Sem
open Cert.ReferenceIdeal Cert.ReferenceIdeal.Gen

/-- A vector of 128 numbers spread over the rows of a [100000, 128] matrix: made a [1, 128] row, then repeated. -/
def spreadRef (v : FVec Ideal S128 .f32) : FVec Ideal S100000x128 .f32 :=
  broadcastInDim S100000x128 ![0, 1] bcast_S1x128_S100000x128_0_1 (broadcastInDim S1x128 ![1] bcast_S128_S1x128_1 v)

/-- The reference's affine part and normalization after the matrix product `z`:
    ((z + b) − mu) · (g · rsqrt (var + eps)) + be, the vectors spread over the rows. -/
def preRef (z : FVec Ideal S100000x128 .f32) (b g be mu var : FVec Ideal S128 .f32) : FVec Ideal S100000x128 .f32 :=
  addf
    (mulf
      (subf (addf z (spreadRef b)) (spreadRef mu))
      (spreadRef (mulf g (Host.rsqrt (F := Ideal) (addf var
        (broadcastInDim S128 ![] bcast_S_S128 (constant (F := Ideal) S_ .f32 0x3727C5AC#32)))))))
    (spreadRef be)

/-- The reference's leaky rectifier with slope the literal 0x3C23D70A: where the input is at least zero the
    input, elsewhere the slope times the input. -/
def leakyRef (y : FVec Ideal S100000x128 .f32) : FVec Ideal S100000x128 .f32 :=
  select
    (cmpf .oge y (broadcastInDim S100000x128 ![] bcast_S_S100000x128 (constant (F := Ideal) S_ .f32 0x00000000#32)))
    y
    (mulf (broadcastInDim S100000x128 ![] bcast_S_S100000x128 (id (constant (F := Ideal) S_ .f32 0x3C23D70A#32))) y)

/-- One layer's dense part as the reference's host operations compose: the product of the features and the
    weights, plus the bias, minus the running mean, times the scale over the root of the running variance plus
    epsilon, plus the shift, and the leaky rectifier applied twice. -/
def gin128Ref (x : FVec Ideal S100000x128 .f32) (w : FVec Ideal S128x128 .f32) (b g be mu var : FVec Ideal S128 .f32) :
    FVec Ideal S100000x128 .f32 :=
  leakyRef (leakyRef (preRef (Host.dotGeneral (F := Ideal) dot_S100000x128_S128x128_S100000x128_1_0_0_1_n_n none x w) b g be mu var))

/-- One layer's dense part as the reference's host operations compose: the product of the features and the
    weights, plus the bias, minus the running mean, times the scale over the root of the running variance plus
    epsilon, plus the shift, and the leaky rectifier applied twice. -/
def gin64Ref (x : FVec Ideal S100000x64 .f32) (w : FVec Ideal S64x128 .f32) (b g be mu var : FVec Ideal S128 .f32) :
    FVec Ideal S100000x128 .f32 :=
  leakyRef (leakyRef (preRef (Host.dotGeneral (F := Ideal) dot_S100000x64_S64x128_S100000x128_1_0_0_1_n_n none x w) b g be mu var))

end Cert.Val
-- ==== Proof.Val.RefDense.lean ====
/- The reference's dense parts read back as values: after the 34 operations of a layer's dense part (the matrix
   product, bias, normalization with the running statistics, scale and shift, and the leaky rectifier called twice,
   the called functions' operations inline), the layer's output buffer holds the layer function of Val/GinRef.lean
   applied to the contents of the seven operand buffers — the fold unrolled and each operation's result read at its
   own buffer; what is left is the layer function's definition unfolded. -/
import proofs.«145887_j33578054320560_2_alg».proof.Proof.Val.RefSplit
import proofs.«145887_j33578054320560_2_alg».proof.Proof.Val.GinRef
import Idealize.ShloMosaic.PureOps.Ideal

noncomputable section

namespace Cert.Val

open Idealize.ShloMosaic Idealize.ShloMosaic.TcCoe Idealize.SL.Sem Idealize.ShloMosaic.StableHlo

set_option maxRecDepth 16384 in
/-- Layer 0's dense part in the reference, read back: the output buffer after the layer's 34 operations is the
    layer function of the seven operand buffers' contents before them. -/
theorem rD0_value (Vr : Valuation Cert.ReferenceIdeal.τ Cert.ReferenceIdeal.sig (Elt Ideal)) :
    after rD0 Vr (Proc.devRef .tc Cert.ReferenceIdeal.main_v36) = gin64Ref (Vr (Proc.devRef .tc Cert.ReferenceIdeal.main_v17)) (Vr (Proc.devRef .tc Cert.ReferenceIdeal.main_arg3)) (Vr (Proc.devRef .tc Cert.ReferenceIdeal.main_arg4)) (Vr (Proc.devRef .tc Cert.ReferenceIdeal.main_arg5)) (Vr (Proc.devRef .tc Cert.ReferenceIdeal.main_arg6)) (Vr (Proc.devRef .tc Cert.ReferenceIdeal.main_arg7)) (Vr (Proc.devRef .tc Cert.ReferenceIdeal.main_arg8)) := by
  simp only [rD0]
  after_results_simp
  rfl

set_option maxRecDepth 16384 in
/-- Layer 1's dense part in the reference, read back: the output buffer after the layer's 34 operations is the
    layer function of the seven operand buffers' contents before them. -/
theorem rD1_value (Vr : Valuation Cert.ReferenceIdeal.τ Cert.ReferenceIdeal.sig (Elt Ideal)) :
    after rD1 Vr (Proc.devRef .tc Cert.ReferenceIdeal.main_v83) = gin128Ref (Vr (Proc.devRef .tc Cert.ReferenceIdeal.main_v64)) (Vr (Proc.devRef .tc Cert.ReferenceIdeal.main_v38)) (Vr (Proc.devRef .tc Cert.ReferenceIdeal.main_v40)) (Vr (Proc.devRef .tc Cert.ReferenceIdeal.main_v42)) (Vr (Proc.devRef .tc Cert.ReferenceIdeal.main_v44)) (Vr (Proc.devRef .tc Cert.ReferenceIdeal.main_v46)) (Vr (Proc.devRef .tc Cert.ReferenceIdeal.main_v48)) := by
  simp only [rD1]
  after_results_simp
  rfl

set_option maxRecDepth 16384 in
/-- Layer 2's dense part in the reference, read back: the output buffer after the layer's 34 operations is the
    layer function of the seven operand buffers' contents before them. -/
theorem rD2_value (Vr : Valuation Cert.ReferenceIdeal.τ Cert.ReferenceIdeal.sig (Elt Ideal)) :
    after rD2 Vr (Proc.devRef .tc Cert.ReferenceIdeal.main_v130) = gin128Ref (Vr (Proc.devRef .tc Cert.ReferenceIdeal.main_v111)) (Vr (Proc.devRef .tc Cert.ReferenceIdeal.main_v85)) (Vr (Proc.devRef .tc Cert.ReferenceIdeal.main_v87)) (Vr (Proc.devRef .tc Cert.ReferenceIdeal.main_v89)) (Vr (Proc.devRef .tc Cert.ReferenceIdeal.main_v91)) (Vr (Proc.devRef .tc Cert.ReferenceIdeal.main_v93)) (Vr (Proc.devRef .tc Cert.ReferenceIdeal.main_v95)) := by
  simp only [rD2]
  after_results_simp
  rfl

set_option maxRecDepth 16384 in
/-- Layer 3's dense part in the reference, read back: the output buffer after the layer's 34 operations is the
    layer function of the seven operand buffers' contents before them. -/
theorem rD3_value (Vr : Valuation Cert.ReferenceIdeal.τ Cert.ReferenceIdeal.sig (Elt Ideal)) :
    after rD3 Vr (Proc.devRef .tc Cert.ReferenceIdeal.main_v177) = gin128Ref (Vr (Proc.devRef .tc Cert.ReferenceIdeal.main_v158)) (Vr (Proc.devRef .tc Cert.ReferenceIdeal.main_v132)) (Vr (Proc.devRef .tc Cert.ReferenceIdeal.main_v134)) (Vr (Proc.devRef .tc Cert.ReferenceIdeal.main_v136)) (Vr (Proc.devRef .tc Cert.ReferenceIdeal.main_v138)) (Vr (Proc.devRef .tc Cert.ReferenceIdeal.main_v140)) (Vr (Proc.devRef .tc Cert.ReferenceIdeal.main_v142)) := by
  simp only [rD3]
  after_results_simp
  rfl

set_option maxRecDepth 16384 in
/-- Layer 4's dense part in the reference, read back: the output buffer after the layer's 34 operations is the
    layer function of the seven operand buffers' contents before them. -/
theorem rD4_value (Vr : Valuation Cert.ReferenceIdeal.τ Cert.ReferenceIdeal.sig (Elt Ideal)) :
    after rD4 Vr (Proc.devRef .tc Cert.ReferenceIdeal.main_v224) = gin128Ref (Vr (Proc.devRef .tc Cert.ReferenceIdeal.main_v205)) (Vr (Proc.devRef .tc Cert.ReferenceIdeal.main_v179)) (Vr (Proc.devRef .tc Cert.ReferenceIdeal.main_v181)) (Vr (Proc.devRef .tc Cert.ReferenceIdeal.main_v183)) (Vr (Proc.devRef .tc Cert.ReferenceIdeal.main_v185)) (Vr (Proc.devRef .tc Cert.ReferenceIdeal.main_v187)) (Vr (Proc.devRef .tc Cert.ReferenceIdeal.main_v189)) := by
  simp only [rD4]
  after_results_simp
  rfl

end Cert.Val

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Val.ClsSpec.lean ====
/-
  A row-wise stack of dense layers read at an index, at the ideal values.

  A dense layer takes an [R, K] array x, a [K, C] weight w and a length-C bias b to the [R, C] array whose entry
  (r, c) is the sum over k of x (r, k) · w (k, c), plus b c.  The kernel writes it as a matrix product into a zero
  accumulator plus the bias made a row and spread over the rows; the host program writes it as a dot_general plus the
  bias broadcast in two steps.  Both are the same function, for any extents.  A dense layer, the leaky rectifier
  and the logistic function all act row by row: row r of the result depends on row r of the operand only, which is what
  lets a block of rows be computed from the block alone.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«145887_j33578054320560_2_alg».proof.Proof.LibPlainDot

noncomputable section

namespace Cert.Val

open Idealize.ShloMosaic Idealize.ShloMosaic.ValueIdx Cert.Lib.PlainDot
open scoped BigOperators

variable {R R' K C : Nat}

/-! ## A dense layer -/

/-- The dense layer: entry (r, c) is the sum over k of x (r, k) · w (k, c), plus b c. -/
def dense (x : (⟨2, ![R, K]⟩ : Shape).Idx → EReal) (w : (⟨2, ![K, C]⟩ : Shape).Idx → EReal)
    (b : (⟨1, ![C]⟩ : Shape).Idx → EReal) : (⟨2, ![R, C]⟩ : Shape).Idx → EReal :=
  fun j => mm x w j + b (ix1 (⟨(j 1).val, idx2_lt1 j⟩ : Fin C))

/-- The kernel's spelling: a matrix product into the zero accumulator, plus the bias cast to a row and spread over the
    rows. -/
theorem dense_of_matmul {φ₁ φ₂ : FTy} (d : DotDims ⟨2, ![R, K]⟩ ⟨2, ![K, C]⟩ ⟨2, ![R, C]⟩) (hd : d = DotDims.plain R K C)
    (prec : Option ContractPrecision) (x : FVec Ideal ⟨2, ![R, K]⟩ φ₁) (w : FVec Ideal ⟨2, ![K, C]⟩ φ₂)
    (b : FVec Ideal ⟨1, ![C]⟩ .f32) (h1 : (⟨1, ![C]⟩ : Shape).ShapeCasts ⟨2, ![1, C]⟩)
    (h2 : (⟨2, ![1, C]⟩ : Shape).Broadcasts ⟨2, ![R, C]⟩) :
    addf (matmul d prec x w (constant ⟨2, ![R, C]⟩ .f32 0x00000000#32))
        (broadcastTo ⟨2, ![R, C]⟩ (shapeCast ⟨2, ![1, C]⟩ b h1) h2)
      = dense x w b := by
  funext j
  obtain ⟨p, c, rfl⟩ : ∃ (p : Fin R) (c : Fin C), j = ix2 p c := ⟨j 0, j 1, eq_ix2 j⟩
  show FloatOps.matmul d prec x w (constant ⟨2, ![R, C]⟩ .f32 0x00000000#32) (ix2 p c)
      + broadcastTo ⟨2, ![R, C]⟩ (shapeCast ⟨2, ![1, C]⟩ b h1) h2 (ix2 p c) = mm x w (ix2 p c) + b (ix1 c)
  rw [matmul_zero_apply d hd, broadcastTo_1b_ab_apply, shapeCast_a_1a_apply]

/-- The host's spelling: a dot_general, plus the bias made a row and then spread over the rows, by two
    broadcast_in_dim. -/
theorem dense_of_dotGeneral {φ₁ φ₂ : FTy} (d : DotDims ⟨2, ![R, K]⟩ ⟨2, ![K, C]⟩ ⟨2, ![R, C]⟩) (hd : d = DotDims.plain R K C)
    (prec : Option ContractPrecision) (x : FVec Ideal ⟨2, ![R, K]⟩ φ₁) (w : FVec Ideal ⟨2, ![K, C]⟩ φ₂)
    (b : FVec Ideal ⟨1, ![C]⟩ .f32) (h1 : (⟨1, ![C]⟩ : Shape).BroadcastsInDim ⟨2, ![1, C]⟩ ![1])
    (h2 : (⟨2, ![1, C]⟩ : Shape).BroadcastsInDim ⟨2, ![R, C]⟩ ![0, 1]) :
    addf (Host.dotGeneral d prec x w)
        (broadcastInDim ⟨2, ![R, C]⟩ ![0, 1] h2 (broadcastInDim ⟨2, ![1, C]⟩ ![1] h1 b))
      = dense x w b := by
  funext j
  obtain ⟨p, c, rfl⟩ : ∃ (p : Fin R) (c : Fin C), j = ix2 p c := ⟨j 0, j 1, eq_ix2 j⟩
  show FloatOps.dotGeneral d prec .single x w (ix2 p c)
      + broadcastInDim ⟨2, ![R, C]⟩ ![0, 1] h2 (broadcastInDim ⟨2, ![1, C]⟩ ![1] h1 b) (ix2 p c) = mm x w (ix2 p c) + b (ix1 c)
  rw [dotGeneral_apply d hd,
    broadcastInDim_apply _ h2 _ (ix2 p c) (ix2 (0 : Fin 1) c) (fun ax => by
        match ax with
        | ⟨0, _⟩ => rfl
        | ⟨1, _⟩ => show c.val = if C = 1 then 0 else c.val; split; (have := c.isLt; omega); rfl),
    broadcastInDim_apply _ h1 _ (ix2 (0 : Fin 1) c) (ix1 c) (fun ax => by
        match ax with
        | ⟨0, _⟩ => show c.val = if C = 1 then 0 else c.val; split; (have := c.isLt; omega); rfl)]

/-! ## The leaky rectifier and the logistic function -/

/-- The leaky rectifier with slope 0.01 (the f32 word 0x3C23D70A), element by element: z where z ≥ 0, slope · z
    elsewhere. -/
def leakyVec {s : Shape} (z : FVec Ideal s .f32) : FVec Ideal s .f32 :=
  select (cmpf .oge z (broadcast s (Scalar.ofBits (F := Ideal) .f32 0x00000000#32))) z
    (mulf (broadcast s (Scalar.ofBits (F := Ideal) .f32 0x3C23D70A#32)) z)

/-- The host's spelling of the leaky rectifier: the zero and the slope are rank-0 constants broadcast to the shape. -/
theorem leakyVec_of_host {s : Shape} (h : (⟨0, ![]⟩ : Shape).BroadcastsInDim s ![]) (z : FVec Ideal s .f32) :
    select (cmpf .oge z (broadcastInDim s ![] h (constant (F := Ideal) ⟨0, ![]⟩ .f32 0x00000000#32))) z
        (mulf (broadcastInDim s ![] h (id (constant (F := Ideal) ⟨0, ![]⟩ .f32 0x3C23D70A#32))) z)
      = leakyVec z := rfl

/-- The host's expansion of the logistic function — one over one plus the exponential of the negation — is the
    kernel's logistic, element by element. -/
theorem logistic_of_host {s : Shape} (h : (⟨0, ![]⟩ : Shape).BroadcastsInDim s ![]) (z : FVec Ideal s .f32) :
    Host.divf (broadcastInDim s ![] h (constant (F := Ideal) ⟨0, ![]⟩ .f32 0x3F800000#32))
        (addf (broadcastInDim s ![] h (constant (F := Ideal) ⟨0, ![]⟩ .f32 0x3F800000#32)) (Host.exp (Host.negf z)))
      = logistic z := by
  funext i
  show Ideal.div (Ideal.ofBits .f32 0x3F800000#32) (Ideal.ofBits .f32 0x3F800000#32 + Ideal.exp (-(z i)))
    = Ideal.div 1 (1 + Ideal.exp (-(z i)))
  rw [Ideal.ofBits_one_f32]

/-! ## Row by row -/

/-- Row r of x is row r' of x'. -/
def RowEq (x : (⟨2, ![R, K]⟩ : Shape).Idx → EReal) (r : Fin R) (x' : (⟨2, ![R', K]⟩ : Shape).Idx → EReal) (r' : Fin R') : Prop :=
  ∀ k : Fin K, x (ix2 r k) = x' (ix2 r' k)

theorem RowEq.dense {x : (⟨2, ![R, K]⟩ : Shape).Idx → EReal} {r : Fin R} {x' : (⟨2, ![R', K]⟩ : Shape).Idx → EReal} {r' : Fin R'}
    (h : RowEq x r x' r') (w : (⟨2, ![K, C]⟩ : Shape).Idx → EReal) (b : (⟨1, ![C]⟩ : Shape).Idx → EReal) :
    RowEq (Cert.Val.dense x w b) r (Cert.Val.dense x' w b) r' := fun c => by
  show mm x w (ix2 r c) + b (ix1 c) = mm x' w (ix2 r' c) + b (ix1 c)
  refine congrArg (· + b (ix1 c)) (Finset.sum_congr rfl fun k _ => ?_)
  show x (ix2 r k) * w (ix2 k c) = x' (ix2 r' k) * w (ix2 k c)
  rw [h k]

theorem RowEq.leakyVec {x : FVec Ideal ⟨2, ![R, K]⟩ .f32} {r : Fin R} {x' : FVec Ideal ⟨2, ![R', K]⟩ .f32} {r' : Fin R'}
    (h : RowEq x r x' r') : RowEq (Cert.Val.leakyVec x) r (Cert.Val.leakyVec x') r' := fun k => by
  show Scalar.select (FloatOps.cmpf .oge (x (ix2 r k)) _) (x (ix2 r k)) (_ * x (ix2 r k))
    = Scalar.select (FloatOps.cmpf .oge (x' (ix2 r' k)) _) (x' (ix2 r' k)) (_ * x' (ix2 r' k))
  rw [h k]
  rfl

theorem RowEq.logistic {x : FVec Ideal ⟨2, ![R, K]⟩ .f32} {r : Fin R} {x' : FVec Ideal ⟨2, ![R', K]⟩ .f32} {r' : Fin R'}
    (h : RowEq x r x' r') : RowEq (logistic x) r (logistic x') r' := fun k => by
  show Ideal.logistic (x (ix2 r k)) = Ideal.logistic (x' (ix2 r' k))
  rw [h k]

/-! ## The classifier -/

/-- The classifier on R rows: a dense layer, two dense layers each followed by the leaky rectifier, a dense layer to
    one column, the logistic function. -/
def cls (h : (⟨2, ![R, 768]⟩ : Shape).Idx → EReal) (w1 : (⟨2, ![768, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 256]⟩ : Shape).Idx → EReal) (b3 : (⟨1, ![256]⟩ : Shape).Idx → EReal)
    (wf : (⟨2, ![256, 1]⟩ : Shape).Idx → EReal) (bf : (⟨1, ![1]⟩ : Shape).Idx → EReal) : (⟨2, ![R, 1]⟩ : Shape).Idx → EReal :=
  logistic (F := Ideal) (φ := .f32) (dense (leakyVec (dense (leakyVec (dense (dense h w1 b1) w2 b2)) w3 b3)) wf bf)

/-- The classifier acts row by row. -/
theorem RowEq.cls {h : (⟨2, ![R, 768]⟩ : Shape).Idx → EReal} {r : Fin R} {h' : (⟨2, ![R', 768]⟩ : Shape).Idx → EReal} {r' : Fin R'}
    (e : RowEq h r h' r') (w1 b1 w2 b2 w3 b3 wf bf) :
    RowEq (Cert.Val.cls h w1 b1 w2 b2 w3 b3 wf bf) r (Cert.Val.cls h' w1 b1 w2 b2 w3 b3 wf bf) r' :=
  ((((((e.dense w1 b1).dense w2 b2).leakyVec).dense w3 b3).leakyVec).dense wf bf).logistic

end Cert.Val

end
-- ==== Proof.Val.ClsRef.lean ====
/-
  The reference's classifier as its host operations compose, and that it is the row-wise classifier: a dense layer,
  two dense layers with the leaky rectifier, a dense layer to one column and the logistic function, the two stacked
  layers' weights and biases cut out of their arrays at offsets 0 and 1 of the leading axis.
-/
import proofs.«145887_j33578054320560_2_alg».proof.ReferenceIdeal
import proofs.«145887_j33578054320560_2_alg».proof.Proof.Gen.ReferenceIdeal
import proofs.«145887_j33578054320560_2_alg».proof.Proof.Val.ClsSpec

noncomputable section

namespace Cert.Val

open Idealize.ShloMosaic Idealize.ShloMosaic.ValueIdx
open Cert.ReferenceIdeal Cert.ReferenceIdeal.Facts₀ Cert.ReferenceIdeal.Facts

/-- Layer i's weight matrix, cut out of the stacked weights and reshaped, as the host program does. -/
def layerW0 (wcls : FVec Ideal S2x256x256 .f32) : FVec Ideal S256x256 .f32 :=
  shapeCast S256x256 (extractStridedSlice S1x256x256 ![0, 0, 0] wcls slices_S2x256x256_S1x256x256_0_0_0) shapeCasts_S1x256x256_S256x256
def layerW1 (wcls : FVec Ideal S2x256x256 .f32) : FVec Ideal S256x256 .f32 :=
  shapeCast S256x256 (extractStridedSlice S1x256x256 ![1, 0, 0] wcls slices_S2x256x256_S1x256x256_1_0_0) shapeCasts_S1x256x256_S256x256
/-- Layer i's bias, cut out of the stacked biases and reshaped, as the host program does. -/
def layerB0 (bcls : FVec Ideal S2x256 .f32) : FVec Ideal S256 .f32 :=
  shapeCast S256 (extractStridedSlice S1x256 ![0, 0] bcls slices_S2x256_S1x256_0_0) shapeCasts_S1x256_S256
def layerB1 (bcls : FVec Ideal S2x256 .f32) : FVec Ideal S256 .f32 :=
  shapeCast S256 (extractStridedSlice S1x256 ![1, 0] bcls slices_S2x256_S1x256_1_0) shapeCasts_S1x256_S256

/-- The reference's classifier: its host operations from the first dot_general to the final divide, in the
    program's order, over the concatenated features and the classifier's parameters. -/
def clsRef (h : FVec Ideal S100000x768 .f32) (wc1 : FVec Ideal S768x256 .f32) (bc1 : FVec Ideal S256 .f32)
    (wcls : FVec Ideal S2x256x256 .f32) (bcls : FVec Ideal S2x256 .f32) (wf : FVec Ideal S256x1 .f32)
    (bf : FVec Ideal S1 .f32) : FVec Ideal S100000x1 .f32 :=
  let v256 : FVec Ideal S100000x256 .f32 := Host.dotGeneral dot_S100000x768_S768x256_S100000x256_1_0_0_1_n_n none h wc1
  let v257 : FVec Ideal S1x256 .f32 := broadcastInDim S1x256 ![1] bcast_S256_S1x256_1 bc1
  let v258 : FVec Ideal S100000x256 .f32 := broadcastInDim S100000x256 ![0, 1] bcast_S1x256_S100000x256_0_1 v257
  let v259 : FVec Ideal S100000x256 .f32 := addf v256 v258
  let v260 : FVec Ideal S1x256x256 .f32 := extractStridedSlice S1x256x256 ![0, 0, 0] wcls slices_S2x256x256_S1x256x256_0_0_0
  let v261 : FVec Ideal S256x256 .f32 := shapeCast S256x256 v260 shapeCasts_S1x256x256_S256x256
  let v262 : FVec Ideal S100000x256 .f32 := Host.dotGeneral dot_S100000x256_S256x256_S100000x256_1_0_0_1_n_n none v259 v261
  let v263 : FVec Ideal S1x256 .f32 := extractStridedSlice S1x256 ![0, 0] bcls slices_S2x256_S1x256_0_0
  let v264 : FVec Ideal S256 .f32 := shapeCast S256 v263 shapeCasts_S1x256_S256
  let v265 : FVec Ideal S1x256 .f32 := broadcastInDim S1x256 ![1] bcast_S256_S1x256_1 v264
  let v266 : FVec Ideal S100000x256 .f32 := broadcastInDim S100000x256 ![0, 1] bcast_S1x256_S100000x256_0_1 v265
  let v267 : FVec Ideal S100000x256 .f32 := addf v262 v266
  let cst_46 : FVec Ideal S_ .f32 := constant (F := Ideal) S_ .f32 0x3C23D70A#32
  let v268 : FVec Ideal S100000x256 .f32 :=
    select (cmpf .oge v267 (broadcastInDim S100000x256 ![] bcast_S_S100000x256 (constant (F := Ideal) S_ .f32 0x00000000#32))) v267
      (mulf (broadcastInDim S100000x256 ![] bcast_S_S100000x256 (id cst_46)) v267)
  let v269 : FVec Ideal S1x256x256 .f32 := extractStridedSlice S1x256x256 ![1, 0, 0] wcls slices_S2x256x256_S1x256x256_1_0_0
  let v270 : FVec Ideal S256x256 .f32 := shapeCast S256x256 v269 shapeCasts_S1x256x256_S256x256
  let v271 : FVec Ideal S100000x256 .f32 := Host.dotGeneral dot_S100000x256_S256x256_S100000x256_1_0_0_1_n_n none v268 v270
  let v272 : FVec Ideal S1x256 .f32 := extractStridedSlice S1x256 ![1, 0] bcls slices_S2x256_S1x256_1_0
  let v273 : FVec Ideal S256 .f32 := shapeCast S256 v272 shapeCasts_S1x256_S256
  let v274 : FVec Ideal S1x256 .f32 := broadcastInDim S1x256 ![1] bcast_S256_S1x256_1 v273
  let v275 : FVec Ideal S100000x256 .f32 := broadcastInDim S100000x256 ![0, 1] bcast_S1x256_S100000x256_0_1 v274
  let v276 : FVec Ideal S100000x256 .f32 := addf v271 v275
  let cst_47 : FVec Ideal S_ .f32 := constant (F := Ideal) S_ .f32 0x3C23D70A#32
  let v277 : FVec Ideal S100000x256 .f32 :=
    select (cmpf .oge v276 (broadcastInDim S100000x256 ![] bcast_S_S100000x256 (constant (F := Ideal) S_ .f32 0x00000000#32))) v276
      (mulf (broadcastInDim S100000x256 ![] bcast_S_S100000x256 (id cst_47)) v276)
  let v278 : FVec Ideal S100000x1 .f32 := Host.dotGeneral dot_S100000x256_S256x1_S100000x1_1_0_0_1_n_n none v277 wf
  let v279 : FVec Ideal S1x1 .f32 := broadcastInDim S1x1 ![1] bcast_S1_S1x1_1 bf
  let v280 : FVec Ideal S100000x1 .f32 := broadcastInDim S100000x1 ![0, 1] bcast_S1x1_S100000x1_0_1 v279
  let v281 : FVec Ideal S100000x1 .f32 := addf v278 v280
  let v282 : FVec Ideal S100000x1 .f32 := Host.negf v281
  let v283 : FVec Ideal S100000x1 .f32 := Host.exp v282
  let v284 : FVec Ideal S100000x1 .f32 := broadcastInDim S100000x1 ![] bcast_S_S100000x1 (constant (F := Ideal) S_ .f32 0x3F800000#32)
  let v285 : FVec Ideal S100000x1 .f32 := addf v284 v283
  let v286 : FVec Ideal S100000x1 .f32 := broadcastInDim S100000x1 ![] bcast_S_S100000x1 (constant (F := Ideal) S_ .f32 0x3F800000#32)
  Host.divf v286 v285

/-- The reference's classifier is the row-wise classifier on all 100000 rows. -/
theorem clsRef_eq_cls (h : FVec Ideal S100000x768 .f32) (wc1 : FVec Ideal S768x256 .f32) (bc1 : FVec Ideal S256 .f32)
    (wcls : FVec Ideal S2x256x256 .f32) (bcls : FVec Ideal S2x256 .f32) (wf : FVec Ideal S256x1 .f32)
    (bf : FVec Ideal S1 .f32) :
    clsRef h wc1 bc1 wcls bcls wf bf
      = cls (R := 100000) h wc1 bc1 (layerW0 wcls) (layerB0 bcls) (layerW1 wcls) (layerB1 bcls) wf bf := by
  unfold clsRef cls layerW0 layerW1 layerB0 layerB1
  dsimp only
  simp only [dense_of_dotGeneral dot_S100000x768_S768x256_S100000x256_1_0_0_1_n_n rfl,
    dense_of_dotGeneral dot_S100000x256_S256x256_S100000x256_1_0_0_1_n_n rfl,
    dense_of_dotGeneral dot_S100000x256_S256x1_S100000x1_1_0_0_1_n_n rfl]
  rw [logistic_of_host, leakyVec_of_host, leakyVec_of_host]

end Cert.Val

end
-- ==== Proof.Val.RefCls.lean ====
/- The reference's classifier read back as a value: after its 48 operations (three matrix products with their
   biases, the leaky rectifier called twice, and the logistic function), the result buffer holds the classifier
   function of Val/ClsRef.lean applied to the contents of the concatenated features and the six parameter buffers —
   the fold unrolled and each operation's result read at its own buffer. -/
import proofs.«145887_j33578054320560_2_alg».proof.Proof.Val.RefSplit
import proofs.«145887_j33578054320560_2_alg».proof.Proof.Val.ClsRef
import Idealize.ShloMosaic.PureOps.Ideal

noncomputable section

namespace Cert.Val

open Idealize.ShloMosaic Idealize.ShloMosaic.TcCoe Idealize.SL.Sem Idealize.ShloMosaic.StableHlo

set_option maxRecDepth 65536 in
theorem rCls_value (Vr : Valuation Cert.ReferenceIdeal.τ Cert.ReferenceIdeal.sig (Elt Ideal)) :
    after rCls Vr (Proc.devRef .tc Cert.ReferenceIdeal.main_v287) = clsRef (Vr (Proc.devRef .tc Cert.ReferenceIdeal.main_v255)) (Vr (Proc.devRef .tc Cert.ReferenceIdeal.main_arg17)) (Vr (Proc.devRef .tc Cert.ReferenceIdeal.main_arg18)) (Vr (Proc.devRef .tc Cert.ReferenceIdeal.main_arg19)) (Vr (Proc.devRef .tc Cert.ReferenceIdeal.main_arg20)) (Vr (Proc.devRef .tc Cert.ReferenceIdeal.main_arg21)) (Vr (Proc.devRef .tc Cert.ReferenceIdeal.main_arg22)) := by
  simp only [rCls]
  after_results_simp
  rfl

end Cert.Val

end
-- ==== Proof.Val.Leaky.lean ====
/- The leaky rectifier on the extended reals, applied twice with one slope, is the leaky rectifier with the
   squared slope: for a positive real slope D, a negative input stays negative after one application (also at
   −∞), so the second application multiplies again, and D · (D · y) = (D · D) · y. The literal slope's value. -/
import Idealize.ShloMosaic.PureOps.Ideal

noncomputable section

namespace Cert.Val

open Idealize.ShloMosaic

/-- The leaky rectifier with slope `D`: the input where it is at least zero, `D` times it elsewhere. -/
def leaky (D y : EReal) : EReal := if 0 ≤ y then y else D * y

theorem leaky_of_nonneg (D : EReal) {y : EReal} (h : 0 ≤ y) : leaky D y = y := if_pos h
theorem leaky_of_neg (D : EReal) {y : EReal} (h : ¬ 0 ≤ y) : leaky D y = D * y := if_neg h

/-- Twice with a positive real slope is once with its square. -/
theorem leaky_twice (D : ℝ) (hD : 0 < D) (y : EReal) :
    leaky (D : EReal) (leaky (D : EReal) y) = leaky ((D * D : ℝ) : EReal) y := by
  by_cases h : 0 ≤ y
  · rw [leaky_of_nonneg _ h, leaky_of_nonneg _ h, leaky_of_nonneg _ h]
  · have hy : y < 0 := not_le.mp h
    have hneg : (D : EReal) * y < 0 := EReal.mul_neg_iff.mpr (Or.inl ⟨EReal.coe_pos.mpr hD, hy⟩)
    rw [leaky_of_neg _ h, leaky_of_neg _ (not_le.mpr hneg), leaky_of_neg _ h, EReal.coe_mul, mul_assoc]

/-- The layer's affine part and normalization at one entry, from the matrix product's entry `z` and the five
    per-column numbers: ((z + b) − mu) · (g · rsqrt (var + eps)) + be, eps the literal 0x3727C5AC. -/
def pre (z b g be mu var : EReal) : EReal :=
  (z + b - mu) * (g * Ideal.rsqrt (var + Ideal.ofBits .f32 0x3727C5AC#32)) + be

/-- A select on the comparison "at least the zero word" is the leaky rectifier. -/
theorem select_cmp_eq_leaky (D y : EReal) :
    Scalar.select (Ideal.cmp .oge y (Ideal.ofBits .f32 0x00000000#32)) y (D * y) = leaky D y := by
  have hz : Ideal.ofBits .f32 0x00000000#32 = 0 := by simp [Ideal.ofBits, Ideal.ieee]
  rw [hz]
  unfold leaky Scalar.select Ideal.cmp
  by_cases h : (0 : EReal) ≤ y
  · simp [h]
  · simp [h]

/-- The reference's slope literal denotes the real 5368709 / 536870912. -/
theorem ofBits_slope : Ideal.ofBits .f32 0x3C23D70A#32 = ((5368709 / 536870912 : ℝ) : EReal) := by
  simp [Ideal.ofBits, Ideal.ieee, -EReal.coe_mul]; norm_num

theorem slope_pos : (0 : ℝ) < 5368709 / 536870912 := by norm_num

/-- Its square is the rational the idealized kernel names. -/
theorem slope_sq : ((5368709 / 536870912 : ℝ) * (5368709 / 536870912 : ℝ)) = (28823036326681 / 288230376151711744 : ℝ) := by
  norm_num

end Cert.Val
-- ==== Proof.Val.Pay.lean ====
/- The idealized kernel's payload — the body's arithmetic over the loaded blocks — read at one entry of the
   output block: the leaky rectifier with the named slope of the affine part and normalization of the matrix
   product's entry. -/
import proofs.«145887_j33578054320560_2_alg».proof.Proof.Gen.KernelIdeal.Skeleton
import proofs.«145887_j33578054320560_2_alg».proof.Proof.LibPlainDot
import proofs.«145887_j33578054320560_2_alg».proof.Proof.Val.Leaky
import Idealize.ShloMosaic.PureOps.IdealRules
import Idealize.ShloMosaic.Lib.ValueLayout
import Idealize.ShloMosaic.Lib.Pipeline.Value

noncomputable section

namespace Cert.Val

open Idealize.ShloMosaic Idealize.ShloMosaic.ValueIdx Idealize.SL.Sem
open Cert.KernelIdeal Cert.KernelIdeal.Gen
open Cert.Lib.PlainDot

/-- The value the idealized kernel's named slope constant denotes. -/
theorem named_slope : Named.named (F := Ideal) Cert.KernelIdeal.κ "slope_sq" (φ := .f32) 0x38D1B717#32
    = ((28823036326681 / 288230376151711744 : ℝ) : EReal) :=
  IdealRules.named_const.ideal_named_scalar _ _ _ _ rfl

/-- A vector of 128 numbers made a [1, 128] row and repeated over 10000 rows reads, at (p, q), its entry q. -/
theorem row_spread_apply (v : FVec Ideal S128 .f32) (h0 : S128.ShapeCasts S128) (h1 : S128.ShapeCasts S1x128)
    (h2 : S1x128.Broadcasts S10000x128) (p : Fin 10000) (q : Fin 128) :
    broadcastTo S10000x128 (shapeCast S1x128 (shapeCast S128 v h0) h1) h2 (ix2 p q) = v (ix1 q) := by
  rw [shapeCast_self]
  exact (broadcastTo_1b_ab_apply _ h2 p q).trans (shapeCast_a_1a_apply v h1 0 q)

/-- The same without the identity cast in front. -/
theorem row_spread_apply' (v : FVec Ideal S128 .f32) (h1 : S128.ShapeCasts S1x128)
    (h2 : S1x128.Broadcasts S10000x128) (p : Fin 10000) (q : Fin 128) :
    broadcastTo S10000x128 (shapeCast S1x128 v h1) h2 (ix2 p q) = v (ix1 q) :=
  (broadcastTo_1b_ab_apply _ h2 p q).trans (shapeCast_a_1a_apply v h1 0 q)

theorem rsqrt_apply' {s : Shape} (x : FVec Ideal s .f32) (i : s.Idx) : rsqrt x i = Ideal.rsqrt (x i) := rfl

/-- The kernel's activation on one entry: a select on "at least zero" between the entry and the named slope times it. -/
theorem act_eq (Z : EReal) :
    Scalar.select (FloatOps.cmpf (F := Ideal) (φ := .f32) .oge Z (FloatOps.ofBits (F := Ideal) .f32 0x00000000#32)) Z
        (Named.named (F := Ideal) Cert.KernelIdeal.κ "slope_sq" (φ := .f32) 0x38D1B717#32 * Z)
      = leaky ((28823036326681 / 288230376151711744 : ℝ) : EReal) Z := by
  rw [named_slope]
  exact select_cmp_eq_leaky _ Z

/-- Region 0's matrix product of the (format-changed) blocks into the zero accumulator, at an entry. -/
theorem matmul0_apply (x0 : Vec Ideal S10000x64 .f32) (x1 : Vec Ideal S64x128 .f32)
    (h0 : FTy.bits .bf16 < FTy.bits .f32) (p : Fin 10000) (q : Fin 128) :
    FloatOps.matmul (F := Ideal) dot_S10000x64_S64x128_S10000x128_1_0_0_1_n_n none (truncf .bf16 x0 h0) (truncf .bf16 x1 h0)
        (constant S10000x128 .f32 0x00000000#32) (ix2 p q) = mm x0 x1 (ix2 p q) :=
  matmul_zero_apply (R := 10000) (K := 64) (C := 128) _ rfl none _ _ (ix2 p q)

/-- Region 0's payload at entry (p, q) of the block: the activation with the named slope of the layer's affine
    part and normalization of the matrix product's entry. -/
theorem k0_pay1_apply (x0 : Vec Ideal S10000x64 .f32) (x1 : Vec Ideal S64x128 .f32) (b g var mu be : Vec Ideal S128 .f32)
    (p : Fin 10000) (q : Fin 128) :
    k0_pay1 (F := Ideal) x0 x1 b g var mu be (ix2 p q)
      = leaky ((28823036326681 / 288230376151711744 : ℝ) : EReal)
          (pre (mm x0 x1 (ix2 p q)) (b (ix1 q)) (g (ix1 q)) (be (ix1 q)) (mu (ix1 q)) (var (ix1 q))) := by
  unfold k0_pay1
  simp only [select_apply, cmpf_apply, mulf_apply, addf_apply, subf_apply, broadcast_apply, row_spread_apply,
    row_spread_apply', shapeCast_self, rsqrt_apply', matmul, matmul0_apply]
  exact act_eq _

/-- Region 1's matrix product of the (format-changed) blocks into the zero accumulator, at an entry. -/
theorem matmul1_apply (x0 : Vec Ideal S10000x128 .f32) (x1 : Vec Ideal S128x128 .f32)
    (h0 : FTy.bits .bf16 < FTy.bits .f32) (p : Fin 10000) (q : Fin 128) :
    FloatOps.matmul (F := Ideal) dot_S10000x128_S128x128_S10000x128_1_0_0_1_n_n none (truncf .bf16 x0 h0) (truncf .bf16 x1 h0)
        (constant S10000x128 .f32 0x00000000#32) (ix2 p q) = mm x0 x1 (ix2 p q) :=
  matmul_zero_apply (R := 10000) (K := 128) (C := 128) _ rfl none _ _ (ix2 p q)

/-- Region 1's payload at entry (p, q) of the block: the activation with the named slope of the layer's affine
    part and normalization of the matrix product's entry. -/
theorem k1_pay1_apply (x0 : Vec Ideal S10000x128 .f32) (x1 : Vec Ideal S128x128 .f32) (b g var mu be : Vec Ideal S128 .f32)
    (p : Fin 10000) (q : Fin 128) :
    k1_pay1 (F := Ideal) x0 x1 b g var mu be (ix2 p q)
      = leaky ((28823036326681 / 288230376151711744 : ℝ) : EReal)
          (pre (mm x0 x1 (ix2 p q)) (b (ix1 q)) (g (ix1 q)) (be (ix1 q)) (mu (ix1 q)) (var (ix1 q))) := by
  unfold k1_pay1
  simp only [select_apply, cmpf_apply, mulf_apply, addf_apply, subf_apply, broadcast_apply, row_spread_apply,
    row_spread_apply', shapeCast_self, rsqrt_apply', matmul, matmul1_apply]
  exact act_eq _

/-- Region 2's matrix product of the (format-changed) blocks into the zero accumulator, at an entry. -/
theorem matmul2_apply (x0 : Vec Ideal S10000x128 .f32) (x1 : Vec Ideal S128x128 .f32)
    (h0 : FTy.bits .bf16 < FTy.bits .f32) (p : Fin 10000) (q : Fin 128) :
    FloatOps.matmul (F := Ideal) dot_S10000x128_S128x128_S10000x128_1_0_0_1_n_n none (truncf .bf16 x0 h0) (truncf .bf16 x1 h0)
        (constant S10000x128 .f32 0x00000000#32) (ix2 p q) = mm x0 x1 (ix2 p q) :=
  matmul_zero_apply (R := 10000) (K := 128) (C := 128) _ rfl none _ _ (ix2 p q)

/-- Region 2's payload at entry (p, q) of the block: the activation with the named slope of the layer's affine
    part and normalization of the matrix product's entry. -/
theorem k2_pay1_apply (x0 : Vec Ideal S10000x128 .f32) (x1 : Vec Ideal S128x128 .f32) (b g var mu be : Vec Ideal S128 .f32)
    (p : Fin 10000) (q : Fin 128) :
    k2_pay1 (F := Ideal) x0 x1 b g var mu be (ix2 p q)
      = leaky ((28823036326681 / 288230376151711744 : ℝ) : EReal)
          (pre (mm x0 x1 (ix2 p q)) (b (ix1 q)) (g (ix1 q)) (be (ix1 q)) (mu (ix1 q)) (var (ix1 q))) := by
  unfold k2_pay1
  simp only [select_apply, cmpf_apply, mulf_apply, addf_apply, subf_apply, broadcast_apply, row_spread_apply,
    row_spread_apply', shapeCast_self, rsqrt_apply', matmul, matmul2_apply]
  exact act_eq _

/-- Region 3's matrix product of the (format-changed) blocks into the zero accumulator, at an entry. -/
theorem matmul3_apply (x0 : Vec Ideal S10000x128 .f32) (x1 : Vec Ideal S128x128 .f32)
    (h0 : FTy.bits .bf16 < FTy.bits .f32) (p : Fin 10000) (q : Fin 128) :
    FloatOps.matmul (F := Ideal) dot_S10000x128_S128x128_S10000x128_1_0_0_1_n_n none (truncf .bf16 x0 h0) (truncf .bf16 x1 h0)
        (constant S10000x128 .f32 0x00000000#32) (ix2 p q) = mm x0 x1 (ix2 p q) :=
  matmul_zero_apply (R := 10000) (K := 128) (C := 128) _ rfl none _ _ (ix2 p q)

/-- Region 3's payload at entry (p, q) of the block: the activation with the named slope of the layer's affine
    part and normalization of the matrix product's entry. -/
theorem k3_pay1_apply (x0 : Vec Ideal S10000x128 .f32) (x1 : Vec Ideal S128x128 .f32) (b g var mu be : Vec Ideal S128 .f32)
    (p : Fin 10000) (q : Fin 128) :
    k3_pay1 (F := Ideal) x0 x1 b g var mu be (ix2 p q)
      = leaky ((28823036326681 / 288230376151711744 : ℝ) : EReal)
          (pre (mm x0 x1 (ix2 p q)) (b (ix1 q)) (g (ix1 q)) (be (ix1 q)) (mu (ix1 q)) (var (ix1 q))) := by
  unfold k3_pay1
  simp only [select_apply, cmpf_apply, mulf_apply, addf_apply, subf_apply, broadcast_apply, row_spread_apply,
    row_spread_apply', shapeCast_self, rsqrt_apply', matmul, matmul3_apply]
  exact act_eq _

/-- Region 4's matrix product of the (format-changed) blocks into the zero accumulator, at an entry. -/
theorem matmul4_apply (x0 : Vec Ideal S10000x128 .f32) (x1 : Vec Ideal S128x128 .f32)
    (h0 : FTy.bits .bf16 < FTy.bits .f32) (p : Fin 10000) (q : Fin 128) :
    FloatOps.matmul (F := Ideal) dot_S10000x128_S128x128_S10000x128_1_0_0_1_n_n none (truncf .bf16 x0 h0) (truncf .bf16 x1 h0)
        (constant S10000x128 .f32 0x00000000#32) (ix2 p q) = mm x0 x1 (ix2 p q) :=
  matmul_zero_apply (R := 10000) (K := 128) (C := 128) _ rfl none _ _ (ix2 p q)

/-- Region 4's payload at entry (p, q) of the block: the activation with the named slope of the layer's affine
    part and normalization of the matrix product's entry. -/
theorem k4_pay1_apply (x0 : Vec Ideal S10000x128 .f32) (x1 : Vec Ideal S128x128 .f32) (b g var mu be : Vec Ideal S128 .f32)
    (p : Fin 10000) (q : Fin 128) :
    k4_pay1 (F := Ideal) x0 x1 b g var mu be (ix2 p q)
      = leaky ((28823036326681 / 288230376151711744 : ℝ) : EReal)
          (pre (mm x0 x1 (ix2 p q)) (b (ix1 q)) (g (ix1 q)) (be (ix1 q)) (mu (ix1 q)) (var (ix1 q))) := by
  unfold k4_pay1
  simp only [select_apply, cmpf_apply, mulf_apply, addf_apply, subf_apply, broadcast_apply, row_spread_apply,
    row_spread_apply', shapeCast_self, rsqrt_apply', matmul, matmul4_apply]
  exact act_eq _

end Cert.Val
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibSpread.lean ====
/-
  A vector spread over a matrix in two steps, read at an index.

  One number per row, made an `[n, 1]` column by a broadcast along a new unit axis and then spread over `c` columns, reads
  at (r, k) the number of row r; one number per column, made a `[1, c]` row and then spread over `n` rows, reads at
  (r, k) the number of column k.  Each is the same as the vector cast (reshaped) to the column, or to the row, and read
  there: this is what joins a program that spreads with `broadcast_in_dim` to one that reshapes.  The extents are
  variables.
-/
import Idealize.ShloMosaic.Lib.Pipeline.Value
import Idealize.ShloMosaic.Lib.ValueLayout
import proofs.«145887_j33578054320560_2_alg».proof.Proof.LibRowLayout

noncomputable section

namespace Cert.Lib.Spread

open Idealize.ShloMosaic Idealize.ShloMosaic.ValueIdx Cert.KernelIdeal.MvnKernel

variable {α : Type} {n c : Nat}

/-- One number per row, made a column and then spread over the columns, reads at (r, k) the number of row r: the
    same as the vector cast to a column, read at (r, 0). -/
theorem spread_col (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1])
    (hc : (⟨1, ![n]⟩ : Shape).ShapeCasts ⟨2, ![n, 1]⟩) (i : (⟨2, ![n, c]⟩ : Shape).Idx) :
    broadcastInDim ⟨2, ![n, c]⟩ ![0, 1] h2 (broadcastInDim ⟨2, ![n, 1]⟩ ![0] h1 d) i
      = shapeCast ⟨2, ![n, 1]⟩ d hc (ix2 (i 0) (0 : Fin 1)) := by
  obtain ⟨a, k, rfl⟩ : ∃ (a : Fin n) (k : Fin c), i = ix2 a k := ⟨i 0, i 1, eq_ix2 i⟩
  rw [broadcastInDim_apply _ h2 _ (ix2 a k) (ix2 a (0 : Fin 1)) (fun ax => by
        match ax with
        | ⟨0, _⟩ => show a.val = if n = 1 then 0 else a.val; split; (have := a.isLt; omega); rfl
        | ⟨1, _⟩ => rfl),
      broadcastInDim_apply _ h1 _ (ix2 a (0 : Fin 1)) (ix1 a) (fun ax => by
        match ax with
        | ⟨0, _⟩ => show a.val = if n = 1 then 0 else a.val; split; (have := a.isLt; omega); rfl)]
  exact (shapeCast_a_a1_apply d hc a 0).symm

/-- One number per column, made a row and then spread over the rows, reads at (r, k) the number of column k: the
    same as the vector cast to a row, read at (0, k). -/
theorem spread_row (bv : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1])
    (hb : (⟨1, ![c]⟩ : Shape).ShapeCasts ⟨2, ![1, c]⟩) (i : (⟨2, ![n, c]⟩ : Shape).Idx) :
    broadcastInDim ⟨2, ![n, c]⟩ ![0, 1] h2 (broadcastInDim ⟨2, ![1, c]⟩ ![1] h1 bv) i
      = shapeCast ⟨2, ![1, c]⟩ bv hb (ix2 (0 : Fin 1) (i 1)) := by
  obtain ⟨a, k, rfl⟩ : ∃ (a : Fin n) (k : Fin c), i = ix2 a k := ⟨i 0, i 1, eq_ix2 i⟩
  rw [broadcastInDim_apply _ h2 _ (ix2 a k) (ix2 (0 : Fin 1) k) (fun ax => by
        match ax with
        | ⟨0, _⟩ => rfl
        | ⟨1, _⟩ => show k.val = if c = 1 then 0 else k.val; split; (have := k.isLt; omega); rfl),
      broadcastInDim_apply _ h1 _ (ix2 (0 : Fin 1) k) (ix1 k) (fun ax => by
        match ax with
        | ⟨0, _⟩ => show k.val = if c = 1 then 0 else k.val; split; (have := k.isLt; omega); rfl)]
  exact (shapeCast_a_1a_apply bv hb 0 k).symm

end Cert.Lib.Spread

end
-- ==== Proof.Val.RefAt.lean ====
/- One layer's dense part of the reference read at one entry: the leaky rectifier with the literal slope, twice,
   of the affine part and normalization of the matrix product's entry. -/
import proofs.«145887_j33578054320560_2_alg».proof.Proof.Val.GinRef
import proofs.«145887_j33578054320560_2_alg».proof.Proof.Val.Leaky
import proofs.«145887_j33578054320560_2_alg».proof.Proof.LibPlainDot
import proofs.«145887_j33578054320560_2_alg».proof.Proof.LibSpread
import Idealize.ShloMosaic.Lib.ValueLayout

noncomputable section

namespace Cert.Val

open Idealize.ShloMosaic Idealize.ShloMosaic.ValueIdx Idealize.SL.Sem
open Cert.ReferenceIdeal Cert.ReferenceIdeal.Gen
open Cert.Lib.PlainDot

/-- A vector spread over the rows reads, at (r, q), its entry q. -/
theorem spreadRef_apply (v : FVec Ideal S128 .f32) (r : Fin 100000) (q : Fin 128) : spreadRef v (ix2 r q) = v (ix1 q) := by
  unfold spreadRef
  refine (Cert.Lib.Spread.spread_row (n := 100000) (c := 128) v bcast_S128_S1x128_1 bcast_S1x128_S100000x128_0_1
    (by decide) (ix2 r q)).trans ?_
  exact shapeCast_a_1a_apply v _ 0 q

/-- The reference's leaky rectifier at an entry. -/
theorem leakyRef_apply (y : FVec Ideal S100000x128 .f32) (i : S100000x128.Idx) :
    leakyRef y i = leaky (Ideal.ofBits .f32 0x3C23D70A#32) (y i) := by
  unfold leakyRef
  rw [select_apply, cmpf_apply, mulf_apply]
  exact select_cmp_eq_leaky _ _

/-- The reference's affine part and normalization at an entry. -/
theorem preRef_apply (z : FVec Ideal S100000x128 .f32) (b g be mu var : FVec Ideal S128 .f32) (r : Fin 100000) (q : Fin 128) :
    preRef z b g be mu var (ix2 r q) = pre (z (ix2 r q)) (b (ix1 q)) (g (ix1 q)) (be (ix1 q)) (mu (ix1 q)) (var (ix1 q)) := by
  unfold preRef
  simp only [addf_apply, mulf_apply, subf_apply, spreadRef_apply]
  rfl

theorem gin128Ref_apply (x : FVec Ideal S100000x128 .f32) (w : FVec Ideal S128x128 .f32) (b g be mu var : FVec Ideal S128 .f32)
    (r : Fin 100000) (q : Fin 128) :
    gin128Ref x w b g be mu var (ix2 r q)
      = leaky (Ideal.ofBits .f32 0x3C23D70A#32) (leaky (Ideal.ofBits .f32 0x3C23D70A#32)
          (pre (mm x w (ix2 r q)) (b (ix1 q)) (g (ix1 q)) (be (ix1 q)) (mu (ix1 q)) (var (ix1 q)))) := by
  unfold gin128Ref
  rw [leakyRef_apply, leakyRef_apply, preRef_apply]
  simp only [Host.dotGeneral]
  rw [dotGeneral_apply (R := 100000) (K := 128) (C := 128) dot_S100000x128_S128x128_S100000x128_1_0_0_1_n_n rfl]

theorem gin64Ref_apply (x : FVec Ideal S100000x64 .f32) (w : FVec Ideal S64x128 .f32) (b g be mu var : FVec Ideal S128 .f32)
    (r : Fin 100000) (q : Fin 128) :
    gin64Ref x w b g be mu var (ix2 r q)
      = leaky (Ideal.ofBits .f32 0x3C23D70A#32) (leaky (Ideal.ofBits .f32 0x3C23D70A#32)
          (pre (mm x w (ix2 r q)) (b (ix1 q)) (g (ix1 q)) (be (ix1 q)) (mu (ix1 q)) (var (ix1 q)))) := by
  unfold gin64Ref
  rw [leakyRef_apply, leakyRef_apply, preRef_apply]
  simp only [Host.dotGeneral]
  rw [dotGeneral_apply (R := 100000) (K := 64) (C := 128) dot_S100000x64_S64x128_S100000x128_1_0_0_1_n_n rfl]

end Cert.Val
-- ==== Proof.Val.Gin0.lean ====
/- Region 0's output array after all its grid points, as one function of the region's input arrays: the
   reference's dense layer of them. Each grid point writes back the block of rows it loaded, every row of the
   array is in some point's block, and at each entry the kernel's arithmetic on the loaded blocks is the
   reference's on the whole arrays. -/
import proofs.«145887_j33578054320560_2_alg».proof.Proof.KI.Reg0
import proofs.«145887_j33578054320560_2_alg».proof.Proof.Val.Pay
import proofs.«145887_j33578054320560_2_alg».proof.Proof.Val.RefAt
import Idealize.ShloMosaic.Lib.Pipeline.Value

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Lib.PlainDot

variable (V : (c : Dev nD) → (b : Ref sig .tc) → Buf (Elt Ideal) ((c : Thread nD τ).loc b))

/-- The printed index maps, decided over the grid: the feature window and the output window are at block
    (t, 0) at point t, every other window at block zero. -/
theorem idx_facts0 : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0 :=
  (by decide +kernel : ∀ t : Fin grid0.N, _)

/-- The feature window's block at point t is rows 10000 t … 10000 t + 9999 of its array. -/
theorem iblk0_0_apply (c : Dev nD) (t : Fin cfg0.N) (p : Fin 10000) (k : Fin 64) (r : Fin 100000)
    (hr : r.val = t.val * 10000 + p.val) :
    (iblk0 V c 0 t : Vec Ideal S10000x64 .f32) (ix2 p k)
      = (V c (Pipeline.arrRef spec0 0) : S100000x64.Idx → EReal) (ix2 r k) := by
  obtain ⟨e0, e1, -⟩ := idx_facts0 t
  unfold iblk0
  rw [View.read_apply]
  refine congrArg (V c (Pipeline.arrRef spec0 0)) ?_
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The weight window's block at every point is its whole array. -/
theorem iblk0_1_eq (c : Dev nD) (t : Fin cfg0.N) :
    (iblk0 V c 1 t : Vec Ideal S64x128 .f32) = (V c (Pipeline.arrRef spec0 1) : S64x128.Idx → EReal) := by
  obtain ⟨-, -, -, -, e0, e1, -⟩ := idx_facts0 t
  funext y
  unfold iblk0
  rw [View.read_apply]
  refine congrArg (V c (Pipeline.arrRef spec0 1)) ?_
  funext a
  apply Fin.ext
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- Vector window 2's block at every point is its whole array. -/
theorem iblk0_2_eq (c : Dev nD) (t : Fin cfg0.N) :
    (iblk0 V c 2 t : Vec Ideal S128 .f32) = (V c (Pipeline.arrRef spec0 2) : S128.Idx → EReal) := by
  obtain ⟨-, -, -, -, -, -, e2, e3, e4, e5, e6⟩ := idx_facts0 t
  funext y
  unfold iblk0
  rw [View.read_apply]
  refine congrArg (V c (Pipeline.arrRef spec0 2)) ?_
  funext a
  apply Fin.ext
  match a with
  | ⟨0, _⟩ => show win0_2.index t (0 : Fin 1) * 128 + 1 * (y 0).val = (y 0).val; rw [e2]; omega

/-- Vector window 3's block at every point is its whole array. -/
theorem iblk0_3_eq (c : Dev nD) (t : Fin cfg0.N) :
    (iblk0 V c 3 t : Vec Ideal S128 .f32) = (V c (Pipeline.arrRef spec0 3) : S128.Idx → EReal) := by
  obtain ⟨-, -, -, -, -, -, e2, e3, e4, e5, e6⟩ := idx_facts0 t
  funext y
  unfold iblk0
  rw [View.read_apply]
  refine congrArg (V c (Pipeline.arrRef spec0 3)) ?_
  funext a
  apply Fin.ext
  match a with
  | ⟨0, _⟩ => show win0_3.index t (0 : Fin 1) * 128 + 1 * (y 0).val = (y 0).val; rw [e3]; omega

/-- Vector window 4's block at every point is its whole array. -/
theorem iblk0_4_eq (c : Dev nD) (t : Fin cfg0.N) :
    (iblk0 V c 4 t : Vec Ideal S128 .f32) = (V c (Pipeline.arrRef spec0 4) : S128.Idx → EReal) := by
  obtain ⟨-, -, -, -, -, -, e2, e3, e4, e5, e6⟩ := idx_facts0 t
  funext y
  unfold iblk0
  rw [View.read_apply]
  refine congrArg (V c (Pipeline.arrRef spec0 4)) ?_
  funext a
  apply Fin.ext
  match a with
  | ⟨0, _⟩ => show win0_4.index t (0 : Fin 1) * 128 + 1 * (y 0).val = (y 0).val; rw [e4]; omega

/-- Vector window 5's block at every point is its whole array. -/
theorem iblk0_5_eq (c : Dev nD) (t : Fin cfg0.N) :
    (iblk0 V c 5 t : Vec Ideal S128 .f32) = (V c (Pipeline.arrRef spec0 5) : S128.Idx → EReal) := by
  obtain ⟨-, -, -, -, -, -, e2, e3, e4, e5, e6⟩ := idx_facts0 t
  funext y
  unfold iblk0
  rw [View.read_apply]
  refine congrArg (V c (Pipeline.arrRef spec0 5)) ?_
  funext a
  apply Fin.ext
  match a with
  | ⟨0, _⟩ => show win0_5.index t (0 : Fin 1) * 128 + 1 * (y 0).val = (y 0).val; rw [e5]; omega

/-- Vector window 6's block at every point is its whole array. -/
theorem iblk0_6_eq (c : Dev nD) (t : Fin cfg0.N) :
    (iblk0 V c 6 t : Vec Ideal S128 .f32) = (V c (Pipeline.arrRef spec0 6) : S128.Idx → EReal) := by
  obtain ⟨-, -, -, -, -, -, e2, e3, e4, e5, e6⟩ := idx_facts0 t
  funext y
  unfold iblk0
  rw [View.read_apply]
  refine congrArg (V c (Pipeline.arrRef spec0 6)) ?_
  funext a
  apply Fin.ext
  match a with
  | ⟨0, _⟩ => show win0_6.index t (0 : Fin 1) * 128 + 1 * (y 0).val = (y 0).val; rw [e6]; omega

/-- One entry of a block: the kernel's arithmetic on blocks that are the stated parts of the whole arrays is the
    reference's layer on the whole arrays, at the entry's place in the array. The two leaky rectifiers of the
    reference are one with the squared slope, which is the kernel's named slope. -/
theorem block_entry0 (X : FVec Ideal S100000x64 .f32) (W : FVec Ideal S64x128 .f32) (B G BE MU VAR : FVec Ideal S128 .f32)
    (x0 : Vec Ideal S10000x64 .f32) (x1 : Vec Ideal S64x128 .f32) (x2 x3 x4 x5 x6 : Vec Ideal S128 .f32)
    (p : Fin 10000) (q : Fin 128) (r : Fin 100000)
    (h0 : ∀ k : Fin 64, x0 (ix2 p k) = X (ix2 r k))
    (h1 : x1 = W) (h2 : x2 = B) (h3 : x3 = G) (h4 : x4 = BE) (h5 : x5 = MU) (h6 : x6 = VAR) :
    k0_pay1 (F := Ideal) x0 x1 x2 x3 x6 x5 x4 (ix2 p q) = gin64Ref X W B G BE MU VAR (ix2 r q) := by
  subst h1 h2 h3 h4 h5 h6
  rw [k0_pay1_apply, gin64Ref_apply, ofBits_slope, leaky_twice _ slope_pos, slope_sq]
  have hmm : mm x0 x1 (ix2 p q) = mm X x1 (ix2 r q) := by
    unfold mm
    refine Finset.sum_congr rfl fun k _ => ?_
    have el : rowIdx (R := 10000) (K := 64) (C := 128) (ix2 p q) k = ix2 p k :=
      funext fun a => by match a with | ⟨0, _⟩ => rfl | ⟨1, _⟩ => rfl
    have er : rowIdx (R := 100000) (K := 64) (C := 128) (ix2 r q) k = ix2 r k :=
      funext fun a => by match a with | ⟨0, _⟩ => rfl | ⟨1, _⟩ => rfl
    have ec : colIdx (R := 10000) (K := 64) (C := 128) (ix2 p q) k = colIdx (R := 100000) (K := 64) (C := 128) (ix2 r q) k :=
      funext fun a => by match a with | ⟨0, _⟩ => rfl | ⟨1, _⟩ => rfl
    rw [el, er, ec, h0 k]
  rw [hmm]

/-- What point t writes back is block t of the reference's layer of the region's input arrays. -/
theorem flushed0_eq (c : Dev nD) (t : Fin cfg0.N) :
    (dat0 (F := Ideal) V c).flushed 7 t = ((cfg0.win 7).blk t).view.read (Elt Ideal)
      (gin64Ref (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6))) := by
  show (cfg0.win 7).cut (grid0.coords t) ((dat0 V c).after 7 t) = _
  rw [after0_7, out0_7_eq]
  obtain ⟨-, -, e0, e1, -⟩ := idx_facts0 t
  have hN : grid0.N = 10 := N_0
  have ht : t.val < 10 := hN ▸ t.isLt
  refine funext fun (j : S10000x128.Idx) => ?_
  obtain ⟨p, q, rfl⟩ : ∃ (p : Fin 10000) (q : Fin 128), j = ix2 p q := ⟨j 0, j 1, eq_ix2 j⟩
  have hp : p.val < 10000 := p.isLt
  rw [View.read_apply]
  have hemb : ((cfg0.win 7).blk t).view.emb (ix2 p q) = (ix2 (⟨t.val * 10000 + p.val, by omega⟩ : Fin 100000) q : S100000x128.Idx) := by
    funext a
    apply Fin.ext
    match a with
    | ⟨0, _⟩ => show win0_7.index t (0 : Fin 2) * 10000 + 1 * p.val = t.val * 10000 + p.val; rw [e0]; omega
    | ⟨1, _⟩ => show win0_7.index t (1 : Fin 2) * 128 + 1 * q.val = q.val; rw [e1]; omega
  rw [hemb]
  exact block_entry0 _ _ _ _ _ _ _ (iblk0 V c 0 t) (iblk0 V c 1 t) (iblk0 V c 2 t) (iblk0 V c 3 t)
    (iblk0 V c 4 t) (iblk0 V c 5 t) (iblk0 V c 6 t) p q _
    (fun k => iblk0_0_apply V c t p k _ rfl)
    (iblk0_1_eq V c t) (iblk0_2_eq V c t) (iblk0_3_eq V c t) (iblk0_4_eq V c t) (iblk0_5_eq V c t) (iblk0_6_eq V c t)

/-- An index of the output array is in point t's block iff each coordinate is in the block's range on its axis. -/
theorem mem_blk0 (t : Fin cfg0.N) (i : S100000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole main_v18).slice (win0_7.rect t)).set ↔ _
  rw [View.set_slice_whole, Rect.mem_set_unit]
  exact Iff.rfl

/-- Every row of the output array is in the block of the point numbered by the row's ten-thousand. -/
theorem cover0 (i : S100000x128.Idx) :
    ∃ t : Fin cfg0.N, (cfg0.win 7).flush t = true ∧ i ∈ ((cfg0.win 7).blk t).view.set := by
  have hN : grid0.N = 10 := N_0
  have hi0 : (i 0).val < 100000 := (i 0).isLt
  have hi1 : (i 1).val < 128 := (i 1).isLt
  have hlt : (i 0).val / 10000 < grid0.N := by rw [hN]; omega
  refine ⟨⟨(i 0).val / 10000, hlt⟩, flush0_7 _, ?_⟩
  obtain ⟨-, -, e0, e1, -⟩ := idx_facts0 ⟨(i 0).val / 10000, hlt⟩
  rw [mem_blk0]
  intro a
  match a with
  | ⟨0, _⟩ =>
    show win0_7.index ⟨(i 0).val / 10000, hlt⟩ (0 : Fin 2) * 10000 ≤ (i 0).val ∧ (i 0).val < win0_7.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_7.index ⟨(i 0).val / 10000, hlt⟩ (1 : Fin 2) * 128 ≤ (i 1).val ∧ (i 1).val < win0_7.index ⟨(i 0).val / 10000, hlt⟩ (1 : Fin 2) * 128 + 128
    rw [e1]; omega

/-- The region's output array after all grid points is the reference's layer of the region's input arrays. -/
theorem reg0_value (c : Dev nD) :
    ((dat0 (F := Ideal) V c).arrAt 7 cfg0.N : S100000x128.Idx → EReal)
      = gin64Ref (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) :=
  (dat0 (F := Ideal) V c).arrAt_eq_of_cover 7 _ (fun t _ => flushed0_eq V c t) (cover0)

end Cert.Val
-- ==== Proof.Val.Gin1.lean ====
/- Region 1's output array after all its grid points, as one function of the region's input arrays: the
   reference's dense layer of them. Each grid point writes back the block of rows it loaded, every row of the
   array is in some point's block, and at each entry the kernel's arithmetic on the loaded blocks is the
   reference's on the whole arrays. -/
import proofs.«145887_j33578054320560_2_alg».proof.Proof.KI.Reg1
import proofs.«145887_j33578054320560_2_alg».proof.Proof.Val.Pay
import proofs.«145887_j33578054320560_2_alg».proof.Proof.Val.RefAt
import Idealize.ShloMosaic.Lib.Pipeline.Value

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Lib.PlainDot

variable (V : (c : Dev nD) → (b : Ref sig .tc) → Buf (Elt Ideal) ((c : Thread nD τ).loc b))

/-- The printed index maps, decided over the grid: the feature window and the output window are at block
    (t, 0) at point t, every other window at block zero. -/
theorem idx_facts1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 1) = 0 ∧ win1_6.index t (0 : Fin 1) = 0 :=
  (by decide +kernel : ∀ t : Fin grid1.N, _)

/-- The feature window's block at point t is rows 10000 t … 10000 t + 9999 of its array. -/
theorem iblk1_0_apply (c : Dev nD) (t : Fin cfg1.N) (p : Fin 10000) (k : Fin 128) (r : Fin 100000)
    (hr : r.val = t.val * 10000 + p.val) :
    (iblk1 V c 0 t : Vec Ideal S10000x128 .f32) (ix2 p k)
      = (V c (Pipeline.arrRef spec1 0) : S100000x128.Idx → EReal) (ix2 r k) := by
  obtain ⟨e0, e1, -⟩ := idx_facts1 t
  unfold iblk1
  rw [View.read_apply]
  refine congrArg (V c (Pipeline.arrRef spec1 0)) ?_
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- The weight window's block at every point is its whole array. -/
theorem iblk1_1_eq (c : Dev nD) (t : Fin cfg1.N) :
    (iblk1 V c 1 t : Vec Ideal S128x128 .f32) = (V c (Pipeline.arrRef spec1 1) : S128x128.Idx → EReal) := by
  obtain ⟨-, -, -, -, e0, e1, -⟩ := idx_facts1 t
  funext y
  unfold iblk1
  rw [View.read_apply]
  refine congrArg (V c (Pipeline.arrRef spec1 1)) ?_
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- Vector window 2's block at every point is its whole array. -/
theorem iblk1_2_eq (c : Dev nD) (t : Fin cfg1.N) :
    (iblk1 V c 2 t : Vec Ideal S128 .f32) = (V c (Pipeline.arrRef spec1 2) : S128.Idx → EReal) := by
  obtain ⟨-, -, -, -, -, -, e2, e3, e4, e5, e6⟩ := idx_facts1 t
  funext y
  unfold iblk1
  rw [View.read_apply]
  refine congrArg (V c (Pipeline.arrRef spec1 2)) ?_
  funext a
  apply Fin.ext
  match a with
  | ⟨0, _⟩ => show win1_2.index t (0 : Fin 1) * 128 + 1 * (y 0).val = (y 0).val; rw [e2]; omega

/-- Vector window 3's block at every point is its whole array. -/
theorem iblk1_3_eq (c : Dev nD) (t : Fin cfg1.N) :
    (iblk1 V c 3 t : Vec Ideal S128 .f32) = (V c (Pipeline.arrRef spec1 3) : S128.Idx → EReal) := by
  obtain ⟨-, -, -, -, -, -, e2, e3, e4, e5, e6⟩ := idx_facts1 t
  funext y
  unfold iblk1
  rw [View.read_apply]
  refine congrArg (V c (Pipeline.arrRef spec1 3)) ?_
  funext a
  apply Fin.ext
  match a with
  | ⟨0, _⟩ => show win1_3.index t (0 : Fin 1) * 128 + 1 * (y 0).val = (y 0).val; rw [e3]; omega

/-- Vector window 4's block at every point is its whole array. -/
theorem iblk1_4_eq (c : Dev nD) (t : Fin cfg1.N) :
    (iblk1 V c 4 t : Vec Ideal S128 .f32) = (V c (Pipeline.arrRef spec1 4) : S128.Idx → EReal) := by
  obtain ⟨-, -, -, -, -, -, e2, e3, e4, e5, e6⟩ := idx_facts1 t
  funext y
  unfold iblk1
  rw [View.read_apply]
  refine congrArg (V c (Pipeline.arrRef spec1 4)) ?_
  funext a
  apply Fin.ext
  match a with
  | ⟨0, _⟩ => show win1_4.index t (0 : Fin 1) * 128 + 1 * (y 0).val = (y 0).val; rw [e4]; omega

/-- Vector window 5's block at every point is its whole array. -/
theorem iblk1_5_eq (c : Dev nD) (t : Fin cfg1.N) :
    (iblk1 V c 5 t : Vec Ideal S128 .f32) = (V c (Pipeline.arrRef spec1 5) : S128.Idx → EReal) := by
  obtain ⟨-, -, -, -, -, -, e2, e3, e4, e5, e6⟩ := idx_facts1 t
  funext y
  unfold iblk1
  rw [View.read_apply]
  refine congrArg (V c (Pipeline.arrRef spec1 5)) ?_
  funext a
  apply Fin.ext
  match a with
  | ⟨0, _⟩ => show win1_5.index t (0 : Fin 1) * 128 + 1 * (y 0).val = (y 0).val; rw [e5]; omega

/-- Vector window 6's block at every point is its whole array. -/
theorem iblk1_6_eq (c : Dev nD) (t : Fin cfg1.N) :
    (iblk1 V c 6 t : Vec Ideal S128 .f32) = (V c (Pipeline.arrRef spec1 6) : S128.Idx → EReal) := by
  obtain ⟨-, -, -, -, -, -, e2, e3, e4, e5, e6⟩ := idx_facts1 t
  funext y
  unfold iblk1
  rw [View.read_apply]
  refine congrArg (V c (Pipeline.arrRef spec1 6)) ?_
  funext a
  apply Fin.ext
  match a with
  | ⟨0, _⟩ => show win1_6.index t (0 : Fin 1) * 128 + 1 * (y 0).val = (y 0).val; rw [e6]; omega

/-- One entry of a block: the kernel's arithmetic on blocks that are the stated parts of the whole arrays is the
    reference's layer on the whole arrays, at the entry's place in the array. The two leaky rectifiers of the
    reference are one with the squared slope, which is the kernel's named slope. -/
theorem block_entry1 (X : FVec Ideal S100000x128 .f32) (W : FVec Ideal S128x128 .f32) (B G BE MU VAR : FVec Ideal S128 .f32)
    (x0 : Vec Ideal S10000x128 .f32) (x1 : Vec Ideal S128x128 .f32) (x2 x3 x4 x5 x6 : Vec Ideal S128 .f32)
    (p : Fin 10000) (q : Fin 128) (r : Fin 100000)
    (h0 : ∀ k : Fin 128, x0 (ix2 p k) = X (ix2 r k))
    (h1 : x1 = W) (h2 : x2 = B) (h3 : x3 = G) (h4 : x4 = BE) (h5 : x5 = MU) (h6 : x6 = VAR) :
    k1_pay1 (F := Ideal) x0 x1 x2 x3 x6 x5 x4 (ix2 p q) = gin128Ref X W B G BE MU VAR (ix2 r q) := by
  subst h1 h2 h3 h4 h5 h6
  rw [k1_pay1_apply, gin128Ref_apply, ofBits_slope, leaky_twice _ slope_pos, slope_sq]
  have hmm : mm x0 x1 (ix2 p q) = mm X x1 (ix2 r q) := by
    unfold mm
    refine Finset.sum_congr rfl fun k _ => ?_
    have el : rowIdx (R := 10000) (K := 128) (C := 128) (ix2 p q) k = ix2 p k :=
      funext fun a => by match a with | ⟨0, _⟩ => rfl | ⟨1, _⟩ => rfl
    have er : rowIdx (R := 100000) (K := 128) (C := 128) (ix2 r q) k = ix2 r k :=
      funext fun a => by match a with | ⟨0, _⟩ => rfl | ⟨1, _⟩ => rfl
    have ec : colIdx (R := 10000) (K := 128) (C := 128) (ix2 p q) k = colIdx (R := 100000) (K := 128) (C := 128) (ix2 r q) k :=
      funext fun a => by match a with | ⟨0, _⟩ => rfl | ⟨1, _⟩ => rfl
    rw [el, er, ec, h0 k]
  rw [hmm]

/-- What point t writes back is block t of the reference's layer of the region's input arrays. -/
theorem flushed1_eq (c : Dev nD) (t : Fin cfg1.N) :
    (dat1 (F := Ideal) V c).flushed 7 t = ((cfg1.win 7).blk t).view.read (Elt Ideal)
      (gin128Ref (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6))) := by
  show (cfg1.win 7).cut (grid1.coords t) ((dat1 V c).after 7 t) = _
  rw [after1_7, out1_7_eq]
  obtain ⟨-, -, e0, e1, -⟩ := idx_facts1 t
  have hN : grid1.N = 10 := N_1
  have ht : t.val < 10 := hN ▸ t.isLt
  refine funext fun (j : S10000x128.Idx) => ?_
  obtain ⟨p, q, rfl⟩ : ∃ (p : Fin 10000) (q : Fin 128), j = ix2 p q := ⟨j 0, j 1, eq_ix2 j⟩
  have hp : p.val < 10000 := p.isLt
  rw [View.read_apply]
  have hemb : ((cfg1.win 7).blk t).view.emb (ix2 p q) = (ix2 (⟨t.val * 10000 + p.val, by omega⟩ : Fin 100000) q : S100000x128.Idx) := by
    funext a
    apply Fin.ext
    match a with
    | ⟨0, _⟩ => show win1_7.index t (0 : Fin 2) * 10000 + 1 * p.val = t.val * 10000 + p.val; rw [e0]; omega
    | ⟨1, _⟩ => show win1_7.index t (1 : Fin 2) * 128 + 1 * q.val = q.val; rw [e1]; omega
  rw [hemb]
  exact block_entry1 _ _ _ _ _ _ _ (iblk1 V c 0 t) (iblk1 V c 1 t) (iblk1 V c 2 t) (iblk1 V c 3 t)
    (iblk1 V c 4 t) (iblk1 V c 5 t) (iblk1 V c 6 t) p q _
    (fun k => iblk1_0_apply V c t p k _ rfl)
    (iblk1_1_eq V c t) (iblk1_2_eq V c t) (iblk1_3_eq V c t) (iblk1_4_eq V c t) (iblk1_5_eq V c t) (iblk1_6_eq V c t)

/-- An index of the output array is in point t's block iff each coordinate is in the block's range on its axis. -/
theorem mem_blk1 (t : Fin cfg1.N) (i : S100000x128.Idx) :
    i ∈ ((cfg1.win 7).blk t).view.set ↔ ∀ a : Fin 2, win1_7.index t a * S10000x128.size a ≤ (i a).val ∧ (i a).val < win1_7.index t a * S10000x128.size a + S10000x128.size a := by
  show i ∈ ((View.whole main_v47).slice (win1_7.rect t)).set ↔ _
  rw [View.set_slice_whole, Rect.mem_set_unit]
  exact Iff.rfl

/-- Every row of the output array is in the block of the point numbered by the row's ten-thousand. -/
theorem cover1 (i : S100000x128.Idx) :
    ∃ t : Fin cfg1.N, (cfg1.win 7).flush t = true ∧ i ∈ ((cfg1.win 7).blk t).view.set := by
  have hN : grid1.N = 10 := N_1
  have hi0 : (i 0).val < 100000 := (i 0).isLt
  have hi1 : (i 1).val < 128 := (i 1).isLt
  have hlt : (i 0).val / 10000 < grid1.N := by rw [hN]; omega
  refine ⟨⟨(i 0).val / 10000, hlt⟩, flush1_7 _, ?_⟩
  obtain ⟨-, -, e0, e1, -⟩ := idx_facts1 ⟨(i 0).val / 10000, hlt⟩
  rw [mem_blk1]
  intro a
  match a with
  | ⟨0, _⟩ =>
    show win1_7.index ⟨(i 0).val / 10000, hlt⟩ (0 : Fin 2) * 10000 ≤ (i 0).val ∧ (i 0).val < win1_7.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_7.index ⟨(i 0).val / 10000, hlt⟩ (1 : Fin 2) * 128 ≤ (i 1).val ∧ (i 1).val < win1_7.index ⟨(i 0).val / 10000, hlt⟩ (1 : Fin 2) * 128 + 128
    rw [e1]; omega

/-- The region's output array after all grid points is the reference's layer of the region's input arrays. -/
theorem reg1_value (c : Dev nD) :
    ((dat1 (F := Ideal) V c).arrAt 7 cfg1.N : S100000x128.Idx → EReal)
      = gin128Ref (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) :=
  (dat1 (F := Ideal) V c).arrAt_eq_of_cover 7 _ (fun t _ => flushed1_eq V c t) (cover1)

end Cert.Val
-- ==== Proof.Val.Gin2.lean ====
/- Region 2's output array after all its grid points, as one function of the region's input arrays: the
   reference's dense layer of them. Each grid point writes back the block of rows it loaded, every row of the
   array is in some point's block, and at each entry the kernel's arithmetic on the loaded blocks is the
   reference's on the whole arrays. -/
import proofs.«145887_j33578054320560_2_alg».proof.Proof.KI.Reg2
import proofs.«145887_j33578054320560_2_alg».proof.Proof.Val.Pay
import proofs.«145887_j33578054320560_2_alg».proof.Proof.Val.RefAt
import Idealize.ShloMosaic.Lib.Pipeline.Value

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Lib.PlainDot

variable (V : (c : Dev nD) → (b : Ref sig .tc) → Buf (Elt Ideal) ((c : Thread nD τ).loc b))

/-- The printed index maps, decided over the grid: the feature window and the output window are at block
    (t, 0) at point t, every other window at block zero. -/
theorem idx_facts2 : ∀ t : Fin cfg2.N,
    win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 1) = 0 ∧ win2_6.index t (0 : Fin 1) = 0 :=
  (by decide +kernel : ∀ t : Fin grid2.N, _)

/-- The feature window's block at point t is rows 10000 t … 10000 t + 9999 of its array. -/
theorem iblk2_0_apply (c : Dev nD) (t : Fin cfg2.N) (p : Fin 10000) (k : Fin 128) (r : Fin 100000)
    (hr : r.val = t.val * 10000 + p.val) :
    (iblk2 V c 0 t : Vec Ideal S10000x128 .f32) (ix2 p k)
      = (V c (Pipeline.arrRef spec2 0) : S100000x128.Idx → EReal) (ix2 r k) := by
  obtain ⟨e0, e1, -⟩ := idx_facts2 t
  unfold iblk2
  rw [View.read_apply]
  refine congrArg (V c (Pipeline.arrRef spec2 0)) ?_
  funext a
  apply Fin.ext
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- The weight window's block at every point is its whole array. -/
theorem iblk2_1_eq (c : Dev nD) (t : Fin cfg2.N) :
    (iblk2 V c 1 t : Vec Ideal S128x128 .f32) = (V c (Pipeline.arrRef spec2 1) : S128x128.Idx → EReal) := by
  obtain ⟨-, -, -, -, e0, e1, -⟩ := idx_facts2 t
  funext y
  unfold iblk2
  rw [View.read_apply]
  refine congrArg (V c (Pipeline.arrRef spec2 1)) ?_
  funext a
  apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- Vector window 2's block at every point is its whole array. -/
theorem iblk2_2_eq (c : Dev nD) (t : Fin cfg2.N) :
    (iblk2 V c 2 t : Vec Ideal S128 .f32) = (V c (Pipeline.arrRef spec2 2) : S128.Idx → EReal) := by
  obtain ⟨-, -, -, -, -, -, e2, e3, e4, e5, e6⟩ := idx_facts2 t
  funext y
  unfold iblk2
  rw [View.read_apply]
  refine congrArg (V c (Pipeline.arrRef spec2 2)) ?_
  funext a
  apply Fin.ext
  match a with
  | ⟨0, _⟩ => show win2_2.index t (0 : Fin 1) * 128 + 1 * (y 0).val = (y 0).val; rw [e2]; omega

/-- Vector window 3's block at every point is its whole array. -/
theorem iblk2_3_eq (c : Dev nD) (t : Fin cfg2.N) :
    (iblk2 V c 3 t : Vec Ideal S128 .f32) = (V c (Pipeline.arrRef spec2 3) : S128.Idx → EReal) := by
  obtain ⟨-, -, -, -, -, -, e2, e3, e4, e5, e6⟩ := idx_facts2 t
  funext y
  unfold iblk2
  rw [View.read_apply]
  refine congrArg (V c (Pipeline.arrRef spec2 3)) ?_
  funext a
  apply Fin.ext
  match a with
  | ⟨0, _⟩ => show win2_3.index t (0 : Fin 1) * 128 + 1 * (y 0).val = (y 0).val; rw [e3]; omega

/-- Vector window 4's block at every point is its whole array. -/
theorem iblk2_4_eq (c : Dev nD) (t : Fin cfg2.N) :
    (iblk2 V c 4 t : Vec Ideal S128 .f32) = (V c (Pipeline.arrRef spec2 4) : S128.Idx → EReal) := by
  obtain ⟨-, -, -, -, -, -, e2, e3, e4, e5, e6⟩ := idx_facts2 t
  funext y
  unfold iblk2
  rw [View.read_apply]
  refine congrArg (V c (Pipeline.arrRef spec2 4)) ?_
  funext a
  apply Fin.ext
  match a with
  | ⟨0, _⟩ => show win2_4.index t (0 : Fin 1) * 128 + 1 * (y 0).val = (y 0).val; rw [e4]; omega

/-- Vector window 5's block at every point is its whole array. -/
theorem iblk2_5_eq (c : Dev nD) (t : Fin cfg2.N) :
    (iblk2 V c 5 t : Vec Ideal S128 .f32) = (V c (Pipeline.arrRef spec2 5) : S128.Idx → EReal) := by
  obtain ⟨-, -, -, -, -, -, e2, e3, e4, e5, e6⟩ := idx_facts2 t
  funext y
  unfold iblk2
  rw [View.read_apply]
  refine congrArg (V c (Pipeline.arrRef spec2 5)) ?_
  funext a
  apply Fin.ext
  match a with
  | ⟨0, _⟩ => show win2_5.index t (0 : Fin 1) * 128 + 1 * (y 0).val = (y 0).val; rw [e5]; omega

/-- Vector window 6's block at every point is its whole array. -/
theorem iblk2_6_eq (c : Dev nD) (t : Fin cfg2.N) :
    (iblk2 V c 6 t : Vec Ideal S128 .f32) = (V c (Pipeline.arrRef spec2 6) : S128.Idx → EReal) := by
  obtain ⟨-, -, -, -, -, -, e2, e3, e4, e5, e6⟩ := idx_facts2 t
  funext y
  unfold iblk2
  rw [View.read_apply]
  refine congrArg (V c (Pipeline.arrRef spec2 6)) ?_
  funext a
  apply Fin.ext
  match a with
  | ⟨0, _⟩ => show win2_6.index t (0 : Fin 1) * 128 + 1 * (y 0).val = (y 0).val; rw [e6]; omega

/-- One entry of a block: the kernel's arithmetic on blocks that are the stated parts of the whole arrays is the
    reference's layer on the whole arrays, at the entry's place in the array. The two leaky rectifiers of the
    reference are one with the squared slope, which is the kernel's named slope. -/
theorem block_entry2 (X : FVec Ideal S100000x128 .f32) (W : FVec Ideal S128x128 .f32) (B G BE MU VAR : FVec Ideal S128 .f32)
    (x0 : Vec Ideal S10000x128 .f32) (x1 : Vec Ideal S128x128 .f32) (x2 x3 x4 x5 x6 : Vec Ideal S128 .f32)
    (p : Fin 10000) (q : Fin 128) (r : Fin 100000)
    (h0 : ∀ k : Fin 128, x0 (ix2 p k) = X (ix2 r k))
    (h1 : x1 = W) (h2 : x2 = B) (h3 : x3 = G) (h4 : x4 = BE) (h5 : x5 = MU) (h6 : x6 = VAR) :
    k2_pay1 (F := Ideal) x0 x1 x2 x3 x6 x5 x4 (ix2 p q) = gin128Ref X W B G BE MU VAR (ix2 r q) := by
  subst h1 h2 h3 h4 h5 h6
  rw [k2_pay1_apply, gin128Ref_apply, ofBits_slope, leaky_twice _ slope_pos, slope_sq]
  have hmm : mm x0 x1 (ix2 p q) = mm X x1 (ix2 r q) := by
    unfold mm
    refine Finset.sum_congr rfl fun k _ => ?_
    have el : rowIdx (R := 10000) (K := 128) (C := 128) (ix2 p q) k = ix2 p k :=
      funext fun a => by match a with | ⟨0, _⟩ => rfl | ⟨1, _⟩ => rfl
    have er : rowIdx (R := 100000) (K := 128) (C := 128) (ix2 r q) k = ix2 r k :=
      funext fun a => by match a with | ⟨0, _⟩ => rfl | ⟨1, _⟩ => rfl
    have ec : colIdx (R := 10000) (K := 128) (C := 128) (ix2 p q) k = colIdx (R := 100000) (K := 128) (C := 128) (ix2 r q) k :=
      funext fun a => by match a with | ⟨0, _⟩ => rfl | ⟨1, _⟩ => rfl
    rw [el, er, ec, h0 k]
  rw [hmm]

set_option maxHeartbeats 2000000 in
/-- What point t writes back is block t of the reference's layer of the region's input arrays. -/
theorem flushed2_eq (c : Dev nD) (t : Fin cfg2.N) :
    (dat2 (F := Ideal) V c).flushed 7 t = ((cfg2.win 7).blk t).view.read (Elt Ideal)
      (gin128Ref (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6))) := by
  show (cfg2.win 7).cut (grid2.coords t) ((dat2 V c).after 7 t) = _
  rw [after2_7, out2_7_eq]
  obtain ⟨-, -, e0, e1, -⟩ := idx_facts2 t
  have hN : grid2.N = 10 := N_2
  have ht : t.val < 10 := hN ▸ t.isLt
  refine funext fun (j : S10000x128.Idx) => ?_
  obtain ⟨p, q, rfl⟩ : ∃ (p : Fin 10000) (q : Fin 128), j = ix2 p q := ⟨j 0, j 1, eq_ix2 j⟩
  have hp : p.val < 10000 := p.isLt
  rw [View.read_apply]
  have hemb : ((cfg2.win 7).blk t).view.emb (ix2 p q) = (ix2 (⟨t.val * 10000 + p.val, by omega⟩ : Fin 100000) q : S100000x128.Idx) := by
    funext a
    apply Fin.ext
    match a with
    | ⟨0, _⟩ => show win2_7.index t (0 : Fin 2) * 10000 + 1 * p.val = t.val * 10000 + p.val; rw [e0]; omega
    | ⟨1, _⟩ => show win2_7.index t (1 : Fin 2) * 128 + 1 * q.val = q.val; rw [e1]; omega
  rw [hemb]
  exact block_entry2 _ _ _ _ _ _ _ (iblk2 V c 0 t) (iblk2 V c 1 t) (iblk2 V c 2 t) (iblk2 V c 3 t)
    (iblk2 V c 4 t) (iblk2 V c 5 t) (iblk2 V c 6 t) p q _
    (fun k => iblk2_0_apply V c t p k _ rfl)
    (iblk2_1_eq V c t) (iblk2_2_eq V c t) (iblk2_3_eq V c t) (iblk2_4_eq V c t) (iblk2_5_eq V c t) (iblk2_6_eq V c t)

/-- An index of the output array is in point t's block iff each coordinate is in the block's range on its axis. -/
theorem mem_blk2 (t : Fin cfg2.N) (i : S100000x128.Idx) :
    i ∈ ((cfg2.win 7).blk t).view.set ↔ ∀ a : Fin 2, win2_7.index t a * S10000x128.size a ≤ (i a).val ∧ (i a).val < win2_7.index t a * S10000x128.size a + S10000x128.size a := by
  show i ∈ ((View.whole main_v76).slice (win2_7.rect t)).set ↔ _
  rw [View.set_slice_whole, Rect.mem_set_unit]
  exact Iff.rfl

/-- Every row of the output array is in the block of the point numbered by the row's ten-thousand. -/
theorem cover2 (i : S100000x128.Idx) :
    ∃ t : Fin cfg2.N, (cfg2.win 7).flush t = true ∧ i ∈ ((cfg2.win 7).blk t).view.set := by
  have hN : grid2.N = 10 := N_2
  have hi0 : (i 0).val < 100000 := (i 0).isLt
  have hi1 : (i 1).val < 128 := (i 1).isLt
  have hlt : (i 0).val / 10000 < grid2.N := by rw [hN]; omega
  refine ⟨⟨(i 0).val / 10000, hlt⟩, flush2_7 _, ?_⟩
  obtain ⟨-, -, e0, e1, -⟩ := idx_facts2 ⟨(i 0).val / 10000, hlt⟩
  rw [mem_blk2]
  intro a
  match a with
  | ⟨0, _⟩ =>
    show win2_7.index ⟨(i 0).val / 10000, hlt⟩ (0 : Fin 2) * 10000 ≤ (i 0).val ∧ (i 0).val < win2_7.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win2_7.index ⟨(i 0).val / 10000, hlt⟩ (1 : Fin 2) * 128 ≤ (i 1).val ∧ (i 1).val < win2_7.index ⟨(i 0).val / 10000, hlt⟩ (1 : Fin 2) * 128 + 128
    rw [e1]; omega

/-- The region's output array after all grid points is the reference's layer of the region's input arrays. -/
theorem reg2_value (c : Dev nD) :
    ((dat2 (F := Ideal) V c).arrAt 7 cfg2.N : S100000x128.Idx → EReal)
      = gin128Ref (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) :=
  (dat2 (F := Ideal) V c).arrAt_eq_of_cover 7 _ (fun t _ => flushed2_eq V c t) (cover2)

end Cert.Val
-- ==== Proof.Val.Gin3.lean ====
/- Region 3's output array after all its grid points, as one function of the region's input arrays: the
   reference's dense layer of them. Each grid point writes back the block of rows it loaded, every row of the
   array is in some point's block, and at each entry the kernel's arithmetic on the loaded blocks is the
   reference's on the whole arrays. -/
import proofs.«145887_j33578054320560_2_alg».proof.Proof.KI.Reg3
import proofs.«145887_j33578054320560_2_alg».proof.Proof.Val.Pay
import proofs.«145887_j33578054320560_2_alg».proof.Proof.Val.RefAt
import Idealize.ShloMosaic.Lib.Pipeline.Value

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Lib.PlainDot

variable (V : (c : Dev nD) → (b : Ref sig .tc) → Buf (Elt Ideal) ((c : Thread nD τ).loc b))

/-- The printed index maps, decided over the grid: the feature window and the output window are at block
    (t, 0) at point t, every other window at block zero. -/
theorem idx_facts3 : ∀ t : Fin cfg3.N,
    win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 1) = 0 ∧ win3_3.index t (0 : Fin 1) = 0 ∧ win3_4.index t (0 : Fin 1) = 0
    ∧ win3_5.index t (0 : Fin 1) = 0 ∧ win3_6.index t (0 : Fin 1) = 0 :=
  (by decide +kernel : ∀ t : Fin grid3.N, _)

/-- The feature window's block at point t is rows 10000 t … 10000 t + 9999 of its array. -/
theorem iblk3_0_apply (c : Dev nD) (t : Fin cfg3.N) (p : Fin 10000) (k : Fin 128) (r : Fin 100000)
    (hr : r.val = t.val * 10000 + p.val) :
    (iblk3 V c 0 t : Vec Ideal S10000x128 .f32) (ix2 p k)
      = (V c (Pipeline.arrRef spec3 0) : S100000x128.Idx → EReal) (ix2 r k) := by
  obtain ⟨e0, e1, -⟩ := idx_facts3 t
  unfold iblk3
  rw [View.read_apply]
  refine congrArg (V c (Pipeline.arrRef spec3 0)) ?_
  funext a
  apply Fin.ext
  match a with
  | ⟨0, _⟩ => show win3_0.index t (0 : Fin 2) * 10000 + 1 * p.val = r.val; rw [e0, hr]; omega
  | ⟨1, _⟩ => show win3_0.index t (1 : Fin 2) * 128 + 1 * k.val = k.val; rw [e1]; omega

/-- The weight window's block at every point is its whole array. -/
theorem iblk3_1_eq (c : Dev nD) (t : Fin cfg3.N) :
    (iblk3 V c 1 t : Vec Ideal S128x128 .f32) = (V c (Pipeline.arrRef spec3 1) : S128x128.Idx → EReal) := by
  obtain ⟨-, -, -, -, e0, e1, -⟩ := idx_facts3 t
  funext y
  unfold iblk3
  rw [View.read_apply]
  refine congrArg (V c (Pipeline.arrRef spec3 1)) ?_
  funext a
  apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- Vector window 2's block at every point is its whole array. -/
theorem iblk3_2_eq (c : Dev nD) (t : Fin cfg3.N) :
    (iblk3 V c 2 t : Vec Ideal S128 .f32) = (V c (Pipeline.arrRef spec3 2) : S128.Idx → EReal) := by
  obtain ⟨-, -, -, -, -, -, e2, e3, e4, e5, e6⟩ := idx_facts3 t
  funext y
  unfold iblk3
  rw [View.read_apply]
  refine congrArg (V c (Pipeline.arrRef spec3 2)) ?_
  funext a
  apply Fin.ext
  match a with
  | ⟨0, _⟩ => show win3_2.index t (0 : Fin 1) * 128 + 1 * (y 0).val = (y 0).val; rw [e2]; omega

/-- Vector window 3's block at every point is its whole array. -/
theorem iblk3_3_eq (c : Dev nD) (t : Fin cfg3.N) :
    (iblk3 V c 3 t : Vec Ideal S128 .f32) = (V c (Pipeline.arrRef spec3 3) : S128.Idx → EReal) := by
  obtain ⟨-, -, -, -, -, -, e2, e3, e4, e5, e6⟩ := idx_facts3 t
  funext y
  unfold iblk3
  rw [View.read_apply]
  refine congrArg (V c (Pipeline.arrRef spec3 3)) ?_
  funext a
  apply Fin.ext
  match a with
  | ⟨0, _⟩ => show win3_3.index t (0 : Fin 1) * 128 + 1 * (y 0).val = (y 0).val; rw [e3]; omega

/-- Vector window 4's block at every point is its whole array. -/
theorem iblk3_4_eq (c : Dev nD) (t : Fin cfg3.N) :
    (iblk3 V c 4 t : Vec Ideal S128 .f32) = (V c (Pipeline.arrRef spec3 4) : S128.Idx → EReal) := by
  obtain ⟨-, -, -, -, -, -, e2, e3, e4, e5, e6⟩ := idx_facts3 t
  funext y
  unfold iblk3
  rw [View.read_apply]
  refine congrArg (V c (Pipeline.arrRef spec3 4)) ?_
  funext a
  apply Fin.ext
  match a with
  | ⟨0, _⟩ => show win3_4.index t (0 : Fin 1) * 128 + 1 * (y 0).val = (y 0).val; rw [e4]; omega

/-- Vector window 5's block at every point is its whole array. -/
theorem iblk3_5_eq (c : Dev nD) (t : Fin cfg3.N) :
    (iblk3 V c 5 t : Vec Ideal S128 .f32) = (V c (Pipeline.arrRef spec3 5) : S128.Idx → EReal) := by
  obtain ⟨-, -, -, -, -, -, e2, e3, e4, e5, e6⟩ := idx_facts3 t
  funext y
  unfold iblk3
  rw [View.read_apply]
  refine congrArg (V c (Pipeline.arrRef spec3 5)) ?_
  funext a
  apply Fin.ext
  match a with
  | ⟨0, _⟩ => show win3_5.index t (0 : Fin 1) * 128 + 1 * (y 0).val = (y 0).val; rw [e5]; omega

/-- Vector window 6's block at every point is its whole array. -/
theorem iblk3_6_eq (c : Dev nD) (t : Fin cfg3.N) :
    (iblk3 V c 6 t : Vec Ideal S128 .f32) = (V c (Pipeline.arrRef spec3 6) : S128.Idx → EReal) := by
  obtain ⟨-, -, -, -, -, -, e2, e3, e4, e5, e6⟩ := idx_facts3 t
  funext y
  unfold iblk3
  rw [View.read_apply]
  refine congrArg (V c (Pipeline.arrRef spec3 6)) ?_
  funext a
  apply Fin.ext
  match a with
  | ⟨0, _⟩ => show win3_6.index t (0 : Fin 1) * 128 + 1 * (y 0).val = (y 0).val; rw [e6]; omega

/-- One entry of a block: the kernel's arithmetic on blocks that are the stated parts of the whole arrays is the
    reference's layer on the whole arrays, at the entry's place in the array. The two leaky rectifiers of the
    reference are one with the squared slope, which is the kernel's named slope. -/
theorem block_entry3 (X : FVec Ideal S100000x128 .f32) (W : FVec Ideal S128x128 .f32) (B G BE MU VAR : FVec Ideal S128 .f32)
    (x0 : Vec Ideal S10000x128 .f32) (x1 : Vec Ideal S128x128 .f32) (x2 x3 x4 x5 x6 : Vec Ideal S128 .f32)
    (p : Fin 10000) (q : Fin 128) (r : Fin 100000)
    (h0 : ∀ k : Fin 128, x0 (ix2 p k) = X (ix2 r k))
    (h1 : x1 = W) (h2 : x2 = B) (h3 : x3 = G) (h4 : x4 = BE) (h5 : x5 = MU) (h6 : x6 = VAR) :
    k3_pay1 (F := Ideal) x0 x1 x2 x3 x6 x5 x4 (ix2 p q) = gin128Ref X W B G BE MU VAR (ix2 r q) := by
  subst h1 h2 h3 h4 h5 h6
  rw [k3_pay1_apply, gin128Ref_apply, ofBits_slope, leaky_twice _ slope_pos, slope_sq]
  have hmm : mm x0 x1 (ix2 p q) = mm X x1 (ix2 r q) := by
    unfold mm
    refine Finset.sum_congr rfl fun k _ => ?_
    have el : rowIdx (R := 10000) (K := 128) (C := 128) (ix2 p q) k = ix2 p k :=
      funext fun a => by match a with | ⟨0, _⟩ => rfl | ⟨1, _⟩ => rfl
    have er : rowIdx (R := 100000) (K := 128) (C := 128) (ix2 r q) k = ix2 r k :=
      funext fun a => by match a with | ⟨0, _⟩ => rfl | ⟨1, _⟩ => rfl
    have ec : colIdx (R := 10000) (K := 128) (C := 128) (ix2 p q) k = colIdx (R := 100000) (K := 128) (C := 128) (ix2 r q) k :=
      funext fun a => by match a with | ⟨0, _⟩ => rfl | ⟨1, _⟩ => rfl
    rw [el, er, ec, h0 k]
  rw [hmm]

/-- What point t writes back is block t of the reference's layer of the region's input arrays. -/
theorem flushed3_eq (c : Dev nD) (t : Fin cfg3.N) :
    (dat3 (F := Ideal) V c).flushed 7 t = ((cfg3.win 7).blk t).view.read (Elt Ideal)
      (gin128Ref (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6))) := by
  show (cfg3.win 7).cut (grid3.coords t) ((dat3 V c).after 7 t) = _
  rw [after3_7, out3_7_eq]
  obtain ⟨-, -, e0, e1, -⟩ := idx_facts3 t
  have hN : grid3.N = 10 := N_3
  have ht : t.val < 10 := hN ▸ t.isLt
  refine funext fun (j : S10000x128.Idx) => ?_
  obtain ⟨p, q, rfl⟩ : ∃ (p : Fin 10000) (q : Fin 128), j = ix2 p q := ⟨j 0, j 1, eq_ix2 j⟩
  have hp : p.val < 10000 := p.isLt
  rw [View.read_apply]
  have hemb : ((cfg3.win 7).blk t).view.emb (ix2 p q) = (ix2 (⟨t.val * 10000 + p.val, by omega⟩ : Fin 100000) q : S100000x128.Idx) := by
    funext a
    apply Fin.ext
    match a with
    | ⟨0, _⟩ => show win3_7.index t (0 : Fin 2) * 10000 + 1 * p.val = t.val * 10000 + p.val; rw [e0]; omega
    | ⟨1, _⟩ => show win3_7.index t (1 : Fin 2) * 128 + 1 * q.val = q.val; rw [e1]; omega
  rw [hemb]
  exact block_entry3 _ _ _ _ _ _ _ (iblk3 V c 0 t) (iblk3 V c 1 t) (iblk3 V c 2 t) (iblk3 V c 3 t)
    (iblk3 V c 4 t) (iblk3 V c 5 t) (iblk3 V c 6 t) p q _
    (fun k => iblk3_0_apply V c t p k _ rfl)
    (iblk3_1_eq V c t) (iblk3_2_eq V c t) (iblk3_3_eq V c t) (iblk3_4_eq V c t) (iblk3_5_eq V c t) (iblk3_6_eq V c t)

/-- An index of the output array is in point t's block iff each coordinate is in the block's range on its axis. -/
theorem mem_blk3 (t : Fin cfg3.N) (i : S100000x128.Idx) :
    i ∈ ((cfg3.win 7).blk t).view.set ↔ ∀ a : Fin 2, win3_7.index t a * S10000x128.size a ≤ (i a).val ∧ (i a).val < win3_7.index t a * S10000x128.size a + S10000x128.size a := by
  show i ∈ ((View.whole main_v105).slice (win3_7.rect t)).set ↔ _
  rw [View.set_slice_whole, Rect.mem_set_unit]
  exact Iff.rfl

/-- Every row of the output array is in the block of the point numbered by the row's ten-thousand. -/
theorem cover3 (i : S100000x128.Idx) :
    ∃ t : Fin cfg3.N, (cfg3.win 7).flush t = true ∧ i ∈ ((cfg3.win 7).blk t).view.set := by
  have hN : grid3.N = 10 := N_3
  have hi0 : (i 0).val < 100000 := (i 0).isLt
  have hi1 : (i 1).val < 128 := (i 1).isLt
  have hlt : (i 0).val / 10000 < grid3.N := by rw [hN]; omega
  refine ⟨⟨(i 0).val / 10000, hlt⟩, flush3_7 _, ?_⟩
  obtain ⟨-, -, e0, e1, -⟩ := idx_facts3 ⟨(i 0).val / 10000, hlt⟩
  rw [mem_blk3]
  intro a
  match a with
  | ⟨0, _⟩ =>
    show win3_7.index ⟨(i 0).val / 10000, hlt⟩ (0 : Fin 2) * 10000 ≤ (i 0).val ∧ (i 0).val < win3_7.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win3_7.index ⟨(i 0).val / 10000, hlt⟩ (1 : Fin 2) * 128 ≤ (i 1).val ∧ (i 1).val < win3_7.index ⟨(i 0).val / 10000, hlt⟩ (1 : Fin 2) * 128 + 128
    rw [e1]; omega

/-- The region's output array after all grid points is the reference's layer of the region's input arrays. -/
theorem reg3_value (c : Dev nD) :
    ((dat3 (F := Ideal) V c).arrAt 7 cfg3.N : S100000x128.Idx → EReal)
      = gin128Ref (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) :=
  (dat3 (F := Ideal) V c).arrAt_eq_of_cover 7 _ (fun t _ => flushed3_eq V c t) (cover3)

end Cert.Val
-- ==== Proof.Val.Gin4.lean ====
/- Region 4's output array after all its grid points, as one function of the region's input arrays: the
   reference's dense layer of them. Each grid point writes back the block of rows it loaded, every row of the
   array is in some point's block, and at each entry the kernel's arithmetic on the loaded blocks is the
   reference's on the whole arrays. -/
import proofs.«145887_j33578054320560_2_alg».proof.Proof.KI.Reg4
import proofs.«145887_j33578054320560_2_alg».proof.Proof.Val.Pay
import proofs.«145887_j33578054320560_2_alg».proof.Proof.Val.RefAt
import Idealize.ShloMosaic.Lib.Pipeline.Value

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Lib.PlainDot

variable (V : (c : Dev nD) → (b : Ref sig .tc) → Buf (Elt Ideal) ((c : Thread nD τ).loc b))

/-- The printed index maps, decided over the grid: the feature window and the output window are at block
    (t, 0) at point t, every other window at block zero. -/
theorem idx_facts4 : ∀ t : Fin cfg4.N,
    win4_0.index t (0 : Fin 2) = t.val ∧ win4_0.index t (1 : Fin 2) = 0
    ∧ win4_7.index t (0 : Fin 2) = t.val ∧ win4_7.index t (1 : Fin 2) = 0
    ∧ win4_1.index t (0 : Fin 2) = 0 ∧ win4_1.index t (1 : Fin 2) = 0
    ∧ win4_2.index t (0 : Fin 1) = 0 ∧ win4_3.index t (0 : Fin 1) = 0 ∧ win4_4.index t (0 : Fin 1) = 0
    ∧ win4_5.index t (0 : Fin 1) = 0 ∧ win4_6.index t (0 : Fin 1) = 0 :=
  (by decide +kernel : ∀ t : Fin grid4.N, _)

/-- The feature window's block at point t is rows 10000 t … 10000 t + 9999 of its array. -/
theorem iblk4_0_apply (c : Dev nD) (t : Fin cfg4.N) (p : Fin 10000) (k : Fin 128) (r : Fin 100000)
    (hr : r.val = t.val * 10000 + p.val) :
    (iblk4 V c 0 t : Vec Ideal S10000x128 .f32) (ix2 p k)
      = (V c (Pipeline.arrRef spec4 0) : S100000x128.Idx → EReal) (ix2 r k) := by
  obtain ⟨e0, e1, -⟩ := idx_facts4 t
  unfold iblk4
  rw [View.read_apply]
  refine congrArg (V c (Pipeline.arrRef spec4 0)) ?_
  funext a
  apply Fin.ext
  match a with
  | ⟨0, _⟩ => show win4_0.index t (0 : Fin 2) * 10000 + 1 * p.val = r.val; rw [e0, hr]; omega
  | ⟨1, _⟩ => show win4_0.index t (1 : Fin 2) * 128 + 1 * k.val = k.val; rw [e1]; omega

/-- The weight window's block at every point is its whole array. -/
theorem iblk4_1_eq (c : Dev nD) (t : Fin cfg4.N) :
    (iblk4 V c 1 t : Vec Ideal S128x128 .f32) = (V c (Pipeline.arrRef spec4 1) : S128x128.Idx → EReal) := by
  obtain ⟨-, -, -, -, e0, e1, -⟩ := idx_facts4 t
  funext y
  unfold iblk4
  rw [View.read_apply]
  refine congrArg (V c (Pipeline.arrRef spec4 1)) ?_
  funext a
  apply Fin.ext
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

/-- Vector window 2's block at every point is its whole array. -/
theorem iblk4_2_eq (c : Dev nD) (t : Fin cfg4.N) :
    (iblk4 V c 2 t : Vec Ideal S128 .f32) = (V c (Pipeline.arrRef spec4 2) : S128.Idx → EReal) := by
  obtain ⟨-, -, -, -, -, -, e2, e3, e4, e5, e6⟩ := idx_facts4 t
  funext y
  unfold iblk4
  rw [View.read_apply]
  refine congrArg (V c (Pipeline.arrRef spec4 2)) ?_
  funext a
  apply Fin.ext
  match a with
  | ⟨0, _⟩ => show win4_2.index t (0 : Fin 1) * 128 + 1 * (y 0).val = (y 0).val; rw [e2]; omega

/-- Vector window 3's block at every point is its whole array. -/
theorem iblk4_3_eq (c : Dev nD) (t : Fin cfg4.N) :
    (iblk4 V c 3 t : Vec Ideal S128 .f32) = (V c (Pipeline.arrRef spec4 3) : S128.Idx → EReal) := by
  obtain ⟨-, -, -, -, -, -, e2, e3, e4, e5, e6⟩ := idx_facts4 t
  funext y
  unfold iblk4
  rw [View.read_apply]
  refine congrArg (V c (Pipeline.arrRef spec4 3)) ?_
  funext a
  apply Fin.ext
  match a with
  | ⟨0, _⟩ => show win4_3.index t (0 : Fin 1) * 128 + 1 * (y 0).val = (y 0).val; rw [e3]; omega

/-- Vector window 4's block at every point is its whole array. -/
theorem iblk4_4_eq (c : Dev nD) (t : Fin cfg4.N) :
    (iblk4 V c 4 t : Vec Ideal S128 .f32) = (V c (Pipeline.arrRef spec4 4) : S128.Idx → EReal) := by
  obtain ⟨-, -, -, -, -, -, e2, e3, e4, e5, e6⟩ := idx_facts4 t
  funext y
  unfold iblk4
  rw [View.read_apply]
  refine congrArg (V c (Pipeline.arrRef spec4 4)) ?_
  funext a
  apply Fin.ext
  match a with
  | ⟨0, _⟩ => show win4_4.index t (0 : Fin 1) * 128 + 1 * (y 0).val = (y 0).val; rw [e4]; omega

/-- Vector window 5's block at every point is its whole array. -/
theorem iblk4_5_eq (c : Dev nD) (t : Fin cfg4.N) :
    (iblk4 V c 5 t : Vec Ideal S128 .f32) = (V c (Pipeline.arrRef spec4 5) : S128.Idx → EReal) := by
  obtain ⟨-, -, -, -, -, -, e2, e3, e4, e5, e6⟩ := idx_facts4 t
  funext y
  unfold iblk4
  rw [View.read_apply]
  refine congrArg (V c (Pipeline.arrRef spec4 5)) ?_
  funext a
  apply Fin.ext
  match a with
  | ⟨0, _⟩ => show win4_5.index t (0 : Fin 1) * 128 + 1 * (y 0).val = (y 0).val; rw [e5]; omega

/-- Vector window 6's block at every point is its whole array. -/
theorem iblk4_6_eq (c : Dev nD) (t : Fin cfg4.N) :
    (iblk4 V c 6 t : Vec Ideal S128 .f32) = (V c (Pipeline.arrRef spec4 6) : S128.Idx → EReal) := by
  obtain ⟨-, -, -, -, -, -, e2, e3, e4, e5, e6⟩ := idx_facts4 t
  funext y
  unfold iblk4
  rw [View.read_apply]
  refine congrArg (V c (Pipeline.arrRef spec4 6)) ?_
  funext a
  apply Fin.ext
  match a with
  | ⟨0, _⟩ => show win4_6.index t (0 : Fin 1) * 128 + 1 * (y 0).val = (y 0).val; rw [e6]; omega

/-- One entry of a block: the kernel's arithmetic on blocks that are the stated parts of the whole arrays is the
    reference's layer on the whole arrays, at the entry's place in the array. The two leaky rectifiers of the
    reference are one with the squared slope, which is the kernel's named slope. -/
theorem block_entry4 (X : FVec Ideal S100000x128 .f32) (W : FVec Ideal S128x128 .f32) (B G BE MU VAR : FVec Ideal S128 .f32)
    (x0 : Vec Ideal S10000x128 .f32) (x1 : Vec Ideal S128x128 .f32) (x2 x3 x4 x5 x6 : Vec Ideal S128 .f32)
    (p : Fin 10000) (q : Fin 128) (r : Fin 100000)
    (h0 : ∀ k : Fin 128, x0 (ix2 p k) = X (ix2 r k))
    (h1 : x1 = W) (h2 : x2 = B) (h3 : x3 = G) (h4 : x4 = BE) (h5 : x5 = MU) (h6 : x6 = VAR) :
    k4_pay1 (F := Ideal) x0 x1 x2 x3 x6 x5 x4 (ix2 p q) = gin128Ref X W B G BE MU VAR (ix2 r q) := by
  subst h1 h2 h3 h4 h5 h6
  rw [k4_pay1_apply, gin128Ref_apply, ofBits_slope, leaky_twice _ slope_pos, slope_sq]
  have hmm : mm x0 x1 (ix2 p q) = mm X x1 (ix2 r q) := by
    unfold mm
    refine Finset.sum_congr rfl fun k _ => ?_
    have el : rowIdx (R := 10000) (K := 128) (C := 128) (ix2 p q) k = ix2 p k :=
      funext fun a => by match a with | ⟨0, _⟩ => rfl | ⟨1, _⟩ => rfl
    have er : rowIdx (R := 100000) (K := 128) (C := 128) (ix2 r q) k = ix2 r k :=
      funext fun a => by match a with | ⟨0, _⟩ => rfl | ⟨1, _⟩ => rfl
    have ec : colIdx (R := 10000) (K := 128) (C := 128) (ix2 p q) k = colIdx (R := 100000) (K := 128) (C := 128) (ix2 r q) k :=
      funext fun a => by match a with | ⟨0, _⟩ => rfl | ⟨1, _⟩ => rfl
    rw [el, er, ec, h0 k]
  rw [hmm]

/-- What point t writes back is block t of the reference's layer of the region's input arrays. -/
theorem flushed4_eq (c : Dev nD) (t : Fin cfg4.N) :
    (dat4 (F := Ideal) V c).flushed 7 t = ((cfg4.win 7).blk t).view.read (Elt Ideal)
      (gin128Ref (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (V c (Pipeline.arrRef spec4 6))) := by
  show (cfg4.win 7).cut (grid4.coords t) ((dat4 V c).after 7 t) = _
  rw [after4_7, out4_7_eq]
  obtain ⟨-, -, e0, e1, -⟩ := idx_facts4 t
  have hN : grid4.N = 10 := N_4
  have ht : t.val < 10 := hN ▸ t.isLt
  refine funext fun (j : S10000x128.Idx) => ?_
  obtain ⟨p, q, rfl⟩ : ∃ (p : Fin 10000) (q : Fin 128), j = ix2 p q := ⟨j 0, j 1, eq_ix2 j⟩
  have hp : p.val < 10000 := p.isLt
  rw [View.read_apply]
  have hemb : ((cfg4.win 7).blk t).view.emb (ix2 p q) = (ix2 (⟨t.val * 10000 + p.val, by omega⟩ : Fin 100000) q : S100000x128.Idx) := by
    funext a
    apply Fin.ext
    match a with
    | ⟨0, _⟩ => show win4_7.index t (0 : Fin 2) * 10000 + 1 * p.val = t.val * 10000 + p.val; rw [e0]; omega
    | ⟨1, _⟩ => show win4_7.index t (1 : Fin 2) * 128 + 1 * q.val = q.val; rw [e1]; omega
  rw [hemb]
  exact block_entry4 _ _ _ _ _ _ _ (iblk4 V c 0 t) (iblk4 V c 1 t) (iblk4 V c 2 t) (iblk4 V c 3 t)
    (iblk4 V c 4 t) (iblk4 V c 5 t) (iblk4 V c 6 t) p q _
    (fun k => iblk4_0_apply V c t p k _ rfl)
    (iblk4_1_eq V c t) (iblk4_2_eq V c t) (iblk4_3_eq V c t) (iblk4_4_eq V c t) (iblk4_5_eq V c t) (iblk4_6_eq V c t)

/-- An index of the output array is in point t's block iff each coordinate is in the block's range on its axis. -/
theorem mem_blk4 (t : Fin cfg4.N) (i : S100000x128.Idx) :
    i ∈ ((cfg4.win 7).blk t).view.set ↔ ∀ a : Fin 2, win4_7.index t a * S10000x128.size a ≤ (i a).val ∧ (i a).val < win4_7.index t a * S10000x128.size a + S10000x128.size a := by
  show i ∈ ((View.whole main_v134).slice (win4_7.rect t)).set ↔ _
  rw [View.set_slice_whole, Rect.mem_set_unit]
  exact Iff.rfl

/-- Every row of the output array is in the block of the point numbered by the row's ten-thousand. -/
theorem cover4 (i : S100000x128.Idx) :
    ∃ t : Fin cfg4.N, (cfg4.win 7).flush t = true ∧ i ∈ ((cfg4.win 7).blk t).view.set := by
  have hN : grid4.N = 10 := N_4
  have hi0 : (i 0).val < 100000 := (i 0).isLt
  have hi1 : (i 1).val < 128 := (i 1).isLt
  have hlt : (i 0).val / 10000 < grid4.N := by rw [hN]; omega
  refine ⟨⟨(i 0).val / 10000, hlt⟩, flush4_7 _, ?_⟩
  obtain ⟨-, -, e0, e1, -⟩ := idx_facts4 ⟨(i 0).val / 10000, hlt⟩
  rw [mem_blk4]
  intro a
  match a with
  | ⟨0, _⟩ =>
    show win4_7.index ⟨(i 0).val / 10000, hlt⟩ (0 : Fin 2) * 10000 ≤ (i 0).val ∧ (i 0).val < win4_7.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win4_7.index ⟨(i 0).val / 10000, hlt⟩ (1 : Fin 2) * 128 ≤ (i 1).val ∧ (i 1).val < win4_7.index ⟨(i 0).val / 10000, hlt⟩ (1 : Fin 2) * 128 + 128
    rw [e1]; omega

/-- The region's output array after all grid points is the reference's layer of the region's input arrays. -/
theorem reg4_value (c : Dev nD) :
    ((dat4 (F := Ideal) V c).arrAt 7 cfg4.N : S100000x128.Idx → EReal)
      = gin128Ref (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) :=
  (dat4 (F := Ideal) V c).arrAt_eq_of_cover 7 _ (fun t _ => flushed4_eq V c t) (cover4)

end Cert.Val
-- ==== Proof.Val.ClsKernel.lean ====
/-
  The kernel's body on one block of 2000 rows, at the ideal values, is the row-wise classifier on the block: its three
  matrix products into zero accumulators with the biases spread over the rows are dense layers, its compare-and-select
  pairs are the leaky rectifier, and the two stacked layers it reads as slices of the stacked weights and biases are
  the slices the host program cuts out.
-/
import proofs.«145887_j33578054320560_2_alg».proof.Proof.KI.Reg5
import proofs.«145887_j33578054320560_2_alg».proof.Proof.Val.ClsSpec

noncomputable section

namespace Cert.Val

open Idealize.ShloMosaic Idealize.ShloMosaic.ValueIdx
open Cert.KernelIdeal Cert.KernelIdeal.Gen Cert.KernelIdeal.Hand

/-- A load through a unit-stride rectangle reads the slice of the contents at the rectangle's offsets. -/
theorem ld_unit_eq_slice {Val : EltTy → Type} {S : Shape} {e : EltTy} (X : S.Idx → Val e) (off size : Fin S.rank → Nat)
    (inb : ∀ a, off a + size a ≤ S.size a) (h : S.Slices off ⟨S.rank, size⟩) :
    View.ld X (Rect.unit off size inb) = extractStridedSlice ⟨S.rank, size⟩ off X h := by
  funext j
  refine congrArg X (funext fun a => Fin.ext ?_)
  show off a + 1 * (j a).val = off a + (j (a.cast h.1.symm)).val
  rw [Nat.one_mul]
  rfl

/-- The second activation (before the last rectifier) on a block: two dense layers, the rectifier, a dense layer. -/
theorem pay2_eq (v0 : Vec Ideal S2000x768 .f32) (v3 : Vec Ideal S768x256 .f32) (v6 : Vec Ideal S256 .f32)
    (v10 : Vec Ideal S1x256x256 .f32) (v15 : Vec Ideal S1x256 .f32) (v25 : Vec Ideal S1x256x256 .f32) (v30 : Vec Ideal S1x256 .f32) :
    k5_pay2 (F := Ideal) v0 v3 v6 v10 v15 v25 v30
      = dense (R := 2000) (leakyVec (dense (R := 2000) (dense (R := 2000) v0 v3 v6)
          (shapeCast S256x256 v10 shapeCasts_S1x256x256_S256x256) (shapeCast S256 v15 shapeCasts_S1x256_S256)))
        (shapeCast S256x256 v25 shapeCasts_S1x256x256_S256x256) (shapeCast S256 v30 shapeCasts_S1x256_S256) := by
  unfold k5_pay2
  dsimp only
  rw [shapeCast_self]
  simp only [dense_of_matmul dot_S2000x768_S768x256_S2000x256_1_0_0_1_n_n rfl,
    dense_of_matmul dot_S2000x256_S256x256_S2000x256_1_0_0_1_n_n rfl]
  rfl

/-- The body's payload on a block is the row-wise classifier on the block, the two stacked layers read through their
    rectangles. -/
theorem payload_eq_cls (x0 : Vec Ideal S2000x768 .f32) (x1 : Vec Ideal S768x256 .f32) (x2 : Vec Ideal S256 .f32) (x3 : Vec Ideal S2x256x256 .f32) (x4 : Vec Ideal S2x256 .f32) (x5 : Vec Ideal S256x1 .f32) (x6 : Vec Ideal S1 .f32) :
    k5_pay1 (F := Ideal) (k5_pay2 x0 x1 x2 (View.ld x3 r5_3) (View.ld x4 r5_4) (View.ld x3 r5_5) (View.ld x4 r5_6)) (k5_pay3 x0 x1 x2 (View.ld x3 r5_3) (View.ld x4 r5_4) (View.ld x3 r5_5) (View.ld x4 r5_6)) (Scalar.ofBits .f32 0x3C23D70A#32) x5 x6
      = cls (R := 2000) x0 x1 x2
          (shapeCast S256x256 (View.ld x3 r5_3) shapeCasts_S1x256x256_S256x256) (shapeCast S256 (View.ld x4 r5_4) shapeCasts_S1x256_S256)
          (shapeCast S256x256 (View.ld x3 r5_5) shapeCasts_S1x256x256_S256x256) (shapeCast S256 (View.ld x4 r5_6) shapeCasts_S1x256_S256)
          x5 x6 := by
  unfold k5_pay1 k5_pay3
  dsimp only
  rw [pay2_eq]
  simp only [dense_of_matmul dot_S2000x256_S256x1_S2000x1_1_0_0_1_n_n rfl]
  rfl

end Cert.Val

end
-- ==== Proof.Val.Cls.lean ====
/-
  What the classifier pipeline leaves in its output array, at the ideal values: every grid point writes back the
  row-wise classifier of its block of 2000 rows, the blocks tile the 100000 rows, and the classifier acts row by row,
  so the array ends holding the reference's classifier of the whole input arrays.
-/
import proofs.«145887_j33578054320560_2_alg».proof.Proof.KI.Reg5
import proofs.«145887_j33578054320560_2_alg».proof.Proof.Val.ClsKernel
import proofs.«145887_j33578054320560_2_alg».proof.Proof.Val.ClsRef
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The stacked layers, read through the body's rectangles, are the host's slices -/

theorem ld_layerW0 (x3 : Vec Ideal S2x256x256 .f32) :
    shapeCast S256x256 (View.ld x3 r5_3) shapeCasts_S1x256x256_S256x256 = layerW0 x3 := by
  unfold layerW0
  rw [ld_unit_eq_slice x3 _ _ _ Cert.ReferenceIdeal.Facts₀.slices_S2x256x256_S1x256x256_0_0_0]
theorem ld_layerW1 (x3 : Vec Ideal S2x256x256 .f32) :
    shapeCast S256x256 (View.ld x3 r5_5) shapeCasts_S1x256x256_S256x256 = layerW1 x3 := by
  unfold layerW1
  rw [ld_unit_eq_slice x3 _ _ _ Cert.ReferenceIdeal.Facts₀.slices_S2x256x256_S1x256x256_1_0_0]
theorem ld_layerB0 (x4 : Vec Ideal S2x256 .f32) :
    shapeCast S256 (View.ld x4 r5_4) shapeCasts_S1x256_S256 = layerB0 x4 := by
  unfold layerB0
  rw [ld_unit_eq_slice x4 _ _ _ Cert.ReferenceIdeal.Facts₀.slices_S2x256_S1x256_0_0]
theorem ld_layerB1 (x4 : Vec Ideal S2x256 .f32) :
    shapeCast S256 (View.ld x4 r5_6) shapeCasts_S1x256_S256 = layerB1 x4 := by
  unfold layerB1
  rw [ld_unit_eq_slice x4 _ _ _ Cert.ReferenceIdeal.Facts₀.slices_S2x256_S1x256_1_0]

/-! ## A block of rows of the classifier -/

/-- The classifier of a block of 2000 rows, at a row of the block, is the classifier of the whole array at that row of
    the array: block q holds rows 2000 q … 2000 q + 1999. -/
theorem block_cls (H : (⟨2, ![100000, 768]⟩ : Shape).Idx → EReal) (X0 : (⟨2, ![2000, 768]⟩ : Shape).Idx → EReal) (q : Nat)
    (hq : q ≤ 49)
    (hX : ∀ (p : Fin 2000) (k : Fin 768) (hr : q * 2000 + p.val < 100000), X0 (ix2 p k) = H (ix2 ⟨q * 2000 + p.val, hr⟩ k))
    (w1 : (⟨2, ![768, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 256]⟩ : Shape).Idx → EReal) (b3 : (⟨1, ![256]⟩ : Shape).Idx → EReal)
    (wf : (⟨2, ![256, 1]⟩ : Shape).Idx → EReal) (bf : (⟨1, ![1]⟩ : Shape).Idx → EReal)
    (j : (⟨2, ![2000, 1]⟩ : Shape).Idx) (i : (⟨2, ![100000, 1]⟩ : Shape).Idx)
    (hi0 : (i 0).val = q * 2000 + (j 0).val) (hi1 : (i 1).val = (j 1).val) :
    cls X0 w1 b1 w2 b2 w3 b3 wf bf j = cls H w1 b1 w2 b2 w3 b3 wf bf i := by
  obtain ⟨p, u, rfl⟩ : ∃ (p : Fin 2000) (u : Fin 1), j = ix2 p u := ⟨j 0, j 1, eq_ix2 j⟩
  obtain ⟨r, u', rfl⟩ : ∃ (r : Fin 100000) (u' : Fin 1), i = ix2 r u' := ⟨i 0, i 1, eq_ix2 i⟩
  have hlt : q * 2000 + p.val < 100000 := by have := p.isLt; omega
  have hr : r = ⟨q * 2000 + p.val, hlt⟩ := Fin.ext hi0
  have hu : u' = u := Fin.ext hi1
  subst hr hu
  exact RowEq.cls (fun k => hX p k hlt) w1 b1 w2 b2 w3 b3 wf bf u'

/-- What the body leaves in the output block is the row-wise classifier on the block, the stacked layers cut out as the
    host program cuts them. -/
theorem out5_7_cls (x0 : Vec Ideal S2000x768 .f32) (x1 : Vec Ideal S768x256 .f32) (x2 : Vec Ideal S256 .f32) (x3 : Vec Ideal S2x256x256 .f32) (x4 : Vec Ideal S2x256 .f32) (x5 : Vec Ideal S256x1 .f32) (x6 : Vec Ideal S1 .f32) :
    out5_7 x0 x1 x2 x3 x4 x5 x6 = cls (R := 2000) x0 x1 x2 (layerW0 x3) (layerB0 x4) (layerW1 x3) (layerB1 x4) x5 x6 := by
  rw [out5_7_eq, payload_eq_cls, ld_layerW0, ld_layerW1, ld_layerB0, ld_layerB1]

/-- What the body leaves in the output block, at a row of the block, is the reference's classifier of the whole arrays at
    that row of the array, when the block of features is block q of the feature array and the other blocks are their
    whole arrays. -/
theorem block_value (x0 : Vec Ideal S2000x768 .f32) (x1 : Vec Ideal S768x256 .f32) (x2 : Vec Ideal S256 .f32) (x3 : Vec Ideal S2x256x256 .f32) (x4 : Vec Ideal S2x256 .f32) (x5 : Vec Ideal S256x1 .f32) (x6 : Vec Ideal S1 .f32)
    (a0 : FVec Ideal S100000x768 .f32) (a1 : FVec Ideal S768x256 .f32) (a2 : FVec Ideal S256 .f32) (a3 : FVec Ideal S2x256x256 .f32)
    (a4 : FVec Ideal S2x256 .f32) (a5 : FVec Ideal S256x1 .f32) (a6 : FVec Ideal S1 .f32) (q : Nat) (hq : q ≤ 49)
    (h0 : ∀ (p : Fin 2000) (k : Fin 768) (hr : q * 2000 + p.val < 100000), x0 (ix2 p k) = a0 (ix2 ⟨q * 2000 + p.val, hr⟩ k))
    (h1 : x1 = a1) (h2 : x2 = a2) (h3 : x3 = a3) (h4 : x4 = a4) (h5 : x5 = a5) (h6 : x6 = a6)
    (j : S2000x1.Idx) (i : S100000x1.Idx) (hi0 : (i 0).val = q * 2000 + (j 0).val) (hi1 : (i 1).val = (j 1).val) :
    out5_7 x0 x1 x2 x3 x4 x5 x6 j = clsRef a0 a1 a2 a3 a4 a5 a6 i := by
  subst h1 h2 h3 h4 h5 h6
  rw [out5_7_cls, clsRef_eq_cls]
  exact block_cls a0 x0 q hq h0 _ _ _ _ _ _ _ _ j i hi0 hi1

/-! ## The printed index maps, decided over the grid -/

/-- The input features' block moves with the output's along the rows; every other window's block index is constantly
    zero; the output's block index stays in its range. -/
theorem idx_facts5 : ∀ t : Fin cfg5.N,
    win5_0.index t (0 : Fin 2) = win5_7.index t (0 : Fin 2)
    ∧ win5_0.index t (1 : Fin 2) = 0
    ∧ win5_7.index t (1 : Fin 2) = 0
    ∧ win5_7.index t (0 : Fin 2) ≤ 49
    ∧ win5_1.index t (0 : Fin 2) = 0
    ∧ win5_1.index t (1 : Fin 2) = 0
    ∧ win5_2.index t (0 : Fin 1) = 0
    ∧ win5_3.index t (0 : Fin 3) = 0
    ∧ win5_3.index t (1 : Fin 3) = 0
    ∧ win5_3.index t (2 : Fin 3) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 1) = 0 :=
  (by decide +kernel : ∀ t : Fin grid5.N, _)

/-- Every block of rows of the output is some point's. -/
theorem idx_onto5 : ∀ q0 : Fin 50, ∃ t : Fin cfg5.N, win5_7.index t = ![q0.val, 0] :=
  (by decide +kernel : ∀ q0 : Fin 50, ∃ t : Fin grid5.N, win5_7.index t = ![q0.val, 0])

/-! ## The windows' blocks -/

/-- Window 1's block is its whole array at every point (its block index is constantly zero). -/
theorem iblk5_1_eq (c : Dev nD) (t : Fin cfg5.N) :
    (iblk5 V c 1 t : S768x256.Idx → EReal) = V c (Pipeline.arrRef spec5 1) := by
  obtain ⟨e0, e1, e2, e3, e4, e5, e6, e7, e8, e9, e10, e11, e12, e13, e14⟩ := idx_facts5 t
  funext y
  show (V c (Pipeline.arrRef spec5 1) : S768x256.Idx → EReal) (((cfg5.win 1).blk t).view.emb y) = V c (Pipeline.arrRef spec5 1) y
  refine congrArg _ (funext fun a => Fin.ext ?_)
  match a with
  | ⟨0, _⟩ => show win5_1.index t (0 : Fin 2) * 768 + 1 * (y 0).val = (y 0).val; omega
  | ⟨1, _⟩ => show win5_1.index t (1 : Fin 2) * 256 + 1 * (y 1).val = (y 1).val; omega

/-- Window 2's block is its whole array at every point (its block index is constantly zero). -/
theorem iblk5_2_eq (c : Dev nD) (t : Fin cfg5.N) :
    (iblk5 V c 2 t : S256.Idx → EReal) = V c (Pipeline.arrRef spec5 2) := by
  obtain ⟨e0, e1, e2, e3, e4, e5, e6, e7, e8, e9, e10, e11, e12, e13, e14⟩ := idx_facts5 t
  funext y
  show (V c (Pipeline.arrRef spec5 2) : S256.Idx → EReal) (((cfg5.win 2).blk t).view.emb y) = V c (Pipeline.arrRef spec5 2) y
  refine congrArg _ (funext fun a => Fin.ext ?_)
  match a with
  | ⟨0, _⟩ => show win5_2.index t (0 : Fin 1) * 256 + 1 * (y 0).val = (y 0).val; omega

/-- Window 3's block is its whole array at every point (its block index is constantly zero). -/
theorem iblk5_3_eq (c : Dev nD) (t : Fin cfg5.N) :
    (iblk5 V c 3 t : S2x256x256.Idx → EReal) = V c (Pipeline.arrRef spec5 3) := by
  obtain ⟨e0, e1, e2, e3, e4, e5, e6, e7, e8, e9, e10, e11, e12, e13, e14⟩ := idx_facts5 t
  funext y
  show (V c (Pipeline.arrRef spec5 3) : S2x256x256.Idx → EReal) (((cfg5.win 3).blk t).view.emb y) = V c (Pipeline.arrRef spec5 3) y
  refine congrArg _ (funext fun a => Fin.ext ?_)
  match a with
  | ⟨0, _⟩ => show win5_3.index t (0 : Fin 3) * 2 + 1 * (y 0).val = (y 0).val; omega
  | ⟨1, _⟩ => show win5_3.index t (1 : Fin 3) * 256 + 1 * (y 1).val = (y 1).val; omega
  | ⟨2, _⟩ => show win5_3.index t (2 : Fin 3) * 256 + 1 * (y 2).val = (y 2).val; omega

/-- Window 4's block is its whole array at every point (its block index is constantly zero). -/
theorem iblk5_4_eq (c : Dev nD) (t : Fin cfg5.N) :
    (iblk5 V c 4 t : S2x256.Idx → EReal) = V c (Pipeline.arrRef spec5 4) := by
  obtain ⟨e0, e1, e2, e3, e4, e5, e6, e7, e8, e9, e10, e11, e12, e13, e14⟩ := idx_facts5 t
  funext y
  show (V c (Pipeline.arrRef spec5 4) : S2x256.Idx → EReal) (((cfg5.win 4).blk t).view.emb y) = V c (Pipeline.arrRef spec5 4) y
  refine congrArg _ (funext fun a => Fin.ext ?_)
  match a with
  | ⟨0, _⟩ => show win5_4.index t (0 : Fin 2) * 2 + 1 * (y 0).val = (y 0).val; omega
  | ⟨1, _⟩ => show win5_4.index t (1 : Fin 2) * 256 + 1 * (y 1).val = (y 1).val; omega

/-- Window 5's block is its whole array at every point (its block index is constantly zero). -/
theorem iblk5_5_eq (c : Dev nD) (t : Fin cfg5.N) :
    (iblk5 V c 5 t : S256x1.Idx → EReal) = V c (Pipeline.arrRef spec5 5) := by
  obtain ⟨e0, e1, e2, e3, e4, e5, e6, e7, e8, e9, e10, e11, e12, e13, e14⟩ := idx_facts5 t
  funext y
  show (V c (Pipeline.arrRef spec5 5) : S256x1.Idx → EReal) (((cfg5.win 5).blk t).view.emb y) = V c (Pipeline.arrRef spec5 5) y
  refine congrArg _ (funext fun a => Fin.ext ?_)
  match a with
  | ⟨0, _⟩ => show win5_5.index t (0 : Fin 2) * 256 + 1 * (y 0).val = (y 0).val; omega
  | ⟨1, _⟩ => show win5_5.index t (1 : Fin 2) * 1 + 1 * (y 1).val = (y 1).val; omega

/-- Window 6's block is its whole array at every point (its block index is constantly zero). -/
theorem iblk5_6_eq (c : Dev nD) (t : Fin cfg5.N) :
    (iblk5 V c 6 t : S1.Idx → EReal) = V c (Pipeline.arrRef spec5 6) := by
  obtain ⟨e0, e1, e2, e3, e4, e5, e6, e7, e8, e9, e10, e11, e12, e13, e14⟩ := idx_facts5 t
  funext y
  show (V c (Pipeline.arrRef spec5 6) : S1.Idx → EReal) (((cfg5.win 6).blk t).view.emb y) = V c (Pipeline.arrRef spec5 6) y
  refine congrArg _ (funext fun a => Fin.ext ?_)
  match a with
  | ⟨0, _⟩ => show win5_6.index t (0 : Fin 1) * 1 + 1 * (y 0).val = (y 0).val; omega

/-! ## What a point writes back -/

/-- What point `t` writes back is block `t` of the reference's classifier of the arrays as the region finds them. -/
theorem flushed5_7_eq (c : Dev nD) (t : Fin cfg5.N) :
    (dat5 (F := Ideal) V c).flushed 7 t = ((cfg5.win 7).blk t).view.read (Elt Ideal)
      (clsRef (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) := by
  show (cfg5.win 7).cut (grid5.coords t) ((dat5 V c).after 7 t) = _
  rw [after5_7]
  obtain ⟨e0, e1, e2, e3, e4, e5, e6, e7, e8, e9, e10, e11, e12, e13, e14⟩ := idx_facts5 t
  funext j
  refine block_value (iblk5 V c 0 t) (iblk5 V c 1 t) (iblk5 V c 2 t) (iblk5 V c 3 t) (iblk5 V c 4 t) (iblk5 V c 5 t) (iblk5 V c 6 t)
    (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))
    (win5_7.index t (0 : Fin 2)) e3 (fun p k hr => ?_) (iblk5_1_eq V c t) (iblk5_2_eq V c t) (iblk5_3_eq V c t) (iblk5_4_eq V c t)
    (iblk5_5_eq V c t) (iblk5_6_eq V c t) j (((cfg5.win 7).blk t).view.emb j) ?_ ?_
  · show (V c (Pipeline.arrRef spec5 0) : S100000x768.Idx → EReal) (((cfg5.win 0).blk t).view.emb (ix2 p k)) = V c (Pipeline.arrRef spec5 0) (ix2 ⟨win5_7.index t (0 : Fin 2) * 2000 + p.val, hr⟩ k)
    refine congrArg _ (funext fun a => Fin.ext ?_)
    match a with
    | ⟨0, _⟩ => show win5_0.index t (0 : Fin 2) * 2000 + 1 * p.val = win5_7.index t (0 : Fin 2) * 2000 + p.val; omega
    | ⟨1, _⟩ => show win5_0.index t (1 : Fin 2) * 768 + 1 * k.val = k.val; omega
  · show win5_7.index t (0 : Fin 2) * 2000 + 1 * (j 0).val = win5_7.index t (0 : Fin 2) * 2000 + (j 0).val; omega
  · show win5_7.index t (1 : Fin 2) * 1 + 1 * (j 1).val = (j 1).val; omega

/-! ## The blocks tile the array -/

/-- An index of the output array is in point `t`'s block iff each coordinate is in the block's range on its axis. -/
theorem mem_blk5_7 (t : Fin cfg5.N) (i : S100000x1.Idx) :
    i ∈ ((cfg5.win 7).blk t).view.set ↔ ∀ a : Fin 2, win5_7.index t a * S2000x1.size a ≤ (i a).val ∧ (i a).val < win5_7.index t a * S2000x1.size a + S2000x1.size a := by
  show i ∈ ((View.whole main_v166).slice (win5_7.rect t)).set ↔ _
  rw [View.set_slice_whole, Rect.mem_set_unit]
  exact Iff.rfl

/-- Every index of the output array is in some point's block: row r is in block r / 2000. -/
theorem cover5_7 (i : S100000x1.Idx) :
    ∃ t : Fin cfg5.N, (cfg5.win 7).flush t = true ∧ i ∈ ((cfg5.win 7).blk t).view.set := by
  have hi0 : (i 0).val < 100000 := (i 0).isLt
  have hi1 : (i 1).val < 1 := (i 1).isLt
  obtain ⟨t, ht⟩ := idx_onto5 ⟨(i 0).val / 2000, by omega⟩
  have q0 : win5_7.index t (0 : Fin 2) = (i 0).val / 2000 := congrFun ht 0
  have q1 : win5_7.index t (1 : Fin 2) = 0 := congrFun ht 1
  refine ⟨t, flush5_7 t, ?_⟩
  rw [mem_blk5_7]
  intro a
  match a with
  | ⟨0, _⟩ => show win5_7.index t (0 : Fin 2) * 2000 ≤ (i 0).val ∧ (i 0).val < win5_7.index t (0 : Fin 2) * 2000 + 2000; omega
  | ⟨1, _⟩ => show win5_7.index t (1 : Fin 2) * 1 ≤ (i 1).val ∧ (i 1).val < win5_7.index t (1 : Fin 2) * 1 + 1; omega

/-! ## The array after the run -/

/-- After all grid points, the pipeline's output array holds the reference's classifier of the region's input arrays
    as the region finds them. -/
theorem reg5_value (c : Dev nD) :
    ((dat5 (F := Ideal) V c).arrAt 7 cfg5.N : S100000x1.Idx → EReal)
      = clsRef (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) :=
  (dat5 (F := Ideal) V c).arrAt_eq_of_cover 7 _ (fun t _ => flushed5_7_eq V c t) cover5_7

end Cert.Val

end
-- ==== Proof.Val.Result.lean ====
/- The two programs' results agree at the ideal instance. Both programs are folded stage by stage — the kernel
   program through its host stretches and kernel regions, the reference through the matching pieces of its operation
   list (Val/ResultArgs.lean names the stages and proves that a stage keeps what it does not write, so the arguments
   are the launch contents at every stage) — and at each stage the buffers read later hold equal contents: the
   arguments, the edge endpoints, the layers' outputs, and at each dense part its seven operands. A host stretch
   preserves the agreement by the stretch's glue lemma; a dense part by the kernel region's value (the layer function
   of its operands) on one side and the reference's dense operations read back (the same function of the same
   operands) on the other. The last stage is the classifier, and the reference's fold over its whole list is the
   pieces' folds composed. Every step that relates a buffer of one program to a buffer of the other is a step of the
   one final theorem. -/
import proofs.«145887_j33578054320560_2_alg».proof.Proof.Val.ResultArgs
import proofs.«145887_j33578054320560_2_alg».proof.Proof.Val.Glue0
import proofs.«145887_j33578054320560_2_alg».proof.Proof.Val.Glue1
import proofs.«145887_j33578054320560_2_alg».proof.Proof.Val.Glue2
import proofs.«145887_j33578054320560_2_alg».proof.Proof.Val.Glue3
import proofs.«145887_j33578054320560_2_alg».proof.Proof.Val.Glue4
import proofs.«145887_j33578054320560_2_alg».proof.Proof.Val.GlueTail
import proofs.«145887_j33578054320560_2_alg».proof.Proof.Val.RefDense
import proofs.«145887_j33578054320560_2_alg».proof.Proof.Val.RefCls
import proofs.«145887_j33578054320560_2_alg».proof.Proof.Val.Gin0
import proofs.«145887_j33578054320560_2_alg».proof.Proof.Val.Gin1
import proofs.«145887_j33578054320560_2_alg».proof.Proof.Val.Gin2
import proofs.«145887_j33578054320560_2_alg».proof.Proof.Val.Gin3
import proofs.«145887_j33578054320560_2_alg».proof.Proof.Val.Gin4
import proofs.«145887_j33578054320560_2_alg».proof.Proof.Val.Cls

noncomputable section

namespace Cert.Val

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## What is kept between its writer and its readers: the edge endpoints and the layers' outputs -/
theorem kE2_main_v1 : (Cert.KernelIdeal.Hand.W2 m c) (Proc.devRef .tc Cert.KernelIdeal.main_v1) = (Cert.KernelIdeal.Hand.W1 m c) (Proc.devRef .tc Cert.KernelIdeal.main_v1) :=
  kStep2 m c _ (by decide)
theorem rE2_main_v1 : (R2 m' c) (Proc.devRef .tc Cert.ReferenceIdeal.main_v1) = (R1 m' c) (Proc.devRef .tc Cert.ReferenceIdeal.main_v1) :=
  rStep2 m' c _ (by decide)
theorem kE3_main_v1 : (Cert.KernelIdeal.Hand.W3 m c) (Proc.devRef .tc Cert.KernelIdeal.main_v1) = (Cert.KernelIdeal.Hand.W1 m c) (Proc.devRef .tc Cert.KernelIdeal.main_v1) :=
  (kStep3 m c _ (by decide)).trans (kE2_main_v1 m c)
theorem rE3_main_v1 : (R3 m' c) (Proc.devRef .tc Cert.ReferenceIdeal.main_v1) = (R1 m' c) (Proc.devRef .tc Cert.ReferenceIdeal.main_v1) :=
  (rStep3 m' c _ (by decide)).trans (rE2_main_v1 m' c)
theorem kE4_main_v1 : (Cert.KernelIdeal.Hand.W4 m c) (Proc.devRef .tc Cert.KernelIdeal.main_v1) = (Cert.KernelIdeal.Hand.W1 m c) (Proc.devRef .tc Cert.KernelIdeal.main_v1) :=
  (kStep4 m c _ (by decide)).trans (kE3_main_v1 m c)
theorem rE4_main_v1 : (R4 m' c) (Proc.devRef .tc Cert.ReferenceIdeal.main_v1) = (R1 m' c) (Proc.devRef .tc Cert.ReferenceIdeal.main_v1) :=
  (rStep4 m' c _ (by decide)).trans (rE3_main_v1 m' c)
theorem kE5_main_v1 : (Cert.KernelIdeal.Hand.W5 m c) (Proc.devRef .tc Cert.KernelIdeal.main_v1) = (Cert.KernelIdeal.Hand.W1 m c) (Proc.devRef .tc Cert.KernelIdeal.main_v1) :=
  (kStep5 m c _ (by decide)).trans (kE4_main_v1 m c)
theorem rE5_main_v1 : (R5 m' c) (Proc.devRef .tc Cert.ReferenceIdeal.main_v1) = (R1 m' c) (Proc.devRef .tc Cert.ReferenceIdeal.main_v1) :=
  (rStep5 m' c _ (by decide)).trans (rE4_main_v1 m' c)
theorem kE6_main_v1 : (Cert.KernelIdeal.Hand.W6 m c) (Proc.devRef .tc Cert.KernelIdeal.main_v1) = (Cert.KernelIdeal.Hand.W1 m c) (Proc.devRef .tc Cert.KernelIdeal.main_v1) :=
  (kStep6 m c _ (by decide)).trans (kE5_main_v1 m c)
theorem rE6_main_v1 : (R6 m' c) (Proc.devRef .tc Cert.ReferenceIdeal.main_v1) = (R1 m' c) (Proc.devRef .tc Cert.ReferenceIdeal.main_v1) :=
  (rStep6 m' c _ (by decide)).trans (rE5_main_v1 m' c)
theorem kE7_main_v1 : (Cert.KernelIdeal.Hand.W7 m c) (Proc.devRef .tc Cert.KernelIdeal.main_v1) = (Cert.KernelIdeal.Hand.W1 m c) (Proc.devRef .tc Cert.KernelIdeal.main_v1) :=
  (kStep7 m c _ (by decide)).trans (kE6_main_v1 m c)
theorem rE7_main_v1 : (R7 m' c) (Proc.devRef .tc Cert.ReferenceIdeal.main_v1) = (R1 m' c) (Proc.devRef .tc Cert.ReferenceIdeal.main_v1) :=
  (rStep7 m' c _ (by decide)).trans (rE6_main_v1 m' c)
theorem kE8_main_v1 : (Cert.KernelIdeal.Hand.W8 m c) (Proc.devRef .tc Cert.KernelIdeal.main_v1) = (Cert.KernelIdeal.Hand.W1 m c) (Proc.devRef .tc Cert.KernelIdeal.main_v1) :=
  (kStep8 m c _ (by decide)).trans (kE7_main_v1 m c)
theorem rE8_main_v1 : (R8 m' c) (Proc.devRef .tc Cert.ReferenceIdeal.main_v1) = (R1 m' c) (Proc.devRef .tc Cert.ReferenceIdeal.main_v1) :=
  (rStep8 m' c _ (by decide)).trans (rE7_main_v1 m' c)
theorem kE2_main_v3 : (Cert.KernelIdeal.Hand.W2 m c) (Proc.devRef .tc Cert.KernelIdeal.main_v3) = (Cert.KernelIdeal.Hand.W1 m c) (Proc.devRef .tc Cert.KernelIdeal.main_v3) :=
  kStep2 m c _ (by decide)
theorem rE2_main_v3 : (R2 m' c) (Proc.devRef .tc Cert.ReferenceIdeal.main_v3) = (R1 m' c) (Proc.devRef .tc Cert.ReferenceIdeal.main_v3) :=
  rStep2 m' c _ (by decide)
theorem kE3_main_v3 : (Cert.KernelIdeal.Hand.W3 m c) (Proc.devRef .tc Cert.KernelIdeal.main_v3) = (Cert.KernelIdeal.Hand.W1 m c) (Proc.devRef .tc Cert.KernelIdeal.main_v3) :=
  (kStep3 m c _ (by decide)).trans (kE2_main_v3 m c)
theorem rE3_main_v3 : (R3 m' c) (Proc.devRef .tc Cert.ReferenceIdeal.main_v3) = (R1 m' c) (Proc.devRef .tc Cert.ReferenceIdeal.main_v3) :=
  (rStep3 m' c _ (by decide)).trans (rE2_main_v3 m' c)
theorem kE4_main_v3 : (Cert.KernelIdeal.Hand.W4 m c) (Proc.devRef .tc Cert.KernelIdeal.main_v3) = (Cert.KernelIdeal.Hand.W1 m c) (Proc.devRef .tc Cert.KernelIdeal.main_v3) :=
  (kStep4 m c _ (by decide)).trans (kE3_main_v3 m c)
theorem rE4_main_v3 : (R4 m' c) (Proc.devRef .tc Cert.ReferenceIdeal.main_v3) = (R1 m' c) (Proc.devRef .tc Cert.ReferenceIdeal.main_v3) :=
  (rStep4 m' c _ (by decide)).trans (rE3_main_v3 m' c)
theorem kE5_main_v3 : (Cert.KernelIdeal.Hand.W5 m c) (Proc.devRef .tc Cert.KernelIdeal.main_v3) = (Cert.KernelIdeal.Hand.W1 m c) (Proc.devRef .tc Cert.KernelIdeal.main_v3) :=
  (kStep5 m c _ (by decide)).trans (kE4_main_v3 m c)
theorem rE5_main_v3 : (R5 m' c) (Proc.devRef .tc Cert.ReferenceIdeal.main_v3) = (R1 m' c) (Proc.devRef .tc Cert.ReferenceIdeal.main_v3) :=
  (rStep5 m' c _ (by decide)).trans (rE4_main_v3 m' c)
theorem kE6_main_v3 : (Cert.KernelIdeal.Hand.W6 m c) (Proc.devRef .tc Cert.KernelIdeal.main_v3) = (Cert.KernelIdeal.Hand.W1 m c) (Proc.devRef .tc Cert.KernelIdeal.main_v3) :=
  (kStep6 m c _ (by decide)).trans (kE5_main_v3 m c)
theorem rE6_main_v3 : (R6 m' c) (Proc.devRef .tc Cert.ReferenceIdeal.main_v3) = (R1 m' c) (Proc.devRef .tc Cert.ReferenceIdeal.main_v3) :=
  (rStep6 m' c _ (by decide)).trans (rE5_main_v3 m' c)
theorem kE7_main_v3 : (Cert.KernelIdeal.Hand.W7 m c) (Proc.devRef .tc Cert.KernelIdeal.main_v3) = (Cert.KernelIdeal.Hand.W1 m c) (Proc.devRef .tc Cert.KernelIdeal.main_v3) :=
  (kStep7 m c _ (by decide)).trans (kE6_main_v3 m c)
theorem rE7_main_v3 : (R7 m' c) (Proc.devRef .tc Cert.ReferenceIdeal.main_v3) = (R1 m' c) (Proc.devRef .tc Cert.ReferenceIdeal.main_v3) :=
  (rStep7 m' c _ (by decide)).trans (rE6_main_v3 m' c)
theorem kE8_main_v3 : (Cert.KernelIdeal.Hand.W8 m c) (Proc.devRef .tc Cert.KernelIdeal.main_v3) = (Cert.KernelIdeal.Hand.W1 m c) (Proc.devRef .tc Cert.KernelIdeal.main_v3) :=
  (kStep8 m c _ (by decide)).trans (kE7_main_v3 m c)
theorem rE8_main_v3 : (R8 m' c) (Proc.devRef .tc Cert.ReferenceIdeal.main_v3) = (R1 m' c) (Proc.devRef .tc Cert.ReferenceIdeal.main_v3) :=
  (rStep8 m' c _ (by decide)).trans (rE7_main_v3 m' c)
theorem kO0_3 : (Cert.KernelIdeal.Hand.W3 m c) (Proc.devRef .tc Cert.KernelIdeal.main_v18) = (Cert.KernelIdeal.Hand.W2 m c) (Proc.devRef .tc Cert.KernelIdeal.main_v18) :=
  kStep3 m c _ (by decide)
theorem rO0_3 : (R3 m' c) (Proc.devRef .tc Cert.ReferenceIdeal.main_v36) = (R2 m' c) (Proc.devRef .tc Cert.ReferenceIdeal.main_v36) :=
  rStep3 m' c _ (by decide)
theorem kO0_4 : (Cert.KernelIdeal.Hand.W4 m c) (Proc.devRef .tc Cert.KernelIdeal.main_v18) = (Cert.KernelIdeal.Hand.W2 m c) (Proc.devRef .tc Cert.KernelIdeal.main_v18) :=
  (kStep4 m c _ (by decide)).trans (kO0_3 m c)
theorem rO0_4 : (R4 m' c) (Proc.devRef .tc Cert.ReferenceIdeal.main_v36) = (R2 m' c) (Proc.devRef .tc Cert.ReferenceIdeal.main_v36) :=
  (rStep4 m' c _ (by decide)).trans (rO0_3 m' c)
theorem kO0_5 : (Cert.KernelIdeal.Hand.W5 m c) (Proc.devRef .tc Cert.KernelIdeal.main_v18) = (Cert.KernelIdeal.Hand.W2 m c) (Proc.devRef .tc Cert.KernelIdeal.main_v18) :=
  (kStep5 m c _ (by decide)).trans (kO0_4 m c)
theorem rO0_5 : (R5 m' c) (Proc.devRef .tc Cert.ReferenceIdeal.main_v36) = (R2 m' c) (Proc.devRef .tc Cert.ReferenceIdeal.main_v36) :=
  (rStep5 m' c _ (by decide)).trans (rO0_4 m' c)
theorem kO0_6 : (Cert.KernelIdeal.Hand.W6 m c) (Proc.devRef .tc Cert.KernelIdeal.main_v18) = (Cert.KernelIdeal.Hand.W2 m c) (Proc.devRef .tc Cert.KernelIdeal.main_v18) :=
  (kStep6 m c _ (by decide)).trans (kO0_5 m c)
theorem rO0_6 : (R6 m' c) (Proc.devRef .tc Cert.ReferenceIdeal.main_v36) = (R2 m' c) (Proc.devRef .tc Cert.ReferenceIdeal.main_v36) :=
  (rStep6 m' c _ (by decide)).trans (rO0_5 m' c)
theorem kO0_7 : (Cert.KernelIdeal.Hand.W7 m c) (Proc.devRef .tc Cert.KernelIdeal.main_v18) = (Cert.KernelIdeal.Hand.W2 m c) (Proc.devRef .tc Cert.KernelIdeal.main_v18) :=
  (kStep7 m c _ (by decide)).trans (kO0_6 m c)
theorem rO0_7 : (R7 m' c) (Proc.devRef .tc Cert.ReferenceIdeal.main_v36) = (R2 m' c) (Proc.devRef .tc Cert.ReferenceIdeal.main_v36) :=
  (rStep7 m' c _ (by decide)).trans (rO0_6 m' c)
theorem kO0_8 : (Cert.KernelIdeal.Hand.W8 m c) (Proc.devRef .tc Cert.KernelIdeal.main_v18) = (Cert.KernelIdeal.Hand.W2 m c) (Proc.devRef .tc Cert.KernelIdeal.main_v18) :=
  (kStep8 m c _ (by decide)).trans (kO0_7 m c)
theorem rO0_8 : (R8 m' c) (Proc.devRef .tc Cert.ReferenceIdeal.main_v36) = (R2 m' c) (Proc.devRef .tc Cert.ReferenceIdeal.main_v36) :=
  (rStep8 m' c _ (by decide)).trans (rO0_7 m' c)
theorem kO0_9 : (Cert.KernelIdeal.Hand.W9 m c) (Proc.devRef .tc Cert.KernelIdeal.main_v18) = (Cert.KernelIdeal.Hand.W2 m c) (Proc.devRef .tc Cert.KernelIdeal.main_v18) :=
  (kStep9 m c _ (by decide)).trans (kO0_8 m c)
theorem rO0_9 : (R9 m' c) (Proc.devRef .tc Cert.ReferenceIdeal.main_v36) = (R2 m' c) (Proc.devRef .tc Cert.ReferenceIdeal.main_v36) :=
  (rStep9 m' c _ (by decide)).trans (rO0_8 m' c)
theorem kO0_10 : (Cert.KernelIdeal.Hand.W10 m c) (Proc.devRef .tc Cert.KernelIdeal.main_v18) = (Cert.KernelIdeal.Hand.W2 m c) (Proc.devRef .tc Cert.KernelIdeal.main_v18) :=
  (kStep10 m c _ (by decide)).trans (kO0_9 m c)
theorem rO0_10 : (R10 m' c) (Proc.devRef .tc Cert.ReferenceIdeal.main_v36) = (R2 m' c) (Proc.devRef .tc Cert.ReferenceIdeal.main_v36) :=
  (rStep10 m' c _ (by decide)).trans (rO0_9 m' c)
theorem kO1_5 : (Cert.KernelIdeal.Hand.W5 m c) (Proc.devRef .tc Cert.KernelIdeal.main_v47) = (Cert.KernelIdeal.Hand.W4 m c) (Proc.devRef .tc Cert.KernelIdeal.main_v47) :=
  kStep5 m c _ (by decide)
theorem rO1_5 : (R5 m' c) (Proc.devRef .tc Cert.ReferenceIdeal.main_v83) = (R4 m' c) (Proc.devRef .tc Cert.ReferenceIdeal.main_v83) :=
  rStep5 m' c _ (by decide)
theorem kO1_6 : (Cert.KernelIdeal.Hand.W6 m c) (Proc.devRef .tc Cert.KernelIdeal.main_v47) = (Cert.KernelIdeal.Hand.W4 m c) (Proc.devRef .tc Cert.KernelIdeal.main_v47) :=
  (kStep6 m c _ (by decide)).trans (kO1_5 m c)
theorem rO1_6 : (R6 m' c) (Proc.devRef .tc Cert.ReferenceIdeal.main_v83) = (R4 m' c) (Proc.devRef .tc Cert.ReferenceIdeal.main_v83) :=
  (rStep6 m' c _ (by decide)).trans (rO1_5 m' c)
theorem kO1_7 : (Cert.KernelIdeal.Hand.W7 m c) (Proc.devRef .tc Cert.KernelIdeal.main_v47) = (Cert.KernelIdeal.Hand.W4 m c) (Proc.devRef .tc Cert.KernelIdeal.main_v47) :=
  (kStep7 m c _ (by decide)).trans (kO1_6 m c)
theorem rO1_7 : (R7 m' c) (Proc.devRef .tc Cert.ReferenceIdeal.main_v83) = (R4 m' c) (Proc.devRef .tc Cert.ReferenceIdeal.main_v83) :=
  (rStep7 m' c _ (by decide)).trans (rO1_6 m' c)
theorem kO1_8 : (Cert.KernelIdeal.Hand.W8 m c) (Proc.devRef .tc Cert.KernelIdeal.main_v47) = (Cert.KernelIdeal.Hand.W4 m c) (Proc.devRef .tc Cert.KernelIdeal.main_v47) :=
  (kStep8 m c _ (by decide)).trans (kO1_7 m c)
theorem rO1_8 : (R8 m' c) (Proc.devRef .tc Cert.ReferenceIdeal.main_v83) = (R4 m' c) (Proc.devRef .tc Cert.ReferenceIdeal.main_v83) :=
  (rStep8 m' c _ (by decide)).trans (rO1_7 m' c)
theorem kO1_9 : (Cert.KernelIdeal.Hand.W9 m c) (Proc.devRef .tc Cert.KernelIdeal.main_v47) = (Cert.KernelIdeal.Hand.W4 m c) (Proc.devRef .tc Cert.KernelIdeal.main_v47) :=
  (kStep9 m c _ (by decide)).trans (kO1_8 m c)
theorem rO1_9 : (R9 m' c) (Proc.devRef .tc Cert.ReferenceIdeal.main_v83) = (R4 m' c) (Proc.devRef .tc Cert.ReferenceIdeal.main_v83) :=
  (rStep9 m' c _ (by decide)).trans (rO1_8 m' c)
theorem kO1_10 : (Cert.KernelIdeal.Hand.W10 m c) (Proc.devRef .tc Cert.KernelIdeal.main_v47) = (Cert.KernelIdeal.Hand.W4 m c) (Proc.devRef .tc Cert.KernelIdeal.main_v47) :=
  (kStep10 m c _ (by decide)).trans (kO1_9 m c)
theorem rO1_10 : (R10 m' c) (Proc.devRef .tc Cert.ReferenceIdeal.main_v83) = (R4 m' c) (Proc.devRef .tc Cert.ReferenceIdeal.main_v83) :=
  (rStep10 m' c _ (by decide)).trans (rO1_9 m' c)
theorem kO2_7 : (Cert.KernelIdeal.Hand.W7 m c) (Proc.devRef .tc Cert.KernelIdeal.main_v76) = (Cert.KernelIdeal.Hand.W6 m c) (Proc.devRef .tc Cert.KernelIdeal.main_v76) :=
  kStep7 m c _ (by decide)
theorem rO2_7 : (R7 m' c) (Proc.devRef .tc Cert.ReferenceIdeal.main_v130) = (R6 m' c) (Proc.devRef .tc Cert.ReferenceIdeal.main_v130) :=
  rStep7 m' c _ (by decide)
theorem kO2_8 : (Cert.KernelIdeal.Hand.W8 m c) (Proc.devRef .tc Cert.KernelIdeal.main_v76) = (Cert.KernelIdeal.Hand.W6 m c) (Proc.devRef .tc Cert.KernelIdeal.main_v76) :=
  (kStep8 m c _ (by decide)).trans (kO2_7 m c)
theorem rO2_8 : (R8 m' c) (Proc.devRef .tc Cert.ReferenceIdeal.main_v130) = (R6 m' c) (Proc.devRef .tc Cert.ReferenceIdeal.main_v130) :=
  (rStep8 m' c _ (by decide)).trans (rO2_7 m' c)
theorem kO2_9 : (Cert.KernelIdeal.Hand.W9 m c) (Proc.devRef .tc Cert.KernelIdeal.main_v76) = (Cert.KernelIdeal.Hand.W6 m c) (Proc.devRef .tc Cert.KernelIdeal.main_v76) :=
  (kStep9 m c _ (by decide)).trans (kO2_8 m c)
theorem rO2_9 : (R9 m' c) (Proc.devRef .tc Cert.ReferenceIdeal.main_v130) = (R6 m' c) (Proc.devRef .tc Cert.ReferenceIdeal.main_v130) :=
  (rStep9 m' c _ (by decide)).trans (rO2_8 m' c)
theorem kO2_10 : (Cert.KernelIdeal.Hand.W10 m c) (Proc.devRef .tc Cert.KernelIdeal.main_v76) = (Cert.KernelIdeal.Hand.W6 m c) (Proc.devRef .tc Cert.KernelIdeal.main_v76) :=
  (kStep10 m c _ (by decide)).trans (kO2_9 m c)
theorem rO2_10 : (R10 m' c) (Proc.devRef .tc Cert.ReferenceIdeal.main_v130) = (R6 m' c) (Proc.devRef .tc Cert.ReferenceIdeal.main_v130) :=
  (rStep10 m' c _ (by decide)).trans (rO2_9 m' c)
theorem kO3_9 : (Cert.KernelIdeal.Hand.W9 m c) (Proc.devRef .tc Cert.KernelIdeal.main_v105) = (Cert.KernelIdeal.Hand.W8 m c) (Proc.devRef .tc Cert.KernelIdeal.main_v105) :=
  kStep9 m c _ (by decide)
theorem rO3_9 : (R9 m' c) (Proc.devRef .tc Cert.ReferenceIdeal.main_v177) = (R8 m' c) (Proc.devRef .tc Cert.ReferenceIdeal.main_v177) :=
  rStep9 m' c _ (by decide)
theorem kO3_10 : (Cert.KernelIdeal.Hand.W10 m c) (Proc.devRef .tc Cert.KernelIdeal.main_v105) = (Cert.KernelIdeal.Hand.W8 m c) (Proc.devRef .tc Cert.KernelIdeal.main_v105) :=
  (kStep10 m c _ (by decide)).trans (kO3_9 m c)
theorem rO3_10 : (R10 m' c) (Proc.devRef .tc Cert.ReferenceIdeal.main_v177) = (R8 m' c) (Proc.devRef .tc Cert.ReferenceIdeal.main_v177) :=
  (rStep10 m' c _ (by decide)).trans (rO3_9 m' c)

/-! ## The kernel regions' values at the stages -/
theorem kReg0 : (Cert.KernelIdeal.Hand.W2 m c) (Proc.devRef .tc Cert.KernelIdeal.main_v18) = gin64Ref ((Cert.KernelIdeal.Hand.W1 m c) (Proc.devRef .tc Cert.KernelIdeal.main_v17)) ((Cert.KernelIdeal.Hand.W1 m c) (Proc.devRef .tc Cert.KernelIdeal.main_arg3)) ((Cert.KernelIdeal.Hand.W1 m c) (Proc.devRef .tc Cert.KernelIdeal.main_arg4)) ((Cert.KernelIdeal.Hand.W1 m c) (Proc.devRef .tc Cert.KernelIdeal.main_arg5)) ((Cert.KernelIdeal.Hand.W1 m c) (Proc.devRef .tc Cert.KernelIdeal.main_arg6)) ((Cert.KernelIdeal.Hand.W1 m c) (Proc.devRef .tc Cert.KernelIdeal.main_arg7)) ((Cert.KernelIdeal.Hand.W1 m c) (Proc.devRef .tc Cert.KernelIdeal.main_arg8)) := by
  unfold Cert.KernelIdeal.Hand.W2
  rw [Function.update_self]
  exact reg0_value (Cert.KernelIdeal.Hand.tcOf (Cert.KernelIdeal.Hand.W1 m)) c
theorem kReg1 : (Cert.KernelIdeal.Hand.W4 m c) (Proc.devRef .tc Cert.KernelIdeal.main_v47) = gin128Ref ((Cert.KernelIdeal.Hand.W3 m c) (Proc.devRef .tc Cert.KernelIdeal.main_v34)) ((Cert.KernelIdeal.Hand.W3 m c) (Proc.devRef .tc Cert.KernelIdeal.main_v36)) ((Cert.KernelIdeal.Hand.W3 m c) (Proc.devRef .tc Cert.KernelIdeal.main_v38)) ((Cert.KernelIdeal.Hand.W3 m c) (Proc.devRef .tc Cert.KernelIdeal.main_v40)) ((Cert.KernelIdeal.Hand.W3 m c) (Proc.devRef .tc Cert.KernelIdeal.main_v42)) ((Cert.KernelIdeal.Hand.W3 m c) (Proc.devRef .tc Cert.KernelIdeal.main_v44)) ((Cert.KernelIdeal.Hand.W3 m c) (Proc.devRef .tc Cert.KernelIdeal.main_v46)) := by
  unfold Cert.KernelIdeal.Hand.W4
  rw [Function.update_self]
  exact reg1_value (Cert.KernelIdeal.Hand.tcOf (Cert.KernelIdeal.Hand.W3 m)) c
theorem kReg2 : (Cert.KernelIdeal.Hand.W6 m c) (Proc.devRef .tc Cert.KernelIdeal.main_v76) = gin128Ref ((Cert.KernelIdeal.Hand.W5 m c) (Proc.devRef .tc Cert.KernelIdeal.main_v63)) ((Cert.KernelIdeal.Hand.W5 m c) (Proc.devRef .tc Cert.KernelIdeal.main_v65)) ((Cert.KernelIdeal.Hand.W5 m c) (Proc.devRef .tc Cert.KernelIdeal.main_v67)) ((Cert.KernelIdeal.Hand.W5 m c) (Proc.devRef .tc Cert.KernelIdeal.main_v69)) ((Cert.KernelIdeal.Hand.W5 m c) (Proc.devRef .tc Cert.KernelIdeal.main_v71)) ((Cert.KernelIdeal.Hand.W5 m c) (Proc.devRef .tc Cert.KernelIdeal.main_v73)) ((Cert.KernelIdeal.Hand.W5 m c) (Proc.devRef .tc Cert.KernelIdeal.main_v75)) := by
  unfold Cert.KernelIdeal.Hand.W6
  rw [Function.update_self]
  exact reg2_value (Cert.KernelIdeal.Hand.tcOf (Cert.KernelIdeal.Hand.W5 m)) c
theorem kReg3 : (Cert.KernelIdeal.Hand.W8 m c) (Proc.devRef .tc Cert.KernelIdeal.main_v105) = gin128Ref ((Cert.KernelIdeal.Hand.W7 m c) (Proc.devRef .tc Cert.KernelIdeal.main_v92)) ((Cert.KernelIdeal.Hand.W7 m c) (Proc.devRef .tc Cert.KernelIdeal.main_v94)) ((Cert.KernelIdeal.Hand.W7 m c) (Proc.devRef .tc Cert.KernelIdeal.main_v96)) ((Cert.KernelIdeal.Hand.W7 m c) (Proc.devRef .tc Cert.KernelIdeal.main_v98)) ((Cert.KernelIdeal.Hand.W7 m c) (Proc.devRef .tc Cert.KernelIdeal.main_v100)) ((Cert.KernelIdeal.Hand.W7 m c) (Proc.devRef .tc Cert.KernelIdeal.main_v102)) ((Cert.KernelIdeal.Hand.W7 m c) (Proc.devRef .tc Cert.KernelIdeal.main_v104)) := by
  unfold Cert.KernelIdeal.Hand.W8
  rw [Function.update_self]
  exact reg3_value (Cert.KernelIdeal.Hand.tcOf (Cert.KernelIdeal.Hand.W7 m)) c
theorem kReg4 : (Cert.KernelIdeal.Hand.W10 m c) (Proc.devRef .tc Cert.KernelIdeal.main_v134) = gin128Ref ((Cert.KernelIdeal.Hand.W9 m c) (Proc.devRef .tc Cert.KernelIdeal.main_v121)) ((Cert.KernelIdeal.Hand.W9 m c) (Proc.devRef .tc Cert.KernelIdeal.main_v123)) ((Cert.KernelIdeal.Hand.W9 m c) (Proc.devRef .tc Cert.KernelIdeal.main_v125)) ((Cert.KernelIdeal.Hand.W9 m c) (Proc.devRef .tc Cert.KernelIdeal.main_v127)) ((Cert.KernelIdeal.Hand.W9 m c) (Proc.devRef .tc Cert.KernelIdeal.main_v129)) ((Cert.KernelIdeal.Hand.W9 m c) (Proc.devRef .tc Cert.KernelIdeal.main_v131)) ((Cert.KernelIdeal.Hand.W9 m c) (Proc.devRef .tc Cert.KernelIdeal.main_v133)) := by
  unfold Cert.KernelIdeal.Hand.W10
  rw [Function.update_self]
  exact reg4_value (Cert.KernelIdeal.Hand.tcOf (Cert.KernelIdeal.Hand.W9 m)) c
theorem kReg5 : (Cert.KernelIdeal.Hand.W22 m c) (Proc.devRef .tc Cert.KernelIdeal.main_v166) = clsRef ((Cert.KernelIdeal.Hand.W21 m c) (Proc.devRef .tc Cert.KernelIdeal.main_v165)) ((Cert.KernelIdeal.Hand.W21 m c) (Proc.devRef .tc Cert.KernelIdeal.main_arg17)) ((Cert.KernelIdeal.Hand.W21 m c) (Proc.devRef .tc Cert.KernelIdeal.main_arg18)) ((Cert.KernelIdeal.Hand.W21 m c) (Proc.devRef .tc Cert.KernelIdeal.main_arg19)) ((Cert.KernelIdeal.Hand.W21 m c) (Proc.devRef .tc Cert.KernelIdeal.main_arg20)) ((Cert.KernelIdeal.Hand.W21 m c) (Proc.devRef .tc Cert.KernelIdeal.main_arg21)) ((Cert.KernelIdeal.Hand.W21 m c) (Proc.devRef .tc Cert.KernelIdeal.main_arg22)) := by
  unfold Cert.KernelIdeal.Hand.W22
  rw [Function.update_self]
  exact reg5_value (Cert.KernelIdeal.Hand.tcOf (Cert.KernelIdeal.Hand.W21 m)) c

/-! ## The agreement, stage by stage -/

/-- From launch memories that agree on the 23 arguments at a core, the kernel program's result at that core is the
    reference's: the fold of its operations over its launch contents, read at its result buffer. -/
theorem result_eq
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.KernelIdeal.Hand.W22 (F := Ideal) m c (Proc.devRef .tc Cert.KernelIdeal.main_v166)
      = StableHlo.after Cert.ReferenceIdeal.Hand.ops (fun b => m' (c, b)) (Proc.devRef .tc Cert.ReferenceIdeal.main_v287) := by
  -- the arguments, where they are read
  have A0_0 : (Cert.KernelIdeal.Gen.V0 m c) (Proc.devRef .tc Cert.KernelIdeal.main_arg0) = (R0 m' c) (Proc.devRef .tc Cert.ReferenceIdeal.main_arg0) := (h.1).symm
  have A0_1 : (Cert.KernelIdeal.Gen.V0 m c) (Proc.devRef .tc Cert.KernelIdeal.main_arg1) = (R0 m' c) (Proc.devRef .tc Cert.ReferenceIdeal.main_arg1) := (h.2.1).symm
  have A0_9 : (Cert.KernelIdeal.Gen.V0 m c) (Proc.devRef .tc Cert.KernelIdeal.main_arg9) = (R0 m' c) (Proc.devRef .tc Cert.ReferenceIdeal.main_arg9) := (h.2.2.2.2.2.2.2.2.2.1).symm
  have A1_3 : (Cert.KernelIdeal.Hand.W1 m c) (Proc.devRef .tc Cert.KernelIdeal.main_arg3) = (R1 m' c) (Proc.devRef .tc Cert.ReferenceIdeal.main_arg3) :=
    (kA1_3 m c).trans (((h.2.2.2.1).symm).trans (rA1_3 m' c).symm)
  have A1_4 : (Cert.KernelIdeal.Hand.W1 m c) (Proc.devRef .tc Cert.KernelIdeal.main_arg4) = (R1 m' c) (Proc.devRef .tc Cert.ReferenceIdeal.main_arg4) :=
    (kA1_4 m c).trans (((h.2.2.2.2.1).symm).trans (rA1_4 m' c).symm)
  have A1_5 : (Cert.KernelIdeal.Hand.W1 m c) (Proc.devRef .tc Cert.KernelIdeal.main_arg5) = (R1 m' c) (Proc.devRef .tc Cert.ReferenceIdeal.main_arg5) :=
    (kA1_5 m c).trans (((h.2.2.2.2.2.1).symm).trans (rA1_5 m' c).symm)
  have A1_6 : (Cert.KernelIdeal.Hand.W1 m c) (Proc.devRef .tc Cert.KernelIdeal.main_arg6) = (R1 m' c) (Proc.devRef .tc Cert.ReferenceIdeal.main_arg6) :=
    (kA1_6 m c).trans (((h.2.2.2.2.2.2.1).symm).trans (rA1_6 m' c).symm)
  have A1_7 : (Cert.KernelIdeal.Hand.W1 m c) (Proc.devRef .tc Cert.KernelIdeal.main_arg7) = (R1 m' c) (Proc.devRef .tc Cert.ReferenceIdeal.main_arg7) :=
    (kA1_7 m c).trans (((h.2.2.2.2.2.2.2.1).symm).trans (rA1_7 m' c).symm)
  have A1_8 : (Cert.KernelIdeal.Hand.W1 m c) (Proc.devRef .tc Cert.KernelIdeal.main_arg8) = (R1 m' c) (Proc.devRef .tc Cert.ReferenceIdeal.main_arg8) :=
    (kA1_8 m c).trans (((h.2.2.2.2.2.2.2.2.1).symm).trans (rA1_8 m' c).symm)
  have A2_10 : (Cert.KernelIdeal.Hand.W2 m c) (Proc.devRef .tc Cert.KernelIdeal.main_arg10) = (R2 m' c) (Proc.devRef .tc Cert.ReferenceIdeal.main_arg10) :=
    (kA2_10 m c).trans (((h.2.2.2.2.2.2.2.2.2.2.1).symm).trans (rA2_10 m' c).symm)
  have A2_11 : (Cert.KernelIdeal.Hand.W2 m c) (Proc.devRef .tc Cert.KernelIdeal.main_arg11) = (R2 m' c) (Proc.devRef .tc Cert.ReferenceIdeal.main_arg11) :=
    (kA2_11 m c).trans (((h.2.2.2.2.2.2.2.2.2.2.2.1).symm).trans (rA2_11 m' c).symm)
  have A2_12 : (Cert.KernelIdeal.Hand.W2 m c) (Proc.devRef .tc Cert.KernelIdeal.main_arg12) = (R2 m' c) (Proc.devRef .tc Cert.ReferenceIdeal.main_arg12) :=
    (kA2_12 m c).trans (((h.2.2.2.2.2.2.2.2.2.2.2.2.1).symm).trans (rA2_12 m' c).symm)
  have A2_13 : (Cert.KernelIdeal.Hand.W2 m c) (Proc.devRef .tc Cert.KernelIdeal.main_arg13) = (R2 m' c) (Proc.devRef .tc Cert.ReferenceIdeal.main_arg13) :=
    (kA2_13 m c).trans (((h.2.2.2.2.2.2.2.2.2.2.2.2.2.1).symm).trans (rA2_13 m' c).symm)
  have A2_14 : (Cert.KernelIdeal.Hand.W2 m c) (Proc.devRef .tc Cert.KernelIdeal.main_arg14) = (R2 m' c) (Proc.devRef .tc Cert.ReferenceIdeal.main_arg14) :=
    (kA2_14 m c).trans (((h.2.2.2.2.2.2.2.2.2.2.2.2.2.2.1).symm).trans (rA2_14 m' c).symm)
  have A2_15 : (Cert.KernelIdeal.Hand.W2 m c) (Proc.devRef .tc Cert.KernelIdeal.main_arg15) = (R2 m' c) (Proc.devRef .tc Cert.ReferenceIdeal.main_arg15) :=
    (kA2_15 m c).trans (((h.2.2.2.2.2.2.2.2.2.2.2.2.2.2.2.1).symm).trans (rA2_15 m' c).symm)
  have A2_16 : (Cert.KernelIdeal.Hand.W2 m c) (Proc.devRef .tc Cert.KernelIdeal.main_arg16) = (R2 m' c) (Proc.devRef .tc Cert.ReferenceIdeal.main_arg16) :=
    (kA2_16 m c).trans (((h.2.2.2.2.2.2.2.2.2.2.2.2.2.2.2.2.1).symm).trans (rA2_16 m' c).symm)
  have A4_10 : (Cert.KernelIdeal.Hand.W4 m c) (Proc.devRef .tc Cert.KernelIdeal.main_arg10) = (R4 m' c) (Proc.devRef .tc Cert.ReferenceIdeal.main_arg10) :=
    (kA4_10 m c).trans (((h.2.2.2.2.2.2.2.2.2.2.1).symm).trans (rA4_10 m' c).symm)
  have A4_11 : (Cert.KernelIdeal.Hand.W4 m c) (Proc.devRef .tc Cert.KernelIdeal.main_arg11) = (R4 m' c) (Proc.devRef .tc Cert.ReferenceIdeal.main_arg11) :=
    (kA4_11 m c).trans (((h.2.2.2.2.2.2.2.2.2.2.2.1).symm).trans (rA4_11 m' c).symm)
  have A4_12 : (Cert.KernelIdeal.Hand.W4 m c) (Proc.devRef .tc Cert.KernelIdeal.main_arg12) = (R4 m' c) (Proc.devRef .tc Cert.ReferenceIdeal.main_arg12) :=
    (kA4_12 m c).trans (((h.2.2.2.2.2.2.2.2.2.2.2.2.1).symm).trans (rA4_12 m' c).symm)
  have A4_13 : (Cert.KernelIdeal.Hand.W4 m c) (Proc.devRef .tc Cert.KernelIdeal.main_arg13) = (R4 m' c) (Proc.devRef .tc Cert.ReferenceIdeal.main_arg13) :=
    (kA4_13 m c).trans (((h.2.2.2.2.2.2.2.2.2.2.2.2.2.1).symm).trans (rA4_13 m' c).symm)
  have A4_14 : (Cert.KernelIdeal.Hand.W4 m c) (Proc.devRef .tc Cert.KernelIdeal.main_arg14) = (R4 m' c) (Proc.devRef .tc Cert.ReferenceIdeal.main_arg14) :=
    (kA4_14 m c).trans (((h.2.2.2.2.2.2.2.2.2.2.2.2.2.2.1).symm).trans (rA4_14 m' c).symm)
  have A4_15 : (Cert.KernelIdeal.Hand.W4 m c) (Proc.devRef .tc Cert.KernelIdeal.main_arg15) = (R4 m' c) (Proc.devRef .tc Cert.ReferenceIdeal.main_arg15) :=
    (kA4_15 m c).trans (((h.2.2.2.2.2.2.2.2.2.2.2.2.2.2.2.1).symm).trans (rA4_15 m' c).symm)
  have A4_16 : (Cert.KernelIdeal.Hand.W4 m c) (Proc.devRef .tc Cert.KernelIdeal.main_arg16) = (R4 m' c) (Proc.devRef .tc Cert.ReferenceIdeal.main_arg16) :=
    (kA4_16 m c).trans (((h.2.2.2.2.2.2.2.2.2.2.2.2.2.2.2.2.1).symm).trans (rA4_16 m' c).symm)
  have A6_10 : (Cert.KernelIdeal.Hand.W6 m c) (Proc.devRef .tc Cert.KernelIdeal.main_arg10) = (R6 m' c) (Proc.devRef .tc Cert.ReferenceIdeal.main_arg10) :=
    (kA6_10 m c).trans (((h.2.2.2.2.2.2.2.2.2.2.1).symm).trans (rA6_10 m' c).symm)
  have A6_11 : (Cert.KernelIdeal.Hand.W6 m c) (Proc.devRef .tc Cert.KernelIdeal.main_arg11) = (R6 m' c) (Proc.devRef .tc Cert.ReferenceIdeal.main_arg11) :=
    (kA6_11 m c).trans (((h.2.2.2.2.2.2.2.2.2.2.2.1).symm).trans (rA6_11 m' c).symm)
  have A6_12 : (Cert.KernelIdeal.Hand.W6 m c) (Proc.devRef .tc Cert.KernelIdeal.main_arg12) = (R6 m' c) (Proc.devRef .tc Cert.ReferenceIdeal.main_arg12) :=
    (kA6_12 m c).trans (((h.2.2.2.2.2.2.2.2.2.2.2.2.1).symm).trans (rA6_12 m' c).symm)
  have A6_13 : (Cert.KernelIdeal.Hand.W6 m c) (Proc.devRef .tc Cert.KernelIdeal.main_arg13) = (R6 m' c) (Proc.devRef .tc Cert.ReferenceIdeal.main_arg13) :=
    (kA6_13 m c).trans (((h.2.2.2.2.2.2.2.2.2.2.2.2.2.1).symm).trans (rA6_13 m' c).symm)
  have A6_14 : (Cert.KernelIdeal.Hand.W6 m c) (Proc.devRef .tc Cert.KernelIdeal.main_arg14) = (R6 m' c) (Proc.devRef .tc Cert.ReferenceIdeal.main_arg14) :=
    (kA6_14 m c).trans (((h.2.2.2.2.2.2.2.2.2.2.2.2.2.2.1).symm).trans (rA6_14 m' c).symm)
  have A6_15 : (Cert.KernelIdeal.Hand.W6 m c) (Proc.devRef .tc Cert.KernelIdeal.main_arg15) = (R6 m' c) (Proc.devRef .tc Cert.ReferenceIdeal.main_arg15) :=
    (kA6_15 m c).trans (((h.2.2.2.2.2.2.2.2.2.2.2.2.2.2.2.1).symm).trans (rA6_15 m' c).symm)
  have A6_16 : (Cert.KernelIdeal.Hand.W6 m c) (Proc.devRef .tc Cert.KernelIdeal.main_arg16) = (R6 m' c) (Proc.devRef .tc Cert.ReferenceIdeal.main_arg16) :=
    (kA6_16 m c).trans (((h.2.2.2.2.2.2.2.2.2.2.2.2.2.2.2.2.1).symm).trans (rA6_16 m' c).symm)
  have A8_10 : (Cert.KernelIdeal.Hand.W8 m c) (Proc.devRef .tc Cert.KernelIdeal.main_arg10) = (R8 m' c) (Proc.devRef .tc Cert.ReferenceIdeal.main_arg10) :=
    (kA8_10 m c).trans (((h.2.2.2.2.2.2.2.2.2.2.1).symm).trans (rA8_10 m' c).symm)
  have A8_11 : (Cert.KernelIdeal.Hand.W8 m c) (Proc.devRef .tc Cert.KernelIdeal.main_arg11) = (R8 m' c) (Proc.devRef .tc Cert.ReferenceIdeal.main_arg11) :=
    (kA8_11 m c).trans (((h.2.2.2.2.2.2.2.2.2.2.2.1).symm).trans (rA8_11 m' c).symm)
  have A8_12 : (Cert.KernelIdeal.Hand.W8 m c) (Proc.devRef .tc Cert.KernelIdeal.main_arg12) = (R8 m' c) (Proc.devRef .tc Cert.ReferenceIdeal.main_arg12) :=
    (kA8_12 m c).trans (((h.2.2.2.2.2.2.2.2.2.2.2.2.1).symm).trans (rA8_12 m' c).symm)
  have A8_13 : (Cert.KernelIdeal.Hand.W8 m c) (Proc.devRef .tc Cert.KernelIdeal.main_arg13) = (R8 m' c) (Proc.devRef .tc Cert.ReferenceIdeal.main_arg13) :=
    (kA8_13 m c).trans (((h.2.2.2.2.2.2.2.2.2.2.2.2.2.1).symm).trans (rA8_13 m' c).symm)
  have A8_14 : (Cert.KernelIdeal.Hand.W8 m c) (Proc.devRef .tc Cert.KernelIdeal.main_arg14) = (R8 m' c) (Proc.devRef .tc Cert.ReferenceIdeal.main_arg14) :=
    (kA8_14 m c).trans (((h.2.2.2.2.2.2.2.2.2.2.2.2.2.2.1).symm).trans (rA8_14 m' c).symm)
  have A8_15 : (Cert.KernelIdeal.Hand.W8 m c) (Proc.devRef .tc Cert.KernelIdeal.main_arg15) = (R8 m' c) (Proc.devRef .tc Cert.ReferenceIdeal.main_arg15) :=
    (kA8_15 m c).trans (((h.2.2.2.2.2.2.2.2.2.2.2.2.2.2.2.1).symm).trans (rA8_15 m' c).symm)
  have A8_16 : (Cert.KernelIdeal.Hand.W8 m c) (Proc.devRef .tc Cert.KernelIdeal.main_arg16) = (R8 m' c) (Proc.devRef .tc Cert.ReferenceIdeal.main_arg16) :=
    (kA8_16 m c).trans (((h.2.2.2.2.2.2.2.2.2.2.2.2.2.2.2.2.1).symm).trans (rA8_16 m' c).symm)
  have A10_2 : (Cert.KernelIdeal.Hand.W10 m c) (Proc.devRef .tc Cert.KernelIdeal.main_arg2) = (R10 m' c) (Proc.devRef .tc Cert.ReferenceIdeal.main_arg2) :=
    (kA10_2 m c).trans (((h.2.2.1).symm).trans (rA10_2 m' c).symm)
  have A21_17 : (Cert.KernelIdeal.Hand.W21 m c) (Proc.devRef .tc Cert.KernelIdeal.main_arg17) = (R11 m' c) (Proc.devRef .tc Cert.ReferenceIdeal.main_arg17) :=
    (kA21_17 m c).trans (((h.2.2.2.2.2.2.2.2.2.2.2.2.2.2.2.2.2.1).symm).trans (rA11_17 m' c).symm)
  have A21_18 : (Cert.KernelIdeal.Hand.W21 m c) (Proc.devRef .tc Cert.KernelIdeal.main_arg18) = (R11 m' c) (Proc.devRef .tc Cert.ReferenceIdeal.main_arg18) :=
    (kA21_18 m c).trans (((h.2.2.2.2.2.2.2.2.2.2.2.2.2.2.2.2.2.2.1).symm).trans (rA11_18 m' c).symm)
  have A21_19 : (Cert.KernelIdeal.Hand.W21 m c) (Proc.devRef .tc Cert.KernelIdeal.main_arg19) = (R11 m' c) (Proc.devRef .tc Cert.ReferenceIdeal.main_arg19) :=
    (kA21_19 m c).trans (((h.2.2.2.2.2.2.2.2.2.2.2.2.2.2.2.2.2.2.2.1).symm).trans (rA11_19 m' c).symm)
  have A21_20 : (Cert.KernelIdeal.Hand.W21 m c) (Proc.devRef .tc Cert.KernelIdeal.main_arg20) = (R11 m' c) (Proc.devRef .tc Cert.ReferenceIdeal.main_arg20) :=
    (kA21_20 m c).trans (((h.2.2.2.2.2.2.2.2.2.2.2.2.2.2.2.2.2.2.2.2.1).symm).trans (rA11_20 m' c).symm)
  have A21_21 : (Cert.KernelIdeal.Hand.W21 m c) (Proc.devRef .tc Cert.KernelIdeal.main_arg21) = (R11 m' c) (Proc.devRef .tc Cert.ReferenceIdeal.main_arg21) :=
    (kA21_21 m c).trans (((h.2.2.2.2.2.2.2.2.2.2.2.2.2.2.2.2.2.2.2.2.2.1).symm).trans (rA11_21 m' c).symm)
  have A21_22 : (Cert.KernelIdeal.Hand.W21 m c) (Proc.devRef .tc Cert.KernelIdeal.main_arg22) = (R11 m' c) (Proc.devRef .tc Cert.ReferenceIdeal.main_arg22) :=
    (kA21_22 m c).trans (((h.2.2.2.2.2.2.2.2.2.2.2.2.2.2.2.2.2.2.2.2.2.2).symm).trans (rA11_22 m' c).symm)
  -- the edge endpoints
  have E1_main_v1 : (Cert.KernelIdeal.Hand.W1 m c) (Proc.devRef .tc Cert.KernelIdeal.main_v1) = (R1 m' c) (Proc.devRef .tc Cert.ReferenceIdeal.main_v1) := glue0_v1 (Cert.KernelIdeal.Gen.V0 m c) (R0 m' c) A0_1
  have E1_main_v3 : (Cert.KernelIdeal.Hand.W1 m c) (Proc.devRef .tc Cert.KernelIdeal.main_v3) = (R1 m' c) (Proc.devRef .tc Cert.ReferenceIdeal.main_v3) := glue0_v3 (Cert.KernelIdeal.Gen.V0 m c) (R0 m' c) A0_1
  have E2_main_v1 : (Cert.KernelIdeal.Hand.W2 m c) (Proc.devRef .tc Cert.KernelIdeal.main_v1) = (R2 m' c) (Proc.devRef .tc Cert.ReferenceIdeal.main_v1) :=
    (kE2_main_v1 m c).trans (E1_main_v1.trans (rE2_main_v1 m' c).symm)
  have E4_main_v1 : (Cert.KernelIdeal.Hand.W4 m c) (Proc.devRef .tc Cert.KernelIdeal.main_v1) = (R4 m' c) (Proc.devRef .tc Cert.ReferenceIdeal.main_v1) :=
    (kE4_main_v1 m c).trans (E1_main_v1.trans (rE4_main_v1 m' c).symm)
  have E6_main_v1 : (Cert.KernelIdeal.Hand.W6 m c) (Proc.devRef .tc Cert.KernelIdeal.main_v1) = (R6 m' c) (Proc.devRef .tc Cert.ReferenceIdeal.main_v1) :=
    (kE6_main_v1 m c).trans (E1_main_v1.trans (rE6_main_v1 m' c).symm)
  have E8_main_v1 : (Cert.KernelIdeal.Hand.W8 m c) (Proc.devRef .tc Cert.KernelIdeal.main_v1) = (R8 m' c) (Proc.devRef .tc Cert.ReferenceIdeal.main_v1) :=
    (kE8_main_v1 m c).trans (E1_main_v1.trans (rE8_main_v1 m' c).symm)
  have E2_main_v3 : (Cert.KernelIdeal.Hand.W2 m c) (Proc.devRef .tc Cert.KernelIdeal.main_v3) = (R2 m' c) (Proc.devRef .tc Cert.ReferenceIdeal.main_v3) :=
    (kE2_main_v3 m c).trans (E1_main_v3.trans (rE2_main_v3 m' c).symm)
  have E4_main_v3 : (Cert.KernelIdeal.Hand.W4 m c) (Proc.devRef .tc Cert.KernelIdeal.main_v3) = (R4 m' c) (Proc.devRef .tc Cert.ReferenceIdeal.main_v3) :=
    (kE4_main_v3 m c).trans (E1_main_v3.trans (rE4_main_v3 m' c).symm)
  have E6_main_v3 : (Cert.KernelIdeal.Hand.W6 m c) (Proc.devRef .tc Cert.KernelIdeal.main_v3) = (R6 m' c) (Proc.devRef .tc Cert.ReferenceIdeal.main_v3) :=
    (kE6_main_v3 m c).trans (E1_main_v3.trans (rE6_main_v3 m' c).symm)
  have E8_main_v3 : (Cert.KernelIdeal.Hand.W8 m c) (Proc.devRef .tc Cert.KernelIdeal.main_v3) = (R8 m' c) (Proc.devRef .tc Cert.ReferenceIdeal.main_v3) :=
    (kE8_main_v3 m c).trans (E1_main_v3.trans (rE8_main_v3 m' c).symm)
  -- layer 0
  have hx0 : (Cert.KernelIdeal.Hand.W1 m c) (Proc.devRef .tc Cert.KernelIdeal.main_v17) = (R1 m' c) (Proc.devRef .tc Cert.ReferenceIdeal.main_v17) := glue0_v17 (Cert.KernelIdeal.Gen.V0 m c) (R0 m' c) A0_0 A0_1 A0_9
  have O0 : (Cert.KernelIdeal.Hand.W2 m c) (Proc.devRef .tc Cert.KernelIdeal.main_v18) = (R2 m' c) (Proc.devRef .tc Cert.ReferenceIdeal.main_v36) := by
    rw [kReg0 m c, hx0, A1_3, A1_4, A1_5, A1_6, A1_7, A1_8]
    exact (rD0_value (R1 m' c)).symm
  -- layer 1
  have hx1 : (Cert.KernelIdeal.Hand.W3 m c) (Proc.devRef .tc Cert.KernelIdeal.main_v34) = (R3 m' c) (Proc.devRef .tc Cert.ReferenceIdeal.main_v64) :=
    glue1_x (Cert.KernelIdeal.Hand.W2 m c) (R2 m' c) O0 E2_main_v1 E2_main_v3 A2_16
  have hW1 : (Cert.KernelIdeal.Hand.W3 m c) (Proc.devRef .tc Cert.KernelIdeal.main_v36) = (R3 m' c) (Proc.devRef .tc Cert.ReferenceIdeal.main_v38) := glue1_W (Cert.KernelIdeal.Hand.W2 m c) (R2 m' c) A2_10
  have hb1 : (Cert.KernelIdeal.Hand.W3 m c) (Proc.devRef .tc Cert.KernelIdeal.main_v38) = (R3 m' c) (Proc.devRef .tc Cert.ReferenceIdeal.main_v40) := glue1_b (Cert.KernelIdeal.Hand.W2 m c) (R2 m' c) A2_11
  have hg1 : (Cert.KernelIdeal.Hand.W3 m c) (Proc.devRef .tc Cert.KernelIdeal.main_v40) = (R3 m' c) (Proc.devRef .tc Cert.ReferenceIdeal.main_v42) := glue1_g (Cert.KernelIdeal.Hand.W2 m c) (R2 m' c) A2_12
  have hbe1 : (Cert.KernelIdeal.Hand.W3 m c) (Proc.devRef .tc Cert.KernelIdeal.main_v42) = (R3 m' c) (Proc.devRef .tc Cert.ReferenceIdeal.main_v44) := glue1_be (Cert.KernelIdeal.Hand.W2 m c) (R2 m' c) A2_13
  have hm1 : (Cert.KernelIdeal.Hand.W3 m c) (Proc.devRef .tc Cert.KernelIdeal.main_v44) = (R3 m' c) (Proc.devRef .tc Cert.ReferenceIdeal.main_v46) := glue1_m (Cert.KernelIdeal.Hand.W2 m c) (R2 m' c) A2_14
  have hv1 : (Cert.KernelIdeal.Hand.W3 m c) (Proc.devRef .tc Cert.KernelIdeal.main_v46) = (R3 m' c) (Proc.devRef .tc Cert.ReferenceIdeal.main_v48) := glue1_v (Cert.KernelIdeal.Hand.W2 m c) (R2 m' c) A2_15
  have O1 : (Cert.KernelIdeal.Hand.W4 m c) (Proc.devRef .tc Cert.KernelIdeal.main_v47) = (R4 m' c) (Proc.devRef .tc Cert.ReferenceIdeal.main_v83) := by
    rw [kReg1 m c, hx1, hW1, hb1, hg1, hbe1, hm1, hv1]
    exact (rD1_value (R3 m' c)).symm
  -- layer 2
  have hx2 : (Cert.KernelIdeal.Hand.W5 m c) (Proc.devRef .tc Cert.KernelIdeal.main_v63) = (R5 m' c) (Proc.devRef .tc Cert.ReferenceIdeal.main_v111) :=
    glue2_x (Cert.KernelIdeal.Hand.W4 m c) (R4 m' c) O1 E4_main_v1 E4_main_v3 A4_16
  have hW2 : (Cert.KernelIdeal.Hand.W5 m c) (Proc.devRef .tc Cert.KernelIdeal.main_v65) = (R5 m' c) (Proc.devRef .tc Cert.ReferenceIdeal.main_v85) := glue2_W (Cert.KernelIdeal.Hand.W4 m c) (R4 m' c) A4_10
  have hb2 : (Cert.KernelIdeal.Hand.W5 m c) (Proc.devRef .tc Cert.KernelIdeal.main_v67) = (R5 m' c) (Proc.devRef .tc Cert.ReferenceIdeal.main_v87) := glue2_b (Cert.KernelIdeal.Hand.W4 m c) (R4 m' c) A4_11
  have hg2 : (Cert.KernelIdeal.Hand.W5 m c) (Proc.devRef .tc Cert.KernelIdeal.main_v69) = (R5 m' c) (Proc.devRef .tc Cert.ReferenceIdeal.main_v89) := glue2_g (Cert.KernelIdeal.Hand.W4 m c) (R4 m' c) A4_12
  have hbe2 : (Cert.KernelIdeal.Hand.W5 m c) (Proc.devRef .tc Cert.KernelIdeal.main_v71) = (R5 m' c) (Proc.devRef .tc Cert.ReferenceIdeal.main_v91) := glue2_be (Cert.KernelIdeal.Hand.W4 m c) (R4 m' c) A4_13
  have hm2 : (Cert.KernelIdeal.Hand.W5 m c) (Proc.devRef .tc Cert.KernelIdeal.main_v73) = (R5 m' c) (Proc.devRef .tc Cert.ReferenceIdeal.main_v93) := glue2_m (Cert.KernelIdeal.Hand.W4 m c) (R4 m' c) A4_14
  have hv2 : (Cert.KernelIdeal.Hand.W5 m c) (Proc.devRef .tc Cert.KernelIdeal.main_v75) = (R5 m' c) (Proc.devRef .tc Cert.ReferenceIdeal.main_v95) := glue2_v (Cert.KernelIdeal.Hand.W4 m c) (R4 m' c) A4_15
  have O2 : (Cert.KernelIdeal.Hand.W6 m c) (Proc.devRef .tc Cert.KernelIdeal.main_v76) = (R6 m' c) (Proc.devRef .tc Cert.ReferenceIdeal.main_v130) := by
    rw [kReg2 m c, hx2, hW2, hb2, hg2, hbe2, hm2, hv2]
    exact (rD2_value (R5 m' c)).symm
  -- layer 3
  have hx3 : (Cert.KernelIdeal.Hand.W7 m c) (Proc.devRef .tc Cert.KernelIdeal.main_v92) = (R7 m' c) (Proc.devRef .tc Cert.ReferenceIdeal.main_v158) :=
    glue3_x (Cert.KernelIdeal.Hand.W6 m c) (R6 m' c) O2 E6_main_v1 E6_main_v3 A6_16
  have hW3 : (Cert.KernelIdeal.Hand.W7 m c) (Proc.devRef .tc Cert.KernelIdeal.main_v94) = (R7 m' c) (Proc.devRef .tc Cert.ReferenceIdeal.main_v132) := glue3_W (Cert.KernelIdeal.Hand.W6 m c) (R6 m' c) A6_10
  have hb3 : (Cert.KernelIdeal.Hand.W7 m c) (Proc.devRef .tc Cert.KernelIdeal.main_v96) = (R7 m' c) (Proc.devRef .tc Cert.ReferenceIdeal.main_v134) := glue3_b (Cert.KernelIdeal.Hand.W6 m c) (R6 m' c) A6_11
  have hg3 : (Cert.KernelIdeal.Hand.W7 m c) (Proc.devRef .tc Cert.KernelIdeal.main_v98) = (R7 m' c) (Proc.devRef .tc Cert.ReferenceIdeal.main_v136) := glue3_g (Cert.KernelIdeal.Hand.W6 m c) (R6 m' c) A6_12
  have hbe3 : (Cert.KernelIdeal.Hand.W7 m c) (Proc.devRef .tc Cert.KernelIdeal.main_v100) = (R7 m' c) (Proc.devRef .tc Cert.ReferenceIdeal.main_v138) := glue3_be (Cert.KernelIdeal.Hand.W6 m c) (R6 m' c) A6_13
  have hm3 : (Cert.KernelIdeal.Hand.W7 m c) (Proc.devRef .tc Cert.KernelIdeal.main_v102) = (R7 m' c) (Proc.devRef .tc Cert.ReferenceIdeal.main_v140) := glue3_m (Cert.KernelIdeal.Hand.W6 m c) (R6 m' c) A6_14
  have hv3 : (Cert.KernelIdeal.Hand.W7 m c) (Proc.devRef .tc Cert.KernelIdeal.main_v104) = (R7 m' c) (Proc.devRef .tc Cert.ReferenceIdeal.main_v142) := glue3_v (Cert.KernelIdeal.Hand.W6 m c) (R6 m' c) A6_15
  have O3 : (Cert.KernelIdeal.Hand.W8 m c) (Proc.devRef .tc Cert.KernelIdeal.main_v105) = (R8 m' c) (Proc.devRef .tc Cert.ReferenceIdeal.main_v177) := by
    rw [kReg3 m c, hx3, hW3, hb3, hg3, hbe3, hm3, hv3]
    exact (rD3_value (R7 m' c)).symm
  -- layer 4
  have hx4 : (Cert.KernelIdeal.Hand.W9 m c) (Proc.devRef .tc Cert.KernelIdeal.main_v121) = (R9 m' c) (Proc.devRef .tc Cert.ReferenceIdeal.main_v205) :=
    glue4_x (Cert.KernelIdeal.Hand.W8 m c) (R8 m' c) O3 E8_main_v1 E8_main_v3 A8_16
  have hW4 : (Cert.KernelIdeal.Hand.W9 m c) (Proc.devRef .tc Cert.KernelIdeal.main_v123) = (R9 m' c) (Proc.devRef .tc Cert.ReferenceIdeal.main_v179) := glue4_W (Cert.KernelIdeal.Hand.W8 m c) (R8 m' c) A8_10
  have hb4 : (Cert.KernelIdeal.Hand.W9 m c) (Proc.devRef .tc Cert.KernelIdeal.main_v125) = (R9 m' c) (Proc.devRef .tc Cert.ReferenceIdeal.main_v181) := glue4_b (Cert.KernelIdeal.Hand.W8 m c) (R8 m' c) A8_11
  have hg4 : (Cert.KernelIdeal.Hand.W9 m c) (Proc.devRef .tc Cert.KernelIdeal.main_v127) = (R9 m' c) (Proc.devRef .tc Cert.ReferenceIdeal.main_v183) := glue4_g (Cert.KernelIdeal.Hand.W8 m c) (R8 m' c) A8_12
  have hbe4 : (Cert.KernelIdeal.Hand.W9 m c) (Proc.devRef .tc Cert.KernelIdeal.main_v129) = (R9 m' c) (Proc.devRef .tc Cert.ReferenceIdeal.main_v185) := glue4_be (Cert.KernelIdeal.Hand.W8 m c) (R8 m' c) A8_13
  have hm4 : (Cert.KernelIdeal.Hand.W9 m c) (Proc.devRef .tc Cert.KernelIdeal.main_v131) = (R9 m' c) (Proc.devRef .tc Cert.ReferenceIdeal.main_v187) := glue4_m (Cert.KernelIdeal.Hand.W8 m c) (R8 m' c) A8_14
  have hv4 : (Cert.KernelIdeal.Hand.W9 m c) (Proc.devRef .tc Cert.KernelIdeal.main_v133) = (R9 m' c) (Proc.devRef .tc Cert.ReferenceIdeal.main_v189) := glue4_v (Cert.KernelIdeal.Hand.W8 m c) (R8 m' c) A8_15
  have O4 : (Cert.KernelIdeal.Hand.W10 m c) (Proc.devRef .tc Cert.KernelIdeal.main_v134) = (R10 m' c) (Proc.devRef .tc Cert.ReferenceIdeal.main_v224) := by
    rw [kReg4 m c, hx4, hW4, hb4, hg4, hbe4, hm4, hv4]
    exact (rD4_value (R9 m' c)).symm
  -- the layers' outputs where the concatenation reads them
  have O0_10 : (Cert.KernelIdeal.Hand.W10 m c) (Proc.devRef .tc Cert.KernelIdeal.main_v18) = (R10 m' c) (Proc.devRef .tc Cert.ReferenceIdeal.main_v36) :=
    (kO0_10 m c).trans (O0.trans (rO0_10 m' c).symm)
  have O1_10 : (Cert.KernelIdeal.Hand.W10 m c) (Proc.devRef .tc Cert.KernelIdeal.main_v47) = (R10 m' c) (Proc.devRef .tc Cert.ReferenceIdeal.main_v83) :=
    (kO1_10 m c).trans (O1.trans (rO1_10 m' c).symm)
  have O2_10 : (Cert.KernelIdeal.Hand.W10 m c) (Proc.devRef .tc Cert.KernelIdeal.main_v76) = (R10 m' c) (Proc.devRef .tc Cert.ReferenceIdeal.main_v130) :=
    (kO2_10 m c).trans (O2.trans (rO2_10 m' c).symm)
  have O3_10 : (Cert.KernelIdeal.Hand.W10 m c) (Proc.devRef .tc Cert.KernelIdeal.main_v105) = (R10 m' c) (Proc.devRef .tc Cert.ReferenceIdeal.main_v177) :=
    (kO3_10 m c).trans (O3.trans (rO3_10 m' c).symm)
  -- the concatenated features
  have T : (Cert.KernelIdeal.Hand.W21 m c) (Proc.devRef .tc Cert.KernelIdeal.main_v165) = (R11 m' c) (Proc.devRef .tc Cert.ReferenceIdeal.main_v255) := by
    unfold Cert.KernelIdeal.Hand.W21
    exact glueTail_cat (Cert.KernelIdeal.Hand.W10 m c) (R10 m' c) O0_10 O1_10 O2_10 O3_10 O4 A10_2
  -- the classifier
  rw [after_ops_R12 m' c, kReg5 m c, T, A21_17, A21_18, A21_19, A21_20, A21_21, A21_22]
  exact (rCls_value (R11 m' c)).symm

end Cert.Val

end
-- ==== Proof.lean ====
/-
  The certificate's proof.

  The kernel program is six kernel regions between host stretches; its two instances (word level and ideal) run by the
  same argument: every region's body runs at every grid point (the body obligations), a region leaves its output array at
  the write-backs folded and every other buffer alone (the region records), and the host stretches in between are read off
  the operations; the program's conditional run over those records gives termination, no fault, the arguments unchanged
  and the result buffer at what the last region leaves. The reference is a host program: its run is the composition of
  its operations. At the ideal values both programs compute, layer by layer, the same function of the arguments: the
  aggregation and combination steps are the same host operations on both sides; a layer's dense part is, entry by entry,
  a sum over the contracted axis, a batch-norm affine map and the leaky slope applied twice, which the kernel applies
  once with the squared slope (the named constant); the classifier's dense chain and the logistic agree entry by entry.
-/
import proofs.«145887_j33578054320560_2_alg».proof.Defs
import proofs.«145887_j33578054320560_2_alg».proof.Proof.Gen.Kernel
import proofs.«145887_j33578054320560_2_alg».proof.Proof.Gen.KernelIdeal
import proofs.«145887_j33578054320560_2_alg».proof.Proof.Gen.ReferenceIdeal
import proofs.«145887_j33578054320560_2_alg».proof.Proof.Gen.Pre_finite_inputs
import proofs.«145887_j33578054320560_2_alg».proof.Proof.K.Run
import proofs.«145887_j33578054320560_2_alg».proof.Proof.KI.Run
import proofs.«145887_j33578054320560_2_alg».proof.Proof.Ref.Run
import proofs.«145887_j33578054320560_2_alg».proof.Proof.Val.Result
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k [Cert.Kernel.Facts] [Cert.Pre_finite_inputs.Facts] : Cert.frame_Kernel := fun m ρ _ =>
  (θ_run Cert.Kernel.defs _ _).mono (fun _ h c => (h c).2) (Cert.Kernel.Hand.run (F := Bits) m ρ)

/-- The idealized kernel program runs and leaves its arguments as launched. -/
theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run (F := Ideal) m ρ)

/-- The reference runs and leaves its arguments as launched. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Hand.run (F := Ideal) m ρ)

/-- The five named sites: the table gives the squared slope its exact value, the square of the reference's slope literal. -/
theorem preserves : Cert.preserves_Kernel_KernelIdeal :=
  ⟨IdealRules.named_const.statement Cert.KernelIdeal.κ "slope_sq" .f32 0x38D1B717#32 ((28823036326681 / 288230376151711744 : ℝ) : EReal) rfl,
   IdealRules.named_const.statement Cert.KernelIdeal.κ "slope_sq" .f32 0x38D1B717#32 ((28823036326681 / 288230376151711744 : ℝ) : EReal) rfl,
   IdealRules.named_const.statement Cert.KernelIdeal.κ "slope_sq" .f32 0x38D1B717#32 ((28823036326681 / 288230376151711744 : ℝ) : EReal) rfl,
   IdealRules.named_const.statement Cert.KernelIdeal.κ "slope_sq" .f32 0x38D1B717#32 ((28823036326681 / 288230376151711744 : ℝ) : EReal) rfl,
   IdealRules.named_const.statement Cert.KernelIdeal.κ "slope_sq" .f32 0x38D1B717#32 ((28823036326681 / 288230376151711744 : ℝ) : EReal) rfl⟩

/-- From memories agreeing on the arguments both idealized programs run and end with the same result array. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Hand.W22 (F := Ideal) m c (Proc.devRef .tc Cert.KernelIdeal.main_v166), Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  exact (Cert.Val.result_eq m m' c (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
